-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x64 : Shape := ⟨2, ![100000, 64]⟩
abbrev S200x64 : Shape := ⟨2, ![200, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200x64 : S_.BroadcastsInDim S200x64 (![] : Fin 0 → Fin S200x64.rank)
  reducesTo_S200x64_S_d0_1 : S200x64.ReducesTo [0, 1] S_
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x64 .f32) (main_arg2 : FVec F S200x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200x64 .f32 := Host.absf main_arg2
  let main_cst_0 : FVec F S_ .f32 := constant S_ .f32 0x7F800000#32
  let main_v5 : FVec F S200x64 .f32 := broadcastInDim S200x64 ![] bcast_S_S200x64 main_cst_0
  let main_v6 : IVec S200x64 1 := cmpf .olt main_v4 main_v5
  let main_c_1 : IVec S_ 1 := constantI S_ 1 1#1
  let main_v7 : IVec S_ 1 := (fun x v => Host.reduce IntOp.andi x v reducesTo_S200x64_S_d0_1 h_S_) main_v6 main_c_1
  let main_v8 : IVec S_ 1 := andi main_v3 main_v7
  let main_c_2 : IVec S_ 32 := constantI S_ 32 0#32
  let main_v9 : IVec S4096x200 32 := broadcastInDim S4096x200 ![] bcast_S_S4096x200 main_c_2
  let main_v10 : IVec S4096x200 1 := cmpi .sge main_arg0 main_v9
  let main_c_3 : IVec S_ 32 := constantI S_ 32 199#32
  let main_v11 : IVec S4096x200 32 := broadcastInDim S4096x200 ![] bcast_S_S4096x200 main_c_3
  let main_v12 : IVec S4096x200 1 := cmpi .sle main_arg0 main_v11
  let main_v13 : IVec S4096x200 1 := andi main_v10 main_v12
  let main_c_4 : IVec S_ 1 := constantI S_ 1 1#1
  let main_v14 : IVec S_ 1 := (fun x v => Host.reduce IntOp.andi x v reducesTo_S4096x200_S_d0_1 h_S_) main_v13 main_c_4
  let main_v15 : IVec S_ 1 := andi main_v8 main_v14
  main_v15
-- ==== Kernel.lean ====
abbrev S4096x200 : Shape := ⟨2, ![4096, 200]⟩
abbrev S100000x64 : Shape := ⟨2, ![100000, 64]⟩
abbrev S200x64 : Shape := ⟨2, ![200, 64]⟩
abbrev S200x4096 : Shape := ⟨2, ![200, 4096]⟩
abbrev S64x200 : Shape := ⟨2, ![64, 200]⟩
abbrev S200x64x4096 : Shape := ⟨3, ![200, 64, 4096]⟩
abbrev S200x128 : Shape := ⟨2, ![200, 128]⟩
abbrev S64x128 : Shape := ⟨2, ![64, 128]⟩
abbrev S_ : Shape := ⟨0, ![]⟩
abbrev S1x64x128 : Shape := ⟨3, ![1, 64, 128]⟩
abbrev S16 : Shape := ⟨1, ![16]⟩
abbrev S1x16 : Shape := ⟨2, ![1, 16]⟩
abbrev S4096x200x64 : Shape := ⟨3, ![4096, 200, 64]⟩

abbrev nBuf : Table → Nat
  | .hbm => 8
  | .local .scVector .vmem => 5
  | _ => 0

abbrev bufTy : (tb : Table) → Fin (nBuf tb) → BufTy
  | .hbm, ⟨0, _⟩ => ⟨S4096x200, .i32⟩
  | .hbm, ⟨1, _⟩ => ⟨S100000x64, .f32⟩
  | .hbm, ⟨2, _⟩ => ⟨S200x64, .f32⟩
  | .hbm, ⟨3, _⟩ => ⟨S200x4096, .i32⟩
  | .hbm, ⟨4, _⟩ => ⟨S200x64, .f32⟩
  | .hbm, ⟨5, _⟩ => ⟨S64x200, .f32⟩
  | .hbm, ⟨6, _⟩ => ⟨S200x64x4096, .f32⟩
  | .hbm, ⟨7, _⟩ => ⟨S4096x200x64, .f32⟩
  | .local .scVector .vmem, ⟨0, _⟩ => ⟨S64x200, .f32⟩
  | .local .scVector .vmem, ⟨1, _⟩ => ⟨S200x64, .f32⟩
  | .local .scVector .vmem, ⟨2, _⟩ => ⟨S200x128, .i32⟩
  | .local .scVector .vmem, ⟨3, _⟩ => ⟨S64x128, .f32⟩
  | .local .scVector .vmem, ⟨4, _⟩ => ⟨S64x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v2_scv : Ref sig .scVector := ⟨.hbm, 5, rfl⟩
abbrev main_arg2_scv : Ref sig .scVector := ⟨.hbm, 2, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_6_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k0_t1_loop : Scf.Loop 32 :=
  let c0_i32_0 : BitVec 32 := 0#32
  let c100_i32 : BitVec 32 := 100#32
  let v3 : BitVec 32 := Scalar.addi c0_i32_0 c100_i32
  let c1_i32 : BitVec 32 := 1#32
  ⟨c0_i32_0, v3, c1_i32⟩
def k0_cond1 (k0_t1 : Fin k0_t1_loop.trips) : BitVec 1 :=
  let c0_i32_0 : BitVec 32 := 0#32
  let c1_i32 : BitVec 32 := 1#32
  let arg13 : BitVec 32 := Scf.iv c0_i32_0 c1_i32 k0_t1
  let c0_i32_9 : BitVec 32 := 0#32
  let v16 : BitVec 1 := Scalar.cmpi .sgt arg13 c0_i32_9
  let v17 : BitVec 32 := Scalar.extui v16
  let c0_i32_10 : BitVec 32 := 0#32
  let v18 : BitVec 1 := Scalar.cmpi .ne v17 c0_i32_10
  v18

def k0_off2 (i : grid0.Coords) (k0_t1 : Fin k0_t1_loop.trips) : Fin 3 → Nat :=
  let c2_i32_6 : BitVec 32 := 2#32
  let c0_i32_0 : BitVec 32 := 0#32
  let c1_i32 : BitVec 32 := 1#32
  let arg13 : BitVec 32 := Scf.iv c0_i32_0 c1_i32 k0_t1
  let v13 : BitVec 32 := Scalar.muli c2_i32_6 arg13
  let c2_i32_37 : BitVec 32 := 2#32
  let v72 : BitVec 32 := Scalar.subi v13 c2_i32_37
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v72.toNat, 0, v2.toNat]
def k0_off3 (k0_t1 : Fin k0_t1_loop.trips) : Fin 2 → Nat :=
  let c2_i32_6 : BitVec 32 := 2#32
  let c0_i32_0 : BitVec 32 := 0#32
  let c1_i32 : BitVec 32 := 1#32
  let arg13 : BitVec 32 := Scf.iv c0_i32_0 c1_i32 k0_t1
  let v13 : BitVec 32 := Scalar.muli c2_i32_6 arg13
  let v19 : Index := Scalar.indexCast v13
  let c0 : Index := 0#32
  ![v19.toNat, 0]
def k0_off4 (k0_t1 : Fin k0_t1_loop.trips) : Fin 2 → Nat :=
  let c2_i32_6 : BitVec 32 := 2#32
  let c0_i32_0 : BitVec 32 := 0#32
  let c1_i32 : BitVec 32 := 1#32
  let arg13 : BitVec 32 := Scf.iv c0_i32_0 c1_i32 k0_t1
  let v13 : BitVec 32 := Scalar.muli c2_i32_6 arg13
  let v21 : Index := Scalar.indexCast v13
  let c16 : Index := 16#32
  ![v21.toNat, 16]
def k0_off5 (k0_t1 : Fin k0_t1_loop.trips) : Fin 2 → Nat :=
  let c2_i32_6 : BitVec 32 := 2#32
  let c0_i32_0 : BitVec 32 := 0#32
  let c1_i32 : BitVec 32 := 1#32
  let arg13 : BitVec 32 := Scf.iv c0_i32_0 c1_i32 k0_t1
  let v13 : BitVec 32 := Scalar.muli c2_i32_6 arg13
  let v23 : Index := Scalar.indexCast v13
  let c32 : Index := 32#32
  ![v23.toNat, 32]
def k0_off6 (k0_t1 : Fin k0_t1_loop.trips) : Fin 2 → Nat :=
  let c2_i32_6 : BitVec 32 := 2#32
  let c0_i32_0 : BitVec 32 := 0#32
  let c1_i32 : BitVec 32 := 1#32
  let arg13 : BitVec 32 := Scf.iv c0_i32_0 c1_i32 k0_t1
  let v13 : BitVec 32 := Scalar.muli c2_i32_6 arg13
  let v25 : Index := Scalar.indexCast v13
  let c48 : Index := 48#32
  ![v25.toNat, 48]
def k0_off7 (k0_t1 : Fin k0_t1_loop.trips) : Fin 2 → Nat :=
  let c2_i32_6 : BitVec 32 := 2#32
  let c0_i32_0 : BitVec 32 := 0#32
  let c1_i32 : BitVec 32 := 1#32
  let arg13 : BitVec 32 := Scf.iv c0_i32_0 c1_i32 k0_t1
  let v13 : BitVec 32 := Scalar.muli c2_i32_6 arg13
  let v27 : Index := Scalar.indexCast v13
  let c64 : Index := 64#32
  ![v27.toNat, 64]
def k0_off8 (k0_t1 : Fin k0_t1_loop.trips) : Fin 2 → Nat :=
  let c2_i32_6 : BitVec 32 := 2#32
  let c0_i32_0 : BitVec 32 := 0#32
  let c1_i32 : BitVec 32 := 1#32
  let arg13 : BitVec 32 := Scf.iv c0_i32_0 c1_i32 k0_t1
  let v13 : BitVec 32 := Scalar.muli c2_i32_6 arg13
  let v29 : Index := Scalar.indexCast v13
  let c80 : Index := 80#32
  ![v29.toNat, 80]
def k0_off9 (k0_t1 : Fin k0_t1_loop.trips) : Fin 2 → Nat :=
  let c2_i32_6 : BitVec 32 := 2#32
  let c0_i32_0 : BitVec 32 := 0#32
  let c1_i32 : BitVec 32 := 1#32
  let arg13 : BitVec 32 := Scf.iv c0_i32_0 c1_i32 k0_t1
  let v13 : BitVec 32 := Scalar.muli c2_i32_6 arg13
  let v31 : Index := Scalar.indexCast v13
  let c96 : Index := 96#32
  ![v31.toNat, 96]
def k0_off10 (k0_t1 : Fin k0_t1_loop.trips) : Fin 2 → Nat :=
  let c2_i32_6 : BitVec 32 := 2#32
  let c0_i32_0 : BitVec 32 := 0#32
  let c1_i32 : BitVec 32 := 1#32
  let arg13 : BitVec 32 := Scf.iv c0_i32_0 c1_i32 k0_t1
  let v13 : BitVec 32 := Scalar.muli c2_i32_6 arg13
  let v33 : Index := Scalar.indexCast v13
  let c112 : Index := 112#32
  ![v33.toNat, 112]
@[reducible] def k0_t2_loop : Scf.Loop 32 :=
  let c0_i32_13 : BitVec 32 := 0#32
  let c64_i32 : BitVec 32 := 64#32
  let v38 : BitVec 32 := Scalar.addi c0_i32_13 c64_i32
  let c1_i32_14 : BitVec 32 := 1#32
  ⟨c0_i32_13, v38, c1_i32_14⟩

def k0_chk1 (v37 : IVec S16 32) (v73 : IVec S16 32) : Prop :=
  (∀ a x, ((![v37, v73] : Fin 2 → IVec S16 32) a x).toNat < S200x64.size a)
instance k0_chk1.dec : ∀ (v37 : IVec S16 32) (v73 : IVec S16 32), Decidable (k0_chk1 v37 v73) := fun v37 v73 => decidable_of_iff' _ (Iff.of_eq (k0_chk1.eq_1 v37 v73))
theorem k0_idx1_inb : ∀ (v37 : IVec S16 32) (v73 : IVec S16 32) (k0_hw1 : k0_chk1 v37 v73), ∀ a x, ((![v37, v73] : Fin 2 → IVec S16 32) a x).toNat < S200x64.size a := fun v37 v73 k0_hw1 => k0_hw1

def k0_chk2 (v20 : IVec S16 32) (v22 : IVec S16 32) (v24 : IVec S16 32) (v26 : IVec S16 32) (v28 : IVec S16 32) (v30 : IVec S16 32) (v32 : IVec S16 32) (v34 : IVec S16 32) (v76 : IVec S16 32) : Prop :=
  (∀ a x, ((![v76, v20] : Fin 2 → IVec S16 32) a x).toNat < S64x200.size a) ∧
  (∀ a x, ((![v76, v22] : Fin 2 → IVec S16 32) a x).toNat < S64x200.size a) ∧
  (∀ a x, ((![v76, v24] : Fin 2 → IVec S16 32) a x).toNat < S64x200.size a) ∧
  (∀ a x, ((![v76, v26] : Fin 2 → IVec S16 32) a x).toNat < S64x200.size a) ∧
  (∀ a x, ((![v76, v28] : Fin 2 → IVec S16 32) a x).toNat < S64x200.size a) ∧
  (∀ a x, ((![v76, v30] : Fin 2 → IVec S16 32) a x).toNat < S64x200.size a) ∧
  (∀ a x, ((![v76, v32] : Fin 2 → IVec S16 32) a x).toNat < S64x200.size a) ∧
  (∀ a x, ((![v76, v34] : Fin 2 → IVec S16 32) a x).toNat < S64x200.size a)
instance k0_chk2.dec : ∀ (v20 : IVec S16 32) (v22 : IVec S16 32) (v24 : IVec S16 32) (v26 : IVec S16 32) (v28 : IVec S16 32) (v30 : IVec S16 32) (v32 : IVec S16 32) (v34 : IVec S16 32) (v76 : IVec S16 32), Decidable (k0_chk2 v20 v22 v24 v26 v28 v30 v32 v34 v76) := fun v20 v22 v24 v26 v28 v30 v32 v34 v76 => decidable_of_iff' _ (Iff.of_eq (k0_chk2.eq_1 v20 v22 v24 v26 v28 v30 v32 v34 v76))
theorem k0_idx2_inb : ∀ (v20 : IVec S16 32) (v22 : IVec S16 32) (v24 : IVec S16 32) (v26 : IVec S16 32) (v28 : IVec S16 32) (v30 : IVec S16 32) (v32 : IVec S16 32) (v34 : IVec S16 32) (v76 : IVec S16 32) (k0_hw2 : k0_chk2 v20 v22 v24 v26 v28 v30 v32 v34 v76), ∀ a x, ((![v76, v20] : Fin 2 → IVec S16 32) a x).toNat < S64x200.size a := fun v20 v22 v24 v26 v28 v30 v32 v34 v76 k0_hw2 => k0_hw2.1
theorem k0_idx3_inb : ∀ (v20 : IVec S16 32) (v22 : IVec S16 32) (v24 : IVec S16 32) (v26 : IVec S16 32) (v28 : IVec S16 32) (v30 : IVec S16 32) (v32 : IVec S16 32) (v34 : IVec S16 32) (v76 : IVec S16 32) (k0_hw2 : k0_chk2 v20 v22 v24 v26 v28 v30 v32 v34 v76), ∀ a x, ((![v76, v22] : Fin 2 → IVec S16 32) a x).toNat < S64x200.size a := fun v20 v22 v24 v26 v28 v30 v32 v34 v76 k0_hw2 => k0_hw2.2.1
theorem k0_idx4_inb : ∀ (v20 : IVec S16 32) (v22 : IVec S16 32) (v24 : IVec S16 32) (v26 : IVec S16 32) (v28 : IVec S16 32) (v30 : IVec S16 32) (v32 : IVec S16 32) (v34 : IVec S16 32) (v76 : IVec S16 32) (k0_hw2 : k0_chk2 v20 v22 v24 v26 v28 v30 v32 v34 v76), ∀ a x, ((![v76, v24] : Fin 2 → IVec S16 32) a x).toNat < S64x200.size a := fun v20 v22 v24 v26 v28 v30 v32 v34 v76 k0_hw2 => k0_hw2.2.2.1
theorem k0_idx5_inb : ∀ (v20 : IVec S16 32) (v22 : IVec S16 32) (v24 : IVec S16 32) (v26 : IVec S16 32) (v28 : IVec S16 32) (v30 : IVec S16 32) (v32 : IVec S16 32) (v34 : IVec S16 32) (v76 : IVec S16 32) (k0_hw2 : k0_chk2 v20 v22 v24 v26 v28 v30 v32 v34 v76), ∀ a x, ((![v76, v26] : Fin 2 → IVec S16 32) a x).toNat < S64x200.size a := fun v20 v22 v24 v26 v28 v30 v32 v34 v76 k0_hw2 => k0_hw2.2.2.2.1
theorem k0_idx6_inb : ∀ (v20 : IVec S16 32) (v22 : IVec S16 32) (v24 : IVec S16 32) (v26 : IVec S16 32) (v28 : IVec S16 32) (v30 : IVec S16 32) (v32 : IVec S16 32) (v34 : IVec S16 32) (v76 : IVec S16 32) (k0_hw2 : k0_chk2 v20 v22 v24 v26 v28 v30 v32 v34 v76), ∀ a x, ((![v76, v28] : Fin 2 → IVec S16 32) a x).toNat < S64x200.size a := fun v20 v22 v24 v26 v28 v30 v32 v34 v76 k0_hw2 => k0_hw2.2.2.2.2.1
theorem k0_idx7_inb : ∀ (v20 : IVec S16 32) (v22 : IVec S16 32) (v24 : IVec S16 32) (v26 : IVec S16 32) (v28 : IVec S16 32) (v30 : IVec S16 32) (v32 : IVec S16 32) (v34 : IVec S16 32) (v76 : IVec S16 32) (k0_hw2 : k0_chk2 v20 v22 v24 v26 v28 v30 v32 v34 v76), ∀ a x, ((![v76, v30] : Fin 2 → IVec S16 32) a x).toNat < S64x200.size a := fun v20 v22 v24 v26 v28 v30 v32 v34 v76 k0_hw2 => k0_hw2.2.2.2.2.2.1
theorem k0_idx8_inb : ∀ (v20 : IVec S16 32) (v22 : IVec S16 32) (v24 : IVec S16 32) (v26 : IVec S16 32) (v28 : IVec S16 32) (v30 : IVec S16 32) (v32 : IVec S16 32) (v34 : IVec S16 32) (v76 : IVec S16 32) (k0_hw2 : k0_chk2 v20 v22 v24 v26 v28 v30 v32 v34 v76), ∀ a x, ((![v76, v32] : Fin 2 → IVec S16 32) a x).toNat < S64x200.size a := fun v20 v22 v24 v26 v28 v30 v32 v34 v76 k0_hw2 => k0_hw2.2.2.2.2.2.2.1
theorem k0_idx9_inb : ∀ (v20 : IVec S16 32) (v22 : IVec S16 32) (v24 : IVec S16 32) (v26 : IVec S16 32) (v28 : IVec S16 32) (v30 : IVec S16 32) (v32 : IVec S16 32) (v34 : IVec S16 32) (v76 : IVec S16 32) (k0_hw2 : k0_chk2 v20 v22 v24 v26 v28 v30 v32 v34 v76), ∀ a x, ((![v76, v34] : Fin 2 → IVec S16 32) a x).toNat < S64x200.size a := fun v20 v22 v24 v26 v28 v30 v32 v34 v76 k0_hw2 => k0_hw2.2.2.2.2.2.2.2
def k0_off11 (k0_t2 : Fin k0_t2_loop.trips) : Fin 2 → Nat :=
  let c0_i32_13 : BitVec 32 := 0#32
  let c1_i32_14 : BitVec 32 := 1#32
  let arg15 : BitVec 32 := Scf.iv c0_i32_13 c1_i32_14 k0_t2
  let v86 : Index := Scalar.indexCast arg15
  let c0_37 : Index := 0#32
  ![v86.toNat, 0]
def k0_off12 (k0_t2 : Fin k0_t2_loop.trips) : Fin 2 → Nat :=
  let c0_i32_13 : BitVec 32 := 0#32
  let c1_i32_14 : BitVec 32 := 1#32
  let arg15 : BitVec 32 := Scf.iv c0_i32_13 c1_i32_14 k0_t2
  let v89 : Index := Scalar.indexCast arg15
  let c16_38 : Index := 16#32
  ![v89.toNat, 16]
def k0_off13 (k0_t2 : Fin k0_t2_loop.trips) : Fin 2 → Nat :=
  let c0_i32_13 : BitVec 32 := 0#32
  let c1_i32_14 : BitVec 32 := 1#32
  let arg15 : BitVec 32 := Scf.iv c0_i32_13 c1_i32_14 k0_t2
  let v92 : Index := Scalar.indexCast arg15
  let c32_39 : Index := 32#32
  ![v92.toNat, 32]
def k0_off14 (k0_t2 : Fin k0_t2_loop.trips) : Fin 2 → Nat :=
  let c0_i32_13 : BitVec 32 := 0#32
  let c1_i32_14 : BitVec 32 := 1#32
  let arg15 : BitVec 32 := Scf.iv c0_i32_13 c1_i32_14 k0_t2
  let v95 : Index := Scalar.indexCast arg15
  let c48_40 : Index := 48#32
  ![v95.toNat, 48]
def k0_off15 (k0_t2 : Fin k0_t2_loop.trips) : Fin 2 → Nat :=
  let c0_i32_13 : BitVec 32 := 0#32
  let c1_i32_14 : BitVec 32 := 1#32
  let arg15 : BitVec 32 := Scf.iv c0_i32_13 c1_i32_14 k0_t2
  let v98 : Index := Scalar.indexCast arg15
  let c64_41 : Index := 64#32
  ![v98.toNat, 64]
def k0_off16 (k0_t2 : Fin k0_t2_loop.trips) : Fin 2 → Nat :=
  let c0_i32_13 : BitVec 32 := 0#32
  let c1_i32_14 : BitVec 32 := 1#32
  let arg15 : BitVec 32 := Scf.iv c0_i32_13 c1_i32_14 k0_t2
  let v101 : Index := Scalar.indexCast arg15
  let c80_42 : Index := 80#32
  ![v101.toNat, 80]
def k0_off17 (k0_t2 : Fin k0_t2_loop.trips) : Fin 2 → Nat :=
  let c0_i32_13 : BitVec 32 := 0#32
  let c1_i32_14 : BitVec 32 := 1#32
  let arg15 : BitVec 32 := Scf.iv c0_i32_13 c1_i32_14 k0_t2
  let v104 : Index := Scalar.indexCast arg15
  let c96_43 : Index := 96#32
  ![v104.toNat, 96]
def k0_off18 (k0_t2 : Fin k0_t2_loop.trips) : Fin 2 → Nat :=
  let c0_i32_13 : BitVec 32 := 0#32
  let c1_i32_14 : BitVec 32 := 1#32
  let arg15 : BitVec 32 := Scf.iv c0_i32_13 c1_i32_14 k0_t2
  let v107 : Index := Scalar.indexCast arg15
  let c112_44 : Index := 112#32
  ![v107.toNat, 112]
def k0_off19 (i : grid0.Coords) (k0_t1 : Fin k0_t1_loop.trips) : Fin 3 → Nat :=
  let c2_i32_6 : BitVec 32 := 2#32
  let c0_i32_0 : BitVec 32 := 0#32
  let c1_i32 : BitVec 32 := 1#32
  let arg13 : BitVec 32 := Scf.iv c0_i32_0 c1_i32 k0_t1
  let v13 : BitVec 32 := Scalar.muli c2_i32_6 arg13
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v13.toNat, 0, v2.toNat]
def k0_cond2 (k0_t1 : Fin k0_t1_loop.trips) : BitVec 1 :=
  let c0_i32_0 : BitVec 32 := 0#32
  let c1_i32 : BitVec 32 := 1#32
  let arg13 : BitVec 32 := Scf.iv c0_i32_0 c1_i32 k0_t1
  let c0_i32_18 : BitVec 32 := 0#32
  let v44 : BitVec 1 := Scalar.cmpi .sgt arg13 c0_i32_18
  let v45 : BitVec 32 := Scalar.extui v44
  let c0_i32_19 : BitVec 32 := 0#32
  let v46 : BitVec 1 := Scalar.cmpi .ne v45 c0_i32_19
  v46

def k0_off20 (i : grid0.Coords) (k0_t1 : Fin k0_t1_loop.trips) : Fin 3 → Nat :=
  let c2_i32_7 : BitVec 32 := 2#32
  let c0_i32_0 : BitVec 32 := 0#32
  let c1_i32 : BitVec 32 := 1#32
  let arg13 : BitVec 32 := Scf.iv c0_i32_0 c1_i32 k0_t1
  let v14 : BitVec 32 := Scalar.muli c2_i32_7 arg13
  let c1_i32_8 : BitVec 32 := 1#32
  let v15 : BitVec 32 := Scalar.addi v14 c1_i32_8
  let c2_i32_37 : BitVec 32 := 2#32
  let v72 : BitVec 32 := Scalar.subi v15 c2_i32_37
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v72.toNat, 0, v2.toNat]
def k0_off21 (k0_t1 : Fin k0_t1_loop.trips) : Fin 2 → Nat :=
  let c2_i32_7 : BitVec 32 := 2#32
  let c0_i32_0 : BitVec 32 := 0#32
  let c1_i32 : BitVec 32 := 1#32
  let arg13 : BitVec 32 := Scf.iv c0_i32_0 c1_i32 k0_t1
  let v14 : BitVec 32 := Scalar.muli c2_i32_7 arg13
  let c1_i32_8 : BitVec 32 := 1#32
  let v15 : BitVec 32 := Scalar.addi v14 c1_i32_8
  let v47 : Index := Scalar.indexCast v15
  let c0_20 : Index := 0#32
  ![v47.toNat, 0]
def k0_off22 (k0_t1 : Fin k0_t1_loop.trips) : Fin 2 → Nat :=
  let c2_i32_7 : BitVec 32 := 2#32
  let c0_i32_0 : BitVec 32 := 0#32
  let c1_i32 : BitVec 32 := 1#32
  let arg13 : BitVec 32 := Scf.iv c0_i32_0 c1_i32 k0_t1
  let v14 : BitVec 32 := Scalar.muli c2_i32_7 arg13
  let c1_i32_8 : BitVec 32 := 1#32
  let v15 : BitVec 32 := Scalar.addi v14 c1_i32_8
  let v49 : Index := Scalar.indexCast v15
  let c16_21 : Index := 16#32
  ![v49.toNat, 16]
def k0_off23 (k0_t1 : Fin k0_t1_loop.trips) : Fin 2 → Nat :=
  let c2_i32_7 : BitVec 32 := 2#32
  let c0_i32_0 : BitVec 32 := 0#32
  let c1_i32 : BitVec 32 := 1#32
  let arg13 : BitVec 32 := Scf.iv c0_i32_0 c1_i32 k0_t1
  let v14 : BitVec 32 := Scalar.muli c2_i32_7 arg13
  let c1_i32_8 : BitVec 32 := 1#32
  let v15 : BitVec 32 := Scalar.addi v14 c1_i32_8
  let v51 : Index := Scalar.indexCast v15
  let c32_22 : Index := 32#32
  ![v51.toNat, 32]
def k0_off24 (k0_t1 : Fin k0_t1_loop.trips) : Fin 2 → Nat :=
  let c2_i32_7 : BitVec 32 := 2#32
  let c0_i32_0 : BitVec 32 := 0#32
  let c1_i32 : BitVec 32 := 1#32
  let arg13 : BitVec 32 := Scf.iv c0_i32_0 c1_i32 k0_t1
  let v14 : BitVec 32 := Scalar.muli c2_i32_7 arg13
  let c1_i32_8 : BitVec 32 := 1#32
  let v15 : BitVec 32 := Scalar.addi v14 c1_i32_8
  let v53 : Index := Scalar.indexCast v15
  let c48_23 : Index := 48#32
  ![v53.toNat, 48]
def k0_off25 (k0_t1 : Fin k0_t1_loop.trips) : Fin 2 → Nat :=
  let c2_i32_7 : BitVec 32 := 2#32
  let c0_i32_0 : BitVec 32 := 0#32
  let c1_i32 : BitVec 32 := 1#32
  let arg13 : BitVec 32 := Scf.iv c0_i32_0 c1_i32 k0_t1
  let v14 : BitVec 32 := Scalar.muli c2_i32_7 arg13
  let c1_i32_8 : BitVec 32 := 1#32
  let v15 : BitVec 32 := Scalar.addi v14 c1_i32_8
  let v55 : Index := Scalar.indexCast v15
  let c64_24 : Index := 64#32
  ![v55.toNat, 64]
def k0_off26 (k0_t1 : Fin k0_t1_loop.trips) : Fin 2 → Nat :=
  let c2_i32_7 : BitVec 32 := 2#32
  let c0_i32_0 : BitVec 32 := 0#32
  let c1_i32 : BitVec 32 := 1#32
  let arg13 : BitVec 32 := Scf.iv c0_i32_0 c1_i32 k0_t1
  let v14 : BitVec 32 := Scalar.muli c2_i32_7 arg13
  let c1_i32_8 : BitVec 32 := 1#32
  let v15 : BitVec 32 := Scalar.addi v14 c1_i32_8
  let v57 : Index := Scalar.indexCast v15
  let c80_25 : Index := 80#32
  ![v57.toNat, 80]
def k0_off27 (k0_t1 : Fin k0_t1_loop.trips) : Fin 2 → Nat :=
  let c2_i32_7 : BitVec 32 := 2#32
  let c0_i32_0 : BitVec 32 := 0#32
  let c1_i32 : BitVec 32 := 1#32
  let arg13 : BitVec 32 := Scf.iv c0_i32_0 c1_i32 k0_t1
  let v14 : BitVec 32 := Scalar.muli c2_i32_7 arg13
  let c1_i32_8 : BitVec 32 := 1#32
  let v15 : BitVec 32 := Scalar.addi v14 c1_i32_8
  let v59 : Index := Scalar.indexCast v15
  let c96_26 : Index := 96#32
  ![v59.toNat, 96]
def k0_off28 (k0_t1 : Fin k0_t1_loop.trips) : Fin 2 → Nat :=
  let c2_i32_7 : BitVec 32 := 2#32
  let c0_i32_0 : BitVec 32 := 0#32
  let c1_i32 : BitVec 32 := 1#32
  let arg13 : BitVec 32 := Scf.iv c0_i32_0 c1_i32 k0_t1
  let v14 : BitVec 32 := Scalar.muli c2_i32_7 arg13
  let c1_i32_8 : BitVec 32 := 1#32
  let v15 : BitVec 32 := Scalar.addi v14 c1_i32_8
  let v61 : Index := Scalar.indexCast v15
  let c112_27 : Index := 112#32
  ![v61.toNat, 112]
@[reducible] def k0_t3_loop : Scf.Loop 32 :=
  let c0_i32_30 : BitVec 32 := 0#32
  let c64_i32_31 : BitVec 32 := 64#32
  let v66 : BitVec 32 := Scalar.addi c0_i32_30 c64_i32_31
  let c1_i32_32 : BitVec 32 := 1#32
  ⟨c0_i32_30, v66, c1_i32_32⟩

def k0_chk3 (v65 : IVec S16 32) (v73 : IVec S16 32) : Prop :=
  (∀ a x, ((![v65, v73] : Fin 2 → IVec S16 32) a x).toNat < S200x64.size a)
instance k0_chk3.dec : ∀ (v65 : IVec S16 32) (v73 : IVec S16 32), Decidable (k0_chk3 v65 v73) := fun v65 v73 => decidable_of_iff' _ (Iff.of_eq (k0_chk3.eq_1 v65 v73))
theorem k0_idx10_inb : ∀ (v65 : IVec S16 32) (v73 : IVec S16 32) (k0_hw3 : k0_chk3 v65 v73), ∀ a x, ((![v65, v73] : Fin 2 → IVec S16 32) a x).toNat < S200x64.size a := fun v65 v73 k0_hw3 => k0_hw3

def k0_chk4 (v48 : IVec S16 32) (v50 : IVec S16 32) (v52 : IVec S16 32) (v54 : IVec S16 32) (v56 : IVec S16 32) (v58 : IVec S16 32) (v60 : IVec S16 32) (v62 : IVec S16 32) (v76 : IVec S16 32) : Prop :=
  (∀ a x, ((![v76, v48] : Fin 2 → IVec S16 32) a x).toNat < S64x200.size a) ∧
  (∀ a x, ((![v76, v50] : Fin 2 → IVec S16 32) a x).toNat < S64x200.size a) ∧
  (∀ a x, ((![v76, v52] : Fin 2 → IVec S16 32) a x).toNat < S64x200.size a) ∧
  (∀ a x, ((![v76, v54] : Fin 2 → IVec S16 32) a x).toNat < S64x200.size a) ∧
  (∀ a x, ((![v76, v56] : Fin 2 → IVec S16 32) a x).toNat < S64x200.size a) ∧
  (∀ a x, ((![v76, v58] : Fin 2 → IVec S16 32) a x).toNat < S64x200.size a) ∧
  (∀ a x, ((![v76, v60] : Fin 2 → IVec S16 32) a x).toNat < S64x200.size a) ∧
  (∀ a x, ((![v76, v62] : Fin 2 → IVec S16 32) a x).toNat < S64x200.size a)
instance k0_chk4.dec : ∀ (v48 : IVec S16 32) (v50 : IVec S16 32) (v52 : IVec S16 32) (v54 : IVec S16 32) (v56 : IVec S16 32) (v58 : IVec S16 32) (v60 : IVec S16 32) (v62 : IVec S16 32) (v76 : IVec S16 32), Decidable (k0_chk4 v48 v50 v52 v54 v56 v58 v60 v62 v76) := fun v48 v50 v52 v54 v56 v58 v60 v62 v76 => decidable_of_iff' _ (Iff.of_eq (k0_chk4.eq_1 v48 v50 v52 v54 v56 v58 v60 v62 v76))
theorem k0_idx11_inb : ∀ (v48 : IVec S16 32) (v50 : IVec S16 32) (v52 : IVec S16 32) (v54 : IVec S16 32) (v56 : IVec S16 32) (v58 : IVec S16 32) (v60 : IVec S16 32) (v62 : IVec S16 32) (v76 : IVec S16 32) (k0_hw4 : k0_chk4 v48 v50 v52 v54 v56 v58 v60 v62 v76), ∀ a x, ((![v76, v48] : Fin 2 → IVec S16 32) a x).toNat < S64x200.size a := fun v48 v50 v52 v54 v56 v58 v60 v62 v76 k0_hw4 => k0_hw4.1
theorem k0_idx12_inb : ∀ (v48 : IVec S16 32) (v50 : IVec S16 32) (v52 : IVec S16 32) (v54 : IVec S16 32) (v56 : IVec S16 32) (v58 : IVec S16 32) (v60 : IVec S16 32) (v62 : IVec S16 32) (v76 : IVec S16 32) (k0_hw4 : k0_chk4 v48 v50 v52 v54 v56 v58 v60 v62 v76), ∀ a x, ((![v76, v50] : Fin 2 → IVec S16 32) a x).toNat < S64x200.size a := fun v48 v50 v52 v54 v56 v58 v60 v62 v76 k0_hw4 => k0_hw4.2.1
theorem k0_idx13_inb : ∀ (v48 : IVec S16 32) (v50 : IVec S16 32) (v52 : IVec S16 32) (v54 : IVec S16 32) (v56 : IVec S16 32) (v58 : IVec S16 32) (v60 : IVec S16 32) (v62 : IVec S16 32) (v76 : IVec S16 32) (k0_hw4 : k0_chk4 v48 v50 v52 v54 v56 v58 v60 v62 v76), ∀ a x, ((![v76, v52] : Fin 2 → IVec S16 32) a x).toNat < S64x200.size a := fun v48 v50 v52 v54 v56 v58 v60 v62 v76 k0_hw4 => k0_hw4.2.2.1
theorem k0_idx14_inb : ∀ (v48 : IVec S16 32) (v50 : IVec S16 32) (v52 : IVec S16 32) (v54 : IVec S16 32) (v56 : IVec S16 32) (v58 : IVec S16 32) (v60 : IVec S16 32) (v62 : IVec S16 32) (v76 : IVec S16 32) (k0_hw4 : k0_chk4 v48 v50 v52 v54 v56 v58 v60 v62 v76), ∀ a x, ((![v76, v54] : Fin 2 → IVec S16 32) a x).toNat < S64x200.size a := fun v48 v50 v52 v54 v56 v58 v60 v62 v76 k0_hw4 => k0_hw4.2.2.2.1
theorem k0_idx15_inb : ∀ (v48 : IVec S16 32) (v50 : IVec S16 32) (v52 : IVec S16 32) (v54 : IVec S16 32) (v56 : IVec S16 32) (v58 : IVec S16 32) (v60 : IVec S16 32) (v62 : IVec S16 32) (v76 : IVec S16 32) (k0_hw4 : k0_chk4 v48 v50 v52 v54 v56 v58 v60 v62 v76), ∀ a x, ((![v76, v56] : Fin 2 → IVec S16 32) a x).toNat < S64x200.size a := fun v48 v50 v52 v54 v56 v58 v60 v62 v76 k0_hw4 => k0_hw4.2.2.2.2.1
theorem k0_idx16_inb : ∀ (v48 : IVec S16 32) (v50 : IVec S16 32) (v52 : IVec S16 32) (v54 : IVec S16 32) (v56 : IVec S16 32) (v58 : IVec S16 32) (v60 : IVec S16 32) (v62 : IVec S16 32) (v76 : IVec S16 32) (k0_hw4 : k0_chk4 v48 v50 v52 v54 v56 v58 v60 v62 v76), ∀ a x, ((![v76, v58] : Fin 2 → IVec S16 32) a x).toNat < S64x200.size a := fun v48 v50 v52 v54 v56 v58 v60 v62 v76 k0_hw4 => k0_hw4.2.2.2.2.2.1
theorem k0_idx17_inb : ∀ (v48 : IVec S16 32) (v50 : IVec S16 32) (v52 : IVec S16 32) (v54 : IVec S16 32) (v56 : IVec S16 32) (v58 : IVec S16 32) (v60 : IVec S16 32) (v62 : IVec S16 32) (v76 : IVec S16 32) (k0_hw4 : k0_chk4 v48 v50 v52 v54 v56 v58 v60 v62 v76), ∀ a x, ((![v76, v60] : Fin 2 → IVec S16 32) a x).toNat < S64x200.size a := fun v48 v50 v52 v54 v56 v58 v60 v62 v76 k0_hw4 => k0_hw4.2.2.2.2.2.2.1
theorem k0_idx18_inb : ∀ (v48 : IVec S16 32) (v50 : IVec S16 32) (v52 : IVec S16 32) (v54 : IVec S16 32) (v56 : IVec S16 32) (v58 : IVec S16 32) (v60 : IVec S16 32) (v62 : IVec S16 32) (v76 : IVec S16 32) (k0_hw4 : k0_chk4 v48 v50 v52 v54 v56 v58 v60 v62 v76), ∀ a x, ((![v76, v62] : Fin 2 → IVec S16 32) a x).toNat < S64x200.size a := fun v48 v50 v52 v54 v56 v58 v60 v62 v76 k0_hw4 => k0_hw4.2.2.2.2.2.2.2
def k0_off29 (k0_t3 : Fin k0_t3_loop.trips) : Fin 2 → Nat :=
  let c0_i32_30 : BitVec 32 := 0#32
  let c1_i32_32 : BitVec 32 := 1#32
  let arg15 : BitVec 32 := Scf.iv c0_i32_30 c1_i32_32 k0_t3
  let v86 : Index := Scalar.indexCast arg15
  let c0_37 : Index := 0#32
  ![v86.toNat, 0]
def k0_off30 (k0_t3 : Fin k0_t3_loop.trips) : Fin 2 → Nat :=
  let c0_i32_30 : BitVec 32 := 0#32
  let c1_i32_32 : BitVec 32 := 1#32
  let arg15 : BitVec 32 := Scf.iv c0_i32_30 c1_i32_32 k0_t3
  let v89 : Index := Scalar.indexCast arg15
  let c16_38 : Index := 16#32
  ![v89.toNat, 16]
def k0_off31 (k0_t3 : Fin k0_t3_loop.trips) : Fin 2 → Nat :=
  let c0_i32_30 : BitVec 32 := 0#32
  let c1_i32_32 : BitVec 32 := 1#32
  let arg15 : BitVec 32 := Scf.iv c0_i32_30 c1_i32_32 k0_t3
  let v92 : Index := Scalar.indexCast arg15
  let c32_39 : Index := 32#32
  ![v92.toNat, 32]
def k0_off32 (k0_t3 : Fin k0_t3_loop.trips) : Fin 2 → Nat :=
  let c0_i32_30 : BitVec 32 := 0#32
  let c1_i32_32 : BitVec 32 := 1#32
  let arg15 : BitVec 32 := Scf.iv c0_i32_30 c1_i32_32 k0_t3
  let v95 : Index := Scalar.indexCast arg15
  let c48_40 : Index := 48#32
  ![v95.toNat, 48]
def k0_off33 (k0_t3 : Fin k0_t3_loop.trips) : Fin 2 → Nat :=
  let c0_i32_30 : BitVec 32 := 0#32
  let c1_i32_32 : BitVec 32 := 1#32
  let arg15 : BitVec 32 := Scf.iv c0_i32_30 c1_i32_32 k0_t3
  let v98 : Index := Scalar.indexCast arg15
  let c64_41 : Index := 64#32
  ![v98.toNat, 64]
def k0_off34 (k0_t3 : Fin k0_t3_loop.trips) : Fin 2 → Nat :=
  let c0_i32_30 : BitVec 32 := 0#32
  let c1_i32_32 : BitVec 32 := 1#32
  let arg15 : BitVec 32 := Scf.iv c0_i32_30 c1_i32_32 k0_t3
  let v101 : Index := Scalar.indexCast arg15
  let c80_42 : Index := 80#32
  ![v101.toNat, 80]
def k0_off35 (k0_t3 : Fin k0_t3_loop.trips) : Fin 2 → Nat :=
  let c0_i32_30 : BitVec 32 := 0#32
  let c1_i32_32 : BitVec 32 := 1#32
  let arg15 : BitVec 32 := Scf.iv c0_i32_30 c1_i32_32 k0_t3
  let v104 : Index := Scalar.indexCast arg15
  let c96_43 : Index := 96#32
  ![v104.toNat, 96]
def k0_off36 (k0_t3 : Fin k0_t3_loop.trips) : Fin 2 → Nat :=
  let c0_i32_30 : BitVec 32 := 0#32
  let c1_i32_32 : BitVec 32 := 1#32
  let arg15 : BitVec 32 := Scf.iv c0_i32_30 c1_i32_32 k0_t3
  let v107 : Index := Scalar.indexCast arg15
  let c112_44 : Index := 112#32
  ![v107.toNat, 112]
def k0_off37 (i : grid0.Coords) (k0_t1 : Fin k0_t1_loop.trips) : Fin 3 → Nat :=
  let c2_i32_7 : BitVec 32 := 2#32
  let c0_i32_0 : BitVec 32 := 0#32
  let c1_i32 : BitVec 32 := 1#32
  let arg13 : BitVec 32 := Scf.iv c0_i32_0 c1_i32 k0_t1
  let v14 : BitVec 32 := Scalar.muli c2_i32_7 arg13
  let c1_i32_8 : BitVec 32 := 1#32
  let v15 : BitVec 32 := Scalar.addi v14 c1_i32_8
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v15.toNat, 0, v2.toNat]
def k0_off38 (i : grid0.Coords) : Fin 3 → Nat :=
  let c198_i32 : BitVec 32 := 198#32
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![198, 0, v2.toNat]
def k0_off39 (i : grid0.Coords) : Fin 3 → Nat :=
  let c199_i32 : BitVec 32 := 199#32
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![199, 0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x200_S200x4096_1_0 : S4096x200.Transposes [1, 0] S200x4096
  slices_S100000x64_S200x64_0_0 : S100000x64.Slices ![0, 0] S200x64
  transposes_S200x64_S64x200_1_0 : S200x64.Transposes [1, 0] S64x200
  squeezes_S1x64x128_S64x128 : S1x64x128.Squeezes S64x128
  h_S1x16 : 0 < S1x16.numel
  shapeCasts_S1x16_S16 : S1x16.ShapeCasts S16
  h_S200x64 : 0 < S200x64.numel
  h_S64x200 : 0 < S64x200.numel
  shapeCasts_S16_S1x16 : S16.ShapeCasts S1x16
  transposes_S200x64x4096_S4096x200x64_2_0_1 : S200x64x4096.Transposes [2, 0, 1] S4096x200x64
  hcc0_scratch5 : 0 + S_.numel ≤ 5
  hcc0_scratch6 : 1 + S_.numel ≤ 5
  hcc0_scoped0 : 2 + S_.numel ≤ 5
  hcc0_scoped1 : 3 + S_.numel ≤ 5
  hcc0_scoped2 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S200x128.size a ≤ S200x4096.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S1x64x128.size a ≤ S200x64x4096.size a
  k0_off3_inb : ∀ k0_t1 : Fin k0_t1_loop.trips, ∀ a, (k0_off3 k0_t1) a + S1x16.size a ≤ S200x128.size a
  k0_off4_inb : ∀ k0_t1 : Fin k0_t1_loop.trips, ∀ a, (k0_off4 k0_t1) a + S1x16.size a ≤ S200x128.size a
  k0_off5_inb : ∀ k0_t1 : Fin k0_t1_loop.trips, ∀ a, (k0_off5 k0_t1) a + S1x16.size a ≤ S200x128.size a
  k0_off6_inb : ∀ k0_t1 : Fin k0_t1_loop.trips, ∀ a, (k0_off6 k0_t1) a + S1x16.size a ≤ S200x128.size a
  k0_off7_inb : ∀ k0_t1 : Fin k0_t1_loop.trips, ∀ a, (k0_off7 k0_t1) a + S1x16.size a ≤ S200x128.size a
  k0_off8_inb : ∀ k0_t1 : Fin k0_t1_loop.trips, ∀ a, (k0_off8 k0_t1) a + S1x16.size a ≤ S200x128.size a
  k0_off9_inb : ∀ k0_t1 : Fin k0_t1_loop.trips, ∀ a, (k0_off9 k0_t1) a + S1x16.size a ≤ S200x128.size a
  k0_off10_inb : ∀ k0_t1 : Fin k0_t1_loop.trips, ∀ a, (k0_off10 k0_t1) a + S1x16.size a ≤ S200x128.size a
  k0_t2_ok : k0_t2_loop.OK
  k0_off11_inb : ∀ k0_t2 : Fin k0_t2_loop.trips, ∀ a, (k0_off11 k0_t2) a + S1x16.size a ≤ S64x128.size a
  k0_off12_inb : ∀ k0_t2 : Fin k0_t2_loop.trips, ∀ a, (k0_off12 k0_t2) a + S1x16.size a ≤ S64x128.size a
  k0_off13_inb : ∀ k0_t2 : Fin k0_t2_loop.trips, ∀ a, (k0_off13 k0_t2) a + S1x16.size a ≤ S64x128.size a
  k0_off14_inb : ∀ k0_t2 : Fin k0_t2_loop.trips, ∀ a, (k0_off14 k0_t2) a + S1x16.size a ≤ S64x128.size a
  k0_off15_inb : ∀ k0_t2 : Fin k0_t2_loop.trips, ∀ a, (k0_off15 k0_t2) a + S1x16.size a ≤ S64x128.size a
  k0_off16_inb : ∀ k0_t2 : Fin k0_t2_loop.trips, ∀ a, (k0_off16 k0_t2) a + S1x16.size a ≤ S64x128.size a
  k0_off17_inb : ∀ k0_t2 : Fin k0_t2_loop.trips, ∀ a, (k0_off17 k0_t2) a + S1x16.size a ≤ S64x128.size a
  k0_off18_inb : ∀ k0_t2 : Fin k0_t2_loop.trips, ∀ a, (k0_off18 k0_t2) a + S1x16.size a ≤ S64x128.size a
  k0_off19_inb : ∀ (i : grid0.Coords) (k0_t1 : Fin k0_t1_loop.trips), ∀ a, (k0_off19 i k0_t1) a + S1x64x128.size a ≤ S200x64x4096.size a
  k0_off20_inb : ∀ (i : grid0.Coords) (k0_t1 : Fin k0_t1_loop.trips), ∀ (k0_h2 : k0_cond2 k0_t1 = 1#1), ∀ a, (k0_off20 i k0_t1) a + S1x64x128.size a ≤ S200x64x4096.size a
  k0_off21_inb : ∀ k0_t1 : Fin k0_t1_loop.trips, ∀ a, (k0_off21 k0_t1) a + S1x16.size a ≤ S200x128.size a
  k0_off22_inb : ∀ k0_t1 : Fin k0_t1_loop.trips, ∀ a, (k0_off22 k0_t1) a + S1x16.size a ≤ S200x128.size a
  k0_off23_inb : ∀ k0_t1 : Fin k0_t1_loop.trips, ∀ a, (k0_off23 k0_t1) a + S1x16.size a ≤ S200x128.size a
  k0_off24_inb : ∀ k0_t1 : Fin k0_t1_loop.trips, ∀ a, (k0_off24 k0_t1) a + S1x16.size a ≤ S200x128.size a
  k0_off25_inb : ∀ k0_t1 : Fin k0_t1_loop.trips, ∀ a, (k0_off25 k0_t1) a + S1x16.size a ≤ S200x128.size a
  k0_off26_inb : ∀ k0_t1 : Fin k0_t1_loop.trips, ∀ a, (k0_off26 k0_t1) a + S1x16.size a ≤ S200x128.size a
  k0_off27_inb : ∀ k0_t1 : Fin k0_t1_loop.trips, ∀ a, (k0_off27 k0_t1) a + S1x16.size a ≤ S200x128.size a
  k0_off28_inb : ∀ k0_t1 : Fin k0_t1_loop.trips, ∀ a, (k0_off28 k0_t1) a + S1x16.size a ≤ S200x128.size a
  k0_t3_ok : k0_t3_loop.OK
  k0_off29_inb : ∀ k0_t3 : Fin k0_t3_loop.trips, ∀ a, (k0_off29 k0_t3) a + S1x16.size a ≤ S64x128.size a
  k0_off30_inb : ∀ k0_t3 : Fin k0_t3_loop.trips, ∀ a, (k0_off30 k0_t3) a + S1x16.size a ≤ S64x128.size a
  k0_off31_inb : ∀ k0_t3 : Fin k0_t3_loop.trips, ∀ a, (k0_off31 k0_t3) a + S1x16.size a ≤ S64x128.size a
  k0_off32_inb : ∀ k0_t3 : Fin k0_t3_loop.trips, ∀ a, (k0_off32 k0_t3) a + S1x16.size a ≤ S64x128.size a
  k0_off33_inb : ∀ k0_t3 : Fin k0_t3_loop.trips, ∀ a, (k0_off33 k0_t3) a + S1x16.size a ≤ S64x128.size a
  k0_off34_inb : ∀ k0_t3 : Fin k0_t3_loop.trips, ∀ a, (k0_off34 k0_t3) a + S1x16.size a ≤ S64x128.size a
  k0_off35_inb : ∀ k0_t3 : Fin k0_t3_loop.trips, ∀ a, (k0_off35 k0_t3) a + S1x16.size a ≤ S64x128.size a
  k0_off36_inb : ∀ k0_t3 : Fin k0_t3_loop.trips, ∀ a, (k0_off36 k0_t3) a + S1x16.size a ≤ S64x128.size a
  k0_off37_inb : ∀ (i : grid0.Coords) (k0_t1 : Fin k0_t1_loop.trips), ∀ a, (k0_off37 i k0_t1) a + S1x64x128.size a ≤ S200x64x4096.size a
  k0_off38_inb : ∀ i : grid0.Coords, ∀ a, (k0_off38 i) a + S1x64x128.size a ≤ S200x64x4096.size a
  k0_off39_inb : ∀ i : grid0.Coords, ∀ a, (k0_off39 i) a + S1x64x128.size a ≤ S200x64x4096.size a

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2

class Facts : Prop extends Facts₀ where

variable [Facts]
-- ==== ReferenceIdeal.lean ====
abbrev S4096x200 : Shape := ⟨2, ![4096, 200]⟩
abbrev S100000x64 : Shape := ⟨2, ![100000, 64]⟩
abbrev S200x64 : Shape := ⟨2, ![200, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩
abbrev S200 : Shape := ⟨1, ![200]⟩
abbrev S200x1 : Shape := ⟨2, ![200, 1]⟩
abbrev S1x1 : Shape := ⟨2, ![1, 1]⟩
abbrev S1x200x64 : Shape := ⟨3, ![1, 200, 64]⟩

abbrev nBuf : Space → Nat
  | .hbm => 53
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x64, .f32⟩
  | .hbm, ⟨2, _⟩ => ⟨S200x64, .f32⟩
  | .hbm, ⟨3, _⟩ => ⟨S_, .i32⟩
  | .hbm, ⟨4, _⟩ => ⟨S4096x200, .i32⟩
  | .hbm, ⟨5, _⟩ => ⟨S4096x200, .i1⟩
  | .hbm, ⟨6, _⟩ => ⟨S_, .i32⟩
  | .hbm, ⟨7, _⟩ => ⟨S4096x200, .i32⟩
  | .hbm, ⟨8, _⟩ => ⟨S4096x200, .i32⟩
  | .hbm, ⟨9, _⟩ => ⟨S4096x200, .i32⟩
  | .hbm, ⟨10, _⟩ => ⟨S4096x200x1, .i32⟩
  | .hbm, ⟨11, _⟩ => ⟨S1, .i32⟩
  | .hbm, ⟨12, _⟩ => ⟨S_, .i32⟩
  | .hbm, ⟨13, _⟩ => ⟨S4096x200x1, .i32⟩
  | .hbm, ⟨14, _⟩ => ⟨S4096x200x1, .i1⟩
  | .hbm, ⟨15, _⟩ => ⟨S1x1x1, .i32⟩
  | .hbm, ⟨16, _⟩ => ⟨S4096x200x1, .i32⟩
  | .hbm, ⟨17, _⟩ => ⟨S4096x200x1, .i1⟩
  | .hbm, ⟨18, _⟩ => ⟨S4096x200x1, .i1⟩
  | .hbm, ⟨19, _⟩ => ⟨S_, .i1⟩
  | .hbm, ⟨20, _⟩ => ⟨S4096x200, .i1⟩
  | .hbm, ⟨21, _⟩ => ⟨S4096x200x64, .f32⟩
  | .hbm, ⟨22, _⟩ => ⟨S4096x200x64, .i1⟩
  | .hbm, ⟨23, _⟩ => ⟨S_, .f32⟩
  | .hbm, ⟨24, _⟩ => ⟨S4096x200x64, .f32⟩
  | .hbm, ⟨25, _⟩ => ⟨S4096x200x64, .f32⟩
  | .hbm, ⟨26, _⟩ => ⟨S200, .i32⟩
  | .hbm, ⟨27, _⟩ => ⟨S_, .i32⟩
  | .hbm, ⟨28, _⟩ => ⟨S200, .i32⟩
  | .hbm, ⟨29, _⟩ => ⟨S200, .i1⟩
  | .hbm, ⟨30, _⟩ => ⟨S_, .i32⟩
  | .hbm, ⟨31, _⟩ => ⟨S200, .i32⟩
  | .hbm, ⟨32, _⟩ => ⟨S200, .i32⟩
  | .hbm, ⟨33, _⟩ => ⟨S200, .i32⟩
  | .hbm, ⟨34, _⟩ => ⟨S200x1, .i32⟩
  | .hbm, ⟨35, _⟩ => ⟨S1, .i32⟩
  | .hbm, ⟨36, _⟩ => ⟨S_, .i32⟩
  | .hbm, ⟨37, _⟩ => ⟨S200x1, .i32⟩
  | .hbm, ⟨38, _⟩ => ⟨S200x1, .i1⟩
  | .hbm, ⟨39, _⟩ => ⟨S1x1, .i32⟩
  | .hbm, ⟨40, _⟩ => ⟨S200x1, .i32⟩
  | .hbm, ⟨41, _⟩ => ⟨S200x1, .i1⟩
  | .hbm, ⟨42, _⟩ => ⟨S200x1, .i1⟩
  | .hbm, ⟨43, _⟩ => ⟨S_, .i1⟩
  | .hbm, ⟨44, _⟩ => ⟨S200, .i1⟩
  | .hbm, ⟨45, _⟩ => ⟨S200x64, .f32⟩
  | .hbm, ⟨46, _⟩ => ⟨S200x64, .i1⟩
  | .hbm, ⟨47, _⟩ => ⟨S_, .f32⟩
  | .hbm, ⟨48, _⟩ => ⟨S200x64, .f32⟩
  | .hbm, ⟨49, _⟩ => ⟨S200x64, .f32⟩
  | .hbm, ⟨50, _⟩ => ⟨S1x200x64, .f32⟩
  | .hbm, ⟨51, _⟩ => ⟨S4096x200x64, .f32⟩
  | .hbm, ⟨52, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  bcast_S_S200 : S_.BroadcastsInDim S200 (![] : Fin 0 → Fin S200.rank)
  bcast_S200_S200x1_0 : S200.BroadcastsInDim S200x1 (![0] : Fin 1 → Fin S200x1.rank)
  bcast_S_S200x1 : S_.BroadcastsInDim S200x1 (![] : Fin 0 → Fin S200x1.rank)
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  reducesTo_S200x1_S200_d1 : S200x1.ReducesTo [1] S200
  bcast_S200_S200x64_0 : S200.BroadcastsInDim S200x64 (![0] : Fin 1 → Fin S200x64.rank)
  bcast_S_S200x64 : S_.BroadcastsInDim S200x64 (![] : Fin 0 → Fin S200x64.rank)
  bcast_S200x64_S1x200x64_1_2 : S200x64.BroadcastsInDim S1x200x64 (![1, 2] : Fin 2 → Fin S1x200x64.rank)
  bcast_S1x200x64_S4096x200x64_0_1_2 : S1x200x64.BroadcastsInDim S4096x200x64 (![0, 1, 2] : Fin 3 → Fin S4096x200x64.rank)
  gather_S100000x64_S4096x200x1_S4096x200x64_2_0_n_n_0_2_164_wf : GatherDims.WF S100000x64 S4096x200x1 S4096x200x64 [2] [0] [] [0] [] 2 ![1, 64]
  gather_S200x64_S200x1_S200x64_1_0_n_n_0_1_164_wf : GatherDims.WF S200x64 S200x1 S200x64 [1] [0] [] [0] [] 1 ![1, 64]

variable [Facts₀]

def gather_S100000x64_S4096x200x1_S4096x200x64_2_0_n_n_0_2_164 : GatherDims S100000x64 S4096x200x1 S4096x200x64 where
  offsetDims := [2]
  collapsedSliceDims := [0]
  operandBatchingDims := []
  startIndicesBatchingDims := []
  startIndexMap := [0]
  indexVectorDim := 2
  sliceSizes := ![1, 64]
  wf := gather_S100000x64_S4096x200x1_S4096x200x64_2_0_n_n_0_2_164_wf
def gather_S200x64_S200x1_S200x64_1_0_n_n_0_1_164 : GatherDims S200x64 S200x1 S200x64 where
  offsetDims := [1]
  collapsedSliceDims := [0]
  operandBatchingDims := []
  startIndicesBatchingDims := []
  startIndexMap := [0]
  indexVectorDim := 1
  sliceSizes := ![1, 64]
  wf := gather_S200x64_S200x1_S200x64_1_0_n_n_0_1_164_wf

class Facts : Prop extends Facts₀ where

variable [Facts]
-- ==== Proof.Spec.lean ====
/-
  The function both programs compute: row `idx[b, l]` of the word table plus row `l` of the positional table,
  entry by entry. Stated for any float instance (the sum is the instance's own scalar addition), over the literal
  shapes. The row number is taken modulo the table's height so that the function is total; under `InRange` the
  word is below 200 and the remainder is the word itself.
-/
import Idealize.ShloMosaic.PureOps
import Idealize.ShloMosaic.Lib.ValueIdx

noncomputable section

namespace Cert.Spec

open Idealize.ShloMosaic Idealize.ShloMosaic.ValueIdx

/-- Every index word names one of the first 200 rows of the word table. -/
def InRange (idx : IVec ⟨2, ![4096, 200]⟩ 32) : Prop := ∀ j, (idx j).toNat < 200

/-- The word-table row an index word names. -/
def rowOf (w : BitVec 32) : Fin 100000 := ⟨w.toNat % 100000, Nat.mod_lt _ (by decide)⟩

theorem rowOf_val {w : BitVec 32} (h : w.toNat < 200) : (rowOf w).val = w.toNat :=
  Nat.mod_eq_of_lt (Nat.lt_trans h (by decide))

/-- `emb idx W P [b, l, e] = W[idx[b, l], e] + P[l, e]`. -/
def emb {F : FTy → Type} [FloatOps F] (idx : IVec ⟨2, ![4096, 200]⟩ 32) (W : FVec F ⟨2, ![100000, 64]⟩ .f32)
    (P : FVec F ⟨2, ![200, 64]⟩ .f32) : FVec F ⟨3, ![4096, 200, 64]⟩ .f32 :=
  fun j => FloatOps.addf (W (ix2 (rowOf (idx (ix2 (j 0) (j 1)))) (j 2))) (P (ix2 (j 1) (j 2)))

end Cert.Spec

end
-- ==== Proof.KISetup.lean ====
/-
  The idealized kernel as the SparseCore launch theorem sees it: the configuration, the ghost state (the handshakes'
  rounds beside the transfers' counters), the arrays a task touches and what the one call hands each task.

  Task (c, s) — vector subcore s of SparseCore c — is worker w = 2 s + c. It reads columns [128 w, 128 w + 128) of the
  transposed index array, the transposed word-table head and the positional table whole (each task holds one read
  token of the two tables), and writes columns [128 w, 128 w + 128) of every [64, 4096] slab of the result: the even
  slabs through its first staging buffer, the odd slabs through its second.
-/
import proofs.«206631_g81458349736089_cont_9to1c4b_538_8_alg».proof.Defs
import proofs.«206631_g81458349736089_cont_9to1c4b_538_8_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206631_g81458349736089_cont_9to1c4b_538_8_alg».proof.Proof.Gen.KernelIdeal
import proofs.«206631_g81458349736089_cont_9to1c4b_538_8_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

/-- The kernel's operands as a vector subcore names them. -/
abbrev iV : Memref sig .scVector .hbm S200x4096 .i32 := Memref.whole main_v0_scv
abbrev wV : Memref sig .scVector .hbm S64x200 .f32 := Memref.whole main_v2_scv
abbrev pV : Memref sig .scVector .hbm S200x64 .f32 := Memref.whole main_arg2_scv
abbrev oV : Memref sig .scVector .hbm S200x64x4096 .f32 := Memref.whole main_v3_scv
/-- A task's scratch: the two tables, its index columns, the two staging buffers. -/
abbrev sW : Memref sig .scVector .vmem S64x200 .f32 := Memref.whole cc0_scratch0
abbrev sP : Memref sig .scVector .vmem S200x64 .f32 := Memref.whole cc0_scratch1
abbrev sI : Memref sig .scVector .vmem S200x128 .i32 := Memref.whole cc0_scratch2
abbrev sB0 : Memref sig .scVector .vmem S64x128 .f32 := Memref.whole cc0_scratch3
abbrev sB1 : Memref sig .scVector .vmem S64x128 .f32 := Memref.whole cc0_scratch4

section Slices

variable (L : grid0.Coords)

abbrev cV (L : grid0.Coords) : Fin τ.nSC := (L 0).castLE hcore0
abbrev jV (L : grid0.Coords) : Fin τ.nSub := (L 1).castLE hsub0

/-- The task's columns of the index array, as the kernel slices them. -/
abbrev iCols : Memref sig .scVector .hbm S200x128 .i32 :=
  (iV).slice (Rect.unit (s := S200x4096) (k0_off1 L) S200x128.size (k0_off1_inb L)) (fun _ => rfl)
/-- The task's columns of slab `2 k` of the result, as the kernel slices them; -/
abbrev oEven (k : Fin k0_t1_loop.trips) : Memref sig .scVector .hbm S64x128 .f32 :=
  ((oV).slice (Rect.unit (s := S200x64x4096) (k0_off19 L k) S1x64x128.size (k0_off19_inb L k)) (fun _ => rfl)).squeeze S64x128 squeezes_S1x64x128_S64x128
/-- of slab `2 k + 1`. -/
abbrev oOdd (k : Fin k0_t1_loop.trips) : Memref sig .scVector .hbm S64x128 .f32 :=
  ((oV).slice (Rect.unit (s := S200x64x4096) (k0_off37 L k) S1x64x128.size (k0_off37_inb L k)) (fun _ => rfl)).squeeze S64x128 squeezes_S1x64x128_S64x128

/-- The elements of the result the task writes through its first staging buffer, and through its second. -/
def oE : Finset S200x64x4096.Idx := Finset.univ.biUnion fun k : Fin k0_t1_loop.trips => (oEven L k).view.set
def oO : Finset S200x64x4096.Idx := Finset.univ.biUnion fun k : Fin k0_t1_loop.trips => (oOdd L k).view.set

/-- The task's worker number. -/
def wid : Fin 32 := ⟨2 * (L 1).val + (L 0).val, by have h0 : (L 0).val < 2 := (L 0).isLt; have h1 : (L 1).val < 16 := (L 1).isLt; omega⟩
/-- The task's read token of a table all tasks read. -/
abbrev tok : PosShare TreeShare := Transfers.shareTok fullShare 32 (wid L)

end Slices

/-! ## What the handshakes carry -/

variable [FloatOps F]

/-- What a task is handed, over the arrays' contents at the call: its index columns, a read token of each table, its
    elements of the result. -/
def tileIn (d : Dev nD) (L : grid0.Coords) (I : Buf (Elt F) (v0Loc d)) (Wt : Buf (Elt F) (v2Loc d)) (Ps : Buf (Elt F) (a2Loc d))
    (O3 : Buf (Elt F) (v3Loc d)) : sProp 𝕄 :=
  iprop((v0Loc d ↦[(iCols L).view.set]{fullShare} I) ∗ (v2Loc d ↦{tok L} Wt) ∗ (a2Loc d ↦{tok L} Ps)
    ∗ (v3Loc d ↦[oE L]{fullShare} O3) ∗ (v3Loc d ↦[oO L]{fullShare} O3))

end Cert.Proof.KI

end
-- ==== Proof.SpecT.lean ====
/-
  What the SparseCore kernel leaves in its result array, as one function of its three operands: slab `l`, row `e`,
  column `b` holds the transposed word-table head at (`e`, the index word at (`l`, `b`)) plus the positional table at
  (`l`, `e`). The column of the word-table head is taken modulo its width so that the function is total; where the
  index word is below 200 the remainder is the word itself.
-/
import proofs.«206631_g81458349736089_cont_9to1c4b_538_8_alg».proof.Proof.Spec

noncomputable section

namespace Cert.Spec

open Idealize.ShloMosaic Idealize.ShloMosaic.ValueIdx

/-- The column of the transposed word-table head an index word names. -/
def colOf (w : BitVec 32) : Fin 200 := ⟨w.toNat % 200, Nat.mod_lt _ (by decide)⟩

theorem colOf_val {w : BitVec 32} (h : w.toNat < 200) : (colOf w).val = w.toNat := Nat.mod_eq_of_lt h

/-- `outT idxT wordT pos [l, e, b] = wordT[e, idxT[l, b]] + pos[l, e]`. -/
def outT {F : FTy → Type} [FloatOps F] (idxT : IVec ⟨2, ![200, 4096]⟩ 32) (wordT : FVec F ⟨2, ![64, 200]⟩ .f32)
    (pos : FVec F ⟨2, ![200, 64]⟩ .f32) : FVec F ⟨3, ![200, 64, 4096]⟩ .f32 :=
  fun j => FloatOps.addf (wordT (ix2 (j 1) (colOf (idxT (ix2 (j 0) (j 2)))))) (pos (ix2 (j 0) (j 1)))

end Cert.Spec

end
-- ==== Proof.KIOwn.lean ====
/-
  A task's own scoped storage opened: its five scratch buffers and five DMA semaphores taken out of the families the
  launch hands it, the rest kept aside to be handed back.
-/
import proofs.«206631_g81458349736089_cont_9to1c4b_538_8_alg».proof.Proof.KISetup
import proofs.«206631_g81458349736089_cont_9to1c4b_538_8_alg».proof.Proof.SpecT

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Own

omit [FloatOps F] in
/-- Five distinct members of a finite family come out of its separating conjunction, the rest staying behind. -/
theorem bigSep_erase5 {ι : Type} [DecidableEq ι] {s : Finset ι} {Φ : ι → sProp 𝕄} {a b c e g : ι}
    (ha : a ∈ s) (hb : b ∈ s) (hc : c ∈ s) (he : e ∈ s) (hg : g ∈ s)
    (hba : b ≠ a) (hca : c ≠ a) (hcb : c ≠ b) (hea : e ≠ a) (heb : e ≠ b) (hec : e ≠ c)
    (hga : g ≠ a) (hgb : g ≠ b) (hgc : g ≠ c) (hge : g ≠ e) :
    bigSep s Φ = iprop(Φ a ∗ Φ b ∗ Φ c ∗ Φ e ∗ Φ g ∗ bigSep (((((s.erase a).erase b).erase c).erase e).erase g) Φ) := by
  rw [SparseCore.bigSep_erase' ha,
    SparseCore.bigSep_erase' (Finset.mem_erase.mpr ⟨hba, hb⟩),
    SparseCore.bigSep_erase' (Finset.mem_erase.mpr ⟨hcb, Finset.mem_erase.mpr ⟨hca, hc⟩⟩),
    SparseCore.bigSep_erase' (Finset.mem_erase.mpr ⟨hec, Finset.mem_erase.mpr ⟨heb, Finset.mem_erase.mpr ⟨hea, he⟩⟩⟩),
    SparseCore.bigSep_erase' (Finset.mem_erase.mpr ⟨hge, Finset.mem_erase.mpr ⟨hgc, Finset.mem_erase.mpr ⟨hgb, Finset.mem_erase.mpr ⟨hga, hg⟩⟩⟩⟩)]

variable (d : Dev nD) (L : grid0.Coords)

abbrev thr (d : Dev nD) (L : grid0.Coords) : Thread nD τ := V d (cV L) (jV L)

abbrev c5cell : GSem nD τ sig := (thr d L, .dma cc0_scratch5.sem)
abbrev c6cell : GSem nD τ sig := (thr d L, .dma cc0_scratch6.sem)
abbrev r0cell : GSem nD τ sig := (thr d L, .dma cc0_scoped0.sem)
abbrev r1cell : GSem nD τ sig := (thr d L, .dma cc0_scoped1.sem)
abbrev r2cell : GSem nD τ sig := (thr d L, .dma cc0_scoped2.sem)

/-- The task's other scoped semaphores. -/
def restCells : Finset (GSem nD τ sig) :=
  (((((ownCells (thr d L)).erase (c5cell d L)).erase (c6cell d L)).erase (r0cell d L)).erase (r1cell d L)).erase (r2cell d L)

omit [FloatOps F] in
theorem ownSems0_V :
    (ownSems0 (thr d L) : sProp 𝕄)
      = iprop(semVal (c5cell d L) 0 ∗ semVal (c6cell d L) 0 ∗ semVal (r0cell d L) 0 ∗ semVal (r1cell d L) 0 ∗ semVal (r2cell d L) 0
          ∗ bigSep (restCells d L) fun g => semVal g 0) := by
  unfold SparseCore.Cfg.ownSems0 restCells
  have hm : ∀ sm : DmaSem sig, ((thr d L, SemLoc.dma sm) : GSem nD τ sig) ∈ ownCells (thr d L) := fun sm =>
    (mem_ownCells (g := (thr d L, SemLoc.dma sm))).mpr ⟨rfl, rfl⟩
  have hne : ∀ a b : DmaSem sig, a ≠ b → ((thr d L, SemLoc.dma a) : GSem nD τ sig) ≠ (thr d L, SemLoc.dma b) :=
    fun a b h e => h (SemLoc.dma.inj (Prod.mk.inj e).2)
  exact bigSep_erase5 (hm _) (hm _) (hm _) (hm _) (hm _)
    (hne _ _ (by decide)) (hne _ _ (by decide)) (hne _ _ (by decide)) (hne _ _ (by decide)) (hne _ _ (by decide))
    (hne _ _ (by decide)) (hne _ _ (by decide)) (hne _ _ (by decide)) (hne _ _ (by decide)) (hne _ _ (by decide))

/-- The task's other scoped buffers. -/
def restRefs : Finset (DevRef τ sig) :=
  (((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4)

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep (restRefs L) fun b => iprop(∃ f, ((d, b) : Loc nD τ sig) ↦{fullShare} f)) := by
  unfold SparseCore.Cfg.ownBufs restRefs
  have hm : ∀ r : Ref sig .scVector, (Proc.scVector (cV L) (jV L)).devRef r ∈ ownRefs (τ := τ) (.scVector (cV L) (jV L)) → True := fun _ _ => trivial
  have hne : ∀ a b : Ref sig .scVector, a ≠ b → (Proc.scVector (cV L) (jV L)).devRef a ≠ (Proc.scVector (cV L) (jV L)).devRef b :=
    fun a b h e => h (Proc.devRef_injective _ e)
  exact bigSep_erase5
    (SparseCore.Cfg.mem_ownRefs_of_owner (p := Proc.scVector (cV L) (jV L)) (b := (Proc.scVector (cV L) (jV L)).devRef cc0_scratch0) rfl)
    (SparseCore.Cfg.mem_ownRefs_of_owner (p := Proc.scVector (cV L) (jV L)) (b := (Proc.scVector (cV L) (jV L)).devRef cc0_scratch1) rfl)
    (SparseCore.Cfg.mem_ownRefs_of_owner (p := Proc.scVector (cV L) (jV L)) (b := (Proc.scVector (cV L) (jV L)).devRef cc0_scratch2) rfl)
    (SparseCore.Cfg.mem_ownRefs_of_owner (p := Proc.scVector (cV L) (jV L)) (b := (Proc.scVector (cV L) (jV L)).devRef cc0_scratch3) rfl)
    (SparseCore.Cfg.mem_ownRefs_of_owner (p := Proc.scVector (cV L) (jV L)) (b := (Proc.scVector (cV L) (jV L)).devRef cc0_scratch4) rfl)
    (hne _ _ (by decide)) (hne _ _ (by decide)) (hne _ _ (by decide)) (hne _ _ (by decide)) (hne _ _ (by decide))
    (hne _ _ (by decide)) (hne _ _ (by decide)) (hne _ _ (by decide)) (hne _ _ (by decide)) (hne _ _ (by decide))

end Own

end Cert.Proof.KI

end
-- ==== Proof.KIGood.lean ====
/-
  The predicates the task's loop carries: which slabs of the result, and which rows of a staging buffer, already hold
  their final contents.
-/
import proofs.«206631_g81458349736089_cont_9to1c4b_538_8_alg».proof.Proof.KIOwn
import proofs.«206631_g81458349736089_cont_9to1c4b_538_8_alg».proof.Proof.SpecT

noncomputable section

namespace Cert.Proof.KI

open Cert.KernelIdeal Cert.KernelIdeal.Gen
open Idealize.ShloMosaic

variable {F : FTy → Type} [FloatOps F]

variable (d : Dev nD) (L : grid0.Coords) (I : Buf (Elt F) (v0Loc d)) (Wt : Buf (Elt F) (v2Loc d)) (Ps : Buf (Elt F) (a2Loc d))

/-- What the result holds in the end. -/
abbrev outF : Buf (Elt F) (v3Loc d) := Cert.Spec.outT (F := F) I Wt Ps

/-- The even slabs below `2 k` of the task's columns hold their final contents; -/
def GoodE (k : Nat) (g : Buf (Elt F) (v3Loc d)) : Prop :=
  ∀ (k' : Fin k0_t1_loop.trips) (y : S64x128.Idx), k'.val < k → g ((oEven L k').view.emb y) = outF d I Wt Ps ((oEven L k').view.emb y)
/-- the odd slabs below `2 k + 1`. -/
def GoodO (k : Nat) (g : Buf (Elt F) (v3Loc d)) : Prop :=
  ∀ (k' : Fin k0_t1_loop.trips) (y : S64x128.Idx), k'.val < k → g ((oOdd L k').view.emb y) = outF d I Wt Ps ((oOdd L k').view.emb y)

/-- Rows below `n` of a staging buffer hold `G`. -/
def GoodRows (G : S64x128.Idx → Elt F .f32) (n : Nat) (b : S64x128.Idx → Elt F .f32) : Prop :=
  ∀ y : S64x128.Idx, (y 0).val < n → b y = G y

/-- Row `r` of the task's columns of the index array: what the task's index scratch holds in that row. -/
def idxRow (r : Fin 200) : Fin 128 → BitVec 32 := fun c => (iCols L).view.read (Elt F) I (ValueIdx.ix2 r c)

/-- One slab's rows in a staging buffer: row `e`, column `c` holds the word-table head at (`e`, the slab's index word for
    column `c`) plus the positional table at (the slab, `e`). -/
def rowsG (l : Fin 200) (row : Fin 128 → BitVec 32) : S64x128.Idx → Elt F .f32 :=
  fun y => FloatOps.addf (Wt (ValueIdx.ix2 (y 0) (Cert.Spec.colOf (row (y 1))))) (Ps (ValueIdx.ix2 l (y 0)))

end Cert.Proof.KI

end
-- ==== Proof.KIVals.lean ====
/-
  Pure facts about the task's slices of the arrays and about the predicates the loop carries: where a slice's element
  sits in its array, how one copy of a staging buffer extends the slabs that hold their final contents, and that in
  the end the task's elements of the result hold it.
-/
import proofs.«206631_g81458349736089_cont_9to1c4b_538_8_alg».proof.Proof.KIGood

noncomputable section

namespace Cert.Proof.KI

open Cert.KernelIdeal Cert.KernelIdeal.Gen
open Idealize.ShloMosaic

variable {F : FTy → Type} [FloatOps F]

section Coords

variable (L : grid0.Coords)

/-- Dropping the leading axis of size one: the index of `[1, 64, 128]` matched with `y` is `y` behind the coordinate `0`. -/
theorem squeeze_idx (y : S64x128.Idx) :
    Shape.reshapeEquiv squeezes_S1x64x128_S64x128.numel_eq y = Fin.cons ⟨0, Nat.one_pos⟩ y :=
  Shape.reshapeEquiv_cons_one _ y

/-- A coordinate of an element of slab `2 k`'s slice: the slice's offset plus the coordinate inside the `[1, 64, 128]` block. -/
theorem oEven_emb_val (k : Fin k0_t1_loop.trips) (y : S64x128.Idx) (a : Fin 3) :
    ((oEven L k).view.emb y a).val = (![2 * k.val, 0, 256 * (L 1).val + 128 * (L 0).val] : Fin 3 → Nat) a
      + 1 * ((Fin.cons ⟨0, Nat.one_pos⟩ y : S1x64x128.Idx) a).val := by
  rw [← squeeze_idx, ← k0_off19_eq L k]
  rfl
theorem oOdd_emb_val (k : Fin k0_t1_loop.trips) (y : S64x128.Idx) (a : Fin 3) :
    ((oOdd L k).view.emb y a).val = (![2 * k.val + 1, 0, 256 * (L 1).val + 128 * (L 0).val] : Fin 3 → Nat) a
      + 1 * ((Fin.cons ⟨0, Nat.one_pos⟩ y : S1x64x128.Idx) a).val := by
  rw [← squeeze_idx, ← k0_off37_eq L k]
  rfl
theorem iCols_emb_val (x : S200x128.Idx) (a : Fin 2) :
    ((iCols L).view.emb x a).val = (![0, 256 * (L 1).val + 128 * (L 0).val] : Fin 2 → Nat) a + 1 * (x a).val := by
  rw [← k0_off1_eq L]
  rfl

theorem oEven_emb0 (k : Fin k0_t1_loop.trips) (y : S64x128.Idx) : ((oEven L k).view.emb y 0).val = 2 * k.val := by
  have h := oEven_emb_val L k y 0
  have e : (((Fin.cons ⟨0, Nat.one_pos⟩ y : S1x64x128.Idx) 0).val : Nat) = 0 := rfl
  have o : (![2 * k.val, 0, 256 * (L 1).val + 128 * (L 0).val] : Fin 3 → Nat) 0 = 2 * k.val := rfl
  rw [e, o] at h
  omega
theorem oEven_emb1 (k : Fin k0_t1_loop.trips) (y : S64x128.Idx) : ((oEven L k).view.emb y 1).val = (y 0).val := by
  have h := oEven_emb_val L k y 1
  have e : (((Fin.cons ⟨0, Nat.one_pos⟩ y : S1x64x128.Idx) 1).val : Nat) = (y 0).val := rfl
  have o : (![2 * k.val, 0, 256 * (L 1).val + 128 * (L 0).val] : Fin 3 → Nat) 1 = 0 := rfl
  rw [e, o] at h
  omega
theorem oEven_emb2 (k : Fin k0_t1_loop.trips) (y : S64x128.Idx) :
    ((oEven L k).view.emb y 2).val = 256 * (L 1).val + 128 * (L 0).val + (y 1).val := by
  have h := oEven_emb_val L k y 2
  have e : (((Fin.cons ⟨0, Nat.one_pos⟩ y : S1x64x128.Idx) 2).val : Nat) = (y 1).val := rfl
  have o : (![2 * k.val, 0, 256 * (L 1).val + 128 * (L 0).val] : Fin 3 → Nat) 2 = 256 * (L 1).val + 128 * (L 0).val := rfl
  rw [e, o] at h
  omega
theorem oOdd_emb0 (k : Fin k0_t1_loop.trips) (y : S64x128.Idx) : ((oOdd L k).view.emb y 0).val = 2 * k.val + 1 := by
  have h := oOdd_emb_val L k y 0
  have e : (((Fin.cons ⟨0, Nat.one_pos⟩ y : S1x64x128.Idx) 0).val : Nat) = 0 := rfl
  have o : (![2 * k.val + 1, 0, 256 * (L 1).val + 128 * (L 0).val] : Fin 3 → Nat) 0 = 2 * k.val + 1 := rfl
  rw [e, o] at h
  omega
theorem oOdd_emb1 (k : Fin k0_t1_loop.trips) (y : S64x128.Idx) : ((oOdd L k).view.emb y 1).val = (y 0).val := by
  have h := oOdd_emb_val L k y 1
  have e : (((Fin.cons ⟨0, Nat.one_pos⟩ y : S1x64x128.Idx) 1).val : Nat) = (y 0).val := rfl
  have o : (![2 * k.val + 1, 0, 256 * (L 1).val + 128 * (L 0).val] : Fin 3 → Nat) 1 = 0 := rfl
  rw [e, o] at h
  omega
theorem oOdd_emb2 (k : Fin k0_t1_loop.trips) (y : S64x128.Idx) :
    ((oOdd L k).view.emb y 2).val = 256 * (L 1).val + 128 * (L 0).val + (y 1).val := by
  have h := oOdd_emb_val L k y 2
  have e : (((Fin.cons ⟨0, Nat.one_pos⟩ y : S1x64x128.Idx) 2).val : Nat) = (y 1).val := rfl
  have o : (![2 * k.val + 1, 0, 256 * (L 1).val + 128 * (L 0).val] : Fin 3 → Nat) 2 = 256 * (L 1).val + 128 * (L 0).val := rfl
  rw [e, o] at h
  omega
theorem iCols_emb0 (x : S200x128.Idx) : ((iCols L).view.emb x 0).val = (x 0).val := by
  have h := iCols_emb_val L x 0
  have o : (![0, 256 * (L 1).val + 128 * (L 0).val] : Fin 2 → Nat) 0 = 0 := rfl
  rw [o] at h
  omega
theorem iCols_emb1 (x : S200x128.Idx) : ((iCols L).view.emb x 1).val = 256 * (L 1).val + 128 * (L 0).val + (x 1).val := by
  have h := iCols_emb_val L x 1
  have o : (![0, 256 * (L 1).val + 128 * (L 0).val] : Fin 2 → Nat) 1 = 256 * (L 1).val + 128 * (L 0).val := rfl
  rw [o] at h
  omega

end Coords

section Good

variable (d : Dev nD) (L : grid0.Coords) (I : Buf (Elt F) (v0Loc d)) (Wt : Buf (Elt F) (v2Loc d)) (Ps : Buf (Elt F) (a2Loc d))

theorem goodE_zero (g : Buf (Elt F) (v3Loc d)) : GoodE d L I Wt Ps 0 g := fun _ _ h => absurd h (Nat.not_lt_zero _)
theorem goodO_zero (g : Buf (Elt F) (v3Loc d)) : GoodO d L I Wt Ps 0 g := fun _ _ h => absurd h (Nat.not_lt_zero _)

/-- An element of an earlier even slab's slice is not under the slice of slab `2 k`: their slab numbers differ. -/
theorem oEven_emb_not_mem (k k' : Fin k0_t1_loop.trips) (y : S64x128.Idx) (h : k'.val ≠ k.val) :
    (oEven L k').view.emb y ∉ (oEven L k).view.setOn Finset.univ := by
  rw [View.setOn_univ]
  intro hmem
  obtain ⟨y', -, hy'⟩ := Finset.mem_map.mp hmem
  have h0 : ((oEven L k).view.emb y' 0).val = ((oEven L k').view.emb y 0).val := congrArg (fun j : S200x64x4096.Idx => (j 0).val) hy'
  rw [oEven_emb0, oEven_emb0] at h0
  omega
theorem oOdd_emb_not_mem (k k' : Fin k0_t1_loop.trips) (y : S64x128.Idx) (h : k'.val ≠ k.val) :
    (oOdd L k').view.emb y ∉ (oOdd L k).view.setOn Finset.univ := by
  rw [View.setOn_univ]
  intro hmem
  obtain ⟨y', -, hy'⟩ := Finset.mem_map.mp hmem
  have h0 : ((oOdd L k).view.emb y' 0).val = ((oOdd L k').view.emb y 0).val := congrArg (fun j : S200x64x4096.Idx => (j 0).val) hy'
  rw [oOdd_emb0, oOdd_emb0] at h0
  omega

/-- Copying slab `2 k`'s final contents into its slice extends the even slabs done by one. -/
theorem goodE_step (k : Fin k0_t1_loop.trips) (g : Buf (Elt F) (v3Loc d)) (w : S64x128.Idx → Elt F .f32)
    (hg : GoodE d L I Wt Ps k.val g) (hw : ∀ y, w y = outF d I Wt Ps ((oEven L k).view.emb y)) :
    GoodE d L I Wt Ps (k.val + 1) ((oEven L k).view.write (Elt F) g w Finset.univ) := by
  intro k' y hk'
  by_cases hkk : k'.val = k.val
  · obtain rfl : k' = k := Fin.ext hkk
    rw [View.write_emb_of_mem (v := (oEven L k').view) g w (Finset.mem_univ y), hw y]
    rfl
  · rw [View.write_of_not_mem (v := (oEven L k).view) g w Finset.univ (oEven_emb_not_mem L k k' y hkk)]
    exact hg k' y (by omega)
theorem goodO_step (k : Fin k0_t1_loop.trips) (g : Buf (Elt F) (v3Loc d)) (w : S64x128.Idx → Elt F .f32)
    (hg : GoodO d L I Wt Ps k.val g) (hw : ∀ y, w y = outF d I Wt Ps ((oOdd L k).view.emb y)) :
    GoodO d L I Wt Ps (k.val + 1) ((oOdd L k).view.write (Elt F) g w Finset.univ) := by
  intro k' y hk'
  by_cases hkk : k'.val = k.val
  · obtain rfl : k' = k := Fin.ext hkk
    rw [View.write_emb_of_mem (v := (oOdd L k').view) g w (Finset.mem_univ y), hw y]
    rfl
  · rw [View.write_of_not_mem (v := (oOdd L k).view) g w Finset.univ (oOdd_emb_not_mem L k k' y hkk)]
    exact hg k' y (by omega)

/-- With every slab done the task's elements of the result hold their final contents. -/
theorem goodE_all (g : Buf (Elt F) (v3Loc d)) (hg : GoodE d L I Wt Ps k0_t1_loop.trips g) : ∀ j ∈ oE L, g j = outF d I Wt Ps j := by
  intro j hj
  unfold oE at hj
  obtain ⟨k, -, hk⟩ := Finset.mem_biUnion.mp hj
  obtain ⟨y, -, rfl⟩ := Finset.mem_map.mp hk
  exact hg k y k.isLt
theorem goodO_all (g : Buf (Elt F) (v3Loc d)) (hg : GoodO d L I Wt Ps k0_t1_loop.trips g) : ∀ j ∈ oO L, g j = outF d I Wt Ps j := by
  intro j hj
  unfold oO at hj
  obtain ⟨k, -, hk⟩ := Finset.mem_biUnion.mp hj
  obtain ⟨y, -, rfl⟩ := Finset.mem_map.mp hk
  exact hg k y k.isLt

/-- The slice of slab `2 k` (`2 k + 1`) lies among the task's even (odd) elements. -/
theorem oEven_subset (k : Fin k0_t1_loop.trips) : (oEven L k).view.set ⊆ oE L := by
  intro j hj
  unfold oE
  exact Finset.mem_biUnion.mpr ⟨k, Finset.mem_univ k, hj⟩
theorem oOdd_subset (k : Fin k0_t1_loop.trips) : (oOdd L k).view.set ⊆ oO L := by
  intro j hj
  unfold oO
  exact Finset.mem_biUnion.mpr ⟨k, Finset.mem_univ k, hj⟩

end Good

section Rows

/-- Which elements a one-row, sixteen-column piece at row `r`, columns from `c`, covers. -/
theorem mem_piece {off : Fin 2 → Nat} (inb : ∀ a, off a + S1x16.size a ≤ S64x128.size a) {r c : Nat} (h : off = ![r, c])
    (y : S64x128.Idx) :
    y ∈ (Rect.unit (s := S64x128) off S1x16.size inb).set ↔ (y 0).val = r ∧ c ≤ (y 1).val ∧ (y 1).val < c + 16 := by
  subst h
  rw [Rect.mem_set_unit]
  constructor
  · intro hh
    have h0 : r ≤ (y 0).val ∧ (y 0).val < r + 1 := hh 0
    have h1 : c ≤ (y 1).val ∧ (y 1).val < c + 16 := hh 1
    omega
  · intro hh a
    match a with
    | ⟨0, _⟩ =>
      show r ≤ (y 0).val ∧ (y 0).val < r + 1
      omega
    | ⟨1, _⟩ =>
      show c ≤ (y 1).val ∧ (y 1).val < c + 16
      omega

/-- Where such a piece's element sits: row `r`, column `c` plus its own column. -/
theorem piece_emb0 {off : Fin 2 → Nat} (inb : ∀ a, off a + S1x16.size a ≤ S64x128.size a) {r c : Nat} (h : off = ![r, c])
    (x : S1x16.Idx) : ((Rect.unit (s := S64x128) off S1x16.size inb).emb x 0).val = r := by
  subst h
  have hx : (x 0).val < 1 := (x 0).isLt
  show r + 1 * (x 0).val = r
  omega
theorem piece_emb1 {off : Fin 2 → Nat} (inb : ∀ a, off a + S1x16.size a ≤ S64x128.size a) {r c : Nat} (h : off = ![r, c])
    (x : S1x16.Idx) : ((Rect.unit (s := S64x128) off S1x16.size inb).emb x 1).val = c + (x 1).val := by
  subst h
  show c + 1 * (x 1).val = c + (x 1).val
  omega

/-- Eight stores of sixteen columns each into row `n` of a `[64, 128]` buffer whose rows below `n` read `G`, each payload
    agreeing with `G` on its columns of that row: afterwards the rows below `n + 1` read `G`. -/
theorem rows_step_gen {κ : Kind} {sp : Space} (v : View sig κ sp S64x128 .f32) (G : S64x128.Idx → Elt F .f32) (n : Nat)
    (f : v.ty.Contents (Elt F)) {o0 o1 o2 o3 o4 o5 o6 o7 : Fin 2 → Nat}
    (i0 : ∀ a, o0 a + S1x16.size a ≤ S64x128.size a)
    (i1 : ∀ a, o1 a + S1x16.size a ≤ S64x128.size a)
    (i2 : ∀ a, o2 a + S1x16.size a ≤ S64x128.size a)
    (i3 : ∀ a, o3 a + S1x16.size a ≤ S64x128.size a)
    (i4 : ∀ a, o4 a + S1x16.size a ≤ S64x128.size a)
    (i5 : ∀ a, o5 a + S1x16.size a ≤ S64x128.size a)
    (i6 : ∀ a, o6 a + S1x16.size a ≤ S64x128.size a)
    (i7 : ∀ a, o7 a + S1x16.size a ≤ S64x128.size a)
    (e0 : o0 = ![n, 0])     (e1 : o1 = ![n, 16])     (e2 : o2 = ![n, 32])     (e3 : o3 = ![n, 48])     (e4 : o4 = ![n, 64])     (e5 : o5 = ![n, 80])     (e6 : o6 = ![n, 96])     (e7 : o7 = ![n, 112])
    (w0 w1 w2 w3 w4 w5 w6 w7 : S1x16.Idx → Elt F .f32)
    (hb : ∀ y : S64x128.Idx, (y 0).val < n → v.read (Elt F) f y = G y)
    (h0 : ∀ x : S1x16.Idx, ∀ y : S64x128.Idx, (y 0).val = n → (y 1).val = 0 + (x 1).val → w0 x = G y)
    (h1 : ∀ x : S1x16.Idx, ∀ y : S64x128.Idx, (y 0).val = n → (y 1).val = 16 + (x 1).val → w1 x = G y)
    (h2 : ∀ x : S1x16.Idx, ∀ y : S64x128.Idx, (y 0).val = n → (y 1).val = 32 + (x 1).val → w2 x = G y)
    (h3 : ∀ x : S1x16.Idx, ∀ y : S64x128.Idx, (y 0).val = n → (y 1).val = 48 + (x 1).val → w3 x = G y)
    (h4 : ∀ x : S1x16.Idx, ∀ y : S64x128.Idx, (y 0).val = n → (y 1).val = 64 + (x 1).val → w4 x = G y)
    (h5 : ∀ x : S1x16.Idx, ∀ y : S64x128.Idx, (y 0).val = n → (y 1).val = 80 + (x 1).val → w5 x = G y)
    (h6 : ∀ x : S1x16.Idx, ∀ y : S64x128.Idx, (y 0).val = n → (y 1).val = 96 + (x 1).val → w6 x = G y)
    (h7 : ∀ x : S1x16.Idx, ∀ y : S64x128.Idx, (y 0).val = n → (y 1).val = 112 + (x 1).val → w7 x = G y) :
    ∀ y : S64x128.Idx, (y 0).val < n + 1 → v.read (Elt F) (v.writes (Elt F) f
      [⟨Rect.unit (s := S64x128) o7 S1x16.size i7, w7⟩,
       ⟨Rect.unit (s := S64x128) o6 S1x16.size i6, w6⟩,
       ⟨Rect.unit (s := S64x128) o5 S1x16.size i5, w5⟩,
       ⟨Rect.unit (s := S64x128) o4 S1x16.size i4, w4⟩,
       ⟨Rect.unit (s := S64x128) o3 S1x16.size i3, w3⟩,
       ⟨Rect.unit (s := S64x128) o2 S1x16.size i2, w2⟩,
       ⟨Rect.unit (s := S64x128) o1 S1x16.size i1, w1⟩,
       ⟨Rect.unit (s := S64x128) o0 S1x16.size i0, w0⟩]) y = G y := by
  intro y hy
  by_cases hlt : (y 0).val < n
  · rw [View.read_writes_apply_of_forall_not_mem v f y]
    · exact hb y hlt
    · intro p hp
      simp only [List.mem_cons, List.not_mem_nil, or_false] at hp
      rcases hp with rfl | rfl | rfl | rfl | rfl | rfl | rfl | rfl
      · exact fun hm => by have := ((mem_piece i7 e7 y).1 hm).1; omega
      · exact fun hm => by have := ((mem_piece i6 e6 y).1 hm).1; omega
      · exact fun hm => by have := ((mem_piece i5 e5 y).1 hm).1; omega
      · exact fun hm => by have := ((mem_piece i4 e4 y).1 hm).1; omega
      · exact fun hm => by have := ((mem_piece i3 e3 y).1 hm).1; omega
      · exact fun hm => by have := ((mem_piece i2 e2 y).1 hm).1; omega
      · exact fun hm => by have := ((mem_piece i1 e1 y).1 hm).1; omega
      · exact fun hm => by have := ((mem_piece i0 e0 y).1 hm).1; omega
  · have hrow : (y 0).val = n := by omega
    refine View.read_writes_apply_of_pieces v f G _ ?_ y ?_
    · intro p hp x
      simp only [List.mem_cons, List.not_mem_nil, or_false] at hp
      rcases hp with rfl | rfl | rfl | rfl | rfl | rfl | rfl | rfl
      · exact h7 x _ (piece_emb0 i7 e7 x) (piece_emb1 i7 e7 x)
      · exact h6 x _ (piece_emb0 i6 e6 x) (piece_emb1 i6 e6 x)
      · exact h5 x _ (piece_emb0 i5 e5 x) (piece_emb1 i5 e5 x)
      · exact h4 x _ (piece_emb0 i4 e4 x) (piece_emb1 i4 e4 x)
      · exact h3 x _ (piece_emb0 i3 e3 x) (piece_emb1 i3 e3 x)
      · exact h2 x _ (piece_emb0 i2 e2 x) (piece_emb1 i2 e2 x)
      · exact h1 x _ (piece_emb0 i1 e1 x) (piece_emb1 i1 e1 x)
      · exact h0 x _ (piece_emb0 i0 e0 x) (piece_emb1 i0 e0 x)
    · have hy1 : (y 1).val < 128 := (y 1).isLt
      have hc : (y 1).val < 16 ∨ (16 ≤ (y 1).val ∧ (y 1).val < 32) ∨ (32 ≤ (y 1).val ∧ (y 1).val < 48)
          ∨ (48 ≤ (y 1).val ∧ (y 1).val < 64) ∨ (64 ≤ (y 1).val ∧ (y 1).val < 80) ∨ (80 ≤ (y 1).val ∧ (y 1).val < 96)
          ∨ (96 ≤ (y 1).val ∧ (y 1).val < 112) ∨ 112 ≤ (y 1).val := by omega
      rcases hc with hc | hc | hc | hc | hc | hc | hc | hc
      · exact ⟨_, List.Mem.tail _ (List.Mem.tail _ (List.Mem.tail _ (List.Mem.tail _ (List.Mem.tail _ (List.Mem.tail _ (List.Mem.tail _ (List.Mem.head _))))))), (mem_piece i0 e0 y).2 ⟨hrow, by omega, by omega⟩⟩
      · exact ⟨_, List.Mem.tail _ (List.Mem.tail _ (List.Mem.tail _ (List.Mem.tail _ (List.Mem.tail _ (List.Mem.tail _ (List.Mem.head _)))))), (mem_piece i1 e1 y).2 ⟨hrow, by omega, by omega⟩⟩
      · exact ⟨_, List.Mem.tail _ (List.Mem.tail _ (List.Mem.tail _ (List.Mem.tail _ (List.Mem.tail _ (List.Mem.head _))))), (mem_piece i2 e2 y).2 ⟨hrow, by omega, by omega⟩⟩
      · exact ⟨_, List.Mem.tail _ (List.Mem.tail _ (List.Mem.tail _ (List.Mem.tail _ (List.Mem.head _)))), (mem_piece i3 e3 y).2 ⟨hrow, by omega, by omega⟩⟩
      · exact ⟨_, List.Mem.tail _ (List.Mem.tail _ (List.Mem.tail _ (List.Mem.head _))), (mem_piece i4 e4 y).2 ⟨hrow, by omega, by omega⟩⟩
      · exact ⟨_, List.Mem.tail _ (List.Mem.tail _ (List.Mem.head _)), (mem_piece i5 e5 y).2 ⟨hrow, by omega, by omega⟩⟩
      · exact ⟨_, List.Mem.tail _ (List.Mem.head _), (mem_piece i6 e6 y).2 ⟨hrow, by omega, by omega⟩⟩
      · exact ⟨_, List.Mem.head _, (mem_piece i7 e7 y).2 ⟨hrow, by omega, by omega⟩⟩

/-- One inner trip's eight stores into row `e` of the first staging buffer extend the rows that hold `G` by one. -/
theorem rows_step0 (G : S64x128.Idx → Elt F .f32) (e : Fin k0_t2_loop.trips) (b : S64x128.Idx → Elt F .f32)
    (w0 w1 w2 w3 w4 w5 w6 w7 : S1x16.Idx → Elt F .f32) (hb : GoodRows G e.val b)
    (h0 : ∀ x : S1x16.Idx, ∀ y : S64x128.Idx, (y 0).val = e.val → (y 1).val = 0 + (x 1).val → w0 x = G y)
    (h1 : ∀ x : S1x16.Idx, ∀ y : S64x128.Idx, (y 0).val = e.val → (y 1).val = 16 + (x 1).val → w1 x = G y)
    (h2 : ∀ x : S1x16.Idx, ∀ y : S64x128.Idx, (y 0).val = e.val → (y 1).val = 32 + (x 1).val → w2 x = G y)
    (h3 : ∀ x : S1x16.Idx, ∀ y : S64x128.Idx, (y 0).val = e.val → (y 1).val = 48 + (x 1).val → w3 x = G y)
    (h4 : ∀ x : S1x16.Idx, ∀ y : S64x128.Idx, (y 0).val = e.val → (y 1).val = 64 + (x 1).val → w4 x = G y)
    (h5 : ∀ x : S1x16.Idx, ∀ y : S64x128.Idx, (y 0).val = e.val → (y 1).val = 80 + (x 1).val → w5 x = G y)
    (h6 : ∀ x : S1x16.Idx, ∀ y : S64x128.Idx, (y 0).val = e.val → (y 1).val = 96 + (x 1).val → w6 x = G y)
    (h7 : ∀ x : S1x16.Idx, ∀ y : S64x128.Idx, (y 0).val = e.val → (y 1).val = 112 + (x 1).val → w7 x = G y) :
    GoodRows G (e.val + 1) ((sB0).view.writes (Elt F) b
      [⟨Rect.unit (s := S64x128) (k0_off18 e) S1x16.size (k0_off18_inb e), w7⟩,
       ⟨Rect.unit (s := S64x128) (k0_off17 e) S1x16.size (k0_off17_inb e), w6⟩,
       ⟨Rect.unit (s := S64x128) (k0_off16 e) S1x16.size (k0_off16_inb e), w5⟩,
       ⟨Rect.unit (s := S64x128) (k0_off15 e) S1x16.size (k0_off15_inb e), w4⟩,
       ⟨Rect.unit (s := S64x128) (k0_off14 e) S1x16.size (k0_off14_inb e), w3⟩,
       ⟨Rect.unit (s := S64x128) (k0_off13 e) S1x16.size (k0_off13_inb e), w2⟩,
       ⟨Rect.unit (s := S64x128) (k0_off12 e) S1x16.size (k0_off12_inb e), w1⟩,
       ⟨Rect.unit (s := S64x128) (k0_off11 e) S1x16.size (k0_off11_inb e), w0⟩]) :=
  rows_step_gen (sB0).view G e.val b (k0_off11_inb e) (k0_off12_inb e) (k0_off13_inb e) (k0_off14_inb e) (k0_off15_inb e) (k0_off16_inb e) (k0_off17_inb e) (k0_off18_inb e)
    (k0_off11_eq e) (k0_off12_eq e) (k0_off13_eq e) (k0_off14_eq e) (k0_off15_eq e) (k0_off16_eq e) (k0_off17_eq e) (k0_off18_eq e)
    w0 w1 w2 w3 w4 w5 w6 w7 hb h0 h1 h2 h3 h4 h5 h6 h7

/-- One inner trip's eight stores into row `e` of the second staging buffer extend the rows that hold `G` by one. -/
theorem rows_step1 (G : S64x128.Idx → Elt F .f32) (e : Fin k0_t3_loop.trips) (b : S64x128.Idx → Elt F .f32)
    (w0 w1 w2 w3 w4 w5 w6 w7 : S1x16.Idx → Elt F .f32) (hb : GoodRows G e.val b)
    (h0 : ∀ x : S1x16.Idx, ∀ y : S64x128.Idx, (y 0).val = e.val → (y 1).val = 0 + (x 1).val → w0 x = G y)
    (h1 : ∀ x : S1x16.Idx, ∀ y : S64x128.Idx, (y 0).val = e.val → (y 1).val = 16 + (x 1).val → w1 x = G y)
    (h2 : ∀ x : S1x16.Idx, ∀ y : S64x128.Idx, (y 0).val = e.val → (y 1).val = 32 + (x 1).val → w2 x = G y)
    (h3 : ∀ x : S1x16.Idx, ∀ y : S64x128.Idx, (y 0).val = e.val → (y 1).val = 48 + (x 1).val → w3 x = G y)
    (h4 : ∀ x : S1x16.Idx, ∀ y : S64x128.Idx, (y 0).val = e.val → (y 1).val = 64 + (x 1).val → w4 x = G y)
    (h5 : ∀ x : S1x16.Idx, ∀ y : S64x128.Idx, (y 0).val = e.val → (y 1).val = 80 + (x 1).val → w5 x = G y)
    (h6 : ∀ x : S1x16.Idx, ∀ y : S64x128.Idx, (y 0).val = e.val → (y 1).val = 96 + (x 1).val → w6 x = G y)
    (h7 : ∀ x : S1x16.Idx, ∀ y : S64x128.Idx, (y 0).val = e.val → (y 1).val = 112 + (x 1).val → w7 x = G y) :
    GoodRows G (e.val + 1) ((sB1).view.writes (Elt F) b
      [⟨Rect.unit (s := S64x128) (k0_off36 e) S1x16.size (k0_off36_inb e), w7⟩,
       ⟨Rect.unit (s := S64x128) (k0_off35 e) S1x16.size (k0_off35_inb e), w6⟩,
       ⟨Rect.unit (s := S64x128) (k0_off34 e) S1x16.size (k0_off34_inb e), w5⟩,
       ⟨Rect.unit (s := S64x128) (k0_off33 e) S1x16.size (k0_off33_inb e), w4⟩,
       ⟨Rect.unit (s := S64x128) (k0_off32 e) S1x16.size (k0_off32_inb e), w3⟩,
       ⟨Rect.unit (s := S64x128) (k0_off31 e) S1x16.size (k0_off31_inb e), w2⟩,
       ⟨Rect.unit (s := S64x128) (k0_off30 e) S1x16.size (k0_off30_inb e), w1⟩,
       ⟨Rect.unit (s := S64x128) (k0_off29 e) S1x16.size (k0_off29_inb e), w0⟩]) :=
  rows_step_gen (sB1).view G e.val b (k0_off29_inb e) (k0_off30_inb e) (k0_off31_inb e) (k0_off32_inb e) (k0_off33_inb e) (k0_off34_inb e) (k0_off35_inb e) (k0_off36_inb e)
    (k0_off29_eq e) (k0_off30_eq e) (k0_off31_eq e) (k0_off32_eq e) (k0_off33_eq e) (k0_off34_eq e) (k0_off35_eq e) (k0_off36_eq e)
    w0 w1 w2 w3 w4 w5 w6 w7 hb h0 h1 h2 h3 h4 h5 h6 h7

end Rows

end Cert.Proof.KI

end
-- ==== Proof.KIPure.lean ====
/-
  Pure facts the task's run uses: where a sixteen-lane load of the index scratch reads, that every index word read is
  a row of the word-table head, the value one lane of a row store holds, and that a slab's rows are the result's.
-/
import proofs.«206631_g81458349736089_cont_9to1c4b_538_8_alg».proof.Proof.KIVals
import Idealize.ShloMosaic.Lib.ValueLayout

noncomputable section

namespace Cert.Proof.KI

open Cert.KernelIdeal Cert.KernelIdeal.Gen
open Idealize.ShloMosaic Idealize.ShloMosaic.ValueIdx

variable {F : FTy → Type} [FloatOps F]

/-- A sixteen-lane load of the index scratch at offsets `[o0, o1]` reads row `o0`, columns `o1 + lane`. -/
theorem sI_idx (off : Fin 2 → Nat) (h : ∀ a, off a + S1x16.size a ≤ S200x128.size a) (o0 o1 : Nat) (hoff : off = ![o0, o1])
    (x : S1x16.Idx) (r : Fin 200) (c : Fin 128) (hr : r.val = o0) (hc : c.val = o1 + (x 1).val) :
    (Rect.unit (s := S200x128) off S1x16.size h).toLoadRect.idx x = ix2 r c := by
  subst hoff
  funext a
  apply Fin.ext
  rw [LoadRect.idx_apply]
  match a with
  | ⟨0, _⟩ =>
    show o0 + 1 * (x 0).val = r.val
    have hx0 : (x 0).val < 1 := (x 0).isLt
    omega
  | ⟨1, _⟩ =>
    show o1 + 1 * (x 1).val = c.val
    omega

section

variable (d : Dev nD) (L : grid0.Coords) (I : Buf (Elt F) (v0Loc d)) (Wt : Buf (Elt F) (v2Loc d)) (Ps : Buf (Elt F) (a2Loc d))

/-- What a sixteen-lane load of the index scratch (holding the task's columns of the index array) answers. -/
theorem sI_load (off : Fin 2 → Nat) (h : ∀ a, off a + S1x16.size a ≤ S200x128.size a) (o0 o1 : Nat) (hoff : off = ![o0, o1])
    (r : Fin 200) (hr : r.val = o0) (x : S1x16.Idx) (c : Fin 128) (hc : c.val = o1 + (x 1).val) :
    View.readAt (Elt F) (sI).view (Rect.unit (s := S200x128) off S1x16.size h).toLoadRect ((iCols L).view.read (Elt F) I) x
      = idxRow d L I r c := by
  show (iCols L).view.read (Elt F) I ((Rect.unit (s := S200x128) off S1x16.size h).toLoadRect.idx x) = _
  rw [sI_idx off h o0 o1 hoff x r c hr hc]
  rfl

theorem idxRow_lt (hpre : ∀ j, (I j).toNat < 200) (r : Fin 200) (c : Fin 128) : (idxRow d L I r c).toNat < 200 := by
  have e : idxRow d L I r c = I ((iCols L).view.emb (ix2 r c)) := (View.read_apply _ _).trans (cast_eq _ _)
  rw [e]
  exact hpre _

/-- Slab `2 k`'s rows are the result's on the slab's slice; -/
theorem rowsG_eq_outE (hpre : ∀ j, (I j).toNat < 200) (k : Fin k0_t1_loop.trips) (r : Fin 200) (hr : r.val = 2 * k.val) (y : S64x128.Idx) :
    rowsG d Wt Ps r (idxRow d L I r) y = outF d I Wt Ps ((oEven L k).view.emb y) := by
  have e0 : ((oEven L k).view.emb y) 0 = r := Fin.ext ((oEven_emb0 L k y).trans hr.symm)
  have e1 : ((oEven L k).view.emb y) 1 = y 0 := Fin.ext (oEven_emb1 L k y)
  have eI : idxRow d L I r (y 1) = I (ix2 (((oEven L k).view.emb y) 0) (((oEven L k).view.emb y) 2)) := by
    refine ((View.read_apply _ _).trans (cast_eq _ _)).trans (congrArg I ?_)
    funext a
    match a with
    | ⟨0, _⟩ => exact Fin.ext ((iCols_emb0 L _).trans (hr.trans (oEven_emb0 L k y).symm))
    | ⟨1, _⟩ => exact Fin.ext ((iCols_emb1 L _).trans (oEven_emb2 L k y).symm)
  show FloatOps.addf (Wt (ix2 (y 0) (Cert.Spec.colOf (idxRow d L I r (y 1))))) (Ps (ix2 r (y 0)))
    = FloatOps.addf (Wt (ix2 (((oEven L k).view.emb y) 1) (Cert.Spec.colOf (I (ix2 (((oEven L k).view.emb y) 0) (((oEven L k).view.emb y) 2))))))
        (Ps (ix2 (((oEven L k).view.emb y) 0) (((oEven L k).view.emb y) 1)))
  rw [eI, e0, e1]
/-- slab `2 k + 1`'s likewise. -/
theorem rowsG_eq_outO (hpre : ∀ j, (I j).toNat < 200) (k : Fin k0_t1_loop.trips) (r : Fin 200) (hr : r.val = 2 * k.val + 1) (y : S64x128.Idx) :
    rowsG d Wt Ps r (idxRow d L I r) y = outF d I Wt Ps ((oOdd L k).view.emb y) := by
  have e0 : ((oOdd L k).view.emb y) 0 = r := Fin.ext ((oOdd_emb0 L k y).trans hr.symm)
  have e1 : ((oOdd L k).view.emb y) 1 = y 0 := Fin.ext (oOdd_emb1 L k y)
  have eI : idxRow d L I r (y 1) = I (ix2 (((oOdd L k).view.emb y) 0) (((oOdd L k).view.emb y) 2)) := by
    refine ((View.read_apply _ _).trans (cast_eq _ _)).trans (congrArg I ?_)
    funext a
    match a with
    | ⟨0, _⟩ => exact Fin.ext ((iCols_emb0 L _).trans (hr.trans (oOdd_emb0 L k y).symm))
    | ⟨1, _⟩ => exact Fin.ext ((iCols_emb1 L _).trans (oOdd_emb2 L k y).symm)
  show FloatOps.addf (Wt (ix2 (y 0) (Cert.Spec.colOf (idxRow d L I r (y 1))))) (Ps (ix2 r (y 0)))
    = FloatOps.addf (Wt (ix2 (((oOdd L k).view.emb y) 1) (Cert.Spec.colOf (I (ix2 (((oOdd L k).view.emb y) 0) (((oOdd L k).view.emb y) 2))))))
        (Ps (ix2 (((oOdd L k).view.emb y) 0) (((oOdd L k).view.emb y) 1)))
  rw [eI, e0, e1]

end

/-- One lane of a row store: the gathered word-table entry plus the gathered positional entry, at the row's element. -/
theorem lane_val (Wt : S64x200.Idx → Elt F .f32) (Ps : S200x64.Idx → Elt F .f32) (vl ve1 ve2 : IVec S16 32) (vld : Vec F S1x16 .i32)
    (hc1 : S1x16.ShapeCasts S16) (hc2 : S16.ShapeCasts S1x16)
    (h1 : ∀ a x, ((![vl, ve1] : Fin 2 → IVec S16 32) a x).toNat < S200x64.size a)
    (h2 : ∀ a x, ((![ve2, shapeCast S16 vld hc1] : Fin 2 → IVec S16 32) a x).toNat < S64x200.size a)
    (l : Fin 200) (e : Fin 64) (hvl : ∀ x, (vl x).toNat = l.val) (hve1 : ∀ x, (ve1 x).toNat = e.val) (hve2 : ∀ x, (ve2 x).toNat = e.val)
    (row : Fin 128 → BitVec 32) (hrow : ∀ c, (row c).toNat < 200) (off : Nat)
    (hld : ∀ (x : S1x16.Idx) (c : Fin 128), c.val = off + (x 1).val → vld x = row c)
    (x : S1x16.Idx) (y : S64x128.Idx) (hy0 : (y 0).val = e.val) (hy1 : (y 1).val = off + (x 1).val) :
    shapeCast S1x16 (addf (loadIdx Wt ![ve2, shapeCast S16 vld hc1] h2) (loadIdx Ps ![vl, ve1] h1)) hc2 x
      = FloatOps.addf (Wt (ix2 (y 0) (Cert.Spec.colOf (row (y 1))))) (Ps (ix2 l (y 0))) := by
  obtain ⟨u, i, rfl⟩ : ∃ (u : Fin 1) (i : Fin 16), x = ix2 u i := ⟨x 0, x 1, eq_ix2 x⟩
  rw [shapeCast_a_1a_apply]
  show FloatOps.addf (Wt (idxAt ![ve2, shapeCast S16 vld hc1] h2 (ix1 i))) (Ps (idxAt ![vl, ve1] h1 (ix1 i))) = _
  -- the lane's index word is the row's word at the element's column
  have hv : shapeCast S16 vld hc1 (ix1 i) = row (y 1) := by
    rw [shapeCast_1a_a_apply]
    exact hld (ix2 0 i) (y 1) hy1
  have eW : idxAt ![ve2, shapeCast S16 vld hc1] h2 (ix1 i) = ix2 (y 0) (Cert.Spec.colOf (row (y 1))) := by
    funext a
    match a with
    | ⟨0, _⟩ => exact Fin.ext ((hve2 _).trans hy0.symm)
    | ⟨1, _⟩ =>
      apply Fin.ext
      show (shapeCast S16 vld hc1 (ix1 i)).toNat = (Cert.Spec.colOf (row (y 1))).val
      exact (congrArg BitVec.toNat hv).trans (Cert.Spec.colOf_val (hrow _)).symm
  have eP : idxAt ![vl, ve1] h1 (ix1 i) = ix2 l (y 0) := by
    funext a
    match a with
    | ⟨0, _⟩ => exact Fin.ext (hvl _)
    | ⟨1, _⟩ => exact Fin.ext ((hve1 _).trans hy0.symm)
  exact congrArg₂ FloatOps.addf (congrArg Wt eW) (congrArg Ps eP)

/-- The index vector a sixteen-lane load yields names rows of the word-table head. -/
theorem ld_lt (vld : Vec F S1x16 .i32) (hc1 : S1x16.ShapeCasts S16) (row : Fin 128 → BitVec 32) (hrow : ∀ c, (row c).toNat < 200) (off : Nat)
    (hoff : off + 16 ≤ 128) (hld : ∀ (x : S1x16.Idx) (c : Fin 128), c.val = off + (x 1).val → vld x = row c) (x : S16.Idx) :
    (shapeCast S16 vld hc1 x).toNat < 200 := by
  obtain ⟨i, rfl⟩ : ∃ i : Fin 16, x = ix1 i := ⟨x 0, eq_ix1 x⟩
  rw [shapeCast_1a_a_apply]
  have hi : i.val < 16 := i.isLt
  rw [hld (ix2 0 i) ⟨off + i.val, by omega⟩ rfl]
  exact hrow _

end Cert.Proof.KI

end
-- ==== Proof.KIDeliver.lean ====
/-
  The task's outer loop: what each staging buffer's copy delivers, the loop's invariant, and its two forms (before the
  first trip; from then on).
-/
import proofs.«206631_g81458349736089_cont_9to1c4b_538_8_alg».proof.Proof.KIPure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxRecDepth 65536

section Pts

variable (d : Dev nD) (L : grid0.Coords)

omit [FloatOps F] in
theorem pts_i (f : Buf (Elt F) (v0Loc d)) :
    ((iCols L).view.loc (thr d L) ↦[(iCols L).view.set]{fullShare} f : sProp 𝕄) = v0Loc d ↦[(iCols L).view.set]{fullShare} f := rfl
omit [FloatOps F] in
theorem pts_w (q : PosShare TreeShare) (f : Buf (Elt F) (v2Loc d)) :
    ((wV).view.loc (thr d L) ↦[(wV).view.set]{q} f : sProp 𝕄) = v2Loc d ↦{q} f := by
  simp only [Memref.view_whole, View.set_whole]
omit [FloatOps F] in
theorem pts_p (q : PosShare TreeShare) (f : Buf (Elt F) (a2Loc d)) :
    ((pV).view.loc (thr d L) ↦[(pV).view.set]{q} f : sProp 𝕄) = a2Loc d ↦{q} f := by
  simp only [Memref.view_whole, View.set_whole]
omit [FloatOps F] in
theorem pts_sW (f : Buf (Elt F) ((thr d L).loc cc0_scratch0)) :
    ((sW).view.loc (thr d L) ↦{fullShare} f : sProp 𝕄) = (thr d L).loc cc0_scratch0 ↦{fullShare} f := rfl
omit [FloatOps F] in
theorem pts_sP (f : Buf (Elt F) ((thr d L).loc cc0_scratch1)) :
    ((sP).view.loc (thr d L) ↦{fullShare} f : sProp 𝕄) = (thr d L).loc cc0_scratch1 ↦{fullShare} f := rfl
omit [FloatOps F] in
theorem pts_sI (f : Buf (Elt F) ((thr d L).loc cc0_scratch2)) :
    ((sI).view.loc (thr d L) ↦{fullShare} f : sProp 𝕄) = (thr d L).loc cc0_scratch2 ↦{fullShare} f := rfl
omit [FloatOps F] in
theorem pts_sB0 (f : Buf (Elt F) ((thr d L).loc cc0_scratch3)) :
    ((sB0).view.loc (thr d L) ↦{fullShare} f : sProp 𝕄) = (thr d L).loc cc0_scratch3 ↦{fullShare} f := rfl
omit [FloatOps F] in
theorem pts_sB1 (f : Buf (Elt F) ((thr d L).loc cc0_scratch4)) :
    ((sB1).view.loc (thr d L) ↦{fullShare} f : sProp 𝕄) = (thr d L).loc cc0_scratch4 ↦{fullShare} f := rfl

end Pts

abbrev NO : ℕ := sig.dmaCredit .scVector (Kind.scVector.table .hbm) (main_v3_scv : Ref sig .scVector).idx S64x128 .f32
theorem NO_pos : 0 < NO := sig.dmaCredit_pos _ _ _ _ _ (by decide)

theorem trips2_eq : k0_t2_loop.trips = 64 := by decide
theorem trips3_eq : k0_t3_loop.trips = 64 := by decide

section Inv

variable (d : Dev nD) (L : grid0.Coords) (I : Buf (Elt F) (v0Loc d)) (Wt : Buf (Elt F) (v2Loc d)) (Ps : Buf (Elt F) (a2Loc d))

/-- What the first staging buffer's copy hands back when it is waited for: the even slabs so far, and the buffer; -/
def DE (k : Nat) : sProp 𝕄 :=
  iprop(∃ g b, (v3Loc d ↦[oE L]{fullShare} g) ∗ ((sB0).view.loc (thr d L) ↦{fullShare} b) ∗ ⌜GoodE d L I Wt Ps k g⌝)
/-- the second's: the odd slabs so far, and the buffer. -/
def DO (k : Nat) : sProp 𝕄 :=
  iprop(∃ g b, (v3Loc d ↦[oO L]{fullShare} g) ∗ ((sB1).view.loc (thr d L) ↦{fullShare} b) ∗ ⌜GoodO d L I Wt Ps k g⌝)

theorem DE_eq (k : Nat) :
    DE d L I Wt Ps k = iprop(∃ g b, (v3Loc d ↦[oE L]{fullShare} g) ∗ ((sB0).view.loc (thr d L) ↦{fullShare} b) ∗ ⌜GoodE d L I Wt Ps k g⌝) := rfl
theorem DO_eq (k : Nat) :
    DO d L I Wt Ps k = iprop(∃ g b, (v3Loc d ↦[oO L]{fullShare} g) ∗ ((sB1).view.loc (thr d L) ↦{fullShare} b) ∗ ⌜GoodO d L I Wt Ps k g⌝) := rfl

/-- Before the first trip nothing is in flight; from then on each staging buffer's last copy is. -/
def EP (k : Nat) : sProp 𝕄 :=
  if k = 0 then iprop(DE d L I Wt Ps 0 ∗ semVal (c5cell d L) 0)
  else Transfers.Flight countersEmb (thr d L) (.dma cc0_scratch5.sem) (none : HIx 1) NO (DE d L I Wt Ps k)
def OP (k : Nat) : sProp 𝕄 :=
  if k = 0 then iprop(DO d L I Wt Ps 0 ∗ semVal (c6cell d L) 0)
  else Transfers.Flight countersEmb (thr d L) (.dma cc0_scratch6.sem) (none : HIx 1) NO (DO d L I Wt Ps k)

/-- The outer loop's invariant: the two tables and the index columns in the task's scratch, the two staging buffers'
    copies, and what the task owes. -/
def inv (O : CellTallies nD τ sig (HIx 1)) (W : Waits sig (HIx 1)) (k : Nat) (_ : BitVec 32) : sProp 𝕄 :=
  iprop(Transfers.MayWaits (thr d L) (none : HIx 1) O
    ∗ ((sW).view.loc (thr d L) ↦{fullShare} Wt) ∗ ((sP).view.loc (thr d L) ↦{fullShare} Ps)
    ∗ ((sI).view.loc (thr d L) ↦{fullShare} (iCols L).view.read (Elt F) I)
    ∗ EP d L I Wt Ps k ∗ OP d L I Wt Ps k ∗ ∃ W', ⌜∀ p ∈ W', p ∈ W ∨ p.2 = none⌝ ∗ owes (thr d L) O W')

end Inv

section InvEq

variable (d : Dev nD) (L : grid0.Coords) (I : Buf (Elt F) (v0Loc d)) (Wt : Buf (Elt F) (v2Loc d)) (Ps : Buf (Elt F) (a2Loc d))
  (O : CellTallies nD τ sig (HIx 1)) (W : Waits sig (HIx 1))

theorem inv_at_zero {k : Nat} (hk : k = 0) (acc : BitVec 32) :
    inv d L I Wt Ps O W k acc
      = iprop(Transfers.MayWaits (thr d L) (none : HIx 1) O
        ∗ ((sW).view.loc (thr d L) ↦{fullShare} Wt) ∗ ((sP).view.loc (thr d L) ↦{fullShare} Ps)
        ∗ ((sI).view.loc (thr d L) ↦{fullShare} (iCols L).view.read (Elt F) I)
        ∗ (DE d L I Wt Ps 0 ∗ semVal (c5cell d L) 0) ∗ (DO d L I Wt Ps 0 ∗ semVal (c6cell d L) 0)
        ∗ ∃ W', ⌜∀ p ∈ W', p ∈ W ∨ p.2 = none⌝ ∗ owes (thr d L) O W') := by
  subst hk; unfold inv EP OP; rw [if_pos rfl, if_pos rfl]

theorem inv_at_pos {k : Nat} (hk : 0 < k) (acc : BitVec 32) :
    inv d L I Wt Ps O W k acc
      = iprop(Transfers.MayWaits (thr d L) (none : HIx 1) O
        ∗ ((sW).view.loc (thr d L) ↦{fullShare} Wt) ∗ ((sP).view.loc (thr d L) ↦{fullShare} Ps)
        ∗ ((sI).view.loc (thr d L) ↦{fullShare} (iCols L).view.read (Elt F) I)
        ∗ Transfers.Flight countersEmb (thr d L) (.dma cc0_scratch5.sem) (none : HIx 1) NO (DE d L I Wt Ps k)
        ∗ Transfers.Flight countersEmb (thr d L) (.dma cc0_scratch6.sem) (none : HIx 1) NO (DO d L I Wt Ps k)
        ∗ ∃ W', ⌜∀ p ∈ W', p ∈ W ∨ p.2 = none⌝ ∗ owes (thr d L) O W') := by
  unfold inv EP OP; rw [if_neg (Nat.pos_iff_ne_zero.mp hk), if_neg (Nat.pos_iff_ne_zero.mp hk)]

end InvEq

theorem cond1_zero : ∀ k : Fin k0_t1_loop.trips, k.val = 0 → ¬ k0_cond1 k = 1#1 := by decide +kernel
theorem cond1_pos : ∀ k : Fin k0_t1_loop.trips, 0 < k.val → k0_cond1 k = 1#1 := by decide +kernel
theorem cond2_zero : ∀ k : Fin k0_t1_loop.trips, k.val = 0 → ¬ k0_cond2 k = 1#1 := by decide +kernel
theorem cond2_pos : ∀ k : Fin k0_t1_loop.trips, 0 < k.val → k0_cond2 k = 1#1 := by decide +kernel

section Deliver

variable (d : Dev nD) (L : grid0.Coords) (I : Buf (Elt F) (v0Loc d)) (Wt : Buf (Elt F) (v2Loc d)) (Ps : Buf (Elt F) (a2Loc d))

omit [FloatOps F] in
theorem pts_sB0_set (f : Buf (Elt F) ((sB0).view.loc (thr d L))) :
    ((sB0).view.loc (thr d L) ↦[(sB0).view.set]{fullShare} f : sProp 𝕄) = (sB0).view.loc (thr d L) ↦{fullShare} f := by
  simp only [Memref.view_whole, View.set_whole]
omit [FloatOps F] in
theorem pts_sB1_set (f : Buf (Elt F) ((sB1).view.loc (thr d L))) :
    ((sB1).view.loc (thr d L) ↦[(sB1).view.set]{fullShare} f : sProp 𝕄) = (sB1).view.loc (thr d L) ↦{fullShare} f := by
  simp only [Memref.view_whole, View.set_whole]
omit [FloatOps F] in
theorem pts_oE (k : Fin k0_t1_loop.trips) (f : Buf (Elt F) (v3Loc d)) :
    ((oEven L k).view.loc (thr d L) ↦[oE L]{fullShare} f : sProp 𝕄) = v3Loc d ↦[oE L]{fullShare} f := rfl
omit [FloatOps F] in
theorem pts_oO (k : Fin k0_t1_loop.trips) (f : Buf (Elt F) (v3Loc d)) :
    ((oOdd L k).view.loc (thr d L) ↦[oO L]{fullShare} f : sProp 𝕄) = v3Loc d ↦[oO L]{fullShare} f := rfl

/-- The copy of a finished slab out of the first staging buffer delivers the even slabs with one more done; -/
theorem deliverE (hpre : ∀ j, (I j).toNat < 200) (k : Fin k0_t1_loop.trips) (r : Fin 200) (hr : r.val = 2 * k.val)
    (gE : Buf (Elt F) (v3Loc d)) (b : Buf (Elt F) ((sB0).view.loc (thr d L))) (hg : GoodE d L I Wt Ps k.val gE)
    (hb : GoodRows (rowsG d Wt Ps r (idxRow d L I r)) k0_t2_loop.trips b) :
    iprop(((oEven L k).view.loc (thr d L) ↦[oE L]{fullShare}
            (oEven L k).view.write (Elt F) gE (ReadAs.same.apply ((sB0).view.read (Elt F) b)) Finset.univ)
        ∗ ((sB0).view.loc (thr d L) ↦[(sB0).view.set]{fullShare} b))
      ⊢ (DE d L I Wt Ps (k.val + 1) : sProp 𝕄) := by
  rw [DE_eq, pts_sB0_set, pts_oE]
  iintro ⟨Ho, Hs⟩
  iexists _, b
  isplitl [Ho]; · iexact Ho
  isplitl [Hs]; · iexact Hs
  ipureintro
  exact goodE_step d L I Wt Ps k gE _ hg
    (fun y => (hb y (by rw [trips2_eq]; exact (y 0).isLt)).trans (rowsG_eq_outE d L I Wt Ps hpre k r hr y))
/-- out of the second, the odd slabs. -/
theorem deliverO (hpre : ∀ j, (I j).toNat < 200) (k : Fin k0_t1_loop.trips) (r : Fin 200) (hr : r.val = 2 * k.val + 1)
    (gO : Buf (Elt F) (v3Loc d)) (b : Buf (Elt F) ((sB1).view.loc (thr d L))) (hg : GoodO d L I Wt Ps k.val gO)
    (hb : GoodRows (rowsG d Wt Ps r (idxRow d L I r)) k0_t3_loop.trips b) :
    iprop(((oOdd L k).view.loc (thr d L) ↦[oO L]{fullShare}
            (oOdd L k).view.write (Elt F) gO (ReadAs.same.apply ((sB1).view.read (Elt F) b)) Finset.univ)
        ∗ ((sB1).view.loc (thr d L) ↦[(sB1).view.set]{fullShare} b))
      ⊢ (DO d L I Wt Ps (k.val + 1) : sProp 𝕄) := by
  rw [DO_eq, pts_sB1_set, pts_oO]
  iintro ⟨Ho, Hs⟩
  iexists _, b
  isplitl [Ho]; · iexact Ho
  isplitl [Hs]; · iexact Hs
  ipureintro
  exact goodO_step d L I Wt Ps k gO _ hg
    (fun y => (hb y (by rw [trips3_eq]; exact (y 0).isLt)).trans (rowsG_eq_outO d L I Wt Ps hpre k r hr y))

end Deliver

end Cert.Proof.KI

end
-- ==== Proof.KIInner0.lean ====
/-
  One slab computed into the first staging buffer: the kernel's inner loop over the sixty-four rows, each trip gathering
  the row's positional entry and the eight sixteen-lane groups of word-table entries and storing their sums.
-/
import proofs.«206631_g81458349736089_cont_9to1c4b_538_8_alg».proof.Proof.KIPure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxRecDepth 65536

open Idealize.ShloMosaic.ValueIdx

theorem pay30_toNat : ∀ (k : Fin k0_t1_loop.trips) (x : S16.Idx), (k0_pay30 0#32 1#32 k x).toNat = 2 * k.val := by decide +kernel
theorem pay1_toNat : ∀ (e : Fin k0_t2_loop.trips) (x : S16.Idx), (k0_pay1 k0_pay29 0#32 1#32 e x).toNat = e.val := by decide +kernel
theorem pay2_toNat : ∀ (e : Fin k0_t2_loop.trips) (x : S16.Idx), (k0_pay2 k0_pay29 0#32 1#32 e x).toNat = e.val := by decide +kernel

section Inner

variable (d : Dev nD) (L : grid0.Coords) (Wt : Buf (Elt F) (v2Loc d)) (Ps : Buf (Elt F) (a2Loc d))

def inv2 (l : Fin 200) (row : Fin 128 → BitVec 32) (n : Nat) (_ : BitVec 32) : sProp 𝕄 :=
  iprop(((sW).view.loc (thr d L) ↦{fullShare} Wt) ∗ ((sP).view.loc (thr d L) ↦{fullShare} Ps)
    ∗ ∃ b, ((sB0).view.loc (thr d L) ↦{fullShare} b) ∗ ⌜GoodRows (rowsG d Wt Ps l row) n b⌝)

theorem inv2_eq (l : Fin 200) (row : Fin 128 → BitVec 32) (n : Nat) (acc : BitVec 32) :
    inv2 d L Wt Ps l row n acc = iprop(((sW).view.loc (thr d L) ↦{fullShare} Wt) ∗ ((sP).view.loc (thr d L) ↦{fullShare} Ps)
      ∗ ∃ b, ((sB0).view.loc (thr d L) ↦{fullShare} b) ∗ ⌜GoodRows (rowsG d Wt Ps l row) n b⌝) := rfl

set_option maxHeartbeats 4000000 in
theorem inner0 (k : Fin k0_t1_loop.trips) (l : Fin 200) (hl : l.val = 2 * k.val) (row : Fin 128 → BitVec 32) (hrow : ∀ c, (row c).toNat < 200)
    (v20_ld v22_ld v24_ld v26_ld v28_ld v30_ld v32_ld v34_ld : Vec F S1x16 .i32)
    (h20 : ∀ (x : S1x16.Idx) (c : Fin 128), c.val = 0 + (x 1).val → v20_ld x = row c)
    (h22 : ∀ (x : S1x16.Idx) (c : Fin 128), c.val = 16 + (x 1).val → v22_ld x = row c)
    (h24 : ∀ (x : S1x16.Idx) (c : Fin 128), c.val = 32 + (x 1).val → v24_ld x = row c)
    (h26 : ∀ (x : S1x16.Idx) (c : Fin 128), c.val = 48 + (x 1).val → v26_ld x = row c)
    (h28 : ∀ (x : S1x16.Idx) (c : Fin 128), c.val = 64 + (x 1).val → v28_ld x = row c)
    (h30 : ∀ (x : S1x16.Idx) (c : Fin 128), c.val = 80 + (x 1).val → v30_ld x = row c)
    (h32 : ∀ (x : S1x16.Idx) (c : Fin 128), c.val = 96 + (x 1).val → v32_ld x = row c)
    (h34 : ∀ (x : S1x16.Idx) (c : Fin 128), c.val = 112 + (x 1).val → v34_ld x = row c)
    (b : Buf (Elt F) ((sB0).view.loc (thr d L))) {α : Type}
    (kk : BitVec 32 → Prog (TpuEff nD τ sig (Elt F) Λ₀ (.scVector ((L 0).castLE hcore0) ((L 1).castLE hsub0))) α) (Q : α → sProp 𝕄) :
    iprop(((sW).view.loc (thr d L) ↦{fullShare} Wt) ∗ ((sP).view.loc (thr d L) ↦{fullShare} Ps) ∗ ((sB0).view.loc (thr d L) ↦{fullShare} b))
      ⊢ iprop((∀ acc, inv2 d L Wt Ps l row k0_t2_loop.trips acc -∗ wp frame (wpE (defs₀ (F := F)) 𝒱₀ (thr d L) none) Set.univ (kk acc) Q)
          -∗ wp frame (wpE (defs₀ (F := F)) 𝒱₀ (thr d L) none) Set.univ
            (k0_t2_loop.for k0_t2_ok (0#32)
              (k0_t2_body L iV (Memref.isWhole_whole _) wV (Memref.isWhole_whole _) pV (Memref.isWhole_whole _) oV (Memref.isWhole_whole _)
                sW (Memref.isWhole_whole _) sP (Memref.isWhole_whole _) sI (Memref.isWhole_whole _) sB0 (Memref.isWhole_whole _) sB1 (Memref.isWhole_whole _)
                cc0_scratch5 cc0_scratch6 cc0_scoped0 cc0_scoped1 cc0_scoped2 (0#32) (1#32) k
                v20_ld v22_ld v24_ld v26_ld v28_ld v30_ld v32_ld v34_ld) >>= kk) Q) := by
  iintro ⟨HsW, HsP, HsB0⟩ Hk
  sl_for (inv2 d L Wt Ps l row) $$ [HsW HsP HsB0]
  case region =>
    intro e acc
    unfold inv2
    iintro ⟨HsW, HsP, %b', HsB0, %hb'⟩
    have hchk1 : k0_chk1 (k0_pay30 0#32 1#32 k) (k0_pay1 k0_pay29 0#32 1#32 e) := by
      intro a x
      match a with
      | ⟨0, _⟩ => show (k0_pay30 0#32 1#32 k x).toNat < 200; rw [pay30_toNat]; have := k.isLt; change k.val < 100 at this; omega
      | ⟨1, _⟩ => show (k0_pay1 k0_pay29 0#32 1#32 e x).toNat < 64; rw [pay1_toNat]; exact e.isLt
    have hchk2 : k0_chk2 (k0_pay21 v20_ld) (k0_pay22 v22_ld) (k0_pay23 v24_ld) (k0_pay24 v26_ld) (k0_pay25 v28_ld)
        (k0_pay26 v30_ld) (k0_pay27 v32_ld) (k0_pay28 v34_ld) (k0_pay2 k0_pay29 0#32 1#32 e) := by
      have he : ∀ x, ((k0_pay2 k0_pay29 0#32 1#32 e) x).toNat < 64 := fun x => by rw [pay2_toNat]; exact e.isLt
      refine ⟨?_, ?_, ?_, ?_, ?_, ?_, ?_, ?_⟩
      · intro a x; match a with
          | ⟨0, _⟩ => exact he x
          | ⟨1, _⟩ => exact ld_lt v20_ld shapeCasts_S1x16_S16 row hrow 0 (by omega) h20 x
      · intro a x; match a with
          | ⟨0, _⟩ => exact he x
          | ⟨1, _⟩ => exact ld_lt v22_ld shapeCasts_S1x16_S16 row hrow 16 (by omega) h22 x
      · intro a x; match a with
          | ⟨0, _⟩ => exact he x
          | ⟨1, _⟩ => exact ld_lt v24_ld shapeCasts_S1x16_S16 row hrow 32 (by omega) h24 x
      · intro a x; match a with
          | ⟨0, _⟩ => exact he x
          | ⟨1, _⟩ => exact ld_lt v26_ld shapeCasts_S1x16_S16 row hrow 48 (by omega) h26 x
      · intro a x; match a with
          | ⟨0, _⟩ => exact he x
          | ⟨1, _⟩ => exact ld_lt v28_ld shapeCasts_S1x16_S16 row hrow 64 (by omega) h28 x
      · intro a x; match a with
          | ⟨0, _⟩ => exact he x
          | ⟨1, _⟩ => exact ld_lt v30_ld shapeCasts_S1x16_S16 row hrow 80 (by omega) h30 x
      · intro a x; match a with
          | ⟨0, _⟩ => exact he x
          | ⟨1, _⟩ => exact ld_lt v32_ld shapeCasts_S1x16_S16 row hrow 96 (by omega) h32 x
      · intro a x; match a with
          | ⟨0, _⟩ => exact he x
          | ⟨1, _⟩ => exact ld_lt v34_ld shapeCasts_S1x16_S16 row hrow 112 (by omega) h34 x
    sl_exec
    iapply (SparseCore.wp_vectorLoadIdx 𝒱₀ (thr d L) none Set.univ (base := sP) (S := Finset.univ) (q := fullShare) (Finset.subset_univ _)) $$ HsP; iintro HsP
    sl_exec
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    sl_exec
    sl_step
    isplitl [HsW]; · iexact HsW
    isplitl [HsP]; · iexact HsP
    iexists _
    isplitl [HsB0]
    · iexact HsB0
    · ipureintro
      have hrW : View.read (Elt F) (sW.access (Rect.whole S64x200)) Wt = Wt := Memref.read_access_whole (Elt F) cc0_scratch0 Wt
      have hrP : View.read (Elt F) (sP.access (Rect.whole S200x64)) Ps = Ps := Memref.read_access_whole (Elt F) cc0_scratch1 Ps
      refine rows_step0 (rowsG d Wt Ps l row) e b' _ _ _ _ _ _ _ _ hb' ?_ ?_ ?_ ?_ ?_ ?_ ?_ ?_
      · intro x y hy0 hy1
        unfold k0_pay3 k0_pay21 rowsG inner0.sl.v73 inner0.sl.v76
        dsimp only
        rw [hrW, hrP]
        exact lane_val Wt Ps _ _ _ v20_ld _ _ _ _ l e
          (fun x => (pay30_toNat k x).trans hl.symm) (pay1_toNat e) (pay2_toNat e) row hrow 0 h20 x y hy0 hy1
      · intro x y hy0 hy1
        unfold k0_pay4 k0_pay22 rowsG inner0.sl.v73 inner0.sl.v76
        dsimp only
        rw [hrW, hrP]
        exact lane_val Wt Ps _ _ _ v22_ld _ _ _ _ l e
          (fun x => (pay30_toNat k x).trans hl.symm) (pay1_toNat e) (pay2_toNat e) row hrow 16 h22 x y hy0 hy1
      · intro x y hy0 hy1
        unfold k0_pay5 k0_pay23 rowsG inner0.sl.v73 inner0.sl.v76
        dsimp only
        rw [hrW, hrP]
        exact lane_val Wt Ps _ _ _ v24_ld _ _ _ _ l e
          (fun x => (pay30_toNat k x).trans hl.symm) (pay1_toNat e) (pay2_toNat e) row hrow 32 h24 x y hy0 hy1
      · intro x y hy0 hy1
        unfold k0_pay6 k0_pay24 rowsG inner0.sl.v73 inner0.sl.v76
        dsimp only
        rw [hrW, hrP]
        exact lane_val Wt Ps _ _ _ v26_ld _ _ _ _ l e
          (fun x => (pay30_toNat k x).trans hl.symm) (pay1_toNat e) (pay2_toNat e) row hrow 48 h26 x y hy0 hy1
      · intro x y hy0 hy1
        unfold k0_pay7 k0_pay25 rowsG inner0.sl.v73 inner0.sl.v76
        dsimp only
        rw [hrW, hrP]
        exact lane_val Wt Ps _ _ _ v28_ld _ _ _ _ l e
          (fun x => (pay30_toNat k x).trans hl.symm) (pay1_toNat e) (pay2_toNat e) row hrow 64 h28 x y hy0 hy1
      · intro x y hy0 hy1
        unfold k0_pay8 k0_pay26 rowsG inner0.sl.v73 inner0.sl.v76
        dsimp only
        rw [hrW, hrP]
        exact lane_val Wt Ps _ _ _ v30_ld _ _ _ _ l e
          (fun x => (pay30_toNat k x).trans hl.symm) (pay1_toNat e) (pay2_toNat e) row hrow 80 h30 x y hy0 hy1
      · intro x y hy0 hy1
        unfold k0_pay9 k0_pay27 rowsG inner0.sl.v73 inner0.sl.v76
        dsimp only
        rw [hrW, hrP]
        exact lane_val Wt Ps _ _ _ v32_ld _ _ _ _ l e
          (fun x => (pay30_toNat k x).trans hl.symm) (pay1_toNat e) (pay2_toNat e) row hrow 96 h32 x y hy0 hy1
      · intro x y hy0 hy1
        unfold inner0.sl.r k0_pay10 k0_pay28 rowsG inner0.sl.v73 inner0.sl.v76
        dsimp only
        rw [hrW, hrP]
        exact lane_val Wt Ps _ _ _ v34_ld _ _ _ _ l e
          (fun x => (pay30_toNat k x).trans hl.symm) (pay1_toNat e) (pay2_toNat e) row hrow 112 h34 x y hy0 hy1
  · unfold inv2
    isplitl [HsW]; · iexact HsW
    isplitl [HsP]; · iexact HsP
    iexists b
    isplitl [HsB0]
    · iexact HsB0
    · ipureintro; exact fun y hy => absurd hy (Nat.not_lt_zero _)
  iintro %acc2 HI
  unfold inner0.sl.prog.cont_1
  iapply Hk
  iexact HI

end Inner

end Cert.Proof.KI

end
-- ==== Proof.KIInner1.lean ====
/-
  One slab computed into the second staging buffer: the kernel's inner loop over the sixty-four rows, each trip gathering
  the row's positional entry and the eight sixteen-lane groups of word-table entries and storing their sums.
-/
import proofs.«206631_g81458349736089_cont_9to1c4b_538_8_alg».proof.Proof.KIPure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxRecDepth 65536

open Idealize.ShloMosaic.ValueIdx

theorem pay40_toNat (v15 : BitVec 32) (x : S16.Idx) : (k0_pay40 v15 x).toNat = v15.toNat := by
  unfold k0_pay40 k0_pay39 addi broadcast
  show (IntOp.addi (0#32) v15).toNat = v15.toNat
  unfold IntOp.addi
  simp
theorem pay11_toNat : ∀ (e : Fin k0_t3_loop.trips) (x : S16.Idx), (k0_pay11 k0_pay39 0#32 1#32 e x).toNat = e.val := by decide +kernel
theorem pay12_toNat : ∀ (e : Fin k0_t3_loop.trips) (x : S16.Idx), (k0_pay12 k0_pay39 0#32 1#32 e x).toNat = e.val := by decide +kernel

section Inner

variable (d : Dev nD) (L : grid0.Coords) (Wt : Buf (Elt F) (v2Loc d)) (Ps : Buf (Elt F) (a2Loc d))

def inv3 (l : Fin 200) (row : Fin 128 → BitVec 32) (n : Nat) (_ : BitVec 32) : sProp 𝕄 :=
  iprop(((sW).view.loc (thr d L) ↦{fullShare} Wt) ∗ ((sP).view.loc (thr d L) ↦{fullShare} Ps)
    ∗ ∃ b, ((sB1).view.loc (thr d L) ↦{fullShare} b) ∗ ⌜GoodRows (rowsG d Wt Ps l row) n b⌝)

theorem inv3_eq (l : Fin 200) (row : Fin 128 → BitVec 32) (n : Nat) (acc : BitVec 32) :
    inv3 d L Wt Ps l row n acc = iprop(((sW).view.loc (thr d L) ↦{fullShare} Wt) ∗ ((sP).view.loc (thr d L) ↦{fullShare} Ps)
      ∗ ∃ b, ((sB1).view.loc (thr d L) ↦{fullShare} b) ∗ ⌜GoodRows (rowsG d Wt Ps l row) n b⌝) := rfl

set_option maxHeartbeats 4000000 in
theorem inner1 (k : Fin k0_t1_loop.trips) (l : Fin 200) (hl : l.val = 2 * k.val + 1) (arg13 v15 : BitVec 32) (hv15 : v15.toNat = 2 * k.val + 1) (row : Fin 128 → BitVec 32) (hrow : ∀ c, (row c).toNat < 200)
    (v20_ld v22_ld v24_ld v26_ld v28_ld v30_ld v32_ld v34_ld : Vec F S1x16 .i32)
    (h20 : ∀ (x : S1x16.Idx) (c : Fin 128), c.val = 0 + (x 1).val → v20_ld x = row c)
    (h22 : ∀ (x : S1x16.Idx) (c : Fin 128), c.val = 16 + (x 1).val → v22_ld x = row c)
    (h24 : ∀ (x : S1x16.Idx) (c : Fin 128), c.val = 32 + (x 1).val → v24_ld x = row c)
    (h26 : ∀ (x : S1x16.Idx) (c : Fin 128), c.val = 48 + (x 1).val → v26_ld x = row c)
    (h28 : ∀ (x : S1x16.Idx) (c : Fin 128), c.val = 64 + (x 1).val → v28_ld x = row c)
    (h30 : ∀ (x : S1x16.Idx) (c : Fin 128), c.val = 80 + (x 1).val → v30_ld x = row c)
    (h32 : ∀ (x : S1x16.Idx) (c : Fin 128), c.val = 96 + (x 1).val → v32_ld x = row c)
    (h34 : ∀ (x : S1x16.Idx) (c : Fin 128), c.val = 112 + (x 1).val → v34_ld x = row c)
    (b : Buf (Elt F) ((sB1).view.loc (thr d L))) {α : Type}
    (kk : BitVec 32 → Prog (TpuEff nD τ sig (Elt F) Λ₀ (.scVector ((L 0).castLE hcore0) ((L 1).castLE hsub0))) α) (Q : α → sProp 𝕄) :
    iprop(((sW).view.loc (thr d L) ↦{fullShare} Wt) ∗ ((sP).view.loc (thr d L) ↦{fullShare} Ps) ∗ ((sB1).view.loc (thr d L) ↦{fullShare} b))
      ⊢ iprop((∀ acc, inv3 d L Wt Ps l row k0_t3_loop.trips acc -∗ wp frame (wpE (defs₀ (F := F)) 𝒱₀ (thr d L) none) Set.univ (kk acc) Q)
          -∗ wp frame (wpE (defs₀ (F := F)) 𝒱₀ (thr d L) none) Set.univ
            (k0_t3_loop.for k0_t3_ok (0#32)
              (k0_t3_body L iV (Memref.isWhole_whole _) wV (Memref.isWhole_whole _) pV (Memref.isWhole_whole _) oV (Memref.isWhole_whole _)
                sW (Memref.isWhole_whole _) sP (Memref.isWhole_whole _) sI (Memref.isWhole_whole _) sB0 (Memref.isWhole_whole _) sB1 (Memref.isWhole_whole _)
                cc0_scratch5 cc0_scratch6 cc0_scoped0 cc0_scoped1 cc0_scoped2 k arg13 v15
                v20_ld v22_ld v24_ld v26_ld v28_ld v30_ld v32_ld v34_ld) >>= kk) Q) := by
  iintro ⟨HsW, HsP, HsB0⟩ Hk
  sl_for (inv3 d L Wt Ps l row) $$ [HsW HsP HsB0]
  case region =>
    intro e acc
    unfold inv3
    iintro ⟨HsW, HsP, %b', HsB0, %hb'⟩
    have hchk1 : k0_chk3 (k0_pay40 v15) (k0_pay11 k0_pay39 0#32 1#32 e) := by
      intro a x
      match a with
      | ⟨0, _⟩ => show (k0_pay40 v15 x).toNat < 200; rw [pay40_toNat, hv15]; have := k.isLt; change k.val < 100 at this; omega
      | ⟨1, _⟩ => show (k0_pay11 k0_pay39 0#32 1#32 e x).toNat < 64; rw [pay11_toNat]; exact e.isLt
    have hchk2 : k0_chk4 (k0_pay31 v20_ld) (k0_pay32 v22_ld) (k0_pay33 v24_ld) (k0_pay34 v26_ld) (k0_pay35 v28_ld)
        (k0_pay36 v30_ld) (k0_pay37 v32_ld) (k0_pay38 v34_ld) (k0_pay12 k0_pay39 0#32 1#32 e) := by
      have he : ∀ x, ((k0_pay12 k0_pay39 0#32 1#32 e) x).toNat < 64 := fun x => by rw [pay12_toNat]; exact e.isLt
      refine ⟨?_, ?_, ?_, ?_, ?_, ?_, ?_, ?_⟩
      · intro a x; match a with
          | ⟨0, _⟩ => exact he x
          | ⟨1, _⟩ => exact ld_lt v20_ld shapeCasts_S1x16_S16 row hrow 0 (by omega) h20 x
      · intro a x; match a with
          | ⟨0, _⟩ => exact he x
          | ⟨1, _⟩ => exact ld_lt v22_ld shapeCasts_S1x16_S16 row hrow 16 (by omega) h22 x
      · intro a x; match a with
          | ⟨0, _⟩ => exact he x
          | ⟨1, _⟩ => exact ld_lt v24_ld shapeCasts_S1x16_S16 row hrow 32 (by omega) h24 x
      · intro a x; match a with
          | ⟨0, _⟩ => exact he x
          | ⟨1, _⟩ => exact ld_lt v26_ld shapeCasts_S1x16_S16 row hrow 48 (by omega) h26 x
      · intro a x; match a with
          | ⟨0, _⟩ => exact he x
          | ⟨1, _⟩ => exact ld_lt v28_ld shapeCasts_S1x16_S16 row hrow 64 (by omega) h28 x
      · intro a x; match a with
          | ⟨0, _⟩ => exact he x
          | ⟨1, _⟩ => exact ld_lt v30_ld shapeCasts_S1x16_S16 row hrow 80 (by omega) h30 x
      · intro a x; match a with
          | ⟨0, _⟩ => exact he x
          | ⟨1, _⟩ => exact ld_lt v32_ld shapeCasts_S1x16_S16 row hrow 96 (by omega) h32 x
      · intro a x; match a with
          | ⟨0, _⟩ => exact he x
          | ⟨1, _⟩ => exact ld_lt v34_ld shapeCasts_S1x16_S16 row hrow 112 (by omega) h34 x
    sl_exec
    iapply (SparseCore.wp_vectorLoadIdx 𝒱₀ (thr d L) none Set.univ (base := sP) (S := Finset.univ) (q := fullShare) (Finset.subset_univ _)) $$ HsP; iintro HsP
    sl_exec
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    sl_exec
    sl_step
    isplitl [HsW]; · iexact HsW
    isplitl [HsP]; · iexact HsP
    iexists _
    isplitl [HsB0]
    · iexact HsB0
    · ipureintro
      have hrW : View.read (Elt F) (sW.access (Rect.whole S64x200)) Wt = Wt := Memref.read_access_whole (Elt F) cc0_scratch0 Wt
      have hrP : View.read (Elt F) (sP.access (Rect.whole S200x64)) Ps = Ps := Memref.read_access_whole (Elt F) cc0_scratch1 Ps
      refine rows_step1 (rowsG d Wt Ps l row) e b' _ _ _ _ _ _ _ _ hb' ?_ ?_ ?_ ?_ ?_ ?_ ?_ ?_
      · intro x y hy0 hy1
        unfold k0_pay13 k0_pay31 rowsG inner1.sl.v73 inner1.sl.v76
        dsimp only
        rw [hrW, hrP]
        exact lane_val Wt Ps _ _ _ v20_ld _ _ _ _ l e
          (fun x => ((pay40_toNat v15 x).trans hv15).trans hl.symm) (pay11_toNat e) (pay12_toNat e) row hrow 0 h20 x y hy0 hy1
      · intro x y hy0 hy1
        unfold k0_pay14 k0_pay32 rowsG inner1.sl.v73 inner1.sl.v76
        dsimp only
        rw [hrW, hrP]
        exact lane_val Wt Ps _ _ _ v22_ld _ _ _ _ l e
          (fun x => ((pay40_toNat v15 x).trans hv15).trans hl.symm) (pay11_toNat e) (pay12_toNat e) row hrow 16 h22 x y hy0 hy1
      · intro x y hy0 hy1
        unfold k0_pay15 k0_pay33 rowsG inner1.sl.v73 inner1.sl.v76
        dsimp only
        rw [hrW, hrP]
        exact lane_val Wt Ps _ _ _ v24_ld _ _ _ _ l e
          (fun x => ((pay40_toNat v15 x).trans hv15).trans hl.symm) (pay11_toNat e) (pay12_toNat e) row hrow 32 h24 x y hy0 hy1
      · intro x y hy0 hy1
        unfold k0_pay16 k0_pay34 rowsG inner1.sl.v73 inner1.sl.v76
        dsimp only
        rw [hrW, hrP]
        exact lane_val Wt Ps _ _ _ v26_ld _ _ _ _ l e
          (fun x => ((pay40_toNat v15 x).trans hv15).trans hl.symm) (pay11_toNat e) (pay12_toNat e) row hrow 48 h26 x y hy0 hy1
      · intro x y hy0 hy1
        unfold k0_pay17 k0_pay35 rowsG inner1.sl.v73 inner1.sl.v76
        dsimp only
        rw [hrW, hrP]
        exact lane_val Wt Ps _ _ _ v28_ld _ _ _ _ l e
          (fun x => ((pay40_toNat v15 x).trans hv15).trans hl.symm) (pay11_toNat e) (pay12_toNat e) row hrow 64 h28 x y hy0 hy1
      · intro x y hy0 hy1
        unfold k0_pay18 k0_pay36 rowsG inner1.sl.v73 inner1.sl.v76
        dsimp only
        rw [hrW, hrP]
        exact lane_val Wt Ps _ _ _ v30_ld _ _ _ _ l e
          (fun x => ((pay40_toNat v15 x).trans hv15).trans hl.symm) (pay11_toNat e) (pay12_toNat e) row hrow 80 h30 x y hy0 hy1
      · intro x y hy0 hy1
        unfold k0_pay19 k0_pay37 rowsG inner1.sl.v73 inner1.sl.v76
        dsimp only
        rw [hrW, hrP]
        exact lane_val Wt Ps _ _ _ v32_ld _ _ _ _ l e
          (fun x => ((pay40_toNat v15 x).trans hv15).trans hl.symm) (pay11_toNat e) (pay12_toNat e) row hrow 96 h32 x y hy0 hy1
      · intro x y hy0 hy1
        unfold inner1.sl.r k0_pay20 k0_pay38 rowsG inner1.sl.v73 inner1.sl.v76
        dsimp only
        rw [hrW, hrP]
        exact lane_val Wt Ps _ _ _ v34_ld _ _ _ _ l e
          (fun x => ((pay40_toNat v15 x).trans hv15).trans hl.symm) (pay11_toNat e) (pay12_toNat e) row hrow 112 h34 x y hy0 hy1
  · unfold inv3
    isplitl [HsW]; · iexact HsW
    isplitl [HsP]; · iexact HsP
    iexists b
    isplitl [HsB0]
    · iexact HsB0
    · ipureintro; exact fun y hy => absurd hy (Nat.not_lt_zero _)
  iintro %acc2 HI
  unfold inner1.sl.prog.cont_1
  iapply Hk
  iexact HI

end Inner

end Cert.Proof.KI

end
-- ==== Proof.KIBody.lean ====
/-
  One task of the kernel, run once at a symbolic vector subcore: the three fetches into the task's scratch, then the
  outer loop over pairs of slabs — each trip waits for a staging buffer's previous copy (from the second trip on),
  computes a slab into the buffer and starts its copy into the slab's slice of the result — and the last two waits.
-/
import proofs.«206631_g81458349736089_cont_9to1c4b_538_8_alg».proof.Proof.KIDeliver
import proofs.«206631_g81458349736089_cont_9to1c4b_538_8_alg».proof.Proof.KIInner0
import proofs.«206631_g81458349736089_cont_9to1c4b_538_8_alg».proof.Proof.KIInner1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxRecDepth 65536

theorem v15_toNat : ∀ k : Fin k0_t1_loop.trips, (Scalar.addi (Scalar.muli 2#32 (Scf.iv 0#32 1#32 k)) 1#32).toNat = 2 * k.val + 1 := by
  decide +kernel

set_option maxHeartbeats 16000000 in
/-- The task on vector subcore `(L 0, L 1)` of device `d`: from its share of the operands at contents `I`, `Wt`, `Ps`,
    `O3` — every index word below 200 — to the same with its elements of the result at `outT I Wt Ps`. -/
theorem tile_body (hF : (K (F := F)).Facts) (d : Dev nD) (L : grid0.Coords)
    (I : Buf (Elt F) (v0Loc d)) (Wt : Buf (Elt F) (v2Loc d)) (Ps : Buf (Elt F) (a2Loc d)) (O3 : Buf (Elt F) (v3Loc d))
    (hpre : ∀ j, (I j).toNat < 200)
    (O : CellTallies nD τ sig (HIx 1)) (W : Waits sig (HIx 1)) (hO : ∀ g, O g none = 0) :
    iprop(levAts (K (F := F)).L (K (F := F)).lev ∗ emp ∗ tileIn d L I Wt Ps O3
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__sc_embed L iV (Memref.isWhole_whole _) wV (Memref.isWhole_whole _) pV (Memref.isWhole_whole _) oV (Memref.isWhole_whole _)
            sW (Memref.isWhole_whole _) sP (Memref.isWhole_whole _) sI (Memref.isWhole_whole _) sB0 (Memref.isWhole_whole _) sB1 (Memref.isWhole_whole _)
            cc0_scratch5 cc0_scratch6 cc0_scoped0 cc0_scoped1 cc0_scoped2)
          fun _ => iprop(tileIn d L I Wt Ps (Cert.Spec.outT (F := F) I Wt Ps) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [cc0__sc_embed_eq_skeleton]; unfold cc0__sc_embed_skel
  rw [(K (F := F)).scopedBufs_V hF d (cV L) (jV L), SparseCore.Cfg.scopedSems0_V (Val := Elt F) d (cV L) (jV L), ownSems0_V, ownBufs_V]
  unfold tileIn
  iintro ⟨#Hlv, -, ⟨Hi, Hw, Hp, HoE, HoO⟩, ⟨⟨%fw, HsW⟩, ⟨%fp, HsP⟩, ⟨%fi, HsI⟩, ⟨%fb0, HsB0⟩, ⟨%fb1, HsB1⟩, Hbufs⟩, ⟨Hc5, Hc6, Hr0, Hr1, Hr2, Hsems⟩, HO⟩
  ihave Hmw := ((K (F := F)).mayWaits_none (thr := V d (cV L) (jV L)) hO) $$ Hlv
  ihave Hi' := (Entails.of_eq (pts_i (F := F) d L _).symm) $$ Hi
  ihave Hw' := (Entails.of_eq (pts_w (F := F) d L _ _).symm) $$ Hw
  ihave Hp' := (Entails.of_eq (pts_p (F := F) d L _ _).symm) $$ Hp
  ihave HsW' := (Entails.of_eq (pts_sW (F := F) d L _).symm) $$ HsW
  ihave HsP' := (Entails.of_eq (pts_sP (F := F) d L _).symm) $$ HsP
  ihave HsI' := (Entails.of_eq (pts_sI (F := F) d L _).symm) $$ HsI
  ihave HsB0' := (Entails.of_eq (pts_sB0 (F := F) d L _).symm) $$ HsB0
  ihave HsB1' := (Entails.of_eq (pts_sB1 (F := F) d L _).symm) $$ HsB1
  sl_exec
  have hcW : View.write (Elt F) sW.view fw (tile_body.sl.dma0 d Wt) Finset.univ = Wt := by
    unfold tile_body.sl.dma0
    exact (View.write_whole_univ _ _ _).trans (View.read_whole _ _)
  have hcP : View.write (Elt F) sP.view fp (tile_body.sl.dma0_1 d Ps) Finset.univ = Ps := by
    unfold tile_body.sl.dma0_1
    exact (View.write_whole_univ _ _ _).trans (View.read_whole _ _)
  have hcI : View.write (Elt F) sI.view fi (tile_body.sl.dma0_2 d L I) Finset.univ = (iCols L).view.read (Elt F) I := by
    unfold tile_body.sl.dma0_2
    exact View.write_whole_univ _ _ _
  ihave HsW' := (Entails.of_eq (congrArg (fun f => ((sW).view.loc (thr d L) ↦{fullShare} f : sProp 𝕄)) hcW)) $$ HsW'
  ihave HsP' := (Entails.of_eq (congrArg (fun f => ((sP).view.loc (thr d L) ↦{fullShare} f : sProp 𝕄)) hcP)) $$ HsP'
  ihave HsI' := (Entails.of_eq (congrArg (fun f => ((sI).view.loc (thr d L) ↦{fullShare} f : sProp 𝕄)) hcI)) $$ HsI'
  sl_for (inv d L I Wt Ps O W) $$ [Hmw HsW' HsP' HsI' HoE HoO HsB0' HsB1' Hc5 Hc6 HO]
  case region =>
    intro k acc
    have hltE : 2 * k.val < 200 := by have := k.isLt; change k.val < 100 at this; omega
    have hltO : 2 * k.val + 1 < 200 := by have := k.isLt; change k.val < 100 at this; omega
    rcases Nat.eq_zero_or_pos k.val with hk | hk
    · have k0_h1 : ¬ k0_cond1 k = 1#1 := cond1_zero k hk
      have k0_h2 : ¬ k0_cond2 k = 1#1 := cond2_zero k hk
      rw [inv_at_zero d L I Wt Ps O W hk, DE_eq, DO_eq]
      iintro ⟨#Hmw, HsW, HsP, HsI, ⟨⟨%gE, %bE, HoE, HsB0, %hgE0⟩, Hc5⟩, ⟨⟨%gO, %bO, HoO, HsB1, %hgO0⟩, Hc6⟩, %W', %hW', HO⟩
      have hgE : GoodE d L I Wt Ps k.val gE := hk ▸ hgE0
      have hgO : GoodO d L I Wt Ps k.val gO := hk ▸ hgO0
      sl_exec
      iapply (inner0 d L Wt Ps k ⟨2 * k.val, hltE⟩ rfl (idxRow d L I ⟨2 * k.val, hltE⟩) (idxRow_lt d L I hpre ⟨2 * k.val, hltE⟩)
          _ _ _ _ _ _ _ _
                (fun x c hc => sI_load d L I _ (k0_off3_inb k) _ _ (k0_off3_eq k) ⟨2 * k.val, hltE⟩ rfl x c hc)
                (fun x c hc => sI_load d L I _ (k0_off4_inb k) _ _ (k0_off4_eq k) ⟨2 * k.val, hltE⟩ rfl x c hc)
                (fun x c hc => sI_load d L I _ (k0_off5_inb k) _ _ (k0_off5_eq k) ⟨2 * k.val, hltE⟩ rfl x c hc)
                (fun x c hc => sI_load d L I _ (k0_off6_inb k) _ _ (k0_off6_eq k) ⟨2 * k.val, hltE⟩ rfl x c hc)
                (fun x c hc => sI_load d L I _ (k0_off7_inb k) _ _ (k0_off7_eq k) ⟨2 * k.val, hltE⟩ rfl x c hc)
                (fun x c hc => sI_load d L I _ (k0_off8_inb k) _ _ (k0_off8_eq k) ⟨2 * k.val, hltE⟩ rfl x c hc)
                (fun x c hc => sI_load d L I _ (k0_off9_inb k) _ _ (k0_off9_eq k) ⟨2 * k.val, hltE⟩ rfl x c hc)
                (fun x c hc => sI_load d L I _ (k0_off10_inb k) _ _ (k0_off10_eq k) ⟨2 * k.val, hltE⟩ rfl x c hc)
          bE) $$ [HsW HsP HsB0]
      · isplitl [HsW]; · iexact HsW
        isplitl [HsP]; · iexact HsP
        iexact HsB0
      iintro %acc2 HI2
      ihave HI2 := (Entails.of_eq (inv2_eq d L Wt Ps _ _ _ _)) $$ HI2
      icases HI2 with ⟨HsW, HsP, %b0', HsB0, %hb0'⟩
      sl_exec
      ihave HsB0s := (Entails.of_eq (pts_sB0_set (F := F) d L _).symm) $$ HsB0
      ihave HoE' := (Entails.of_eq (pts_oE (F := F) d L k _).symm) $$ HoE
      iapply (Transfers.wp_dmaLocal countersEmb 𝒱₀ (thr d L) none (none : HIx 1) NO rfl NO_pos (oEven_subset L k)) $$ [HsB0s HoE' Hc5]
      · isplitl [HsB0s]; · iexact HsB0s
        isplitl [HoE']; · iexact HoE'
        iexact Hc5
      iintro HFE
      ihave HFE := (Transfers.Flight_mono countersEmb (thr d L) (deliverE d L I Wt Ps hpre k ⟨2 * k.val, hltE⟩ rfl gE b0' hgE hb0')) $$ HFE
      sl_exec
      iapply (inner1 d L Wt Ps k ⟨2 * k.val + 1, hltO⟩ rfl _ _ (v15_toNat k) (idxRow d L I ⟨2 * k.val + 1, hltO⟩) (idxRow_lt d L I hpre ⟨2 * k.val + 1, hltO⟩)
          _ _ _ _ _ _ _ _
                (fun x c hc => sI_load d L I _ (k0_off21_inb k) _ _ (k0_off21_eq k) ⟨2 * k.val + 1, hltO⟩ rfl x c hc)
                (fun x c hc => sI_load d L I _ (k0_off22_inb k) _ _ (k0_off22_eq k) ⟨2 * k.val + 1, hltO⟩ rfl x c hc)
                (fun x c hc => sI_load d L I _ (k0_off23_inb k) _ _ (k0_off23_eq k) ⟨2 * k.val + 1, hltO⟩ rfl x c hc)
                (fun x c hc => sI_load d L I _ (k0_off24_inb k) _ _ (k0_off24_eq k) ⟨2 * k.val + 1, hltO⟩ rfl x c hc)
                (fun x c hc => sI_load d L I _ (k0_off25_inb k) _ _ (k0_off25_eq k) ⟨2 * k.val + 1, hltO⟩ rfl x c hc)
                (fun x c hc => sI_load d L I _ (k0_off26_inb k) _ _ (k0_off26_eq k) ⟨2 * k.val + 1, hltO⟩ rfl x c hc)
                (fun x c hc => sI_load d L I _ (k0_off27_inb k) _ _ (k0_off27_eq k) ⟨2 * k.val + 1, hltO⟩ rfl x c hc)
                (fun x c hc => sI_load d L I _ (k0_off28_inb k) _ _ (k0_off28_eq k) ⟨2 * k.val + 1, hltO⟩ rfl x c hc)
          bO) $$ [HsW HsP HsB1]
      · isplitl [HsW]; · iexact HsW
        isplitl [HsP]; · iexact HsP
        iexact HsB1
      iintro %acc3 HI3
      ihave HI3 := (Entails.of_eq (inv3_eq d L Wt Ps _ _ _ _)) $$ HI3
      icases HI3 with ⟨HsW, HsP, %b1', HsB1, %hb1'⟩
      sl_exec
      ihave HsB1s := (Entails.of_eq (pts_sB1_set (F := F) d L _).symm) $$ HsB1
      ihave HoO' := (Entails.of_eq (pts_oO (F := F) d L k _).symm) $$ HoO
      iapply (Transfers.wp_dmaLocal countersEmb 𝒱₀ (thr d L) none (none : HIx 1) NO rfl NO_pos (oOdd_subset L k)) $$ [HsB1s HoO' Hc6]
      · isplitl [HsB1s]; · iexact HsB1s
        isplitl [HoO']; · iexact HoO'
        iexact Hc6
      iintro HFO
      ihave HFO := (Transfers.Flight_mono countersEmb (thr d L) (deliverO d L I Wt Ps hpre k ⟨2 * k.val + 1, hltO⟩ rfl gO b1' hgO hb1')) $$ HFO
      sl_exec
      sl_step
      iapply (Entails.of_eq (inv_at_pos d L I Wt Ps O W (Nat.succ_pos k.val) _).symm)
      isplitr; · iexact Hmw
      isplitl [HsW]; · iexact HsW
      isplitl [HsP]; · iexact HsP
      isplitl [HsI]; · iexact HsI
      isplitl [HFE]; · iexact HFE
      isplitl [HFO]; · iexact HFO
      iexists W'; isplitr
      · ipureintro; exact hW'
      · iexact HO
    · have k0_h1 : k0_cond1 k = 1#1 := cond1_pos k hk
      have k0_h2 : k0_cond2 k = 1#1 := cond2_pos k hk
      rw [inv_at_pos d L I Wt Ps O W hk]
      iintro ⟨#Hmw, HsW, HsP, HsI, HFE, HFO, %W', %hW', HO⟩
      sl_exec
      ihave Hmw5 := (Transfers.MayWaits.elim (SemLoc.dma cc0_scratch5.sem)) $$ Hmw
      iapply (Transfers.wp_waitLocalO countersEmb 𝒱₀ (thr d L) none (none : HIx 1) (rfl : _ = NO)) $$ [HFE HO Hmw5]
      · isplitl [HFE]; · iexact HFE
        isplitl [HO]; · iexact HO
        iexact Hmw5
      iintro ⟨HD, Hc5, HO⟩
      ihave HD := (Entails.of_eq (DE_eq d L I Wt Ps _)) $$ HD
      icases HD with ⟨%gE, %bE, HoE, HsB0, %hgE⟩
      sl_exec
      iapply (inner0 d L Wt Ps k ⟨2 * k.val, hltE⟩ rfl (idxRow d L I ⟨2 * k.val, hltE⟩) (idxRow_lt d L I hpre ⟨2 * k.val, hltE⟩)
          _ _ _ _ _ _ _ _
                (fun x c hc => sI_load d L I _ (k0_off3_inb k) _ _ (k0_off3_eq k) ⟨2 * k.val, hltE⟩ rfl x c hc)
                (fun x c hc => sI_load d L I _ (k0_off4_inb k) _ _ (k0_off4_eq k) ⟨2 * k.val, hltE⟩ rfl x c hc)
                (fun x c hc => sI_load d L I _ (k0_off5_inb k) _ _ (k0_off5_eq k) ⟨2 * k.val, hltE⟩ rfl x c hc)
                (fun x c hc => sI_load d L I _ (k0_off6_inb k) _ _ (k0_off6_eq k) ⟨2 * k.val, hltE⟩ rfl x c hc)
                (fun x c hc => sI_load d L I _ (k0_off7_inb k) _ _ (k0_off7_eq k) ⟨2 * k.val, hltE⟩ rfl x c hc)
                (fun x c hc => sI_load d L I _ (k0_off8_inb k) _ _ (k0_off8_eq k) ⟨2 * k.val, hltE⟩ rfl x c hc)
                (fun x c hc => sI_load d L I _ (k0_off9_inb k) _ _ (k0_off9_eq k) ⟨2 * k.val, hltE⟩ rfl x c hc)
                (fun x c hc => sI_load d L I _ (k0_off10_inb k) _ _ (k0_off10_eq k) ⟨2 * k.val, hltE⟩ rfl x c hc)
          bE) $$ [HsW HsP HsB0]
      · isplitl [HsW]; · iexact HsW
        isplitl [HsP]; · iexact HsP
        iexact HsB0
      iintro %acc2 HI2
      ihave HI2 := (Entails.of_eq (inv2_eq d L Wt Ps _ _ _ _)) $$ HI2
      icases HI2 with ⟨HsW, HsP, %b0', HsB0, %hb0'⟩
      sl_exec
      ihave HsB0s := (Entails.of_eq (pts_sB0_set (F := F) d L _).symm) $$ HsB0
      ihave HoE' := (Entails.of_eq (pts_oE (F := F) d L k _).symm) $$ HoE
      iapply (Transfers.wp_dmaLocal countersEmb 𝒱₀ (thr d L) none (none : HIx 1) NO rfl NO_pos (oEven_subset L k)) $$ [HsB0s HoE' Hc5]
      · isplitl [HsB0s]; · iexact HsB0s
        isplitl [HoE']; · iexact HoE'
        iexact Hc5
      iintro HFE
      ihave HFE := (Transfers.Flight_mono countersEmb (thr d L) (deliverE d L I Wt Ps hpre k ⟨2 * k.val, hltE⟩ rfl gE b0' hgE hb0')) $$ HFE
      sl_exec
      ihave Hmw6 := (Transfers.MayWaits.elim (SemLoc.dma cc0_scratch6.sem)) $$ Hmw
      iapply (Transfers.wp_waitLocalO countersEmb 𝒱₀ (thr d L) none (none : HIx 1) (rfl : _ = NO)) $$ [HFO HO Hmw6]
      · isplitl [HFO]; · iexact HFO
        isplitl [HO]; · iexact HO
        iexact Hmw6
      iintro ⟨HD, Hc6, HO⟩
      ihave HD := (Entails.of_eq (DO_eq d L I Wt Ps _)) $$ HD
      icases HD with ⟨%gO, %bO, HoO, HsB1, %hgO⟩
      sl_exec
      iapply (inner1 d L Wt Ps k ⟨2 * k.val + 1, hltO⟩ rfl _ _ (v15_toNat k) (idxRow d L I ⟨2 * k.val + 1, hltO⟩) (idxRow_lt d L I hpre ⟨2 * k.val + 1, hltO⟩)
          _ _ _ _ _ _ _ _
                (fun x c hc => sI_load d L I _ (k0_off21_inb k) _ _ (k0_off21_eq k) ⟨2 * k.val + 1, hltO⟩ rfl x c hc)
                (fun x c hc => sI_load d L I _ (k0_off22_inb k) _ _ (k0_off22_eq k) ⟨2 * k.val + 1, hltO⟩ rfl x c hc)
                (fun x c hc => sI_load d L I _ (k0_off23_inb k) _ _ (k0_off23_eq k) ⟨2 * k.val + 1, hltO⟩ rfl x c hc)
                (fun x c hc => sI_load d L I _ (k0_off24_inb k) _ _ (k0_off24_eq k) ⟨2 * k.val + 1, hltO⟩ rfl x c hc)
                (fun x c hc => sI_load d L I _ (k0_off25_inb k) _ _ (k0_off25_eq k) ⟨2 * k.val + 1, hltO⟩ rfl x c hc)
                (fun x c hc => sI_load d L I _ (k0_off26_inb k) _ _ (k0_off26_eq k) ⟨2 * k.val + 1, hltO⟩ rfl x c hc)
                (fun x c hc => sI_load d L I _ (k0_off27_inb k) _ _ (k0_off27_eq k) ⟨2 * k.val + 1, hltO⟩ rfl x c hc)
                (fun x c hc => sI_load d L I _ (k0_off28_inb k) _ _ (k0_off28_eq k) ⟨2 * k.val + 1, hltO⟩ rfl x c hc)
          bO) $$ [HsW HsP HsB1]
      · isplitl [HsW]; · iexact HsW
        isplitl [HsP]; · iexact HsP
        iexact HsB1
      iintro %acc3 HI3
      ihave HI3 := (Entails.of_eq (inv3_eq d L Wt Ps _ _ _ _)) $$ HI3
      icases HI3 with ⟨HsW, HsP, %b1', HsB1, %hb1'⟩
      sl_exec
      ihave HsB1s := (Entails.of_eq (pts_sB1_set (F := F) d L _).symm) $$ HsB1
      ihave HoO' := (Entails.of_eq (pts_oO (F := F) d L k _).symm) $$ HoO
      iapply (Transfers.wp_dmaLocal countersEmb 𝒱₀ (thr d L) none (none : HIx 1) NO rfl NO_pos (oOdd_subset L k)) $$ [HsB1s HoO' Hc6]
      · isplitl [HsB1s]; · iexact HsB1s
        isplitl [HoO']; · iexact HoO'
        iexact Hc6
      iintro HFO
      ihave HFO := (Transfers.Flight_mono countersEmb (thr d L) (deliverO d L I Wt Ps hpre k ⟨2 * k.val + 1, hltO⟩ rfl gO b1' hgO hb1')) $$ HFO
      sl_exec
      sl_step
      iapply (Entails.of_eq (inv_at_pos d L I Wt Ps O W (Nat.succ_pos k.val) _).symm)
      isplitr; · iexact Hmw
      isplitl [HsW]; · iexact HsW
      isplitl [HsP]; · iexact HsP
      isplitl [HsI]; · iexact HsI
      isplitl [HFE]; · iexact HFE
      isplitl [HFO]; · iexact HFO
      iexists (insert (SemLoc.dma cc0_scratch6.sem, (none : HIx 1)) (insert (SemLoc.dma cc0_scratch5.sem, (none : HIx 1)) W')); isplitr
      · ipureintro; intro p hp
        rcases Finset.mem_insert.mp hp with rfl | hp
        · exact .inr rfl
        rcases Finset.mem_insert.mp hp with rfl | hp
        · exact .inr rfl
        exact hW' p hp
      · iexact HO
  · iapply (Entails.of_eq (inv_at_zero d L I Wt Ps O W rfl _).symm)
    isplitr; · iexact Hmw
    isplitl [HsW']; · iexact HsW'
    isplitl [HsP']; · iexact HsP'
    isplitl [HsI']; · iexact HsI'
    isplitl [HoE HsB0' Hc5]
    · isplitl [HoE HsB0']
      · iapply (Entails.of_eq (DE_eq d L I Wt Ps 0).symm)
        iexists O3, fb0
        isplitl [HoE]; · iexact HoE
        isplitl [HsB0']; · iexact HsB0'
        ipureintro; exact goodE_zero d L I Wt Ps _
      · iexact Hc5
    isplitl [HoO HsB1' Hc6]
    · isplitl [HoO HsB1']
      · iapply (Entails.of_eq (DO_eq d L I Wt Ps 0).symm)
        iexists O3, fb1
        isplitl [HoO]; · iexact HoO
        isplitl [HsB1']; · iexact HsB1'
        ipureintro; exact goodO_zero d L I Wt Ps _
      · iexact Hc6
    iexists _
    isplitr
    rotate_left
    · iexact HO
    · ipureintro; intro p hp
      simp only [Finset.mem_insert] at hp
      rcases hp with rfl | rfl | rfl | hp
      exacts [.inr rfl, .inr rfl, .inr rfl, .inl hp]
  iintro %accF HI
  ihave HI := (Entails.of_eq (inv_at_pos d L I Wt Ps O W (k := k0_t1_loop.trips) (by decide) _)) $$ HI
  icases HI with ⟨-, HsW, HsP, HsI, HFE, HFO, %W', %hW', HO⟩
  sl_exec
  ihave Hmw5 := (Transfers.MayWaits.elim (SemLoc.dma cc0_scratch5.sem)) $$ Hmw
  iapply (Transfers.wp_waitLocalO countersEmb 𝒱₀ (thr d L) none (none : HIx 1) (rfl : _ = NO)) $$ [HFE HO Hmw5]
  · isplitl [HFE]; · iexact HFE
    isplitl [HO]; · iexact HO
    iexact Hmw5
  iintro ⟨HD, Hc5, HO⟩
  ihave HD := (Entails.of_eq (DE_eq d L I Wt Ps _)) $$ HD
  icases HD with ⟨%gE, %bE, HoE, HsB0, %hgE⟩
  sl_exec
  ihave Hmw6 := (Transfers.MayWaits.elim (SemLoc.dma cc0_scratch6.sem)) $$ Hmw
  iapply (Transfers.wp_waitLocalO countersEmb 𝒱₀ (thr d L) none (none : HIx 1) (rfl : _ = NO)) $$ [HFO HO Hmw6]
  · isplitl [HFO]; · iexact HFO
    isplitl [HO]; · iexact HO
    iexact Hmw6
  iintro ⟨HD, Hc6, HO⟩
  ihave HD := (Entails.of_eq (DO_eq d L I Wt Ps _)) $$ HD
  icases HD with ⟨%gO, %bO, HoO, HsB1, %hgO⟩
  sl_exec
  sl_step
  isplitl [Hi' Hw' Hp' HoE HoO]
  · isplitl [Hi']; · iapply (Entails.of_eq (pts_i (F := F) d L _)); iexact Hi'
    isplitl [Hw']; · iapply (Entails.of_eq (pts_w (F := F) d L _ _)); iexact Hw'
    isplitl [Hp']; · iapply (Entails.of_eq (pts_p (F := F) d L _ _)); iexact Hp'
    isplitl [HoE]
    · iapply (Entails.of_eq (pointsTo_congr (goodE_all d L I Wt Ps gE hgE))); iexact HoE
    · iapply (Entails.of_eq (pointsTo_congr (goodO_all d L I Wt Ps gO hgO))); iexact HoO
  isplitl [HsW HsP HsI HsB0 HsB1 Hbufs]
  · isplitl [HsW]; · iexists _; iapply (Entails.of_eq (pts_sW (F := F) d L _)); iexact HsW
    isplitl [HsP]; · iexists _; iapply (Entails.of_eq (pts_sP (F := F) d L _)); iexact HsP
    isplitl [HsI]; · iexists _; iapply (Entails.of_eq (pts_sI (F := F) d L _)); iexact HsI
    isplitl [HsB0]; · iexists _; iapply (Entails.of_eq (pts_sB0 (F := F) d L _)); iexact HsB0
    isplitl [HsB1]; · iexists _; iapply (Entails.of_eq (pts_sB1 (F := F) d L _)); iexact HsB1
    iexact Hbufs
  isplitl [Hc5 Hc6 Hr0 Hr1 Hr2 Hsems]
  · isplitl [Hc5]; · iexact Hc5
    isplitl [Hc6]; · iexact Hc6
    isplitl [Hr0]; · iexact Hr0
    isplitl [Hr1]; · iexact Hr1
    isplitl [Hr2]; · iexact Hr2
    iexact Hsems
  iexists _
  isplitr
  rotate_left
  · iexact HO
  · ipureintro; intro p hp
    rcases Finset.mem_insert.mp hp with rfl | hp
    · exact .inr rfl
    rcases Finset.mem_insert.mp hp with rfl | hp
    · exact .inr rfl
    exact hW' p hp

end Cert.Proof.KI

end
-- ==== Proof.KISets.lean ====
/-
  The tasks' shares of the arrays are disjoint, and their shares of the result cover it: worker w = 2 s + c of task
  (c, s) owns columns [128 w, 128 w + 128), the even slabs through one family of slices and the odd slabs through the other.
-/
import proofs.«206631_g81458349736089_cont_9to1c4b_538_8_alg».proof.Proof.KISetup

noncomputable section

namespace Cert.Proof.KI

open Cert.KernelIdeal Cert.KernelIdeal.Gen
open Idealize.ShloMosaic

/-- A task's elements of the result by the staging buffer they go through: `false` the first (even slabs), `true` the second. -/
def oPart (p : grid0.Coords × Bool) : Finset S200x64x4096.Idx := if p.2 then oO p.1 else oE p.1

/-! ## Tasks and workers -/

theorem wid_val (L : grid0.Coords) : (wid L).val = 2 * (L 1).val + (L 0).val := rfl

theorem coords_lt0 (L : grid0.Coords) : (L 0).val < 2 := (L 0).isLt
theorem coords_lt1 (L : grid0.Coords) : (L 1).val < 16 := (L 1).isLt

/-- Two tasks with the same coordinates are one task. -/
theorem coords_ext {L L' : grid0.Coords} (h0 : (L 0).val = (L' 0).val) (h1 : (L 1).val = (L' 1).val) : L = L' := by
  funext a
  match a with
  | ⟨0, _⟩ => exact Fin.ext h0
  | ⟨1, _⟩ => exact Fin.ext h1

/-- The task of worker `w`: SparseCore `w % 2`, vector subcore `w / 2`. -/
def ofWid (w : Fin 32) : grid0.Coords := fun a =>
  match a with
  | ⟨0, _⟩ => (⟨w.val % 2, Nat.mod_lt _ (by decide)⟩ : Fin 2)
  | ⟨1, _⟩ => (⟨w.val / 2, Nat.div_lt_of_lt_mul w.isLt⟩ : Fin 16)

theorem wid_ofWid (w : Fin 32) : wid (ofWid w) = w := by
  apply Fin.ext
  show 2 * (w.val / 2) + w.val % 2 = w.val
  omega

theorem wid_injective : Function.Injective wid := by
  intro L L' h
  have hv : (wid L).val = (wid L').val := congrArg Fin.val h
  rw [wid_val, wid_val] at hv
  have a0 := coords_lt0 L
  have b0 := coords_lt0 L'
  exact coords_ext (by omega) (by omega)

theorem wid_bijective : Function.Bijective wid :=
  ⟨wid_injective, fun w => ⟨ofWid w, wid_ofWid w⟩⟩

theorem trips_eq : k0_t1_loop.trips = 100 := by decide

/-! ## Which elements a slice holds -/

/-- The task's index columns: every row, columns `[128 w, 128 w + 128)`. -/
theorem mem_iCols (L : grid0.Coords) (j : S200x4096.Idx) :
    j ∈ (iCols L).view.set ↔ 128 * (wid L).val ≤ (j 1).val ∧ (j 1).val < 128 * (wid L).val + 128 := by
  show j ∈ ((View.whole main_v0_scv).slice (Rect.unit (s := S200x4096) (k0_off1 L) S200x128.size (k0_off1_inb L))).set ↔ _
  rw [View.set_slice_whole, Rect.mem_set_unit, k0_off1_eq, wid_val]
  have hj0 : (j 0).val < 200 := (j 0).isLt
  constructor
  · intro h
    have h1 : 256 * (L 1).val + 128 * (L 0).val ≤ (j 1).val ∧ (j 1).val < 256 * (L 1).val + 128 * (L 0).val + 128 := h 1
    omega
  · intro h a
    match a with
    | ⟨0, _⟩ =>
      show 0 ≤ (j 0).val ∧ (j 0).val < 0 + 200
      omega
    | ⟨1, _⟩ =>
      show 256 * (L 1).val + 128 * (L 0).val ≤ (j 1).val ∧ (j 1).val < 256 * (L 1).val + 128 * (L 0).val + 128
      omega

/-- The task's columns of slab `2 k`. -/
theorem mem_oEven (L : grid0.Coords) (k : Fin k0_t1_loop.trips) (j : S200x64x4096.Idx) :
    j ∈ (oEven L k).view.set ↔ (j 0).val = 2 * k.val ∧ 128 * (wid L).val ≤ (j 2).val ∧ (j 2).val < 128 * (wid L).val + 128 := by
  show j ∈ (((View.whole main_v3_scv).slice (Rect.unit (s := S200x64x4096) (k0_off19 L k) S1x64x128.size (k0_off19_inb L k))).reshape
      S64x128 squeezes_S1x64x128_S64x128.numel_eq).set ↔ _
  rw [View.set_reshape, View.set_slice_whole, Rect.mem_set_unit, k0_off19_eq, wid_val]
  have hj1 : (j 1).val < 64 := (j 1).isLt
  constructor
  · intro h
    have h0 : 2 * k.val ≤ (j 0).val ∧ (j 0).val < 2 * k.val + 1 := h 0
    have h2 : 256 * (L 1).val + 128 * (L 0).val ≤ (j 2).val ∧ (j 2).val < 256 * (L 1).val + 128 * (L 0).val + 128 := h 2
    omega
  · intro h a
    match a with
    | ⟨0, _⟩ =>
      show 2 * k.val ≤ (j 0).val ∧ (j 0).val < 2 * k.val + 1
      omega
    | ⟨1, _⟩ =>
      show 0 ≤ (j 1).val ∧ (j 1).val < 0 + 64
      omega
    | ⟨2, _⟩ =>
      show 256 * (L 1).val + 128 * (L 0).val ≤ (j 2).val ∧ (j 2).val < 256 * (L 1).val + 128 * (L 0).val + 128
      omega

/-- The task's columns of slab `2 k + 1`. -/
theorem mem_oOdd (L : grid0.Coords) (k : Fin k0_t1_loop.trips) (j : S200x64x4096.Idx) :
    j ∈ (oOdd L k).view.set ↔ (j 0).val = 2 * k.val + 1 ∧ 128 * (wid L).val ≤ (j 2).val ∧ (j 2).val < 128 * (wid L).val + 128 := by
  show j ∈ (((View.whole main_v3_scv).slice (Rect.unit (s := S200x64x4096) (k0_off37 L k) S1x64x128.size (k0_off37_inb L k))).reshape
      S64x128 squeezes_S1x64x128_S64x128.numel_eq).set ↔ _
  rw [View.set_reshape, View.set_slice_whole, Rect.mem_set_unit, k0_off37_eq, wid_val]
  have hj1 : (j 1).val < 64 := (j 1).isLt
  constructor
  · intro h
    have h0 : 2 * k.val + 1 ≤ (j 0).val ∧ (j 0).val < 2 * k.val + 1 + 1 := h 0
    have h2 : 256 * (L 1).val + 128 * (L 0).val ≤ (j 2).val ∧ (j 2).val < 256 * (L 1).val + 128 * (L 0).val + 128 := h 2
    omega
  · intro h a
    match a with
    | ⟨0, _⟩ =>
      show 2 * k.val + 1 ≤ (j 0).val ∧ (j 0).val < 2 * k.val + 1 + 1
      omega
    | ⟨1, _⟩ =>
      show 0 ≤ (j 1).val ∧ (j 1).val < 0 + 64
      omega
    | ⟨2, _⟩ =>
      show 256 * (L 1).val + 128 * (L 0).val ≤ (j 2).val ∧ (j 2).val < 256 * (L 1).val + 128 * (L 0).val + 128
      omega

/-- The task's elements of the even slabs: columns `[128 w, 128 w + 128)` of every even slab. -/
theorem mem_oE (L : grid0.Coords) (j : S200x64x4096.Idx) :
    j ∈ oE L ↔ (j 0).val % 2 = 0 ∧ 128 * (wid L).val ≤ (j 2).val ∧ (j 2).val < 128 * (wid L).val + 128 := by
  have hj0 : (j 0).val < 200 := (j 0).isLt
  unfold oE
  rw [Finset.mem_biUnion]
  constructor
  · rintro ⟨k, -, hk⟩
    have := (mem_oEven L k j).1 hk
    omega
  · intro h
    refine ⟨⟨(j 0).val / 2, by rw [trips_eq]; omega⟩, Finset.mem_univ _, (mem_oEven L _ j).2 ?_⟩
    show (j 0).val = 2 * ((j 0).val / 2) ∧ _
    omega

/-- The task's elements of the odd slabs. -/
theorem mem_oO (L : grid0.Coords) (j : S200x64x4096.Idx) :
    j ∈ oO L ↔ (j 0).val % 2 = 1 ∧ 128 * (wid L).val ≤ (j 2).val ∧ (j 2).val < 128 * (wid L).val + 128 := by
  have hj0 : (j 0).val < 200 := (j 0).isLt
  unfold oO
  rw [Finset.mem_biUnion]
  constructor
  · rintro ⟨k, -, hk⟩
    have := (mem_oOdd L k j).1 hk
    omega
  · intro h
    refine ⟨⟨(j 0).val / 2, by rw [trips_eq]; omega⟩, Finset.mem_univ _, (mem_oOdd L _ j).2 ?_⟩
    show (j 0).val = 2 * ((j 0).val / 2) + 1 ∧ _
    omega

/-- A task's part of the result, by coordinates: the slab's parity is the buffer's, the column is the worker's. -/
theorem mem_oPart (p : grid0.Coords × Bool) (j : S200x64x4096.Idx) :
    j ∈ oPart p ↔ (j 0).val % 2 = (if p.2 then 1 else 0) ∧ 128 * (wid p.1).val ≤ (j 2).val ∧ (j 2).val < 128 * (wid p.1).val + 128 := by
  obtain ⟨L, b⟩ := p
  cases b
  · show j ∈ oE L ↔ _
    rw [mem_oE]; rfl
  · show j ∈ oO L ↔ _
    rw [mem_oO]; rfl

/-! ## Disjoint, and all of the result -/

theorem iCols_disjoint : ∀ L ∈ (Finset.univ : Finset grid0.Coords), ∀ L' ∈ (Finset.univ : Finset grid0.Coords), L ≠ L' →
    Disjoint (iCols L).view.set (iCols L').view.set := by
  intro L _ L' _ hne
  have hw : (wid L).val ≠ (wid L').val := fun e => hne (wid_injective (Fin.ext e))
  rw [Finset.disjoint_left]
  intro j hj hj'
  have h := (mem_iCols L j).1 hj
  have h' := (mem_iCols L' j).1 hj'
  omega

theorem oPart_disjoint : ∀ p ∈ (Finset.univ : Finset (grid0.Coords × Bool)), ∀ p' ∈ (Finset.univ : Finset (grid0.Coords × Bool)), p ≠ p' →
    Disjoint (oPart p) (oPart p') := by
  intro p _ p' _ hne
  obtain ⟨L, b⟩ := p
  obtain ⟨L', b'⟩ := p'
  rw [Finset.disjoint_left]
  intro j hj hj'
  have h := (mem_oPart (L, b) j).1 hj
  have h' := (mem_oPart (L', b') j).1 hj'
  dsimp only at h h'
  apply hne
  have hw : wid L = wid L' := Fin.ext (by omega)
  have hb : b = b' := by
    cases b <;> cases b' <;> simp only [Bool.false_eq_true, ↓reduceIte] at h h' <;> first | rfl | omega
  rw [wid_injective hw, hb]

theorem oPart_cover : (Finset.univ : Finset (grid0.Coords × Bool)).biUnion oPart = Finset.univ := by
  rw [Finset.eq_univ_iff_forall]
  intro j
  have hj2 : (j 2).val < 4096 := (j 2).isLt
  have hw : (j 2).val / 128 < 32 := by omega
  have hL : (wid (ofWid ⟨(j 2).val / 128, hw⟩)).val = (j 2).val / 128 := by rw [wid_ofWid]
  rw [Finset.mem_biUnion]
  by_cases hp : (j 0).val % 2 = 1
  · refine ⟨(ofWid ⟨(j 2).val / 128, hw⟩, true), Finset.mem_univ _, ?_⟩
    show j ∈ oO (ofWid ⟨(j 2).val / 128, hw⟩)
    rw [mem_oO, hL]
    exact ⟨hp, by omega, by omega⟩
  · refine ⟨(ofWid ⟨(j 2).val / 128, hw⟩, false), Finset.mem_univ _, ?_⟩
    show j ∈ oE (ofWid ⟨(j 2).val / 128, hw⟩)
    rw [mem_oE, hL]
    exact ⟨by omega, by omega, by omega⟩

end Cert.Proof.KI

end
-- ==== Proof.KILaunchA.lean ====
/-
  The launch of the kernel program, first part: the arrays' contents at the one SparseCore call, what the
  handshakes carry to each task and back, the task's obligation from its body, how a SparseCore's share splits
  among its tasks, and the launch element of the ghost state.

  The call finds the transposed index array, the transposed head of the word table, the positional table and the
  result array at contents that are pure functions of the launch memory; every task is handed its share of them
  and hands it back with its elements of the result at the function `outT` of the three operands.
-/
import proofs.«206631_g81458349736089_cont_9to1c4b_538_8_alg».proof.Proof.KIBody
import proofs.«206631_g81458349736089_cont_9to1c4b_538_8_alg».proof.Proof.KISets

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays' contents at the call -/

/-- The index array transposed: what the first host operation leaves. -/
def A0 (d : Dev nD) : Buf (Elt F) (v0Loc d) :=
  transpose S200x4096 [1, 0] (m (a0Loc d)) transposes_S4096x200_S200x4096_1_0
/-- The first 200 rows of the word table: what the second leaves. -/
def A1 (d : Dev nD) : Buf (Elt F) (v1Loc d) :=
  extractStridedSlice S200x64 ![0, 0] (m (a1Loc d)) slices_S100000x64_S200x64_0_0
/-- That head transposed: what the third leaves. -/
def A2 (d : Dev nD) : Buf (Elt F) (v2Loc d) :=
  transpose S64x200 [1, 0] (A1 m d) transposes_S200x64_S64x200_1_0

variable [FloatOps F]

/-- What the call leaves in the result array. -/
def outAtCall (d : Dev nD) : Buf (Elt F) (v3Loc d) := Cert.Spec.outT (F := F) (A0 m d) (A2 m d) (m (a2Loc d))

/-! ## The grid -/

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem nCore_bound : (K (F := F)).nCore 0 = grid0.bound 0 := rfl
omit [FloatOps F] in
theorem nSub_bound : (K (F := F)).nSub 0 = grid0.bound 1 := rfl

/-- The grid point of task `i` of SparseCore `c` of the call. -/
abbrev coordsK (c : Fin ((K (F := F)).nCore 0)) (i : Fin ((K (F := F)).nSub 0)) : grid0.Coords :=
  coordsV (Fin.cast (nCore_bound (F := F)) c) (Fin.cast (nSub_bound (F := F)) i)

/-! ## What the handshakes carry -/

/-- A task's share at the call, -/
abbrev tileGo (d : Dev nD) (L : grid0.Coords) : sProp 𝕄 := tileIn d L (A0 m d) (A2 m d) (m (a2Loc d)) (m (v3Loc d))
/-- and when it is done. -/
abbrev tileTd (d : Dev nD) (L : grid0.Coords) : sProp 𝕄 := tileIn d L (A0 m d) (A2 m d) (m (a2Loc d)) (outAtCall m d)

instance tileIn_storable (d : Dev nD) (L : grid0.Coords) (I : Buf (Elt F) (v0Loc d)) (Wt : Buf (Elt F) (v2Loc d)) (Ps : Buf (Elt F) (a2Loc d))
    (O3 : Buf (Elt F) (v3Loc d)) : BI.Storable (upEmb : UEmb _ 𝕄) (tileIn d L I Wt Ps O3) := by
  unfold tileIn; infer_instance

/-- The one call hands each SparseCore its tasks' shares, each task its own, and brings them back with the tasks'
    elements of the result written. -/
def P : (K (F := F)).Pay (nD := nD) (Val := Elt F) (Name := ℕ) (U := UU) where
  st := fun q d c => match q with
    | 0 => bigSep Finset.univ fun i : Fin ((K (F := F)).nSub 0) => tileGo m d (coordsK (F := F) c i)
  dn := fun q d c => match q with
    | 0 => bigSep Finset.univ fun i : Fin ((K (F := F)).nSub 0) => tileTd m d (coordsK (F := F) c i)
  go := fun q d c i => match q with
    | 0 => tileGo m d (coordsK (F := F) c i)
  td := fun q d c i => match q with
    | 0 => tileTd m d (coordsK (F := F) c i)
  x := fun _ _ => iprop(emp)

theorem P_go (d : Dev nD) (c : Fin ((K (F := F)).nCore 0)) (i : Fin ((K (F := F)).nSub 0)) :
    (P m).go 0 d c i = tileGo m d (coordsK (F := F) c i) := rfl
theorem P_td (d : Dev nD) (c : Fin ((K (F := F)).nCore 0)) (i : Fin ((K (F := F)).nSub 0)) :
    (P m).td 0 d c i = tileTd m d (coordsK (F := F) c i) := rfl
theorem P_st (d : Dev nD) (c : Fin ((K (F := F)).nCore 0)) :
    (P m).st 0 d c = bigSep Finset.univ fun i : Fin ((K (F := F)).nSub 0) => tileGo m d (coordsK (F := F) c i) := rfl
theorem P_dn (d : Dev nD) (c : Fin ((K (F := F)).nCore 0)) :
    (P m).dn 0 d c = bigSep Finset.univ fun i : Fin ((K (F := F)).nSub 0) => tileTd m d (coordsK (F := F) c i) := rfl
theorem P_x (q : Fin 1) (thr : Thread nD τ) : (P m).x q thr = iprop(emp) := rfl

instance P_storable : (P (F := F) m).IsStorable where
  st q d c := match q with
    | 0 => (inferInstance : BI.Storable (upEmb : UEmb _ 𝕄)
        (bigSep Finset.univ fun i : Fin ((K (F := F)).nSub 0) => tileGo m d (coordsK (F := F) c i)))
  dn q d c := match q with
    | 0 => (inferInstance : BI.Storable (upEmb : UEmb _ 𝕄)
        (bigSep Finset.univ fun i : Fin ((K (F := F)).nSub 0) => tileTd m d (coordsK (F := F) c i)))
  go q d c i := match q with
    | 0 => (inferInstance : BI.Storable (upEmb : UEmb _ 𝕄) (tileGo m d (coordsK (F := F) c i)))
  td q d c i := match q with
    | 0 => (inferInstance : BI.Storable (upEmb : UEmb _ 𝕄) (tileTd m d (coordsK (F := F) c i)))

/-! ## The launch theorem's obligations -/

theorem defs₀_vector (c : Fin τ.nSC) (s : Fin τ.nSub) :
    defs₀ (F := F) (.scVector c s) 0 ()
      = SparseCore.onTile hcore0 hsub0 (fun c s => cc0__sc_embed (coordsV c s)
          iV (Memref.isWhole_whole _) wV (Memref.isWhole_whole _) pV (Memref.isWhole_whole _) oV (Memref.isWhole_whole _)
          sW (Memref.isWhole_whole _) sP (Memref.isWhole_whole _) sI (Memref.isWhole_whole _) sB0 (Memref.isWhole_whole _) sB1 (Memref.isWhole_whole _)
          cc0_scratch5 cc0_scratch6 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call runs the body at its own grid point: from its share to its share with its elements of the
    result written, provided every word of the transposed index array is below 200. -/
theorem tileObl (hpre : ∀ d j, (A0 m d j).toNat < 200) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body facts d (coordsV ⟨_, hc.1⟩ ⟨_, hc.2⟩) (A0 m d) (A2 m d) (m (a2Loc d)) (m (v3Loc d)) (hpre d) O W hO).trans
    (wp_mono frame _ _ fun _ => obl_post)

/-- A SparseCore's share is its tasks' shares, going and coming back. -/
theorem vecSplit : (K (F := F)).VecSplit' (P m) 0 := by
  intro d c
  rw [P_st, P_dn]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr) = (iprop(emp) : sProp 𝕄) from by
    rw [bigSep_congr fun thr _ => bigSep_congr fun q _ => P_x m q thr, bigSep_congr fun _ _ => bigSep_emp' _, bigSep_emp']]
  iempintro

end Cert.Proof.KI

end
-- ==== Proof.KILaunchB.lean ====
/-
  The launch of the kernel program, second part: the tasks' shares of the four arrays, taken together, are the
  arrays themselves — the index array's columns the tasks read (the rest of it stays aside), one read token of each
  table per task, and the whole result array, every element of which belongs to exactly one task.
-/
import proofs.«206631_g81458349736089_cont_9to1c4b_538_8_alg».proof.Proof.KILaunchA

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## Reindexing the grid -/

/-- A grid point is a SparseCore and a vector subcore of it. -/
def coordsE : Fin (grid0.bound 0) × Fin (grid0.bound 1) ≃ grid0.Coords where
  toFun p := coordsV p.1 p.2
  invFun L := (L 0, L 1)
  left_inv _ := rfl
  right_inv L := funext fun a => match a with
    | ⟨0, _⟩ => rfl
    | ⟨1, _⟩ => rfl
    | ⟨_ + 2, h⟩ => absurd h (Nat.not_lt.2 (Nat.le_add_left _ _))

omit [FloatOps F] in
/-- A family over the call's SparseCores and their tasks is one over the grid. -/
theorem bigSep_grid (Φ : grid0.Coords → sProp 𝕄) :
    (bigSep Finset.univ fun c : Fin ((K (F := F)).nCore 0) => bigSep Finset.univ fun i : Fin ((K (F := F)).nSub 0) => Φ (coordsK (F := F) c i))
      = bigSep Finset.univ Φ := by
  rw [bigSep_univ_equiv coordsE Φ, bigSep_univ_prod]
  exact bigSep_congr fun c _ => bigSep_congr fun i _ => rfl

/-- The tasks' worker numbers name the 32 read tokens. -/
def widE : grid0.Coords ≃ Fin 32 := Equiv.ofBijective wid wid_bijective

omit [FloatOps F] in
theorem bigSep_wid (Φ : Fin 32 → sProp 𝕄) : bigSep Finset.univ Φ = bigSep Finset.univ fun L : grid0.Coords => Φ (wid L) :=
  bigSep_univ_equiv widE Φ

/-! ## The arrays as the tasks' shares -/

section Shares

variable (d : Dev nD)

/-- The elements of the index array some task reads. -/
def iAll : Finset S200x4096.Idx := Finset.univ.biUnion fun L : grid0.Coords => (iCols L).view.set

omit [FloatOps F] in
theorem idx_parts (I : Buf (Elt F) (v0Loc d)) :
    (bigSep Finset.univ fun L : grid0.Coords => (v0Loc d ↦[(iCols L).view.set]{fullShare} I : sProp 𝕄)) = (v0Loc d ↦[iAll]{fullShare} I) :=
  (pointsTo_biUnion Finset.univ (ℓ := v0Loc d) (fun L : grid0.Coords => (iCols L).view.set) iCols_disjoint).symm

omit [FloatOps F] in
theorem oPart_false (L : grid0.Coords) : oPart (L, false) = oE L := if_neg Bool.false_ne_true
omit [FloatOps F] in
theorem oPart_true (L : grid0.Coords) : oPart (L, true) = oO L := if_pos rfl

omit [FloatOps F] in
theorem out_parts (O3 : Buf (Elt F) (v3Loc d)) :
    (bigSep Finset.univ fun L : grid0.Coords => iprop((v3Loc d ↦[oE L]{fullShare} O3) ∗ (v3Loc d ↦[oO L]{fullShare} O3)) : sProp 𝕄)
      = (v3Loc d ↦{fullShare} O3) := by
  have h : ∀ L : grid0.Coords, (iprop((v3Loc d ↦[oE L]{fullShare} O3) ∗ (v3Loc d ↦[oO L]{fullShare} O3)) : sProp 𝕄)
      = bigSep Finset.univ fun b : Bool => v3Loc d ↦[oPart (L, b)]{fullShare} O3 := by
    intro L
    rw [show (Finset.univ : Finset Bool) = {false, true} by decide, SparseCore.bigSep_insert' (by decide), bigSep_singleton,
      oPart_false, oPart_true]
  rw [bigSep_congr fun L _ => h L, ← bigSep_univ_prod (fun p : grid0.Coords × Bool => (v3Loc d ↦[oPart p]{fullShare} O3 : sProp 𝕄)),
    ← pointsTo_biUnion Finset.univ (ℓ := v3Loc d) oPart oPart_disjoint, oPart_cover]

/-- All the tasks' shares at once: the columns of the index array the tasks read, the 32 read tokens of each table,
    the result array whole. -/
theorem tasks_eq (I : Buf (Elt F) (v0Loc d)) (Wt : Buf (Elt F) (v2Loc d)) (Ps : Buf (Elt F) (a2Loc d)) (O3 : Buf (Elt F) (v3Loc d)) :
    (bigSep Finset.univ fun c : Fin ((K (F := F)).nCore 0) => bigSep Finset.univ fun i : Fin ((K (F := F)).nSub 0) =>
        tileIn d (coordsK (F := F) c i) I Wt Ps O3)
      = iprop((v0Loc d ↦[iAll]{fullShare} I)
          ∗ (bigSep Finset.univ fun i : Fin 32 => v2Loc d ↦{Transfers.shareTok fullShare 32 i} Wt)
          ∗ (bigSep Finset.univ fun i : Fin 32 => a2Loc d ↦{Transfers.shareTok fullShare 32 i} Ps)
          ∗ (v3Loc d ↦{fullShare} O3)) := by
  rw [bigSep_grid (fun L => tileIn d L I Wt Ps O3)]
  unfold tileIn
  rw [bigSep_sep', bigSep_sep', bigSep_sep', idx_parts, out_parts,
    bigSep_wid (fun i : Fin 32 => (v2Loc d ↦{Transfers.shareTok fullShare 32 i} Wt : sProp 𝕄)),
    bigSep_wid (fun i : Fin 32 => (a2Loc d ↦{Transfers.shareTok fullShare 32 i} Ps : sProp 𝕄))]

end Shares

end Cert.Proof.KI

end
-- ==== Proof.ValueT.lean ====
/-
  The host operations around the kernel's call undo one another: the kernel's result read through the final
  transpose, over the transposed index array and the transposed head of the word table, is the embedding sum
  `emb` of the original operands, entry by entry. Every step is an index equation; the only arithmetic is that an
  index word below 200 names the same row of the word table and column of its transposed head.
-/
import proofs.«206631_g81458349736089_cont_9to1c4b_538_8_alg».proof.Proof.SpecT
import Idealize.ShloMosaic.Lib.ValueLayout

noncomputable section

namespace Cert.Spec

open Idealize.ShloMosaic Idealize.ShloMosaic.ValueIdx

/-- A rank-3 array with its last axis moved to the front (permutation `[2, 0, 1]`) reads, at `(k, i, j)`, the
    operand at `(i, j, k)`. -/
theorem transpose_ix3_201_apply {α : Type} {m a b : ℕ} (x : (⟨3, ![m, a, b]⟩ : Shape).Idx → α)
    (h : (⟨3, ![m, a, b]⟩ : Shape).Transposes [2, 0, 1] ⟨3, ![b, m, a]⟩) (k : Fin b) (i : Fin m) (j : Fin a) :
    transpose ⟨3, ![b, m, a]⟩ [2, 0, 1] x h (ix3 k i j) = x (ix3 i j k) :=
  transpose_apply _ x h _ _ fun c => match c with | ⟨0, _⟩ => rfl | ⟨1, _⟩ => rfl | ⟨2, _⟩ => rfl

/-- The transposed index array holds the same words, so each is below 200. -/
theorem inRange_transpose (hT1 : (⟨2, ![4096, 200]⟩ : Shape).Transposes [1, 0] ⟨2, ![200, 4096]⟩)
    (idx : IVec ⟨2, ![4096, 200]⟩ 32) (h : InRange idx) :
    ∀ j, ((transpose ⟨2, ![200, 4096]⟩ [1, 0] idx hT1) j).toNat < 200 := by
  intro j
  obtain ⟨l, b, rfl⟩ : ∃ (l : Fin 200) (b : Fin 4096), j = ix2 l b := ⟨j 0, j 1, eq_ix2 j⟩
  rw [transpose_ix2_apply]
  exact h _

/-- A word below 200 names the same row of the word table as column of its transposed head. -/
theorem rowOf_eq_colOf {w : BitVec 32} (h : w.toNat < 200) : (rowOf w).val = 0 + (colOf w).val := by
  rw [rowOf_val h, colOf_val h, Nat.zero_add]

variable {F : FTy → Type} [FloatOps F]

/-- The kernel's result, read through the final transpose, is the embedding sum of the original operands. -/
theorem final_eq
    (hT1 : (⟨2, ![4096, 200]⟩ : Shape).Transposes [1, 0] ⟨2, ![200, 4096]⟩)
    (hS : (⟨2, ![100000, 64]⟩ : Shape).Slices ![0, 0] ⟨2, ![200, 64]⟩)
    (hT2 : (⟨2, ![200, 64]⟩ : Shape).Transposes [1, 0] ⟨2, ![64, 200]⟩)
    (hT3 : (⟨3, ![200, 64, 4096]⟩ : Shape).Transposes [2, 0, 1] ⟨3, ![4096, 200, 64]⟩)
    (idx : IVec ⟨2, ![4096, 200]⟩ 32) (W : FVec F ⟨2, ![100000, 64]⟩ .f32) (P : FVec F ⟨2, ![200, 64]⟩ .f32)
    (h : InRange idx) :
    transpose ⟨3, ![4096, 200, 64]⟩ [2, 0, 1]
        (outT (F := F) (transpose ⟨2, ![200, 4096]⟩ [1, 0] idx hT1)
          (transpose ⟨2, ![64, 200]⟩ [1, 0] (extractStridedSlice ⟨2, ![200, 64]⟩ ![0, 0] W hS) hT2) P) hT3
      = emb (F := F) idx W P := by
  funext j
  obtain ⟨b, l, e, rfl⟩ : ∃ (b : Fin 4096) (l : Fin 200) (e : Fin 64), j = ix3 b l e := ⟨j 0, j 1, j 2, eq_ix3 j⟩
  rw [transpose_ix3_201_apply]
  -- both sides are a sum of a word-table entry and the same positional entry
  show FloatOps.addf
      (transpose ⟨2, ![64, 200]⟩ [1, 0] (extractStridedSlice ⟨2, ![200, 64]⟩ ![0, 0] W hS) hT2
        (ix2 e (colOf (transpose ⟨2, ![200, 4096]⟩ [1, 0] idx hT1 (ix2 l b)))))
      (P (ix2 l e))
    = FloatOps.addf (W (ix2 (rowOf (idx (ix2 b l))) e)) (P (ix2 l e))
  rw [transpose_ix2_apply, transpose_ix2_apply,
    slice2_axis0_apply 0 W hS _ e (rowOf (idx (ix2 b l))) (rowOf_eq_colOf (h _))]

end Cert.Spec

end
-- ==== Proof.KILaunch.lean ====
/-
  The launch of the kernel program, third part: the program's run. On every device the TensorCore transposes the
  index array, takes the first 200 rows of the word table and transposes them, starts the two SparseCores on those
  and the positional table, waits for them, and transposes the result; the 32 tasks each write their columns of every
  slab of the result. From a launch memory whose index words are all below 200 every weakly fair execution ends with
  the three arguments unchanged and the last transpose of `outT` — the embedding sum — in the result.
-/
import proofs.«206631_g81458349736089_cont_9to1c4b_538_8_alg».proof.Proof.KILaunchB
import proofs.«206631_g81458349736089_cont_9to1c4b_538_8_alg».proof.Proof.ValueT

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## @main's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The TensorCore's arrays, all unscoped. -/
abbrev S8 : Finset (DevRef τ sig) := {a0', a1', a2', v0', v1', v2', v3', v4'}

/-- The four host operations. -/
abbrev op1 : HloOp τ sig (Elt F) :=
  StableHlo.unary main_arg0 main_v0 ((transpose S200x4096 [1, 0] · transposes_S4096x200_S200x4096_1_0) : (⟨S4096x200, .i32⟩ : BufTy).Contents (Elt F) → (⟨S200x4096, .i32⟩ : BufTy).Contents (Elt F))
abbrev op2 : HloOp τ sig (Elt F) :=
  StableHlo.unary main_arg1 main_v1 ((extractStridedSlice S200x64 ![0, 0] · slices_S100000x64_S200x64_0_0) : (⟨S100000x64, .f32⟩ : BufTy).Contents (Elt F) → (⟨S200x64, .f32⟩ : BufTy).Contents (Elt F))
abbrev op3 : HloOp τ sig (Elt F) :=
  StableHlo.unary main_v1 main_v2 ((transpose S64x200 [1, 0] · transposes_S200x64_S64x200_1_0) : (⟨S200x64, .f32⟩ : BufTy).Contents (Elt F) → (⟨S64x200, .f32⟩ : BufTy).Contents (Elt F))
abbrev op4 : HloOp τ sig (Elt F) :=
  StableHlo.unary main_v3 main_v4 ((transpose S4096x200x64 [2, 0, 1] · transposes_S200x64x4096_S4096x200x64_2_0_1) : (⟨S200x64x4096, .f32⟩ : BufTy).Contents (Elt F) → (⟨S4096x200x64, .f32⟩ : BufTy).Contents (Elt F))

theorem hop1 : (op1 (F := F)).bufs ⊆ S8 := show ({a0', v0'} : Finset (DevRef τ sig)) ⊆ S8 by decide
theorem hop2 : (op2 (F := F)).bufs ⊆ S8 := show ({a1', v1'} : Finset (DevRef τ sig)) ⊆ S8 by decide
theorem hop3 : (op3 (F := F)).bufs ⊆ S8 := show ({v1', v2'} : Finset (DevRef τ sig)) ⊆ S8 by decide
theorem hop4 : (op4 (F := F)).bufs ⊆ S8 := show ({v3', v4'} : Finset (DevRef τ sig)) ⊆ S8 by decide

theorem held_S8 (d : Dev nD) (W : Valuation τ sig (Elt F)) :
    (held (T d) S8 W : sProp 𝕄) = iprop((a0Loc d ↦{fullShare} W a0') ∗ (a1Loc d ↦{fullShare} W a1') ∗ (a2Loc d ↦{fullShare} W a2')
      ∗ (v0Loc d ↦{fullShare} W v0') ∗ (v1Loc d ↦{fullShare} W v1') ∗ (v2Loc d ↦{fullShare} W v2') ∗ (v3Loc d ↦{fullShare} W v3')
      ∗ (v4Loc d ↦{fullShare} W v4')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (v0Loc d ↦{fullShare} W main_v0) ∗ (v1Loc d ↦{fullShare} W main_v1) ∗ (v2Loc d ↦{fullShare} W main_v2) ∗ (v3Loc d ↦{fullShare} W main_v3)
      ∗ (v4Loc d ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The arrays' contents along @main -/

/-- One step of reading a host operation's result: at another array, what was there; at its own result, its function. -/
local macro "res_ne" : tactic => `(tactic| (rw [StableHlo.unary_result_ne]; rotate_left; decide))
local macro "res_eq" : tactic => `(tactic| rw [StableHlo.unary_result])

/-- At the launch; -/
def V0 (d : Dev nD) : Valuation τ sig (Elt F) := fun b => m (d, b)
/-- at the call, after the three host operations; -/
def Vc (d : Dev nD) : Valuation τ sig (Elt F) := (op3 (F := F)).result ((op2 (F := F)).result ((op1 (F := F)).result (V0 m d)))

theorem unscoped_held (d : Dev nD) : (unscopedBufs d (fun b => m ((SparseCore.T d).loc b)) : sProp 𝕄) = held (T d) S8 (V0 m d) := by
  rw [unscopedBufs_eq, held_S8]; rfl

theorem Vc_a0 (d : Dev nD) : Vc m d a0' = m (a0Loc d) := by
  unfold Vc
  res_ne; res_ne; res_ne; rfl
theorem Vc_a1 (d : Dev nD) : Vc m d a1' = m (a1Loc d) := by
  unfold Vc
  res_ne; res_ne; res_ne; rfl
theorem Vc_a2 (d : Dev nD) : Vc m d a2' = m (a2Loc d) := by
  unfold Vc
  res_ne; res_ne; res_ne; rfl
theorem Vc_v3 (d : Dev nD) : Vc m d v3' = m (v3Loc d) := by
  unfold Vc
  res_ne; res_ne; res_ne; rfl
theorem Vc_v4 (d : Dev nD) : Vc m d v4' = m (v4Loc d) := by
  unfold Vc
  res_ne; res_ne; res_ne; rfl
theorem Vc_v0 (d : Dev nD) : Vc m d v0' = A0 m d := by
  unfold Vc
  res_ne; res_ne; res_eq; rfl
theorem Vc_v1 (d : Dev nD) : Vc m d v1' = A1 m d := by
  unfold Vc
  res_ne; res_eq; res_ne; rfl
theorem Vc_v2 (d : Dev nD) : Vc m d v2' = A2 m d := by
  unfold Vc
  res_eq; res_eq; res_ne; rfl

theorem held_Vc (d : Dev nD) :
    (held (T d) S8 (Vc m d) : sProp 𝕄) = iprop((a0Loc d ↦{fullShare} m (a0Loc d)) ∗ (a1Loc d ↦{fullShare} m (a1Loc d)) ∗ (a2Loc d ↦{fullShare} m (a2Loc d))
      ∗ (v0Loc d ↦{fullShare} A0 m d) ∗ (v1Loc d ↦{fullShare} A1 m d) ∗ (v2Loc d ↦{fullShare} A2 m d) ∗ (v3Loc d ↦{fullShare} m (v3Loc d))
      ∗ (v4Loc d ↦{fullShare} m (v4Loc d))) := by
  rw [held_S8, Vc_a0, Vc_a1, Vc_a2, Vc_v0, Vc_v1, Vc_v2, Vc_v3, Vc_v4]

theorem held_Vc' (d : Dev nD) :
    (held (T d) S8 ((op3 (F := F)).result ((op2 (F := F)).result ((op1 (F := F)).result (V0 m d)))) : sProp 𝕄)
      = iprop((a0Loc d ↦{fullShare} m (a0Loc d)) ∗ (a1Loc d ↦{fullShare} m (a1Loc d)) ∗ (a2Loc d ↦{fullShare} m (a2Loc d))
      ∗ (v0Loc d ↦{fullShare} A0 m d) ∗ (v1Loc d ↦{fullShare} A1 m d) ∗ (v2Loc d ↦{fullShare} A2 m d) ∗ (v3Loc d ↦{fullShare} m (v3Loc d))
      ∗ (v4Loc d ↦{fullShare} m (v4Loc d))) := held_Vc m d

variable [FloatOps F]

/-- after the call, the result array at what the tasks left; -/
def Vd (d : Dev nD) : Valuation τ sig (Elt F) := Function.update (Vc m d) v3' (outAtCall m d)
/-- after the last transpose. -/
def Ve (d : Dev nD) : Valuation τ sig (Elt F) := (op4 (F := F)).result (Vd m d)

/-- The result: the last transpose of what the tasks left. -/
def R4 (d : Dev nD) : Buf (Elt F) (v4Loc d) :=
  transpose S4096x200x64 [2, 0, 1] (outAtCall m d) transposes_S200x64x4096_S4096x200x64_2_0_1

theorem Vd_a0 (d : Dev nD) : Vd m d a0' = m (a0Loc d) := (Function.update_of_ne (show a0' ≠ v3' by decide) _ _).trans (Vc_a0 m d)
theorem Vd_a1 (d : Dev nD) : Vd m d a1' = m (a1Loc d) := (Function.update_of_ne (show a1' ≠ v3' by decide) _ _).trans (Vc_a1 m d)
theorem Vd_a2 (d : Dev nD) : Vd m d a2' = m (a2Loc d) := (Function.update_of_ne (show a2' ≠ v3' by decide) _ _).trans (Vc_a2 m d)
theorem Vd_v0 (d : Dev nD) : Vd m d v0' = A0 m d := (Function.update_of_ne (show v0' ≠ v3' by decide) _ _).trans (Vc_v0 m d)
theorem Vd_v1 (d : Dev nD) : Vd m d v1' = A1 m d := (Function.update_of_ne (show v1' ≠ v3' by decide) _ _).trans (Vc_v1 m d)
theorem Vd_v2 (d : Dev nD) : Vd m d v2' = A2 m d := (Function.update_of_ne (show v2' ≠ v3' by decide) _ _).trans (Vc_v2 m d)
theorem Vd_v3 (d : Dev nD) : Vd m d v3' = outAtCall m d := Function.update_self _ _ _
theorem Vd_v4 (d : Dev nD) : Vd m d v4' = m (v4Loc d) := (Function.update_of_ne (show v4' ≠ v3' by decide) _ _).trans (Vc_v4 m d)

theorem held_Vd (d : Dev nD) :
    (held (T d) S8 (Vd m d) : sProp 𝕄) = iprop((a0Loc d ↦{fullShare} m (a0Loc d)) ∗ (a1Loc d ↦{fullShare} m (a1Loc d)) ∗ (a2Loc d ↦{fullShare} m (a2Loc d))
      ∗ (v0Loc d ↦{fullShare} A0 m d) ∗ (v1Loc d ↦{fullShare} A1 m d) ∗ (v2Loc d ↦{fullShare} A2 m d) ∗ (v3Loc d ↦{fullShare} outAtCall m d)
      ∗ (v4Loc d ↦{fullShare} m (v4Loc d))) := by
  rw [held_S8, Vd_a0, Vd_a1, Vd_a2, Vd_v0, Vd_v1, Vd_v2, Vd_v3, Vd_v4]

theorem Ve_a0 (d : Dev nD) : Ve m d a0' = m (a0Loc d) := by
  unfold Ve; res_ne; exact Vd_a0 m d
theorem Ve_a1 (d : Dev nD) : Ve m d a1' = m (a1Loc d) := by
  unfold Ve; res_ne; exact Vd_a1 m d
theorem Ve_a2 (d : Dev nD) : Ve m d a2' = m (a2Loc d) := by
  unfold Ve; res_ne; exact Vd_a2 m d
theorem Ve_v4 (d : Dev nD) : Ve m d v4' = R4 m d := by
  unfold Ve; res_eq; exact congrArg (transpose S4096x200x64 [2, 0, 1] · transposes_S200x64x4096_S4096x200x64_2_0_1) (Vd_v3 m d)

/-- What @main leaves: the three arguments at their launch contents, the result at `R4`. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ (v4Loc d ↦{fullShare} R4 m d))

theorem held_Ve (d : Dev nD) :
    (held (T d) S8 (Ve m d) : sProp 𝕄) ⊢ FIN m d := by
  rw [held_S8, Ve_a0, Ve_a1, Ve_a2, Ve_v4]
  iintro ⟨Ha0, Ha1, Ha2, -, -, -, -, Hv4⟩
  isplitl [Ha0]; · iexact Ha0
  isplitl [Ha1]; · iexact Ha1
  isplitl [Ha2]; · iexact Ha2
  iexact Hv4

theorem held_Ve' (d : Dev nD) :
    (held (T d) S8 ((op4 (F := F)).result (Vd m d)) : sProp 𝕄) ⊢ FIN m d := held_Ve m d

/-! ## The call's shares, out of the arrays and back -/

/-- What the call takes, -/
theorem st0_eq (d : Dev nD) :
    (bigSep Finset.univ fun c : Fin ((K (F := F)).nCore 0) => (P m).st 0 d c)
      = iprop((v0Loc d ↦[iAll]{fullShare} A0 m d)
          ∗ (bigSep Finset.univ fun i : Fin 32 => v2Loc d ↦{Transfers.shareTok fullShare 32 i} A2 m d)
          ∗ (bigSep Finset.univ fun i : Fin 32 => a2Loc d ↦{Transfers.shareTok fullShare 32 i} m (a2Loc d))
          ∗ (v3Loc d ↦{fullShare} m (v3Loc d))) := by
  rw [bigSep_congr fun c _ => P_st m d c]; exact tasks_eq d _ _ _ _
/-- and what it hands back. -/
theorem dn0_eq (d : Dev nD) :
    (bigSep Finset.univ fun c : Fin ((K (F := F)).nCore 0) => (P m).dn 0 d c)
      = iprop((v0Loc d ↦[iAll]{fullShare} A0 m d)
          ∗ (bigSep Finset.univ fun i : Fin 32 => v2Loc d ↦{Transfers.shareTok fullShare 32 i} A2 m d)
          ∗ (bigSep Finset.univ fun i : Fin 32 => a2Loc d ↦{Transfers.shareTok fullShare 32 i} m (a2Loc d))
          ∗ (v3Loc d ↦{fullShare} outAtCall m d)) := by
  rw [bigSep_congr fun c _ => P_dn m d c]; exact tasks_eq d _ _ _ _

omit [FloatOps F] in
/-- The index array is the columns the tasks read and the rest. -/
theorem idx_split (d : Dev nD) (I : Buf (Elt F) (v0Loc d)) :
    (v0Loc d ↦{fullShare} I : sProp 𝕄) ⊣⊢ iprop((v0Loc d ↦[iAll]{fullShare} I) ∗ (v0Loc d ↦[Finset.univ \ iAll]{fullShare} I)) :=
  pointsTo_split_subset (Finset.subset_univ _)

/-! ## @main on the TensorCore -/

/-- @main on device `d`'s TensorCore: the three host operations over the arrays held whole; the call, from the tasks'
    shares of the arrays and back, the rest of the index array and of the tables' shares kept meanwhile; the last
    transpose. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op1) (S := S8) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S8) hop2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S8) hop3 (V := (op2 (F := F)).result ((op1 (F := F)).result (V0 m d)))) $$ [Hb Hheld]
  · isplitl [Hb]; · iexact Hb
    iexact Hheld
  iintro ⟨Hb, Hheld⟩
  rw [wp_ret]; imodintro
  ihave Hh := (Entails.of_eq (held_Vc' m d)) $$ Hheld
  icases Hh with ⟨Ha0, Ha1, Ha2, Hv0, Hv1, Hv2, Hv3, Hv4⟩
  -- the tasks' columns of the index array, and the rest of it
  ihave Hv0' := (idx_split d (A0 m d)).1 $$ Hv0
  icases Hv0' with ⟨Hv0i, Hv0r⟩
  -- the tables' 32 read tokens, and the rest of the share
  ihave Hv2' := (Transfers.pointsTo_toks_split (ℓ := v2Loc d) (S := Finset.univ) (f := A2 m d) fullShare 32) $$ Hv2
  icases Hv2' with ⟨Hv2r, Hv2t⟩
  ihave Ha2' := (Transfers.pointsTo_toks_split (ℓ := a2Loc d) (S := Finset.univ) (f := m (a2Loc d)) fullShare 32) $$ Ha2
  icases Ha2' with ⟨Ha2r, Ha2t⟩
  iapply ((K (F := F)).wp_run (D (F := F)) 𝒱 (EH := EH) (P := P m) κ d 0) $$ [Hst Hb Ha0 Ha1 Hv0i Hv0r Hv1 Hv2r Hv2t Ha2r Ha2t Hv3 Hv4]
  isplitr; · iexact Hctx
  isplitl [Hst]; · iexact Hst
  isplitl [Hv0i Hv2t Ha2t Hv3]
  · rw [st0_eq]
    isplitl [Hv0i]; · iexact Hv0i
    isplitl [Hv2t]; · iexact Hv2t
    isplitl [Ha2t]; · iexact Ha2t
    iexact Hv3
  iintro ⟨Hst, Hdn⟩
  ihave Hdn' := (Entails.of_eq (dn0_eq m d)) $$ Hdn
  icases Hdn' with ⟨Hv0i, Hv2t, Ha2t, Hv3⟩
  ihave Hv0 := (idx_split d (A0 m d)).2 $$ [Hv0i Hv0r]
  · isplitl [Hv0i]; · iexact Hv0i
    iexact Hv0r
  ihave Hv2 := (Transfers.pointsTo_toks_join (ℓ := v2Loc d) (S := Finset.univ) (f := A2 m d) fullShare 32) $$ [Hv2r Hv2t]
  · isplitl [Hv2r]; · iexact Hv2r
    iexact Hv2t
  ihave Ha2 := (Transfers.pointsTo_toks_join (ℓ := a2Loc d) (S := Finset.univ) (f := m (a2Loc d)) fullShare 32) $$ [Ha2r Ha2t]
  · isplitl [Ha2r]; · iexact Ha2r
    iexact Ha2t
  -- the last transpose
  iapply (wp_hlo_within 𝒱 (SparseCore.T d) none Set.univ (op := op4) (S := S8) hop4 (V := Vd m d)) $$ [Hb Ha0 Ha1 Ha2 Hv0 Hv1 Hv2 Hv3 Hv4]
  · isplitl [Hb]; · iexact Hb
    rw [held_Vd]
    isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    iexact Hv4
  iintro ⟨Hb, Hheld⟩
  ihave Hfin := (held_Ve' m d) $$ Hheld
  rw [wp_ret]; imodintro; imodintro
  isplitl [Hst]; · iexact Hst
  iexact Hfin

/-! ## Reading the final memory -/

def fq (d : Dev nD) (s' : Phys nD τ sig (Elt F)) : Prop :=
  s'.mem.mem (v4Loc d) = R4 m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Ha0, Ha1, Ha2, Hv4⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%e0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%e1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%e2, HSI, -⟩
  ihave H := (SI_pointsTo_agree (st := s') (ℓ := v4Loc d) (I := Finset.univ) (q := fullShare) (f := R4 m d)) $$ [HSI Hv4]
  · isplitl [HSI] <;> iassumption
  icases H with %e4
  ipureintro
  exact ⟨funext fun i => e4 i (Finset.mem_univ i), funext fun i => e0 i (Finset.mem_univ i), funext fun i => e1 i (Finset.mem_univ i),
    funext fun i => e2 i (Finset.mem_univ i)⟩

/-! ## The program's run -/

/-- The last transpose of what the tasks left is the embedding sum of the launch operands. -/
theorem R4_eq (d : Dev nD) (h : Cert.Spec.InRange (m (a0Loc d))) :
    R4 m d = Cert.Spec.emb (F := F) (m (a0Loc d)) (m (a1Loc d)) (m (a2Loc d)) :=
  Cert.Spec.final_eq transposes_S4096x200_S200x4096_1_0 slices_S100000x64_S200x64_0_0 transposes_S200x64_S64x200_1_0
    transposes_S200x64x4096_S4096x200x64_2_0_1 (m (a0Loc d)) (m (a1Loc d)) (m (a2Loc d)) h

/-- Every weakly fair execution of the device's threads from a launch memory whose index words are below 200
    terminates with the embedding sum in the result array and the three arguments unchanged. -/
theorem run_main [∀ e, Nonempty (Elt F e)] (hpre : ∀ d, Cert.Spec.InRange (m (a0Loc d))) :
    θ_run (Cert.KernelIdeal.defs (F := F)) (Cert.KernelIdeal.threads (F := F)) ⟨m, fun _ => 0, ρ⟩
      (fun r => ∀ c : Dev nD, r.2.mem (v4Loc c) = Cert.Spec.emb (F := F) (m (a0Loc c)) (m (a1Loc c)) (m (a2Loc c))
        ∧ r.2.mem (a0Loc c) = m (a0Loc c) ∧ r.2.mem (a1Loc c) = m (a1Loc c) ∧ r.2.mem (a2Loc c) = m (a2Loc c)) :=
  SparseCore.Cfg.θ_run_sc (K := K (F := F)) (D := D (F := F)) (𝒱 := 𝒱) (EH := EH) (P := P m) facts v₀
    (fun q hq => match q with | 0 => nomatch hq)
    (fun q _ => match q with | 0 => tileObl m fun d => Cert.Spec.inRange_transpose transposes_S4096x200_S200x4096_1_0 (m (a0Loc d)) (hpre d))
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => ⟨(h c).1.trans (R4_eq m c (hpre c)), (h c).2⟩)

end Cert.Proof.KI

end
-- ==== Proof.KWSetup.lean ====
/-
  The word-level kernel as the SparseCore launch theorem sees it: the configuration, the ghost state (the handshakes'
  rounds beside the transfers' counters), the arrays a task touches and what the one call hands each task.

  Task (c, s) — vector subcore s of SparseCore c — is worker w = 2 s + c. It reads columns [128 w, 128 w + 128) of the
  transposed index array, the transposed word-table head and the positional table whole (each task holds one read
  token of the two tables), and writes columns [128 w, 128 w + 128) of every [64, 4096] slab of the result: the even
  slabs through its first staging buffer, the odd slabs through its second.
-/
import proofs.«206631_g81458349736089_cont_9to1c4b_538_8_alg».proof.Defs
import proofs.«206631_g81458349736089_cont_9to1c4b_538_8_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206631_g81458349736089_cont_9to1c4b_538_8_alg».proof.Proof.Gen.Kernel
import proofs.«206631_g81458349736089_cont_9to1c4b_538_8_alg».proof.Proof.Gen.Kernel.Skeleton

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

/-- The kernel's operands as a vector subcore names them. -/
abbrev iV : Memref sig .scVector .hbm S200x4096 .i32 := Memref.whole main_v0_scv
abbrev wV : Memref sig .scVector .hbm S64x200 .f32 := Memref.whole main_v2_scv
abbrev pV : Memref sig .scVector .hbm S200x64 .f32 := Memref.whole main_arg2_scv
abbrev oV : Memref sig .scVector .hbm S200x64x4096 .f32 := Memref.whole main_v3_scv
/-- A task's scratch: the two tables, its index columns, the two staging buffers. -/
abbrev sW : Memref sig .scVector .vmem S64x200 .f32 := Memref.whole cc0_scratch0
abbrev sP : Memref sig .scVector .vmem S200x64 .f32 := Memref.whole cc0_scratch1
abbrev sI : Memref sig .scVector .vmem S200x128 .i32 := Memref.whole cc0_scratch2
abbrev sB0 : Memref sig .scVector .vmem S64x128 .f32 := Memref.whole cc0_scratch3
abbrev sB1 : Memref sig .scVector .vmem S64x128 .f32 := Memref.whole cc0_scratch4

section Slices

variable (L : grid0.Coords)

abbrev cV (L : grid0.Coords) : Fin τ.nSC := (L 0).castLE hcore0
abbrev jV (L : grid0.Coords) : Fin τ.nSub := (L 1).castLE hsub0

/-- The task's columns of the index array, as the kernel slices them. -/
abbrev iCols : Memref sig .scVector .hbm S200x128 .i32 :=
  (iV).slice (Rect.unit (s := S200x4096) (k0_off1 L) S200x128.size (k0_off1_inb L)) (fun _ => rfl)
/-- The task's columns of slab `2 k` of the result, as the kernel slices them; -/
abbrev oEven (k : Fin k0_t1_loop.trips) : Memref sig .scVector .hbm S64x128 .f32 :=
  ((oV).slice (Rect.unit (s := S200x64x4096) (k0_off19 L k) S1x64x128.size (k0_off19_inb L k)) (fun _ => rfl)).squeeze S64x128 squeezes_S1x64x128_S64x128
/-- of slab `2 k + 1`. -/
abbrev oOdd (k : Fin k0_t1_loop.trips) : Memref sig .scVector .hbm S64x128 .f32 :=
  ((oV).slice (Rect.unit (s := S200x64x4096) (k0_off37 L k) S1x64x128.size (k0_off37_inb L k)) (fun _ => rfl)).squeeze S64x128 squeezes_S1x64x128_S64x128

/-- The elements of the result the task writes through its first staging buffer, and through its second. -/
def oE : Finset S200x64x4096.Idx := Finset.univ.biUnion fun k : Fin k0_t1_loop.trips => (oEven L k).view.set
def oO : Finset S200x64x4096.Idx := Finset.univ.biUnion fun k : Fin k0_t1_loop.trips => (oOdd L k).view.set

/-- The task's worker number. -/
def wid : Fin 32 := ⟨2 * (L 1).val + (L 0).val, by have h0 : (L 0).val < 2 := (L 0).isLt; have h1 : (L 1).val < 16 := (L 1).isLt; omega⟩
/-- The task's read token of a table all tasks read. -/
abbrev tok : PosShare TreeShare := Transfers.shareTok fullShare 32 (wid L)

end Slices

/-! ## What the handshakes carry -/

variable [FloatOps F]

/-- What a task is handed, over the arrays' contents at the call: its index columns, a read token of each table, its
    elements of the result. -/
def tileIn (d : Dev nD) (L : grid0.Coords) (I : Buf (Elt F) (v0Loc d)) (Wt : Buf (Elt F) (v2Loc d)) (Ps : Buf (Elt F) (a2Loc d))
    (O3 : Buf (Elt F) (v3Loc d)) : sProp 𝕄 :=
  iprop((v0Loc d ↦[(iCols L).view.set]{fullShare} I) ∗ (v2Loc d ↦{tok L} Wt) ∗ (a2Loc d ↦{tok L} Ps)
    ∗ (v3Loc d ↦[oE L]{fullShare} O3) ∗ (v3Loc d ↦[oO L]{fullShare} O3))

end Cert.Proof.KW

end
-- ==== Proof.KWOwn.lean ====
/-
  A task's own scoped storage opened: its five scratch buffers and five DMA semaphores taken out of the families the
  launch hands it, the rest kept aside to be handed back.
-/
import proofs.«206631_g81458349736089_cont_9to1c4b_538_8_alg».proof.Proof.KWSetup
import proofs.«206631_g81458349736089_cont_9to1c4b_538_8_alg».proof.Proof.SpecT

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Own

omit [FloatOps F] in
/-- Five distinct members of a finite family come out of its separating conjunction, the rest staying behind. -/
theorem bigSep_erase5 {ι : Type} [DecidableEq ι] {s : Finset ι} {Φ : ι → sProp 𝕄} {a b c e g : ι}
    (ha : a ∈ s) (hb : b ∈ s) (hc : c ∈ s) (he : e ∈ s) (hg : g ∈ s)
    (hba : b ≠ a) (hca : c ≠ a) (hcb : c ≠ b) (hea : e ≠ a) (heb : e ≠ b) (hec : e ≠ c)
    (hga : g ≠ a) (hgb : g ≠ b) (hgc : g ≠ c) (hge : g ≠ e) :
    bigSep s Φ = iprop(Φ a ∗ Φ b ∗ Φ c ∗ Φ e ∗ Φ g ∗ bigSep (((((s.erase a).erase b).erase c).erase e).erase g) Φ) := by
  rw [SparseCore.bigSep_erase' ha,
    SparseCore.bigSep_erase' (Finset.mem_erase.mpr ⟨hba, hb⟩),
    SparseCore.bigSep_erase' (Finset.mem_erase.mpr ⟨hcb, Finset.mem_erase.mpr ⟨hca, hc⟩⟩),
    SparseCore.bigSep_erase' (Finset.mem_erase.mpr ⟨hec, Finset.mem_erase.mpr ⟨heb, Finset.mem_erase.mpr ⟨hea, he⟩⟩⟩),
    SparseCore.bigSep_erase' (Finset.mem_erase.mpr ⟨hge, Finset.mem_erase.mpr ⟨hgc, Finset.mem_erase.mpr ⟨hgb, Finset.mem_erase.mpr ⟨hga, hg⟩⟩⟩⟩)]

variable (d : Dev nD) (L : grid0.Coords)

abbrev thr (d : Dev nD) (L : grid0.Coords) : Thread nD τ := V d (cV L) (jV L)

abbrev c5cell : GSem nD τ sig := (thr d L, .dma cc0_scratch5.sem)
abbrev c6cell : GSem nD τ sig := (thr d L, .dma cc0_scratch6.sem)
abbrev r0cell : GSem nD τ sig := (thr d L, .dma cc0_scoped0.sem)
abbrev r1cell : GSem nD τ sig := (thr d L, .dma cc0_scoped1.sem)
abbrev r2cell : GSem nD τ sig := (thr d L, .dma cc0_scoped2.sem)

/-- The task's other scoped semaphores. -/
def restCells : Finset (GSem nD τ sig) :=
  (((((ownCells (thr d L)).erase (c5cell d L)).erase (c6cell d L)).erase (r0cell d L)).erase (r1cell d L)).erase (r2cell d L)

omit [FloatOps F] in
theorem ownSems0_V :
    (ownSems0 (thr d L) : sProp 𝕄)
      = iprop(semVal (c5cell d L) 0 ∗ semVal (c6cell d L) 0 ∗ semVal (r0cell d L) 0 ∗ semVal (r1cell d L) 0 ∗ semVal (r2cell d L) 0
          ∗ bigSep (restCells d L) fun g => semVal g 0) := by
  unfold SparseCore.Cfg.ownSems0 restCells
  have hm : ∀ sm : DmaSem sig, ((thr d L, SemLoc.dma sm) : GSem nD τ sig) ∈ ownCells (thr d L) := fun sm =>
    (mem_ownCells (g := (thr d L, SemLoc.dma sm))).mpr ⟨rfl, rfl⟩
  have hne : ∀ a b : DmaSem sig, a ≠ b → ((thr d L, SemLoc.dma a) : GSem nD τ sig) ≠ (thr d L, SemLoc.dma b) :=
    fun a b h e => h (SemLoc.dma.inj (Prod.mk.inj e).2)
  exact bigSep_erase5 (hm _) (hm _) (hm _) (hm _) (hm _)
    (hne _ _ (by decide)) (hne _ _ (by decide)) (hne _ _ (by decide)) (hne _ _ (by decide)) (hne _ _ (by decide))
    (hne _ _ (by decide)) (hne _ _ (by decide)) (hne _ _ (by decide)) (hne _ _ (by decide)) (hne _ _ (by decide))

/-- The task's other scoped buffers. -/
def restRefs : Finset (DevRef τ sig) :=
  (((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4)

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep (restRefs L) fun b => iprop(∃ f, ((d, b) : Loc nD τ sig) ↦{fullShare} f)) := by
  unfold SparseCore.Cfg.ownBufs restRefs
  have hm : ∀ r : Ref sig .scVector, (Proc.scVector (cV L) (jV L)).devRef r ∈ ownRefs (τ := τ) (.scVector (cV L) (jV L)) → True := fun _ _ => trivial
  have hne : ∀ a b : Ref sig .scVector, a ≠ b → (Proc.scVector (cV L) (jV L)).devRef a ≠ (Proc.scVector (cV L) (jV L)).devRef b :=
    fun a b h e => h (Proc.devRef_injective _ e)
  exact bigSep_erase5
    (SparseCore.Cfg.mem_ownRefs_of_owner (p := Proc.scVector (cV L) (jV L)) (b := (Proc.scVector (cV L) (jV L)).devRef cc0_scratch0) rfl)
    (SparseCore.Cfg.mem_ownRefs_of_owner (p := Proc.scVector (cV L) (jV L)) (b := (Proc.scVector (cV L) (jV L)).devRef cc0_scratch1) rfl)
    (SparseCore.Cfg.mem_ownRefs_of_owner (p := Proc.scVector (cV L) (jV L)) (b := (Proc.scVector (cV L) (jV L)).devRef cc0_scratch2) rfl)
    (SparseCore.Cfg.mem_ownRefs_of_owner (p := Proc.scVector (cV L) (jV L)) (b := (Proc.scVector (cV L) (jV L)).devRef cc0_scratch3) rfl)
    (SparseCore.Cfg.mem_ownRefs_of_owner (p := Proc.scVector (cV L) (jV L)) (b := (Proc.scVector (cV L) (jV L)).devRef cc0_scratch4) rfl)
    (hne _ _ (by decide)) (hne _ _ (by decide)) (hne _ _ (by decide)) (hne _ _ (by decide)) (hne _ _ (by decide))
    (hne _ _ (by decide)) (hne _ _ (by decide)) (hne _ _ (by decide)) (hne _ _ (by decide)) (hne _ _ (by decide))

end Own

end Cert.Proof.KW

end
-- ==== Proof.KWGood.lean ====
/-
  The predicates the task's loop carries: which slabs of the result, and which rows of a staging buffer, already hold
  their final contents.
-/
import proofs.«206631_g81458349736089_cont_9to1c4b_538_8_alg».proof.Proof.KWOwn
import proofs.«206631_g81458349736089_cont_9to1c4b_538_8_alg».proof.Proof.SpecT

noncomputable section

namespace Cert.Proof.KW

open Cert.Kernel Cert.Kernel.Gen
open Idealize.ShloMosaic

variable {F : FTy → Type} [FloatOps F]

variable (d : Dev nD) (L : grid0.Coords) (I : Buf (Elt F) (v0Loc d)) (Wt : Buf (Elt F) (v2Loc d)) (Ps : Buf (Elt F) (a2Loc d))

/-- What the result holds in the end. -/
abbrev outF : Buf (Elt F) (v3Loc d) := Cert.Spec.outT (F := F) I Wt Ps

/-- The even slabs below `2 k` of the task's columns hold their final contents; -/
def GoodE (k : Nat) (g : Buf (Elt F) (v3Loc d)) : Prop :=
  ∀ (k' : Fin k0_t1_loop.trips) (y : S64x128.Idx), k'.val < k → g ((oEven L k').view.emb y) = outF d I Wt Ps ((oEven L k').view.emb y)
/-- the odd slabs below `2 k + 1`. -/
def GoodO (k : Nat) (g : Buf (Elt F) (v3Loc d)) : Prop :=
  ∀ (k' : Fin k0_t1_loop.trips) (y : S64x128.Idx), k'.val < k → g ((oOdd L k').view.emb y) = outF d I Wt Ps ((oOdd L k').view.emb y)

/-- Rows below `n` of a staging buffer hold `G`. -/
def GoodRows (G : S64x128.Idx → Elt F .f32) (n : Nat) (b : S64x128.Idx → Elt F .f32) : Prop :=
  ∀ y : S64x128.Idx, (y 0).val < n → b y = G y

/-- Row `r` of the task's columns of the index array: what the task's index scratch holds in that row. -/
def idxRow (r : Fin 200) : Fin 128 → BitVec 32 := fun c => (iCols L).view.read (Elt F) I (ValueIdx.ix2 r c)

/-- One slab's rows in a staging buffer: row `e`, column `c` holds the word-table head at (`e`, the slab's index word for
    column `c`) plus the positional table at (the slab, `e`). -/
def rowsG (l : Fin 200) (row : Fin 128 → BitVec 32) : S64x128.Idx → Elt F .f32 :=
  fun y => FloatOps.addf (Wt (ValueIdx.ix2 (y 0) (Cert.Spec.colOf (row (y 1))))) (Ps (ValueIdx.ix2 l (y 0)))

end Cert.Proof.KW

end
-- ==== Proof.KWVals.lean ====
/-
  Pure facts about the task's slices of the arrays and about the predicates the loop carries: where a slice's element
  sits in its array, how one copy of a staging buffer extends the slabs that hold their final contents, and that in
  the end the task's elements of the result hold it.
-/
import proofs.«206631_g81458349736089_cont_9to1c4b_538_8_alg».proof.Proof.KWGood

noncomputable section

namespace Cert.Proof.KW

open Cert.Kernel Cert.Kernel.Gen
open Idealize.ShloMosaic

variable {F : FTy → Type} [FloatOps F]

section Coords

variable (L : grid0.Coords)

/-- Dropping the leading axis of size one: the index of `[1, 64, 128]` matched with `y` is `y` behind the coordinate `0`. -/
theorem squeeze_idx (y : S64x128.Idx) :
    Shape.reshapeEquiv squeezes_S1x64x128_S64x128.numel_eq y = Fin.cons ⟨0, Nat.one_pos⟩ y :=
  Shape.reshapeEquiv_cons_one _ y

/-- A coordinate of an element of slab `2 k`'s slice: the slice's offset plus the coordinate inside the `[1, 64, 128]` block. -/
theorem oEven_emb_val (k : Fin k0_t1_loop.trips) (y : S64x128.Idx) (a : Fin 3) :
    ((oEven L k).view.emb y a).val = (![2 * k.val, 0, 256 * (L 1).val + 128 * (L 0).val] : Fin 3 → Nat) a
      + 1 * ((Fin.cons ⟨0, Nat.one_pos⟩ y : S1x64x128.Idx) a).val := by
  rw [← squeeze_idx, ← k0_off19_eq L k]
  rfl
theorem oOdd_emb_val (k : Fin k0_t1_loop.trips) (y : S64x128.Idx) (a : Fin 3) :
    ((oOdd L k).view.emb y a).val = (![2 * k.val + 1, 0, 256 * (L 1).val + 128 * (L 0).val] : Fin 3 → Nat) a
      + 1 * ((Fin.cons ⟨0, Nat.one_pos⟩ y : S1x64x128.Idx) a).val := by
  rw [← squeeze_idx, ← k0_off37_eq L k]
  rfl
theorem iCols_emb_val (x : S200x128.Idx) (a : Fin 2) :
    ((iCols L).view.emb x a).val = (![0, 256 * (L 1).val + 128 * (L 0).val] : Fin 2 → Nat) a + 1 * (x a).val := by
  rw [← k0_off1_eq L]
  rfl

theorem oEven_emb0 (k : Fin k0_t1_loop.trips) (y : S64x128.Idx) : ((oEven L k).view.emb y 0).val = 2 * k.val := by
  have h := oEven_emb_val L k y 0
  have e : (((Fin.cons ⟨0, Nat.one_pos⟩ y : S1x64x128.Idx) 0).val : Nat) = 0 := rfl
  have o : (![2 * k.val, 0, 256 * (L 1).val + 128 * (L 0).val] : Fin 3 → Nat) 0 = 2 * k.val := rfl
  rw [e, o] at h
  omega
theorem oEven_emb1 (k : Fin k0_t1_loop.trips) (y : S64x128.Idx) : ((oEven L k).view.emb y 1).val = (y 0).val := by
  have h := oEven_emb_val L k y 1
  have e : (((Fin.cons ⟨0, Nat.one_pos⟩ y : S1x64x128.Idx) 1).val : Nat) = (y 0).val := rfl
  have o : (![2 * k.val, 0, 256 * (L 1).val + 128 * (L 0).val] : Fin 3 → Nat) 1 = 0 := rfl
  rw [e, o] at h
  omega
theorem oEven_emb2 (k : Fin k0_t1_loop.trips) (y : S64x128.Idx) :
    ((oEven L k).view.emb y 2).val = 256 * (L 1).val + 128 * (L 0).val + (y 1).val := by
  have h := oEven_emb_val L k y 2
  have e : (((Fin.cons ⟨0, Nat.one_pos⟩ y : S1x64x128.Idx) 2).val : Nat) = (y 1).val := rfl
  have o : (![2 * k.val, 0, 256 * (L 1).val + 128 * (L 0).val] : Fin 3 → Nat) 2 = 256 * (L 1).val + 128 * (L 0).val := rfl
  rw [e, o] at h
  omega
theorem oOdd_emb0 (k : Fin k0_t1_loop.trips) (y : S64x128.Idx) : ((oOdd L k).view.emb y 0).val = 2 * k.val + 1 := by
  have h := oOdd_emb_val L k y 0
  have e : (((Fin.cons ⟨0, Nat.one_pos⟩ y : S1x64x128.Idx) 0).val : Nat) = 0 := rfl
  have o : (![2 * k.val + 1, 0, 256 * (L 1).val + 128 * (L 0).val] : Fin 3 → Nat) 0 = 2 * k.val + 1 := rfl
  rw [e, o] at h
  omega
theorem oOdd_emb1 (k : Fin k0_t1_loop.trips) (y : S64x128.Idx) : ((oOdd L k).view.emb y 1).val = (y 0).val := by
  have h := oOdd_emb_val L k y 1
  have e : (((Fin.cons ⟨0, Nat.one_pos⟩ y : S1x64x128.Idx) 1).val : Nat) = (y 0).val := rfl
  have o : (![2 * k.val + 1, 0, 256 * (L 1).val + 128 * (L 0).val] : Fin 3 → Nat) 1 = 0 := rfl
  rw [e, o] at h
  omega
theorem oOdd_emb2 (k : Fin k0_t1_loop.trips) (y : S64x128.Idx) :
    ((oOdd L k).view.emb y 2).val = 256 * (L 1).val + 128 * (L 0).val + (y 1).val := by
  have h := oOdd_emb_val L k y 2
  have e : (((Fin.cons ⟨0, Nat.one_pos⟩ y : S1x64x128.Idx) 2).val : Nat) = (y 1).val := rfl
  have o : (![2 * k.val + 1, 0, 256 * (L 1).val + 128 * (L 0).val] : Fin 3 → Nat) 2 = 256 * (L 1).val + 128 * (L 0).val := rfl
  rw [e, o] at h
  omega
theorem iCols_emb0 (x : S200x128.Idx) : ((iCols L).view.emb x 0).val = (x 0).val := by
  have h := iCols_emb_val L x 0
  have o : (![0, 256 * (L 1).val + 128 * (L 0).val] : Fin 2 → Nat) 0 = 0 := rfl
  rw [o] at h
  omega
theorem iCols_emb1 (x : S200x128.Idx) : ((iCols L).view.emb x 1).val = 256 * (L 1).val + 128 * (L 0).val + (x 1).val := by
  have h := iCols_emb_val L x 1
  have o : (![0, 256 * (L 1).val + 128 * (L 0).val] : Fin 2 → Nat) 1 = 256 * (L 1).val + 128 * (L 0).val := rfl
  rw [o] at h
  omega

end Coords

section Good

variable (d : Dev nD) (L : grid0.Coords) (I : Buf (Elt F) (v0Loc d)) (Wt : Buf (Elt F) (v2Loc d)) (Ps : Buf (Elt F) (a2Loc d))

theorem goodE_zero (g : Buf (Elt F) (v3Loc d)) : GoodE d L I Wt Ps 0 g := fun _ _ h => absurd h (Nat.not_lt_zero _)
theorem goodO_zero (g : Buf (Elt F) (v3Loc d)) : GoodO d L I Wt Ps 0 g := fun _ _ h => absurd h (Nat.not_lt_zero _)

/-- An element of an earlier even slab's slice is not under the slice of slab `2 k`: their slab numbers differ. -/
theorem oEven_emb_not_mem (k k' : Fin k0_t1_loop.trips) (y : S64x128.Idx) (h : k'.val ≠ k.val) :
    (oEven L k').view.emb y ∉ (oEven L k).view.setOn Finset.univ := by
  rw [View.setOn_univ]
  intro hmem
  obtain ⟨y', -, hy'⟩ := Finset.mem_map.mp hmem
  have h0 : ((oEven L k).view.emb y' 0).val = ((oEven L k').view.emb y 0).val := congrArg (fun j : S200x64x4096.Idx => (j 0).val) hy'
  rw [oEven_emb0, oEven_emb0] at h0
  omega
theorem oOdd_emb_not_mem (k k' : Fin k0_t1_loop.trips) (y : S64x128.Idx) (h : k'.val ≠ k.val) :
    (oOdd L k').view.emb y ∉ (oOdd L k).view.setOn Finset.univ := by
  rw [View.setOn_univ]
  intro hmem
  obtain ⟨y', -, hy'⟩ := Finset.mem_map.mp hmem
  have h0 : ((oOdd L k).view.emb y' 0).val = ((oOdd L k').view.emb y 0).val := congrArg (fun j : S200x64x4096.Idx => (j 0).val) hy'
  rw [oOdd_emb0, oOdd_emb0] at h0
  omega

/-- Copying slab `2 k`'s final contents into its slice extends the even slabs done by one. -/
theorem goodE_step (k : Fin k0_t1_loop.trips) (g : Buf (Elt F) (v3Loc d)) (w : S64x128.Idx → Elt F .f32)
    (hg : GoodE d L I Wt Ps k.val g) (hw : ∀ y, w y = outF d I Wt Ps ((oEven L k).view.emb y)) :
    GoodE d L I Wt Ps (k.val + 1) ((oEven L k).view.write (Elt F) g w Finset.univ) := by
  intro k' y hk'
  by_cases hkk : k'.val = k.val
  · obtain rfl : k' = k := Fin.ext hkk
    rw [View.write_emb_of_mem (v := (oEven L k').view) g w (Finset.mem_univ y), hw y]
    rfl
  · rw [View.write_of_not_mem (v := (oEven L k).view) g w Finset.univ (oEven_emb_not_mem L k k' y hkk)]
    exact hg k' y (by omega)
theorem goodO_step (k : Fin k0_t1_loop.trips) (g : Buf (Elt F) (v3Loc d)) (w : S64x128.Idx → Elt F .f32)
    (hg : GoodO d L I Wt Ps k.val g) (hw : ∀ y, w y = outF d I Wt Ps ((oOdd L k).view.emb y)) :
    GoodO d L I Wt Ps (k.val + 1) ((oOdd L k).view.write (Elt F) g w Finset.univ) := by
  intro k' y hk'
  by_cases hkk : k'.val = k.val
  · obtain rfl : k' = k := Fin.ext hkk
    rw [View.write_emb_of_mem (v := (oOdd L k').view) g w (Finset.mem_univ y), hw y]
    rfl
  · rw [View.write_of_not_mem (v := (oOdd L k).view) g w Finset.univ (oOdd_emb_not_mem L k k' y hkk)]
    exact hg k' y (by omega)

/-- With every slab done the task's elements of the result hold their final contents. -/
theorem goodE_all (g : Buf (Elt F) (v3Loc d)) (hg : GoodE d L I Wt Ps k0_t1_loop.trips g) : ∀ j ∈ oE L, g j = outF d I Wt Ps j := by
  intro j hj
  unfold oE at hj
  obtain ⟨k, -, hk⟩ := Finset.mem_biUnion.mp hj
  obtain ⟨y, -, rfl⟩ := Finset.mem_map.mp hk
  exact hg k y k.isLt
theorem goodO_all (g : Buf (Elt F) (v3Loc d)) (hg : GoodO d L I Wt Ps k0_t1_loop.trips g) : ∀ j ∈ oO L, g j = outF d I Wt Ps j := by
  intro j hj
  unfold oO at hj
  obtain ⟨k, -, hk⟩ := Finset.mem_biUnion.mp hj
  obtain ⟨y, -, rfl⟩ := Finset.mem_map.mp hk
  exact hg k y k.isLt

/-- The slice of slab `2 k` (`2 k + 1`) lies among the task's even (odd) elements. -/
theorem oEven_subset (k : Fin k0_t1_loop.trips) : (oEven L k).view.set ⊆ oE L := by
  intro j hj
  unfold oE
  exact Finset.mem_biUnion.mpr ⟨k, Finset.mem_univ k, hj⟩
theorem oOdd_subset (k : Fin k0_t1_loop.trips) : (oOdd L k).view.set ⊆ oO L := by
  intro j hj
  unfold oO
  exact Finset.mem_biUnion.mpr ⟨k, Finset.mem_univ k, hj⟩

end Good

section Rows

/-- Which elements a one-row, sixteen-column piece at row `r`, columns from `c`, covers. -/
theorem mem_piece {off : Fin 2 → Nat} (inb : ∀ a, off a + S1x16.size a ≤ S64x128.size a) {r c : Nat} (h : off = ![r, c])
    (y : S64x128.Idx) :
    y ∈ (Rect.unit (s := S64x128) off S1x16.size inb).set ↔ (y 0).val = r ∧ c ≤ (y 1).val ∧ (y 1).val < c + 16 := by
  subst h
  rw [Rect.mem_set_unit]
  constructor
  · intro hh
    have h0 : r ≤ (y 0).val ∧ (y 0).val < r + 1 := hh 0
    have h1 : c ≤ (y 1).val ∧ (y 1).val < c + 16 := hh 1
    omega
  · intro hh a
    match a with
    | ⟨0, _⟩ =>
      show r ≤ (y 0).val ∧ (y 0).val < r + 1
      omega
    | ⟨1, _⟩ =>
      show c ≤ (y 1).val ∧ (y 1).val < c + 16
      omega

/-- Where such a piece's element sits: row `r`, column `c` plus its own column. -/
theorem piece_emb0 {off : Fin 2 → Nat} (inb : ∀ a, off a + S1x16.size a ≤ S64x128.size a) {r c : Nat} (h : off = ![r, c])
    (x : S1x16.Idx) : ((Rect.unit (s := S64x128) off S1x16.size inb).emb x 0).val = r := by
  subst h
  have hx : (x 0).val < 1 := (x 0).isLt
  show r + 1 * (x 0).val = r
  omega
theorem piece_emb1 {off : Fin 2 → Nat} (inb : ∀ a, off a + S1x16.size a ≤ S64x128.size a) {r c : Nat} (h : off = ![r, c])
    (x : S1x16.Idx) : ((Rect.unit (s := S64x128) off S1x16.size inb).emb x 1).val = c + (x 1).val := by
  subst h
  show c + 1 * (x 1).val = c + (x 1).val
  omega

/-- Eight stores of sixteen columns each into row `n` of a `[64, 128]` buffer whose rows below `n` read `G`, each payload
    agreeing with `G` on its columns of that row: afterwards the rows below `n + 1` read `G`. -/
theorem rows_step_gen {κ : Kind} {sp : Space} (v : View sig κ sp S64x128 .f32) (G : S64x128.Idx → Elt F .f32) (n : Nat)
    (f : v.ty.Contents (Elt F)) {o0 o1 o2 o3 o4 o5 o6 o7 : Fin 2 → Nat}
    (i0 : ∀ a, o0 a + S1x16.size a ≤ S64x128.size a)
    (i1 : ∀ a, o1 a + S1x16.size a ≤ S64x128.size a)
    (i2 : ∀ a, o2 a + S1x16.size a ≤ S64x128.size a)
    (i3 : ∀ a, o3 a + S1x16.size a ≤ S64x128.size a)
    (i4 : ∀ a, o4 a + S1x16.size a ≤ S64x128.size a)
    (i5 : ∀ a, o5 a + S1x16.size a ≤ S64x128.size a)
    (i6 : ∀ a, o6 a + S1x16.size a ≤ S64x128.size a)
    (i7 : ∀ a, o7 a + S1x16.size a ≤ S64x128.size a)
    (e0 : o0 = ![n, 0])     (e1 : o1 = ![n, 16])     (e2 : o2 = ![n, 32])     (e3 : o3 = ![n, 48])     (e4 : o4 = ![n, 64])     (e5 : o5 = ![n, 80])     (e6 : o6 = ![n, 96])     (e7 : o7 = ![n, 112])
    (w0 w1 w2 w3 w4 w5 w6 w7 : S1x16.Idx → Elt F .f32)
    (hb : ∀ y : S64x128.Idx, (y 0).val < n → v.read (Elt F) f y = G y)
    (h0 : ∀ x : S1x16.Idx, ∀ y : S64x128.Idx, (y 0).val = n → (y 1).val = 0 + (x 1).val → w0 x = G y)
    (h1 : ∀ x : S1x16.Idx, ∀ y : S64x128.Idx, (y 0).val = n → (y 1).val = 16 + (x 1).val → w1 x = G y)
    (h2 : ∀ x : S1x16.Idx, ∀ y : S64x128.Idx, (y 0).val = n → (y 1).val = 32 + (x 1).val → w2 x = G y)
    (h3 : ∀ x : S1x16.Idx, ∀ y : S64x128.Idx, (y 0).val = n → (y 1).val = 48 + (x 1).val → w3 x = G y)
    (h4 : ∀ x : S1x16.Idx, ∀ y : S64x128.Idx, (y 0).val = n → (y 1).val = 64 + (x 1).val → w4 x = G y)
    (h5 : ∀ x : S1x16.Idx, ∀ y : S64x128.Idx, (y 0).val = n → (y 1).val = 80 + (x 1).val → w5 x = G y)
    (h6 : ∀ x : S1x16.Idx, ∀ y : S64x128.Idx, (y 0).val = n → (y 1).val = 96 + (x 1).val → w6 x = G y)
    (h7 : ∀ x : S1x16.Idx, ∀ y : S64x128.Idx, (y 0).val = n → (y 1).val = 112 + (x 1).val → w7 x = G y) :
    ∀ y : S64x128.Idx, (y 0).val < n + 1 → v.read (Elt F) (v.writes (Elt F) f
      [⟨Rect.unit (s := S64x128) o7 S1x16.size i7, w7⟩,
       ⟨Rect.unit (s := S64x128) o6 S1x16.size i6, w6⟩,
       ⟨Rect.unit (s := S64x128) o5 S1x16.size i5, w5⟩,
       ⟨Rect.unit (s := S64x128) o4 S1x16.size i4, w4⟩,
       ⟨Rect.unit (s := S64x128) o3 S1x16.size i3, w3⟩,
       ⟨Rect.unit (s := S64x128) o2 S1x16.size i2, w2⟩,
       ⟨Rect.unit (s := S64x128) o1 S1x16.size i1, w1⟩,
       ⟨Rect.unit (s := S64x128) o0 S1x16.size i0, w0⟩]) y = G y := by
  intro y hy
  by_cases hlt : (y 0).val < n
  · rw [View.read_writes_apply_of_forall_not_mem v f y]
    · exact hb y hlt
    · intro p hp
      simp only [List.mem_cons, List.not_mem_nil, or_false] at hp
      rcases hp with rfl | rfl | rfl | rfl | rfl | rfl | rfl | rfl
      · exact fun hm => by have := ((mem_piece i7 e7 y).1 hm).1; omega
      · exact fun hm => by have := ((mem_piece i6 e6 y).1 hm).1; omega
      · exact fun hm => by have := ((mem_piece i5 e5 y).1 hm).1; omega
      · exact fun hm => by have := ((mem_piece i4 e4 y).1 hm).1; omega
      · exact fun hm => by have := ((mem_piece i3 e3 y).1 hm).1; omega
      · exact fun hm => by have := ((mem_piece i2 e2 y).1 hm).1; omega
      · exact fun hm => by have := ((mem_piece i1 e1 y).1 hm).1; omega
      · exact fun hm => by have := ((mem_piece i0 e0 y).1 hm).1; omega
  · have hrow : (y 0).val = n := by omega
    refine View.read_writes_apply_of_pieces v f G _ ?_ y ?_
    · intro p hp x
      simp only [List.mem_cons, List.not_mem_nil, or_false] at hp
      rcases hp with rfl | rfl | rfl | rfl | rfl | rfl | rfl | rfl
      · exact h7 x _ (piece_emb0 i7 e7 x) (piece_emb1 i7 e7 x)
      · exact h6 x _ (piece_emb0 i6 e6 x) (piece_emb1 i6 e6 x)
      · exact h5 x _ (piece_emb0 i5 e5 x) (piece_emb1 i5 e5 x)
      · exact h4 x _ (piece_emb0 i4 e4 x) (piece_emb1 i4 e4 x)
      · exact h3 x _ (piece_emb0 i3 e3 x) (piece_emb1 i3 e3 x)
      · exact h2 x _ (piece_emb0 i2 e2 x) (piece_emb1 i2 e2 x)
      · exact h1 x _ (piece_emb0 i1 e1 x) (piece_emb1 i1 e1 x)
      · exact h0 x _ (piece_emb0 i0 e0 x) (piece_emb1 i0 e0 x)
    · have hy1 : (y 1).val < 128 := (y 1).isLt
      have hc : (y 1).val < 16 ∨ (16 ≤ (y 1).val ∧ (y 1).val < 32) ∨ (32 ≤ (y 1).val ∧ (y 1).val < 48)
          ∨ (48 ≤ (y 1).val ∧ (y 1).val < 64) ∨ (64 ≤ (y 1).val ∧ (y 1).val < 80) ∨ (80 ≤ (y 1).val ∧ (y 1).val < 96)
          ∨ (96 ≤ (y 1).val ∧ (y 1).val < 112) ∨ 112 ≤ (y 1).val := by omega
      rcases hc with hc | hc | hc | hc | hc | hc | hc | hc
      · exact ⟨_, List.Mem.tail _ (List.Mem.tail _ (List.Mem.tail _ (List.Mem.tail _ (List.Mem.tail _ (List.Mem.tail _ (List.Mem.tail _ (List.Mem.head _))))))), (mem_piece i0 e0 y).2 ⟨hrow, by omega, by omega⟩⟩
      · exact ⟨_, List.Mem.tail _ (List.Mem.tail _ (List.Mem.tail _ (List.Mem.tail _ (List.Mem.tail _ (List.Mem.tail _ (List.Mem.head _)))))), (mem_piece i1 e1 y).2 ⟨hrow, by omega, by omega⟩⟩
      · exact ⟨_, List.Mem.tail _ (List.Mem.tail _ (List.Mem.tail _ (List.Mem.tail _ (List.Mem.tail _ (List.Mem.head _))))), (mem_piece i2 e2 y).2 ⟨hrow, by omega, by omega⟩⟩
      · exact ⟨_, List.Mem.tail _ (List.Mem.tail _ (List.Mem.tail _ (List.Mem.tail _ (List.Mem.head _)))), (mem_piece i3 e3 y).2 ⟨hrow, by omega, by omega⟩⟩
      · exact ⟨_, List.Mem.tail _ (List.Mem.tail _ (List.Mem.tail _ (List.Mem.head _))), (mem_piece i4 e4 y).2 ⟨hrow, by omega, by omega⟩⟩
      · exact ⟨_, List.Mem.tail _ (List.Mem.tail _ (List.Mem.head _)), (mem_piece i5 e5 y).2 ⟨hrow, by omega, by omega⟩⟩
      · exact ⟨_, List.Mem.tail _ (List.Mem.head _), (mem_piece i6 e6 y).2 ⟨hrow, by omega, by omega⟩⟩
      · exact ⟨_, List.Mem.head _, (mem_piece i7 e7 y).2 ⟨hrow, by omega, by omega⟩⟩

/-- One inner trip's eight stores into row `e` of the first staging buffer extend the rows that hold `G` by one. -/
theorem rows_step0 (G : S64x128.Idx → Elt F .f32) (e : Fin k0_t2_loop.trips) (b : S64x128.Idx → Elt F .f32)
    (w0 w1 w2 w3 w4 w5 w6 w7 : S1x16.Idx → Elt F .f32) (hb : GoodRows G e.val b)
    (h0 : ∀ x : S1x16.Idx, ∀ y : S64x128.Idx, (y 0).val = e.val → (y 1).val = 0 + (x 1).val → w0 x = G y)
    (h1 : ∀ x : S1x16.Idx, ∀ y : S64x128.Idx, (y 0).val = e.val → (y 1).val = 16 + (x 1).val → w1 x = G y)
    (h2 : ∀ x : S1x16.Idx, ∀ y : S64x128.Idx, (y 0).val = e.val → (y 1).val = 32 + (x 1).val → w2 x = G y)
    (h3 : ∀ x : S1x16.Idx, ∀ y : S64x128.Idx, (y 0).val = e.val → (y 1).val = 48 + (x 1).val → w3 x = G y)
    (h4 : ∀ x : S1x16.Idx, ∀ y : S64x128.Idx, (y 0).val = e.val → (y 1).val = 64 + (x 1).val → w4 x = G y)
    (h5 : ∀ x : S1x16.Idx, ∀ y : S64x128.Idx, (y 0).val = e.val → (y 1).val = 80 + (x 1).val → w5 x = G y)
    (h6 : ∀ x : S1x16.Idx, ∀ y : S64x128.Idx, (y 0).val = e.val → (y 1).val = 96 + (x 1).val → w6 x = G y)
    (h7 : ∀ x : S1x16.Idx, ∀ y : S64x128.Idx, (y 0).val = e.val → (y 1).val = 112 + (x 1).val → w7 x = G y) :
    GoodRows G (e.val + 1) ((sB0).view.writes (Elt F) b
      [⟨Rect.unit (s := S64x128) (k0_off18 e) S1x16.size (k0_off18_inb e), w7⟩,
       ⟨Rect.unit (s := S64x128) (k0_off17 e) S1x16.size (k0_off17_inb e), w6⟩,
       ⟨Rect.unit (s := S64x128) (k0_off16 e) S1x16.size (k0_off16_inb e), w5⟩,
       ⟨Rect.unit (s := S64x128) (k0_off15 e) S1x16.size (k0_off15_inb e), w4⟩,
       ⟨Rect.unit (s := S64x128) (k0_off14 e) S1x16.size (k0_off14_inb e), w3⟩,
       ⟨Rect.unit (s := S64x128) (k0_off13 e) S1x16.size (k0_off13_inb e), w2⟩,
       ⟨Rect.unit (s := S64x128) (k0_off12 e) S1x16.size (k0_off12_inb e), w1⟩,
       ⟨Rect.unit (s := S64x128) (k0_off11 e) S1x16.size (k0_off11_inb e), w0⟩]) :=
  rows_step_gen (sB0).view G e.val b (k0_off11_inb e) (k0_off12_inb e) (k0_off13_inb e) (k0_off14_inb e) (k0_off15_inb e) (k0_off16_inb e) (k0_off17_inb e) (k0_off18_inb e)
    (k0_off11_eq e) (k0_off12_eq e) (k0_off13_eq e) (k0_off14_eq e) (k0_off15_eq e) (k0_off16_eq e) (k0_off17_eq e) (k0_off18_eq e)
    w0 w1 w2 w3 w4 w5 w6 w7 hb h0 h1 h2 h3 h4 h5 h6 h7

/-- One inner trip's eight stores into row `e` of the second staging buffer extend the rows that hold `G` by one. -/
theorem rows_step1 (G : S64x128.Idx → Elt F .f32) (e : Fin k0_t3_loop.trips) (b : S64x128.Idx → Elt F .f32)
    (w0 w1 w2 w3 w4 w5 w6 w7 : S1x16.Idx → Elt F .f32) (hb : GoodRows G e.val b)
    (h0 : ∀ x : S1x16.Idx, ∀ y : S64x128.Idx, (y 0).val = e.val → (y 1).val = 0 + (x 1).val → w0 x = G y)
    (h1 : ∀ x : S1x16.Idx, ∀ y : S64x128.Idx, (y 0).val = e.val → (y 1).val = 16 + (x 1).val → w1 x = G y)
    (h2 : ∀ x : S1x16.Idx, ∀ y : S64x128.Idx, (y 0).val = e.val → (y 1).val = 32 + (x 1).val → w2 x = G y)
    (h3 : ∀ x : S1x16.Idx, ∀ y : S64x128.Idx, (y 0).val = e.val → (y 1).val = 48 + (x 1).val → w3 x = G y)
    (h4 : ∀ x : S1x16.Idx, ∀ y : S64x128.Idx, (y 0).val = e.val → (y 1).val = 64 + (x 1).val → w4 x = G y)
    (h5 : ∀ x : S1x16.Idx, ∀ y : S64x128.Idx, (y 0).val = e.val → (y 1).val = 80 + (x 1).val → w5 x = G y)
    (h6 : ∀ x : S1x16.Idx, ∀ y : S64x128.Idx, (y 0).val = e.val → (y 1).val = 96 + (x 1).val → w6 x = G y)
    (h7 : ∀ x : S1x16.Idx, ∀ y : S64x128.Idx, (y 0).val = e.val → (y 1).val = 112 + (x 1).val → w7 x = G y) :
    GoodRows G (e.val + 1) ((sB1).view.writes (Elt F) b
      [⟨Rect.unit (s := S64x128) (k0_off36 e) S1x16.size (k0_off36_inb e), w7⟩,
       ⟨Rect.unit (s := S64x128) (k0_off35 e) S1x16.size (k0_off35_inb e), w6⟩,
       ⟨Rect.unit (s := S64x128) (k0_off34 e) S1x16.size (k0_off34_inb e), w5⟩,
       ⟨Rect.unit (s := S64x128) (k0_off33 e) S1x16.size (k0_off33_inb e), w4⟩,
       ⟨Rect.unit (s := S64x128) (k0_off32 e) S1x16.size (k0_off32_inb e), w3⟩,
       ⟨Rect.unit (s := S64x128) (k0_off31 e) S1x16.size (k0_off31_inb e), w2⟩,
       ⟨Rect.unit (s := S64x128) (k0_off30 e) S1x16.size (k0_off30_inb e), w1⟩,
       ⟨Rect.unit (s := S64x128) (k0_off29 e) S1x16.size (k0_off29_inb e), w0⟩]) :=
  rows_step_gen (sB1).view G e.val b (k0_off29_inb e) (k0_off30_inb e) (k0_off31_inb e) (k0_off32_inb e) (k0_off33_inb e) (k0_off34_inb e) (k0_off35_inb e) (k0_off36_inb e)
    (k0_off29_eq e) (k0_off30_eq e) (k0_off31_eq e) (k0_off32_eq e) (k0_off33_eq e) (k0_off34_eq e) (k0_off35_eq e) (k0_off36_eq e)
    w0 w1 w2 w3 w4 w5 w6 w7 hb h0 h1 h2 h3 h4 h5 h6 h7

end Rows

end Cert.Proof.KW

end
-- ==== Proof.KWPure.lean ====
/-
  Pure facts the task's run uses: where a sixteen-lane load of the index scratch reads, that every index word read is
  a row of the word-table head, the value one lane of a row store holds, and that a slab's rows are the result's.
-/
import proofs.«206631_g81458349736089_cont_9to1c4b_538_8_alg».proof.Proof.KWVals
import Idealize.ShloMosaic.Lib.ValueLayout

noncomputable section

namespace Cert.Proof.KW

open Cert.Kernel Cert.Kernel.Gen
open Idealize.ShloMosaic Idealize.ShloMosaic.ValueIdx

variable {F : FTy → Type} [FloatOps F]

/-- A sixteen-lane load of the index scratch at offsets `[o0, o1]` reads row `o0`, columns `o1 + lane`. -/
theorem sI_idx (off : Fin 2 → Nat) (h : ∀ a, off a + S1x16.size a ≤ S200x128.size a) (o0 o1 : Nat) (hoff : off = ![o0, o1])
    (x : S1x16.Idx) (r : Fin 200) (c : Fin 128) (hr : r.val = o0) (hc : c.val = o1 + (x 1).val) :
    (Rect.unit (s := S200x128) off S1x16.size h).toLoadRect.idx x = ix2 r c := by
  subst hoff
  funext a
  apply Fin.ext
  rw [LoadRect.idx_apply]
  match a with
  | ⟨0, _⟩ =>
    show o0 + 1 * (x 0).val = r.val
    have hx0 : (x 0).val < 1 := (x 0).isLt
    omega
  | ⟨1, _⟩ =>
    show o1 + 1 * (x 1).val = c.val
    omega

section

variable (d : Dev nD) (L : grid0.Coords) (I : Buf (Elt F) (v0Loc d)) (Wt : Buf (Elt F) (v2Loc d)) (Ps : Buf (Elt F) (a2Loc d))

/-- What a sixteen-lane load of the index scratch (holding the task's columns of the index array) answers. -/
theorem sI_load (off : Fin 2 → Nat) (h : ∀ a, off a + S1x16.size a ≤ S200x128.size a) (o0 o1 : Nat) (hoff : off = ![o0, o1])
    (r : Fin 200) (hr : r.val = o0) (x : S1x16.Idx) (c : Fin 128) (hc : c.val = o1 + (x 1).val) :
    View.readAt (Elt F) (sI).view (Rect.unit (s := S200x128) off S1x16.size h).toLoadRect ((iCols L).view.read (Elt F) I) x
      = idxRow d L I r c := by
  show (iCols L).view.read (Elt F) I ((Rect.unit (s := S200x128) off S1x16.size h).toLoadRect.idx x) = _
  rw [sI_idx off h o0 o1 hoff x r c hr hc]
  rfl

theorem idxRow_lt (hpre : ∀ j, (I j).toNat < 200) (r : Fin 200) (c : Fin 128) : (idxRow d L I r c).toNat < 200 := by
  have e : idxRow d L I r c = I ((iCols L).view.emb (ix2 r c)) := (View.read_apply _ _).trans (cast_eq _ _)
  rw [e]
  exact hpre _

/-- Slab `2 k`'s rows are the result's on the slab's slice; -/
theorem rowsG_eq_outE (hpre : ∀ j, (I j).toNat < 200) (k : Fin k0_t1_loop.trips) (r : Fin 200) (hr : r.val = 2 * k.val) (y : S64x128.Idx) :
    rowsG d Wt Ps r (idxRow d L I r) y = outF d I Wt Ps ((oEven L k).view.emb y) := by
  have e0 : ((oEven L k).view.emb y) 0 = r := Fin.ext ((oEven_emb0 L k y).trans hr.symm)
  have e1 : ((oEven L k).view.emb y) 1 = y 0 := Fin.ext (oEven_emb1 L k y)
  have eI : idxRow d L I r (y 1) = I (ix2 (((oEven L k).view.emb y) 0) (((oEven L k).view.emb y) 2)) := by
    refine ((View.read_apply _ _).trans (cast_eq _ _)).trans (congrArg I ?_)
    funext a
    match a with
    | ⟨0, _⟩ => exact Fin.ext ((iCols_emb0 L _).trans (hr.trans (oEven_emb0 L k y).symm))
    | ⟨1, _⟩ => exact Fin.ext ((iCols_emb1 L _).trans (oEven_emb2 L k y).symm)
  show FloatOps.addf (Wt (ix2 (y 0) (Cert.Spec.colOf (idxRow d L I r (y 1))))) (Ps (ix2 r (y 0)))
    = FloatOps.addf (Wt (ix2 (((oEven L k).view.emb y) 1) (Cert.Spec.colOf (I (ix2 (((oEven L k).view.emb y) 0) (((oEven L k).view.emb y) 2))))))
        (Ps (ix2 (((oEven L k).view.emb y) 0) (((oEven L k).view.emb y) 1)))
  rw [eI, e0, e1]
/-- slab `2 k + 1`'s likewise. -/
theorem rowsG_eq_outO (hpre : ∀ j, (I j).toNat < 200) (k : Fin k0_t1_loop.trips) (r : Fin 200) (hr : r.val = 2 * k.val + 1) (y : S64x128.Idx) :
    rowsG d Wt Ps r (idxRow d L I r) y = outF d I Wt Ps ((oOdd L k).view.emb y) := by
  have e0 : ((oOdd L k).view.emb y) 0 = r := Fin.ext ((oOdd_emb0 L k y).trans hr.symm)
  have e1 : ((oOdd L k).view.emb y) 1 = y 0 := Fin.ext (oOdd_emb1 L k y)
  have eI : idxRow d L I r (y 1) = I (ix2 (((oOdd L k).view.emb y) 0) (((oOdd L k).view.emb y) 2)) := by
    refine ((View.read_apply _ _).trans (cast_eq _ _)).trans (congrArg I ?_)
    funext a
    match a with
    | ⟨0, _⟩ => exact Fin.ext ((iCols_emb0 L _).trans (hr.trans (oOdd_emb0 L k y).symm))
    | ⟨1, _⟩ => exact Fin.ext ((iCols_emb1 L _).trans (oOdd_emb2 L k y).symm)
  show FloatOps.addf (Wt (ix2 (y 0) (Cert.Spec.colOf (idxRow d L I r (y 1))))) (Ps (ix2 r (y 0)))
    = FloatOps.addf (Wt (ix2 (((oOdd L k).view.emb y) 1) (Cert.Spec.colOf (I (ix2 (((oOdd L k).view.emb y) 0) (((oOdd L k).view.emb y) 2))))))
        (Ps (ix2 (((oOdd L k).view.emb y) 0) (((oOdd L k).view.emb y) 1)))
  rw [eI, e0, e1]

end

/-- One lane of a row store: the gathered word-table entry plus the gathered positional entry, at the row's element. -/
theorem lane_val (Wt : S64x200.Idx → Elt F .f32) (Ps : S200x64.Idx → Elt F .f32) (vl ve1 ve2 : IVec S16 32) (vld : Vec F S1x16 .i32)
    (hc1 : S1x16.ShapeCasts S16) (hc2 : S16.ShapeCasts S1x16)
    (h1 : ∀ a x, ((![vl, ve1] : Fin 2 → IVec S16 32) a x).toNat < S200x64.size a)
    (h2 : ∀ a x, ((![ve2, shapeCast S16 vld hc1] : Fin 2 → IVec S16 32) a x).toNat < S64x200.size a)
    (l : Fin 200) (e : Fin 64) (hvl : ∀ x, (vl x).toNat = l.val) (hve1 : ∀ x, (ve1 x).toNat = e.val) (hve2 : ∀ x, (ve2 x).toNat = e.val)
    (row : Fin 128 → BitVec 32) (hrow : ∀ c, (row c).toNat < 200) (off : Nat)
    (hld : ∀ (x : S1x16.Idx) (c : Fin 128), c.val = off + (x 1).val → vld x = row c)
    (x : S1x16.Idx) (y : S64x128.Idx) (hy0 : (y 0).val = e.val) (hy1 : (y 1).val = off + (x 1).val) :
    shapeCast S1x16 (addf (loadIdx Wt ![ve2, shapeCast S16 vld hc1] h2) (loadIdx Ps ![vl, ve1] h1)) hc2 x
      = FloatOps.addf (Wt (ix2 (y 0) (Cert.Spec.colOf (row (y 1))))) (Ps (ix2 l (y 0))) := by
  obtain ⟨u, i, rfl⟩ : ∃ (u : Fin 1) (i : Fin 16), x = ix2 u i := ⟨x 0, x 1, eq_ix2 x⟩
  rw [shapeCast_a_1a_apply]
  show FloatOps.addf (Wt (idxAt ![ve2, shapeCast S16 vld hc1] h2 (ix1 i))) (Ps (idxAt ![vl, ve1] h1 (ix1 i))) = _
  -- the lane's index word is the row's word at the element's column
  have hv : shapeCast S16 vld hc1 (ix1 i) = row (y 1) := by
    rw [shapeCast_1a_a_apply]
    exact hld (ix2 0 i) (y 1) hy1
  have eW : idxAt ![ve2, shapeCast S16 vld hc1] h2 (ix1 i) = ix2 (y 0) (Cert.Spec.colOf (row (y 1))) := by
    funext a
    match a with
    | ⟨0, _⟩ => exact Fin.ext ((hve2 _).trans hy0.symm)
    | ⟨1, _⟩ =>
      apply Fin.ext
      show (shapeCast S16 vld hc1 (ix1 i)).toNat = (Cert.Spec.colOf (row (y 1))).val
      exact (congrArg BitVec.toNat hv).trans (Cert.Spec.colOf_val (hrow _)).symm
  have eP : idxAt ![vl, ve1] h1 (ix1 i) = ix2 l (y 0) := by
    funext a
    match a with
    | ⟨0, _⟩ => exact Fin.ext (hvl _)
    | ⟨1, _⟩ => exact Fin.ext ((hve1 _).trans hy0.symm)
  exact congrArg₂ FloatOps.addf (congrArg Wt eW) (congrArg Ps eP)

/-- The index vector a sixteen-lane load yields names rows of the word-table head. -/
theorem ld_lt (vld : Vec F S1x16 .i32) (hc1 : S1x16.ShapeCasts S16) (row : Fin 128 → BitVec 32) (hrow : ∀ c, (row c).toNat < 200) (off : Nat)
    (hoff : off + 16 ≤ 128) (hld : ∀ (x : S1x16.Idx) (c : Fin 128), c.val = off + (x 1).val → vld x = row c) (x : S16.Idx) :
    (shapeCast S16 vld hc1 x).toNat < 200 := by
  obtain ⟨i, rfl⟩ : ∃ i : Fin 16, x = ix1 i := ⟨x 0, eq_ix1 x⟩
  rw [shapeCast_1a_a_apply]
  have hi : i.val < 16 := i.isLt
  rw [hld (ix2 0 i) ⟨off + i.val, by omega⟩ rfl]
  exact hrow _

end Cert.Proof.KW

end
-- ==== Proof.KWDeliver.lean ====
/-
  The task's outer loop: what each staging buffer's copy delivers, the loop's invariant, and its two forms (before the
  first trip; from then on).
-/
import proofs.«206631_g81458349736089_cont_9to1c4b_538_8_alg».proof.Proof.KWPure

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxRecDepth 65536

section Pts

variable (d : Dev nD) (L : grid0.Coords)

omit [FloatOps F] in
theorem pts_i (f : Buf (Elt F) (v0Loc d)) :
    ((iCols L).view.loc (thr d L) ↦[(iCols L).view.set]{fullShare} f : sProp 𝕄) = v0Loc d ↦[(iCols L).view.set]{fullShare} f := rfl
omit [FloatOps F] in
theorem pts_w (q : PosShare TreeShare) (f : Buf (Elt F) (v2Loc d)) :
    ((wV).view.loc (thr d L) ↦[(wV).view.set]{q} f : sProp 𝕄) = v2Loc d ↦{q} f := by
  simp only [Memref.view_whole, View.set_whole]
omit [FloatOps F] in
theorem pts_p (q : PosShare TreeShare) (f : Buf (Elt F) (a2Loc d)) :
    ((pV).view.loc (thr d L) ↦[(pV).view.set]{q} f : sProp 𝕄) = a2Loc d ↦{q} f := by
  simp only [Memref.view_whole, View.set_whole]
omit [FloatOps F] in
theorem pts_sW (f : Buf (Elt F) ((thr d L).loc cc0_scratch0)) :
    ((sW).view.loc (thr d L) ↦{fullShare} f : sProp 𝕄) = (thr d L).loc cc0_scratch0 ↦{fullShare} f := rfl
omit [FloatOps F] in
theorem pts_sP (f : Buf (Elt F) ((thr d L).loc cc0_scratch1)) :
    ((sP).view.loc (thr d L) ↦{fullShare} f : sProp 𝕄) = (thr d L).loc cc0_scratch1 ↦{fullShare} f := rfl
omit [FloatOps F] in
theorem pts_sI (f : Buf (Elt F) ((thr d L).loc cc0_scratch2)) :
    ((sI).view.loc (thr d L) ↦{fullShare} f : sProp 𝕄) = (thr d L).loc cc0_scratch2 ↦{fullShare} f := rfl
omit [FloatOps F] in
theorem pts_sB0 (f : Buf (Elt F) ((thr d L).loc cc0_scratch3)) :
    ((sB0).view.loc (thr d L) ↦{fullShare} f : sProp 𝕄) = (thr d L).loc cc0_scratch3 ↦{fullShare} f := rfl
omit [FloatOps F] in
theorem pts_sB1 (f : Buf (Elt F) ((thr d L).loc cc0_scratch4)) :
    ((sB1).view.loc (thr d L) ↦{fullShare} f : sProp 𝕄) = (thr d L).loc cc0_scratch4 ↦{fullShare} f := rfl

end Pts

abbrev NO : ℕ := sig.dmaCredit .scVector (Kind.scVector.table .hbm) (main_v3_scv : Ref sig .scVector).idx S64x128 .f32
theorem NO_pos : 0 < NO := sig.dmaCredit_pos _ _ _ _ _ (by decide)

theorem trips2_eq : k0_t2_loop.trips = 64 := by decide
theorem trips3_eq : k0_t3_loop.trips = 64 := by decide

section Inv

variable (d : Dev nD) (L : grid0.Coords) (I : Buf (Elt F) (v0Loc d)) (Wt : Buf (Elt F) (v2Loc d)) (Ps : Buf (Elt F) (a2Loc d))

/-- What the first staging buffer's copy hands back when it is waited for: the even slabs so far, and the buffer; -/
def DE (k : Nat) : sProp 𝕄 :=
  iprop(∃ g b, (v3Loc d ↦[oE L]{fullShare} g) ∗ ((sB0).view.loc (thr d L) ↦{fullShare} b) ∗ ⌜GoodE d L I Wt Ps k g⌝)
/-- the second's: the odd slabs so far, and the buffer. -/
def DO (k : Nat) : sProp 𝕄 :=
  iprop(∃ g b, (v3Loc d ↦[oO L]{fullShare} g) ∗ ((sB1).view.loc (thr d L) ↦{fullShare} b) ∗ ⌜GoodO d L I Wt Ps k g⌝)

theorem DE_eq (k : Nat) :
    DE d L I Wt Ps k = iprop(∃ g b, (v3Loc d ↦[oE L]{fullShare} g) ∗ ((sB0).view.loc (thr d L) ↦{fullShare} b) ∗ ⌜GoodE d L I Wt Ps k g⌝) := rfl
theorem DO_eq (k : Nat) :
    DO d L I Wt Ps k = iprop(∃ g b, (v3Loc d ↦[oO L]{fullShare} g) ∗ ((sB1).view.loc (thr d L) ↦{fullShare} b) ∗ ⌜GoodO d L I Wt Ps k g⌝) := rfl

/-- Before the first trip nothing is in flight; from then on each staging buffer's last copy is. -/
def EP (k : Nat) : sProp 𝕄 :=
  if k = 0 then iprop(DE d L I Wt Ps 0 ∗ semVal (c5cell d L) 0)
  else Transfers.Flight countersEmb (thr d L) (.dma cc0_scratch5.sem) (none : HIx 1) NO (DE d L I Wt Ps k)
def OP (k : Nat) : sProp 𝕄 :=
  if k = 0 then iprop(DO d L I Wt Ps 0 ∗ semVal (c6cell d L) 0)
  else Transfers.Flight countersEmb (thr d L) (.dma cc0_scratch6.sem) (none : HIx 1) NO (DO d L I Wt Ps k)

/-- The outer loop's invariant: the two tables and the index columns in the task's scratch, the two staging buffers'
    copies, and what the task owes. -/
def inv (O : CellTallies nD τ sig (HIx 1)) (W : Waits sig (HIx 1)) (k : Nat) (_ : BitVec 32) : sProp 𝕄 :=
  iprop(Transfers.MayWaits (thr d L) (none : HIx 1) O
    ∗ ((sW).view.loc (thr d L) ↦{fullShare} Wt) ∗ ((sP).view.loc (thr d L) ↦{fullShare} Ps)
    ∗ ((sI).view.loc (thr d L) ↦{fullShare} (iCols L).view.read (Elt F) I)
    ∗ EP d L I Wt Ps k ∗ OP d L I Wt Ps k ∗ ∃ W', ⌜∀ p ∈ W', p ∈ W ∨ p.2 = none⌝ ∗ owes (thr d L) O W')

end Inv

section InvEq

variable (d : Dev nD) (L : grid0.Coords) (I : Buf (Elt F) (v0Loc d)) (Wt : Buf (Elt F) (v2Loc d)) (Ps : Buf (Elt F) (a2Loc d))
  (O : CellTallies nD τ sig (HIx 1)) (W : Waits sig (HIx 1))

theorem inv_at_zero {k : Nat} (hk : k = 0) (acc : BitVec 32) :
    inv d L I Wt Ps O W k acc
      = iprop(Transfers.MayWaits (thr d L) (none : HIx 1) O
        ∗ ((sW).view.loc (thr d L) ↦{fullShare} Wt) ∗ ((sP).view.loc (thr d L) ↦{fullShare} Ps)
        ∗ ((sI).view.loc (thr d L) ↦{fullShare} (iCols L).view.read (Elt F) I)
        ∗ (DE d L I Wt Ps 0 ∗ semVal (c5cell d L) 0) ∗ (DO d L I Wt Ps 0 ∗ semVal (c6cell d L) 0)
        ∗ ∃ W', ⌜∀ p ∈ W', p ∈ W ∨ p.2 = none⌝ ∗ owes (thr d L) O W') := by
  subst hk; unfold inv EP OP; rw [if_pos rfl, if_pos rfl]

theorem inv_at_pos {k : Nat} (hk : 0 < k) (acc : BitVec 32) :
    inv d L I Wt Ps O W k acc
      = iprop(Transfers.MayWaits (thr d L) (none : HIx 1) O
        ∗ ((sW).view.loc (thr d L) ↦{fullShare} Wt) ∗ ((sP).view.loc (thr d L) ↦{fullShare} Ps)
        ∗ ((sI).view.loc (thr d L) ↦{fullShare} (iCols L).view.read (Elt F) I)
        ∗ Transfers.Flight countersEmb (thr d L) (.dma cc0_scratch5.sem) (none : HIx 1) NO (DE d L I Wt Ps k)
        ∗ Transfers.Flight countersEmb (thr d L) (.dma cc0_scratch6.sem) (none : HIx 1) NO (DO d L I Wt Ps k)
        ∗ ∃ W', ⌜∀ p ∈ W', p ∈ W ∨ p.2 = none⌝ ∗ owes (thr d L) O W') := by
  unfold inv EP OP; rw [if_neg (Nat.pos_iff_ne_zero.mp hk), if_neg (Nat.pos_iff_ne_zero.mp hk)]

end InvEq

theorem cond1_zero : ∀ k : Fin k0_t1_loop.trips, k.val = 0 → ¬ k0_cond1 k = 1#1 := by decide +kernel
theorem cond1_pos : ∀ k : Fin k0_t1_loop.trips, 0 < k.val → k0_cond1 k = 1#1 := by decide +kernel
theorem cond2_zero : ∀ k : Fin k0_t1_loop.trips, k.val = 0 → ¬ k0_cond2 k = 1#1 := by decide +kernel
theorem cond2_pos : ∀ k : Fin k0_t1_loop.trips, 0 < k.val → k0_cond2 k = 1#1 := by decide +kernel

section Deliver

variable (d : Dev nD) (L : grid0.Coords) (I : Buf (Elt F) (v0Loc d)) (Wt : Buf (Elt F) (v2Loc d)) (Ps : Buf (Elt F) (a2Loc d))

omit [FloatOps F] in
theorem pts_sB0_set (f : Buf (Elt F) ((sB0).view.loc (thr d L))) :
    ((sB0).view.loc (thr d L) ↦[(sB0).view.set]{fullShare} f : sProp 𝕄) = (sB0).view.loc (thr d L) ↦{fullShare} f := by
  simp only [Memref.view_whole, View.set_whole]
omit [FloatOps F] in
theorem pts_sB1_set (f : Buf (Elt F) ((sB1).view.loc (thr d L))) :
    ((sB1).view.loc (thr d L) ↦[(sB1).view.set]{fullShare} f : sProp 𝕄) = (sB1).view.loc (thr d L) ↦{fullShare} f := by
  simp only [Memref.view_whole, View.set_whole]
omit [FloatOps F] in
theorem pts_oE (k : Fin k0_t1_loop.trips) (f : Buf (Elt F) (v3Loc d)) :
    ((oEven L k).view.loc (thr d L) ↦[oE L]{fullShare} f : sProp 𝕄) = v3Loc d ↦[oE L]{fullShare} f := rfl
omit [FloatOps F] in
theorem pts_oO (k : Fin k0_t1_loop.trips) (f : Buf (Elt F) (v3Loc d)) :
    ((oOdd L k).view.loc (thr d L) ↦[oO L]{fullShare} f : sProp 𝕄) = v3Loc d ↦[oO L]{fullShare} f := rfl

/-- The copy of a finished slab out of the first staging buffer delivers the even slabs with one more done; -/
theorem deliverE (hpre : ∀ j, (I j).toNat < 200) (k : Fin k0_t1_loop.trips) (r : Fin 200) (hr : r.val = 2 * k.val)
    (gE : Buf (Elt F) (v3Loc d)) (b : Buf (Elt F) ((sB0).view.loc (thr d L))) (hg : GoodE d L I Wt Ps k.val gE)
    (hb : GoodRows (rowsG d Wt Ps r (idxRow d L I r)) k0_t2_loop.trips b) :
    iprop(((oEven L k).view.loc (thr d L) ↦[oE L]{fullShare}
            (oEven L k).view.write (Elt F) gE (ReadAs.same.apply ((sB0).view.read (Elt F) b)) Finset.univ)
        ∗ ((sB0).view.loc (thr d L) ↦[(sB0).view.set]{fullShare} b))
      ⊢ (DE d L I Wt Ps (k.val + 1) : sProp 𝕄) := by
  rw [DE_eq, pts_sB0_set, pts_oE]
  iintro ⟨Ho, Hs⟩
  iexists _, b
  isplitl [Ho]; · iexact Ho
  isplitl [Hs]; · iexact Hs
  ipureintro
  exact goodE_step d L I Wt Ps k gE _ hg
    (fun y => (hb y (by rw [trips2_eq]; exact (y 0).isLt)).trans (rowsG_eq_outE d L I Wt Ps hpre k r hr y))
/-- out of the second, the odd slabs. -/
theorem deliverO (hpre : ∀ j, (I j).toNat < 200) (k : Fin k0_t1_loop.trips) (r : Fin 200) (hr : r.val = 2 * k.val + 1)
    (gO : Buf (Elt F) (v3Loc d)) (b : Buf (Elt F) ((sB1).view.loc (thr d L))) (hg : GoodO d L I Wt Ps k.val gO)
    (hb : GoodRows (rowsG d Wt Ps r (idxRow d L I r)) k0_t3_loop.trips b) :
    iprop(((oOdd L k).view.loc (thr d L) ↦[oO L]{fullShare}
            (oOdd L k).view.write (Elt F) gO (ReadAs.same.apply ((sB1).view.read (Elt F) b)) Finset.univ)
        ∗ ((sB1).view.loc (thr d L) ↦[(sB1).view.set]{fullShare} b))
      ⊢ (DO d L I Wt Ps (k.val + 1) : sProp 𝕄) := by
  rw [DO_eq, pts_sB1_set, pts_oO]
  iintro ⟨Ho, Hs⟩
  iexists _, b
  isplitl [Ho]; · iexact Ho
  isplitl [Hs]; · iexact Hs
  ipureintro
  exact goodO_step d L I Wt Ps k gO _ hg
    (fun y => (hb y (by rw [trips3_eq]; exact (y 0).isLt)).trans (rowsG_eq_outO d L I Wt Ps hpre k r hr y))

end Deliver

end Cert.Proof.KW

end
-- ==== Proof.KWInner0.lean ====
/-
  One slab computed into the first staging buffer: the kernel's inner loop over the sixty-four rows, each trip gathering
  the row's positional entry and the eight sixteen-lane groups of word-table entries and storing their sums.
-/
import proofs.«206631_g81458349736089_cont_9to1c4b_538_8_alg».proof.Proof.KWPure

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxRecDepth 65536

open Idealize.ShloMosaic.ValueIdx

theorem pay30_toNat : ∀ (k : Fin k0_t1_loop.trips) (x : S16.Idx), (k0_pay30 0#32 1#32 k x).toNat = 2 * k.val := by decide +kernel
theorem pay1_toNat : ∀ (e : Fin k0_t2_loop.trips) (x : S16.Idx), (k0_pay1 k0_pay29 0#32 1#32 e x).toNat = e.val := by decide +kernel
theorem pay2_toNat : ∀ (e : Fin k0_t2_loop.trips) (x : S16.Idx), (k0_pay2 k0_pay29 0#32 1#32 e x).toNat = e.val := by decide +kernel

section Inner

variable (d : Dev nD) (L : grid0.Coords) (Wt : Buf (Elt F) (v2Loc d)) (Ps : Buf (Elt F) (a2Loc d))

def inv2 (l : Fin 200) (row : Fin 128 → BitVec 32) (n : Nat) (_ : BitVec 32) : sProp 𝕄 :=
  iprop(((sW).view.loc (thr d L) ↦{fullShare} Wt) ∗ ((sP).view.loc (thr d L) ↦{fullShare} Ps)
    ∗ ∃ b, ((sB0).view.loc (thr d L) ↦{fullShare} b) ∗ ⌜GoodRows (rowsG d Wt Ps l row) n b⌝)

theorem inv2_eq (l : Fin 200) (row : Fin 128 → BitVec 32) (n : Nat) (acc : BitVec 32) :
    inv2 d L Wt Ps l row n acc = iprop(((sW).view.loc (thr d L) ↦{fullShare} Wt) ∗ ((sP).view.loc (thr d L) ↦{fullShare} Ps)
      ∗ ∃ b, ((sB0).view.loc (thr d L) ↦{fullShare} b) ∗ ⌜GoodRows (rowsG d Wt Ps l row) n b⌝) := rfl

set_option maxHeartbeats 4000000 in
theorem inner0 (k : Fin k0_t1_loop.trips) (l : Fin 200) (hl : l.val = 2 * k.val) (row : Fin 128 → BitVec 32) (hrow : ∀ c, (row c).toNat < 200)
    (v20_ld v22_ld v24_ld v26_ld v28_ld v30_ld v32_ld v34_ld : Vec F S1x16 .i32)
    (h20 : ∀ (x : S1x16.Idx) (c : Fin 128), c.val = 0 + (x 1).val → v20_ld x = row c)
    (h22 : ∀ (x : S1x16.Idx) (c : Fin 128), c.val = 16 + (x 1).val → v22_ld x = row c)
    (h24 : ∀ (x : S1x16.Idx) (c : Fin 128), c.val = 32 + (x 1).val → v24_ld x = row c)
    (h26 : ∀ (x : S1x16.Idx) (c : Fin 128), c.val = 48 + (x 1).val → v26_ld x = row c)
    (h28 : ∀ (x : S1x16.Idx) (c : Fin 128), c.val = 64 + (x 1).val → v28_ld x = row c)
    (h30 : ∀ (x : S1x16.Idx) (c : Fin 128), c.val = 80 + (x 1).val → v30_ld x = row c)
    (h32 : ∀ (x : S1x16.Idx) (c : Fin 128), c.val = 96 + (x 1).val → v32_ld x = row c)
    (h34 : ∀ (x : S1x16.Idx) (c : Fin 128), c.val = 112 + (x 1).val → v34_ld x = row c)
    (b : Buf (Elt F) ((sB0).view.loc (thr d L))) {α : Type}
    (kk : BitVec 32 → Prog (TpuEff nD τ sig (Elt F) Λ₀ (.scVector ((L 0).castLE hcore0) ((L 1).castLE hsub0))) α) (Q : α → sProp 𝕄) :
    iprop(((sW).view.loc (thr d L) ↦{fullShare} Wt) ∗ ((sP).view.loc (thr d L) ↦{fullShare} Ps) ∗ ((sB0).view.loc (thr d L) ↦{fullShare} b))
      ⊢ iprop((∀ acc, inv2 d L Wt Ps l row k0_t2_loop.trips acc -∗ wp frame (wpE (defs₀ (F := F)) 𝒱₀ (thr d L) none) Set.univ (kk acc) Q)
          -∗ wp frame (wpE (defs₀ (F := F)) 𝒱₀ (thr d L) none) Set.univ
            (k0_t2_loop.for k0_t2_ok (0#32)
              (k0_t2_body L iV (Memref.isWhole_whole _) wV (Memref.isWhole_whole _) pV (Memref.isWhole_whole _) oV (Memref.isWhole_whole _)
                sW (Memref.isWhole_whole _) sP (Memref.isWhole_whole _) sI (Memref.isWhole_whole _) sB0 (Memref.isWhole_whole _) sB1 (Memref.isWhole_whole _)
                cc0_scratch5 cc0_scratch6 cc0_scoped0 cc0_scoped1 cc0_scoped2 (0#32) (1#32) k
                v20_ld v22_ld v24_ld v26_ld v28_ld v30_ld v32_ld v34_ld) >>= kk) Q) := by
  iintro ⟨HsW, HsP, HsB0⟩ Hk
  sl_for (inv2 d L Wt Ps l row) $$ [HsW HsP HsB0]
  case region =>
    intro e acc
    unfold inv2
    iintro ⟨HsW, HsP, %b', HsB0, %hb'⟩
    have hchk1 : k0_chk1 (k0_pay30 0#32 1#32 k) (k0_pay1 k0_pay29 0#32 1#32 e) := by
      intro a x
      match a with
      | ⟨0, _⟩ => show (k0_pay30 0#32 1#32 k x).toNat < 200; rw [pay30_toNat]; have := k.isLt; change k.val < 100 at this; omega
      | ⟨1, _⟩ => show (k0_pay1 k0_pay29 0#32 1#32 e x).toNat < 64; rw [pay1_toNat]; exact e.isLt
    have hchk2 : k0_chk2 (k0_pay21 v20_ld) (k0_pay22 v22_ld) (k0_pay23 v24_ld) (k0_pay24 v26_ld) (k0_pay25 v28_ld)
        (k0_pay26 v30_ld) (k0_pay27 v32_ld) (k0_pay28 v34_ld) (k0_pay2 k0_pay29 0#32 1#32 e) := by
      have he : ∀ x, ((k0_pay2 k0_pay29 0#32 1#32 e) x).toNat < 64 := fun x => by rw [pay2_toNat]; exact e.isLt
      refine ⟨?_, ?_, ?_, ?_, ?_, ?_, ?_, ?_⟩
      · intro a x; match a with
          | ⟨0, _⟩ => exact he x
          | ⟨1, _⟩ => exact ld_lt v20_ld shapeCasts_S1x16_S16 row hrow 0 (by omega) h20 x
      · intro a x; match a with
          | ⟨0, _⟩ => exact he x
          | ⟨1, _⟩ => exact ld_lt v22_ld shapeCasts_S1x16_S16 row hrow 16 (by omega) h22 x
      · intro a x; match a with
          | ⟨0, _⟩ => exact he x
          | ⟨1, _⟩ => exact ld_lt v24_ld shapeCasts_S1x16_S16 row hrow 32 (by omega) h24 x
      · intro a x; match a with
          | ⟨0, _⟩ => exact he x
          | ⟨1, _⟩ => exact ld_lt v26_ld shapeCasts_S1x16_S16 row hrow 48 (by omega) h26 x
      · intro a x; match a with
          | ⟨0, _⟩ => exact he x
          | ⟨1, _⟩ => exact ld_lt v28_ld shapeCasts_S1x16_S16 row hrow 64 (by omega) h28 x
      · intro a x; match a with
          | ⟨0, _⟩ => exact he x
          | ⟨1, _⟩ => exact ld_lt v30_ld shapeCasts_S1x16_S16 row hrow 80 (by omega) h30 x
      · intro a x; match a with
          | ⟨0, _⟩ => exact he x
          | ⟨1, _⟩ => exact ld_lt v32_ld shapeCasts_S1x16_S16 row hrow 96 (by omega) h32 x
      · intro a x; match a with
          | ⟨0, _⟩ => exact he x
          | ⟨1, _⟩ => exact ld_lt v34_ld shapeCasts_S1x16_S16 row hrow 112 (by omega) h34 x
    sl_exec
    iapply (SparseCore.wp_vectorLoadIdx 𝒱₀ (thr d L) none Set.univ (base := sP) (S := Finset.univ) (q := fullShare) (Finset.subset_univ _)) $$ HsP; iintro HsP
    sl_exec
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    sl_exec
    sl_step
    isplitl [HsW]; · iexact HsW
    isplitl [HsP]; · iexact HsP
    iexists _
    isplitl [HsB0]
    · iexact HsB0
    · ipureintro
      have hrW : View.read (Elt F) (sW.access (Rect.whole S64x200)) Wt = Wt := Memref.read_access_whole (Elt F) cc0_scratch0 Wt
      have hrP : View.read (Elt F) (sP.access (Rect.whole S200x64)) Ps = Ps := Memref.read_access_whole (Elt F) cc0_scratch1 Ps
      refine rows_step0 (rowsG d Wt Ps l row) e b' _ _ _ _ _ _ _ _ hb' ?_ ?_ ?_ ?_ ?_ ?_ ?_ ?_
      · intro x y hy0 hy1
        unfold k0_pay3 k0_pay21 rowsG inner0.sl.v73 inner0.sl.v76
        dsimp only
        rw [hrW, hrP]
        exact lane_val Wt Ps _ _ _ v20_ld _ _ _ _ l e
          (fun x => (pay30_toNat k x).trans hl.symm) (pay1_toNat e) (pay2_toNat e) row hrow 0 h20 x y hy0 hy1
      · intro x y hy0 hy1
        unfold k0_pay4 k0_pay22 rowsG inner0.sl.v73 inner0.sl.v76
        dsimp only
        rw [hrW, hrP]
        exact lane_val Wt Ps _ _ _ v22_ld _ _ _ _ l e
          (fun x => (pay30_toNat k x).trans hl.symm) (pay1_toNat e) (pay2_toNat e) row hrow 16 h22 x y hy0 hy1
      · intro x y hy0 hy1
        unfold k0_pay5 k0_pay23 rowsG inner0.sl.v73 inner0.sl.v76
        dsimp only
        rw [hrW, hrP]
        exact lane_val Wt Ps _ _ _ v24_ld _ _ _ _ l e
          (fun x => (pay30_toNat k x).trans hl.symm) (pay1_toNat e) (pay2_toNat e) row hrow 32 h24 x y hy0 hy1
      · intro x y hy0 hy1
        unfold k0_pay6 k0_pay24 rowsG inner0.sl.v73 inner0.sl.v76
        dsimp only
        rw [hrW, hrP]
        exact lane_val Wt Ps _ _ _ v26_ld _ _ _ _ l e
          (fun x => (pay30_toNat k x).trans hl.symm) (pay1_toNat e) (pay2_toNat e) row hrow 48 h26 x y hy0 hy1
      · intro x y hy0 hy1
        unfold k0_pay7 k0_pay25 rowsG inner0.sl.v73 inner0.sl.v76
        dsimp only
        rw [hrW, hrP]
        exact lane_val Wt Ps _ _ _ v28_ld _ _ _ _ l e
          (fun x => (pay30_toNat k x).trans hl.symm) (pay1_toNat e) (pay2_toNat e) row hrow 64 h28 x y hy0 hy1
      · intro x y hy0 hy1
        unfold k0_pay8 k0_pay26 rowsG inner0.sl.v73 inner0.sl.v76
        dsimp only
        rw [hrW, hrP]
        exact lane_val Wt Ps _ _ _ v30_ld _ _ _ _ l e
          (fun x => (pay30_toNat k x).trans hl.symm) (pay1_toNat e) (pay2_toNat e) row hrow 80 h30 x y hy0 hy1
      · intro x y hy0 hy1
        unfold k0_pay9 k0_pay27 rowsG inner0.sl.v73 inner0.sl.v76
        dsimp only
        rw [hrW, hrP]
        exact lane_val Wt Ps _ _ _ v32_ld _ _ _ _ l e
          (fun x => (pay30_toNat k x).trans hl.symm) (pay1_toNat e) (pay2_toNat e) row hrow 96 h32 x y hy0 hy1
      · intro x y hy0 hy1
        unfold inner0.sl.r k0_pay10 k0_pay28 rowsG inner0.sl.v73 inner0.sl.v76
        dsimp only
        rw [hrW, hrP]
        exact lane_val Wt Ps _ _ _ v34_ld _ _ _ _ l e
          (fun x => (pay30_toNat k x).trans hl.symm) (pay1_toNat e) (pay2_toNat e) row hrow 112 h34 x y hy0 hy1
  · unfold inv2
    isplitl [HsW]; · iexact HsW
    isplitl [HsP]; · iexact HsP
    iexists b
    isplitl [HsB0]
    · iexact HsB0
    · ipureintro; exact fun y hy => absurd hy (Nat.not_lt_zero _)
  iintro %acc2 HI
  unfold inner0.sl.prog.cont_1
  iapply Hk
  iexact HI

end Inner

end Cert.Proof.KW

end
-- ==== Proof.KWInner1.lean ====
/-
  One slab computed into the second staging buffer: the kernel's inner loop over the sixty-four rows, each trip gathering
  the row's positional entry and the eight sixteen-lane groups of word-table entries and storing their sums.
-/
import proofs.«206631_g81458349736089_cont_9to1c4b_538_8_alg».proof.Proof.KWPure

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxRecDepth 65536

open Idealize.ShloMosaic.ValueIdx

theorem pay40_toNat (v15 : BitVec 32) (x : S16.Idx) : (k0_pay40 v15 x).toNat = v15.toNat := by
  unfold k0_pay40 k0_pay39 addi broadcast
  show (IntOp.addi (0#32) v15).toNat = v15.toNat
  unfold IntOp.addi
  simp
theorem pay11_toNat : ∀ (e : Fin k0_t3_loop.trips) (x : S16.Idx), (k0_pay11 k0_pay39 0#32 1#32 e x).toNat = e.val := by decide +kernel
theorem pay12_toNat : ∀ (e : Fin k0_t3_loop.trips) (x : S16.Idx), (k0_pay12 k0_pay39 0#32 1#32 e x).toNat = e.val := by decide +kernel

section Inner

variable (d : Dev nD) (L : grid0.Coords) (Wt : Buf (Elt F) (v2Loc d)) (Ps : Buf (Elt F) (a2Loc d))

def inv3 (l : Fin 200) (row : Fin 128 → BitVec 32) (n : Nat) (_ : BitVec 32) : sProp 𝕄 :=
  iprop(((sW).view.loc (thr d L) ↦{fullShare} Wt) ∗ ((sP).view.loc (thr d L) ↦{fullShare} Ps)
    ∗ ∃ b, ((sB1).view.loc (thr d L) ↦{fullShare} b) ∗ ⌜GoodRows (rowsG d Wt Ps l row) n b⌝)

theorem inv3_eq (l : Fin 200) (row : Fin 128 → BitVec 32) (n : Nat) (acc : BitVec 32) :
    inv3 d L Wt Ps l row n acc = iprop(((sW).view.loc (thr d L) ↦{fullShare} Wt) ∗ ((sP).view.loc (thr d L) ↦{fullShare} Ps)
      ∗ ∃ b, ((sB1).view.loc (thr d L) ↦{fullShare} b) ∗ ⌜GoodRows (rowsG d Wt Ps l row) n b⌝) := rfl

set_option maxHeartbeats 4000000 in
theorem inner1 (k : Fin k0_t1_loop.trips) (l : Fin 200) (hl : l.val = 2 * k.val + 1) (arg13 v15 : BitVec 32) (hv15 : v15.toNat = 2 * k.val + 1) (row : Fin 128 → BitVec 32) (hrow : ∀ c, (row c).toNat < 200)
    (v20_ld v22_ld v24_ld v26_ld v28_ld v30_ld v32_ld v34_ld : Vec F S1x16 .i32)
    (h20 : ∀ (x : S1x16.Idx) (c : Fin 128), c.val = 0 + (x 1).val → v20_ld x = row c)
    (h22 : ∀ (x : S1x16.Idx) (c : Fin 128), c.val = 16 + (x 1).val → v22_ld x = row c)
    (h24 : ∀ (x : S1x16.Idx) (c : Fin 128), c.val = 32 + (x 1).val → v24_ld x = row c)
    (h26 : ∀ (x : S1x16.Idx) (c : Fin 128), c.val = 48 + (x 1).val → v26_ld x = row c)
    (h28 : ∀ (x : S1x16.Idx) (c : Fin 128), c.val = 64 + (x 1).val → v28_ld x = row c)
    (h30 : ∀ (x : S1x16.Idx) (c : Fin 128), c.val = 80 + (x 1).val → v30_ld x = row c)
    (h32 : ∀ (x : S1x16.Idx) (c : Fin 128), c.val = 96 + (x 1).val → v32_ld x = row c)
    (h34 : ∀ (x : S1x16.Idx) (c : Fin 128), c.val = 112 + (x 1).val → v34_ld x = row c)
    (b : Buf (Elt F) ((sB1).view.loc (thr d L))) {α : Type}
    (kk : BitVec 32 → Prog (TpuEff nD τ sig (Elt F) Λ₀ (.scVector ((L 0).castLE hcore0) ((L 1).castLE hsub0))) α) (Q : α → sProp 𝕄) :
    iprop(((sW).view.loc (thr d L) ↦{fullShare} Wt) ∗ ((sP).view.loc (thr d L) ↦{fullShare} Ps) ∗ ((sB1).view.loc (thr d L) ↦{fullShare} b))
      ⊢ iprop((∀ acc, inv3 d L Wt Ps l row k0_t3_loop.trips acc -∗ wp frame (wpE (defs₀ (F := F)) 𝒱₀ (thr d L) none) Set.univ (kk acc) Q)
          -∗ wp frame (wpE (defs₀ (F := F)) 𝒱₀ (thr d L) none) Set.univ
            (k0_t3_loop.for k0_t3_ok (0#32)
              (k0_t3_body L iV (Memref.isWhole_whole _) wV (Memref.isWhole_whole _) pV (Memref.isWhole_whole _) oV (Memref.isWhole_whole _)
                sW (Memref.isWhole_whole _) sP (Memref.isWhole_whole _) sI (Memref.isWhole_whole _) sB0 (Memref.isWhole_whole _) sB1 (Memref.isWhole_whole _)
                cc0_scratch5 cc0_scratch6 cc0_scoped0 cc0_scoped1 cc0_scoped2 k arg13 v15
                v20_ld v22_ld v24_ld v26_ld v28_ld v30_ld v32_ld v34_ld) >>= kk) Q) := by
  iintro ⟨HsW, HsP, HsB0⟩ Hk
  sl_for (inv3 d L Wt Ps l row) $$ [HsW HsP HsB0]
  case region =>
    intro e acc
    unfold inv3
    iintro ⟨HsW, HsP, %b', HsB0, %hb'⟩
    have hchk1 : k0_chk3 (k0_pay40 v15) (k0_pay11 k0_pay39 0#32 1#32 e) := by
      intro a x
      match a with
      | ⟨0, _⟩ => show (k0_pay40 v15 x).toNat < 200; rw [pay40_toNat, hv15]; have := k.isLt; change k.val < 100 at this; omega
      | ⟨1, _⟩ => show (k0_pay11 k0_pay39 0#32 1#32 e x).toNat < 64; rw [pay11_toNat]; exact e.isLt
    have hchk2 : k0_chk4 (k0_pay31 v20_ld) (k0_pay32 v22_ld) (k0_pay33 v24_ld) (k0_pay34 v26_ld) (k0_pay35 v28_ld)
        (k0_pay36 v30_ld) (k0_pay37 v32_ld) (k0_pay38 v34_ld) (k0_pay12 k0_pay39 0#32 1#32 e) := by
      have he : ∀ x, ((k0_pay12 k0_pay39 0#32 1#32 e) x).toNat < 64 := fun x => by rw [pay12_toNat]; exact e.isLt
      refine ⟨?_, ?_, ?_, ?_, ?_, ?_, ?_, ?_⟩
      · intro a x; match a with
          | ⟨0, _⟩ => exact he x
          | ⟨1, _⟩ => exact ld_lt v20_ld shapeCasts_S1x16_S16 row hrow 0 (by omega) h20 x
      · intro a x; match a with
          | ⟨0, _⟩ => exact he x
          | ⟨1, _⟩ => exact ld_lt v22_ld shapeCasts_S1x16_S16 row hrow 16 (by omega) h22 x
      · intro a x; match a with
          | ⟨0, _⟩ => exact he x
          | ⟨1, _⟩ => exact ld_lt v24_ld shapeCasts_S1x16_S16 row hrow 32 (by omega) h24 x
      · intro a x; match a with
          | ⟨0, _⟩ => exact he x
          | ⟨1, _⟩ => exact ld_lt v26_ld shapeCasts_S1x16_S16 row hrow 48 (by omega) h26 x
      · intro a x; match a with
          | ⟨0, _⟩ => exact he x
          | ⟨1, _⟩ => exact ld_lt v28_ld shapeCasts_S1x16_S16 row hrow 64 (by omega) h28 x
      · intro a x; match a with
          | ⟨0, _⟩ => exact he x
          | ⟨1, _⟩ => exact ld_lt v30_ld shapeCasts_S1x16_S16 row hrow 80 (by omega) h30 x
      · intro a x; match a with
          | ⟨0, _⟩ => exact he x
          | ⟨1, _⟩ => exact ld_lt v32_ld shapeCasts_S1x16_S16 row hrow 96 (by omega) h32 x
      · intro a x; match a with
          | ⟨0, _⟩ => exact he x
          | ⟨1, _⟩ => exact ld_lt v34_ld shapeCasts_S1x16_S16 row hrow 112 (by omega) h34 x
    sl_exec
    iapply (SparseCore.wp_vectorLoadIdx 𝒱₀ (thr d L) none Set.univ (base := sP) (S := Finset.univ) (q := fullShare) (Finset.subset_univ _)) $$ HsP; iintro HsP
    sl_exec
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    iapply (SparseCore.wp_vectorLoadIdx 𝒱₀ (thr d L) none Set.univ (base := sW) (S := Finset.univ) (q := fullShare) (Finset.subset_univ _)) $$ HsW; iintro HsW
    sl_exec
    sl_step
    isplitl [HsW]; · iexact HsW
    isplitl [HsP]; · iexact HsP
    iexists _
    isplitl [HsB0]
    · iexact HsB0
    · ipureintro
      have hrW : View.read (Elt F) (sW.access (Rect.whole S64x200)) Wt = Wt := Memref.read_access_whole (Elt F) cc0_scratch0 Wt
      have hrP : View.read (Elt F) (sP.access (Rect.whole S200x64)) Ps = Ps := Memref.read_access_whole (Elt F) cc0_scratch1 Ps
      refine rows_step1 (rowsG d Wt Ps l row) e b' _ _ _ _ _ _ _ _ hb' ?_ ?_ ?_ ?_ ?_ ?_ ?_ ?_
      · intro x y hy0 hy1
        unfold k0_pay13 k0_pay31 rowsG inner1.sl.v73 inner1.sl.v76
        dsimp only
        rw [hrW, hrP]
        exact lane_val Wt Ps _ _ _ v20_ld _ _ _ _ l e
          (fun x => ((pay40_toNat v15 x).trans hv15).trans hl.symm) (pay11_toNat e) (pay12_toNat e) row hrow 0 h20 x y hy0 hy1
      · intro x y hy0 hy1
        unfold k0_pay14 k0_pay32 rowsG inner1.sl.v73 inner1.sl.v76
        dsimp only
        rw [hrW, hrP]
        exact lane_val Wt Ps _ _ _ v22_ld _ _ _ _ l e
          (fun x => ((pay40_toNat v15 x).trans hv15).trans hl.symm) (pay11_toNat e) (pay12_toNat e) row hrow 16 h22 x y hy0 hy1
      · intro x y hy0 hy1
        unfold k0_pay15 k0_pay33 rowsG inner1.sl.v73 inner1.sl.v76
        dsimp only
        rw [hrW, hrP]
        exact lane_val Wt Ps _ _ _ v24_ld _ _ _ _ l e
          (fun x => ((pay40_toNat v15 x).trans hv15).trans hl.symm) (pay11_toNat e) (pay12_toNat e) row hrow 32 h24 x y hy0 hy1
      · intro x y hy0 hy1
        unfold k0_pay16 k0_pay34 rowsG inner1.sl.v73 inner1.sl.v76
        dsimp only
        rw [hrW, hrP]
        exact lane_val Wt Ps _ _ _ v26_ld _ _ _ _ l e
          (fun x => ((pay40_toNat v15 x).trans hv15).trans hl.symm) (pay11_toNat e) (pay12_toNat e) row hrow 48 h26 x y hy0 hy1
      · intro x y hy0 hy1
        unfold k0_pay17 k0_pay35 rowsG inner1.sl.v73 inner1.sl.v76
        dsimp only
        rw [hrW, hrP]
        exact lane_val Wt Ps _ _ _ v28_ld _ _ _ _ l e
          (fun x => ((pay40_toNat v15 x).trans hv15).trans hl.symm) (pay11_toNat e) (pay12_toNat e) row hrow 64 h28 x y hy0 hy1
      · intro x y hy0 hy1
        unfold k0_pay18 k0_pay36 rowsG inner1.sl.v73 inner1.sl.v76
        dsimp only
        rw [hrW, hrP]
        exact lane_val Wt Ps _ _ _ v30_ld _ _ _ _ l e
          (fun x => ((pay40_toNat v15 x).trans hv15).trans hl.symm) (pay11_toNat e) (pay12_toNat e) row hrow 80 h30 x y hy0 hy1
      · intro x y hy0 hy1
        unfold k0_pay19 k0_pay37 rowsG inner1.sl.v73 inner1.sl.v76
        dsimp only
        rw [hrW, hrP]
        exact lane_val Wt Ps _ _ _ v32_ld _ _ _ _ l e
          (fun x => ((pay40_toNat v15 x).trans hv15).trans hl.symm) (pay11_toNat e) (pay12_toNat e) row hrow 96 h32 x y hy0 hy1
      · intro x y hy0 hy1
        unfold inner1.sl.r k0_pay20 k0_pay38 rowsG inner1.sl.v73 inner1.sl.v76
        dsimp only
        rw [hrW, hrP]
        exact lane_val Wt Ps _ _ _ v34_ld _ _ _ _ l e
          (fun x => ((pay40_toNat v15 x).trans hv15).trans hl.symm) (pay11_toNat e) (pay12_toNat e) row hrow 112 h34 x y hy0 hy1
  · unfold inv3
    isplitl [HsW]; · iexact HsW
    isplitl [HsP]; · iexact HsP
    iexists b
    isplitl [HsB0]
    · iexact HsB0
    · ipureintro; exact fun y hy => absurd hy (Nat.not_lt_zero _)
  iintro %acc2 HI
  unfold inner1.sl.prog.cont_1
  iapply Hk
  iexact HI

end Inner

end Cert.Proof.KW

end
-- ==== Proof.KWBody.lean ====
/-
  One task of the kernel, run once at a symbolic vector subcore: the three fetches into the task's scratch, then the
  outer loop over pairs of slabs — each trip waits for a staging buffer's previous copy (from the second trip on),
  computes a slab into the buffer and starts its copy into the slab's slice of the result — and the last two waits.
-/
import proofs.«206631_g81458349736089_cont_9to1c4b_538_8_alg».proof.Proof.KWDeliver
import proofs.«206631_g81458349736089_cont_9to1c4b_538_8_alg».proof.Proof.KWInner0
import proofs.«206631_g81458349736089_cont_9to1c4b_538_8_alg».proof.Proof.KWInner1

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxRecDepth 65536

theorem v15_toNat : ∀ k : Fin k0_t1_loop.trips, (Scalar.addi (Scalar.muli 2#32 (Scf.iv 0#32 1#32 k)) 1#32).toNat = 2 * k.val + 1 := by
  decide +kernel

set_option maxHeartbeats 16000000 in
/-- The task on vector subcore `(L 0, L 1)` of device `d`: from its share of the operands at contents `I`, `Wt`, `Ps`,
    `O3` — every index word below 200 — to the same with its elements of the result at `outT I Wt Ps`. -/
theorem tile_body (hF : (K (F := F)).Facts) (d : Dev nD) (L : grid0.Coords)
    (I : Buf (Elt F) (v0Loc d)) (Wt : Buf (Elt F) (v2Loc d)) (Ps : Buf (Elt F) (a2Loc d)) (O3 : Buf (Elt F) (v3Loc d))
    (hpre : ∀ j, (I j).toNat < 200)
    (O : CellTallies nD τ sig (HIx 1)) (W : Waits sig (HIx 1)) (hO : ∀ g, O g none = 0) :
    iprop(levAts (K (F := F)).L (K (F := F)).lev ∗ emp ∗ tileIn d L I Wt Ps O3
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__sc_embed L iV (Memref.isWhole_whole _) wV (Memref.isWhole_whole _) pV (Memref.isWhole_whole _) oV (Memref.isWhole_whole _)
            sW (Memref.isWhole_whole _) sP (Memref.isWhole_whole _) sI (Memref.isWhole_whole _) sB0 (Memref.isWhole_whole _) sB1 (Memref.isWhole_whole _)
            cc0_scratch5 cc0_scratch6 cc0_scoped0 cc0_scoped1 cc0_scoped2)
          fun _ => iprop(tileIn d L I Wt Ps (Cert.Spec.outT (F := F) I Wt Ps) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [cc0__sc_embed_eq_skeleton]; unfold cc0__sc_embed_skel
  rw [(K (F := F)).scopedBufs_V hF d (cV L) (jV L), SparseCore.Cfg.scopedSems0_V (Val := Elt F) d (cV L) (jV L), ownSems0_V, ownBufs_V]
  unfold tileIn
  iintro ⟨#Hlv, -, ⟨Hi, Hw, Hp, HoE, HoO⟩, ⟨⟨%fw, HsW⟩, ⟨%fp, HsP⟩, ⟨%fi, HsI⟩, ⟨%fb0, HsB0⟩, ⟨%fb1, HsB1⟩, Hbufs⟩, ⟨Hc5, Hc6, Hr0, Hr1, Hr2, Hsems⟩, HO⟩
  ihave Hmw := ((K (F := F)).mayWaits_none (thr := V d (cV L) (jV L)) hO) $$ Hlv
  ihave Hi' := (Entails.of_eq (pts_i (F := F) d L _).symm) $$ Hi
  ihave Hw' := (Entails.of_eq (pts_w (F := F) d L _ _).symm) $$ Hw
  ihave Hp' := (Entails.of_eq (pts_p (F := F) d L _ _).symm) $$ Hp
  ihave HsW' := (Entails.of_eq (pts_sW (F := F) d L _).symm) $$ HsW
  ihave HsP' := (Entails.of_eq (pts_sP (F := F) d L _).symm) $$ HsP
  ihave HsI' := (Entails.of_eq (pts_sI (F := F) d L _).symm) $$ HsI
  ihave HsB0' := (Entails.of_eq (pts_sB0 (F := F) d L _).symm) $$ HsB0
  ihave HsB1' := (Entails.of_eq (pts_sB1 (F := F) d L _).symm) $$ HsB1
  sl_exec
  have hcW : View.write (Elt F) sW.view fw (tile_body.sl.dma0 d Wt) Finset.univ = Wt := by
    unfold tile_body.sl.dma0
    exact (View.write_whole_univ _ _ _).trans (View.read_whole _ _)
  have hcP : View.write (Elt F) sP.view fp (tile_body.sl.dma0_1 d Ps) Finset.univ = Ps := by
    unfold tile_body.sl.dma0_1
    exact (View.write_whole_univ _ _ _).trans (View.read_whole _ _)
  have hcI : View.write (Elt F) sI.view fi (tile_body.sl.dma0_2 d L I) Finset.univ = (iCols L).view.read (Elt F) I := by
    unfold tile_body.sl.dma0_2
    exact View.write_whole_univ _ _ _
  ihave HsW' := (Entails.of_eq (congrArg (fun f => ((sW).view.loc (thr d L) ↦{fullShare} f : sProp 𝕄)) hcW)) $$ HsW'
  ihave HsP' := (Entails.of_eq (congrArg (fun f => ((sP).view.loc (thr d L) ↦{fullShare} f : sProp 𝕄)) hcP)) $$ HsP'
  ihave HsI' := (Entails.of_eq (congrArg (fun f => ((sI).view.loc (thr d L) ↦{fullShare} f : sProp 𝕄)) hcI)) $$ HsI'
  sl_for (inv d L I Wt Ps O W) $$ [Hmw HsW' HsP' HsI' HoE HoO HsB0' HsB1' Hc5 Hc6 HO]
  case region =>
    intro k acc
    have hltE : 2 * k.val < 200 := by have := k.isLt; change k.val < 100 at this; omega
    have hltO : 2 * k.val + 1 < 200 := by have := k.isLt; change k.val < 100 at this; omega
    rcases Nat.eq_zero_or_pos k.val with hk | hk
    · have k0_h1 : ¬ k0_cond1 k = 1#1 := cond1_zero k hk
      have k0_h2 : ¬ k0_cond2 k = 1#1 := cond2_zero k hk
      rw [inv_at_zero d L I Wt Ps O W hk, DE_eq, DO_eq]
      iintro ⟨#Hmw, HsW, HsP, HsI, ⟨⟨%gE, %bE, HoE, HsB0, %hgE0⟩, Hc5⟩, ⟨⟨%gO, %bO, HoO, HsB1, %hgO0⟩, Hc6⟩, %W', %hW', HO⟩
      have hgE : GoodE d L I Wt Ps k.val gE := hk ▸ hgE0
      have hgO : GoodO d L I Wt Ps k.val gO := hk ▸ hgO0
      sl_exec
      iapply (inner0 d L Wt Ps k ⟨2 * k.val, hltE⟩ rfl (idxRow d L I ⟨2 * k.val, hltE⟩) (idxRow_lt d L I hpre ⟨2 * k.val, hltE⟩)
          _ _ _ _ _ _ _ _
                (fun x c hc => sI_load d L I _ (k0_off3_inb k) _ _ (k0_off3_eq k) ⟨2 * k.val, hltE⟩ rfl x c hc)
                (fun x c hc => sI_load d L I _ (k0_off4_inb k) _ _ (k0_off4_eq k) ⟨2 * k.val, hltE⟩ rfl x c hc)
                (fun x c hc => sI_load d L I _ (k0_off5_inb k) _ _ (k0_off5_eq k) ⟨2 * k.val, hltE⟩ rfl x c hc)
                (fun x c hc => sI_load d L I _ (k0_off6_inb k) _ _ (k0_off6_eq k) ⟨2 * k.val, hltE⟩ rfl x c hc)
                (fun x c hc => sI_load d L I _ (k0_off7_inb k) _ _ (k0_off7_eq k) ⟨2 * k.val, hltE⟩ rfl x c hc)
                (fun x c hc => sI_load d L I _ (k0_off8_inb k) _ _ (k0_off8_eq k) ⟨2 * k.val, hltE⟩ rfl x c hc)
                (fun x c hc => sI_load d L I _ (k0_off9_inb k) _ _ (k0_off9_eq k) ⟨2 * k.val, hltE⟩ rfl x c hc)
                (fun x c hc => sI_load d L I _ (k0_off10_inb k) _ _ (k0_off10_eq k) ⟨2 * k.val, hltE⟩ rfl x c hc)
          bE) $$ [HsW HsP HsB0]
      · isplitl [HsW]; · iexact HsW
        isplitl [HsP]; · iexact HsP
        iexact HsB0
      iintro %acc2 HI2
      ihave HI2 := (Entails.of_eq (inv2_eq d L Wt Ps _ _ _ _)) $$ HI2
      icases HI2 with ⟨HsW, HsP, %b0', HsB0, %hb0'⟩
      sl_exec
      ihave HsB0s := (Entails.of_eq (pts_sB0_set (F := F) d L _).symm) $$ HsB0
      ihave HoE' := (Entails.of_eq (pts_oE (F := F) d L k _).symm) $$ HoE
      iapply (Transfers.wp_dmaLocal countersEmb 𝒱₀ (thr d L) none (none : HIx 1) NO rfl NO_pos (oEven_subset L k)) $$ [HsB0s HoE' Hc5]
      · isplitl [HsB0s]; · iexact HsB0s
        isplitl [HoE']; · iexact HoE'
        iexact Hc5
      iintro HFE
      ihave HFE := (Transfers.Flight_mono countersEmb (thr d L) (deliverE d L I Wt Ps hpre k ⟨2 * k.val, hltE⟩ rfl gE b0' hgE hb0')) $$ HFE
      sl_exec
      iapply (inner1 d L Wt Ps k ⟨2 * k.val + 1, hltO⟩ rfl _ _ (v15_toNat k) (idxRow d L I ⟨2 * k.val + 1, hltO⟩) (idxRow_lt d L I hpre ⟨2 * k.val + 1, hltO⟩)
          _ _ _ _ _ _ _ _
                (fun x c hc => sI_load d L I _ (k0_off21_inb k) _ _ (k0_off21_eq k) ⟨2 * k.val + 1, hltO⟩ rfl x c hc)
                (fun x c hc => sI_load d L I _ (k0_off22_inb k) _ _ (k0_off22_eq k) ⟨2 * k.val + 1, hltO⟩ rfl x c hc)
                (fun x c hc => sI_load d L I _ (k0_off23_inb k) _ _ (k0_off23_eq k) ⟨2 * k.val + 1, hltO⟩ rfl x c hc)
                (fun x c hc => sI_load d L I _ (k0_off24_inb k) _ _ (k0_off24_eq k) ⟨2 * k.val + 1, hltO⟩ rfl x c hc)
                (fun x c hc => sI_load d L I _ (k0_off25_inb k) _ _ (k0_off25_eq k) ⟨2 * k.val + 1, hltO⟩ rfl x c hc)
                (fun x c hc => sI_load d L I _ (k0_off26_inb k) _ _ (k0_off26_eq k) ⟨2 * k.val + 1, hltO⟩ rfl x c hc)
                (fun x c hc => sI_load d L I _ (k0_off27_inb k) _ _ (k0_off27_eq k) ⟨2 * k.val + 1, hltO⟩ rfl x c hc)
                (fun x c hc => sI_load d L I _ (k0_off28_inb k) _ _ (k0_off28_eq k) ⟨2 * k.val + 1, hltO⟩ rfl x c hc)
          bO) $$ [HsW HsP HsB1]
      · isplitl [HsW]; · iexact HsW
        isplitl [HsP]; · iexact HsP
        iexact HsB1
      iintro %acc3 HI3
      ihave HI3 := (Entails.of_eq (inv3_eq d L Wt Ps _ _ _ _)) $$ HI3
      icases HI3 with ⟨HsW, HsP, %b1', HsB1, %hb1'⟩
      sl_exec
      ihave HsB1s := (Entails.of_eq (pts_sB1_set (F := F) d L _).symm) $$ HsB1
      ihave HoO' := (Entails.of_eq (pts_oO (F := F) d L k _).symm) $$ HoO
      iapply (Transfers.wp_dmaLocal countersEmb 𝒱₀ (thr d L) none (none : HIx 1) NO rfl NO_pos (oOdd_subset L k)) $$ [HsB1s HoO' Hc6]
      · isplitl [HsB1s]; · iexact HsB1s
        isplitl [HoO']; · iexact HoO'
        iexact Hc6
      iintro HFO
      ihave HFO := (Transfers.Flight_mono countersEmb (thr d L) (deliverO d L I Wt Ps hpre k ⟨2 * k.val + 1, hltO⟩ rfl gO b1' hgO hb1')) $$ HFO
      sl_exec
      sl_step
      iapply (Entails.of_eq (inv_at_pos d L I Wt Ps O W (Nat.succ_pos k.val) _).symm)
      isplitr; · iexact Hmw
      isplitl [HsW]; · iexact HsW
      isplitl [HsP]; · iexact HsP
      isplitl [HsI]; · iexact HsI
      isplitl [HFE]; · iexact HFE
      isplitl [HFO]; · iexact HFO
      iexists W'; isplitr
      · ipureintro; exact hW'
      · iexact HO
    · have k0_h1 : k0_cond1 k = 1#1 := cond1_pos k hk
      have k0_h2 : k0_cond2 k = 1#1 := cond2_pos k hk
      rw [inv_at_pos d L I Wt Ps O W hk]
      iintro ⟨#Hmw, HsW, HsP, HsI, HFE, HFO, %W', %hW', HO⟩
      sl_exec
      ihave Hmw5 := (Transfers.MayWaits.elim (SemLoc.dma cc0_scratch5.sem)) $$ Hmw
      iapply (Transfers.wp_waitLocalO countersEmb 𝒱₀ (thr d L) none (none : HIx 1) (rfl : _ = NO)) $$ [HFE HO Hmw5]
      · isplitl [HFE]; · iexact HFE
        isplitl [HO]; · iexact HO
        iexact Hmw5
      iintro ⟨HD, Hc5, HO⟩
      ihave HD := (Entails.of_eq (DE_eq d L I Wt Ps _)) $$ HD
      icases HD with ⟨%gE, %bE, HoE, HsB0, %hgE⟩
      sl_exec
      iapply (inner0 d L Wt Ps k ⟨2 * k.val, hltE⟩ rfl (idxRow d L I ⟨2 * k.val, hltE⟩) (idxRow_lt d L I hpre ⟨2 * k.val, hltE⟩)
          _ _ _ _ _ _ _ _
                (fun x c hc => sI_load d L I _ (k0_off3_inb k) _ _ (k0_off3_eq k) ⟨2 * k.val, hltE⟩ rfl x c hc)
                (fun x c hc => sI_load d L I _ (k0_off4_inb k) _ _ (k0_off4_eq k) ⟨2 * k.val, hltE⟩ rfl x c hc)
                (fun x c hc => sI_load d L I _ (k0_off5_inb k) _ _ (k0_off5_eq k) ⟨2 * k.val, hltE⟩ rfl x c hc)
                (fun x c hc => sI_load d L I _ (k0_off6_inb k) _ _ (k0_off6_eq k) ⟨2 * k.val, hltE⟩ rfl x c hc)
                (fun x c hc => sI_load d L I _ (k0_off7_inb k) _ _ (k0_off7_eq k) ⟨2 * k.val, hltE⟩ rfl x c hc)
                (fun x c hc => sI_load d L I _ (k0_off8_inb k) _ _ (k0_off8_eq k) ⟨2 * k.val, hltE⟩ rfl x c hc)
                (fun x c hc => sI_load d L I _ (k0_off9_inb k) _ _ (k0_off9_eq k) ⟨2 * k.val, hltE⟩ rfl x c hc)
                (fun x c hc => sI_load d L I _ (k0_off10_inb k) _ _ (k0_off10_eq k) ⟨2 * k.val, hltE⟩ rfl x c hc)
          bE) $$ [HsW HsP HsB0]
      · isplitl [HsW]; · iexact HsW
        isplitl [HsP]; · iexact HsP
        iexact HsB0
      iintro %acc2 HI2
      ihave HI2 := (Entails.of_eq (inv2_eq d L Wt Ps _ _ _ _)) $$ HI2
      icases HI2 with ⟨HsW, HsP, %b0', HsB0, %hb0'⟩
      sl_exec
      ihave HsB0s := (Entails.of_eq (pts_sB0_set (F := F) d L _).symm) $$ HsB0
      ihave HoE' := (Entails.of_eq (pts_oE (F := F) d L k _).symm) $$ HoE
      iapply (Transfers.wp_dmaLocal countersEmb 𝒱₀ (thr d L) none (none : HIx 1) NO rfl NO_pos (oEven_subset L k)) $$ [HsB0s HoE' Hc5]
      · isplitl [HsB0s]; · iexact HsB0s
        isplitl [HoE']; · iexact HoE'
        iexact Hc5
      iintro HFE
      ihave HFE := (Transfers.Flight_mono countersEmb (thr d L) (deliverE d L I Wt Ps hpre k ⟨2 * k.val, hltE⟩ rfl gE b0' hgE hb0')) $$ HFE
      sl_exec
      ihave Hmw6 := (Transfers.MayWaits.elim (SemLoc.dma cc0_scratch6.sem)) $$ Hmw
      iapply (Transfers.wp_waitLocalO countersEmb 𝒱₀ (thr d L) none (none : HIx 1) (rfl : _ = NO)) $$ [HFO HO Hmw6]
      · isplitl [HFO]; · iexact HFO
        isplitl [HO]; · iexact HO
        iexact Hmw6
      iintro ⟨HD, Hc6, HO⟩
      ihave HD := (Entails.of_eq (DO_eq d L I Wt Ps _)) $$ HD
      icases HD with ⟨%gO, %bO, HoO, HsB1, %hgO⟩
      sl_exec
      iapply (inner1 d L Wt Ps k ⟨2 * k.val + 1, hltO⟩ rfl _ _ (v15_toNat k) (idxRow d L I ⟨2 * k.val + 1, hltO⟩) (idxRow_lt d L I hpre ⟨2 * k.val + 1, hltO⟩)
          _ _ _ _ _ _ _ _
                (fun x c hc => sI_load d L I _ (k0_off21_inb k) _ _ (k0_off21_eq k) ⟨2 * k.val + 1, hltO⟩ rfl x c hc)
                (fun x c hc => sI_load d L I _ (k0_off22_inb k) _ _ (k0_off22_eq k) ⟨2 * k.val + 1, hltO⟩ rfl x c hc)
                (fun x c hc => sI_load d L I _ (k0_off23_inb k) _ _ (k0_off23_eq k) ⟨2 * k.val + 1, hltO⟩ rfl x c hc)
                (fun x c hc => sI_load d L I _ (k0_off24_inb k) _ _ (k0_off24_eq k) ⟨2 * k.val + 1, hltO⟩ rfl x c hc)
                (fun x c hc => sI_load d L I _ (k0_off25_inb k) _ _ (k0_off25_eq k) ⟨2 * k.val + 1, hltO⟩ rfl x c hc)
                (fun x c hc => sI_load d L I _ (k0_off26_inb k) _ _ (k0_off26_eq k) ⟨2 * k.val + 1, hltO⟩ rfl x c hc)
                (fun x c hc => sI_load d L I _ (k0_off27_inb k) _ _ (k0_off27_eq k) ⟨2 * k.val + 1, hltO⟩ rfl x c hc)
                (fun x c hc => sI_load d L I _ (k0_off28_inb k) _ _ (k0_off28_eq k) ⟨2 * k.val + 1, hltO⟩ rfl x c hc)
          bO) $$ [HsW HsP HsB1]
      · isplitl [HsW]; · iexact HsW
        isplitl [HsP]; · iexact HsP
        iexact HsB1
      iintro %acc3 HI3
      ihave HI3 := (Entails.of_eq (inv3_eq d L Wt Ps _ _ _ _)) $$ HI3
      icases HI3 with ⟨HsW, HsP, %b1', HsB1, %hb1'⟩
      sl_exec
      ihave HsB1s := (Entails.of_eq (pts_sB1_set (F := F) d L _).symm) $$ HsB1
      ihave HoO' := (Entails.of_eq (pts_oO (F := F) d L k _).symm) $$ HoO
      iapply (Transfers.wp_dmaLocal countersEmb 𝒱₀ (thr d L) none (none : HIx 1) NO rfl NO_pos (oOdd_subset L k)) $$ [HsB1s HoO' Hc6]
      · isplitl [HsB1s]; · iexact HsB1s
        isplitl [HoO']; · iexact HoO'
        iexact Hc6
      iintro HFO
      ihave HFO := (Transfers.Flight_mono countersEmb (thr d L) (deliverO d L I Wt Ps hpre k ⟨2 * k.val + 1, hltO⟩ rfl gO b1' hgO hb1')) $$ HFO
      sl_exec
      sl_step
      iapply (Entails.of_eq (inv_at_pos d L I Wt Ps O W (Nat.succ_pos k.val) _).symm)
      isplitr; · iexact Hmw
      isplitl [HsW]; · iexact HsW
      isplitl [HsP]; · iexact HsP
      isplitl [HsI]; · iexact HsI
      isplitl [HFE]; · iexact HFE
      isplitl [HFO]; · iexact HFO
      iexists (insert (SemLoc.dma cc0_scratch6.sem, (none : HIx 1)) (insert (SemLoc.dma cc0_scratch5.sem, (none : HIx 1)) W')); isplitr
      · ipureintro; intro p hp
        rcases Finset.mem_insert.mp hp with rfl | hp
        · exact .inr rfl
        rcases Finset.mem_insert.mp hp with rfl | hp
        · exact .inr rfl
        exact hW' p hp
      · iexact HO
  · iapply (Entails.of_eq (inv_at_zero d L I Wt Ps O W rfl _).symm)
    isplitr; · iexact Hmw
    isplitl [HsW']; · iexact HsW'
    isplitl [HsP']; · iexact HsP'
    isplitl [HsI']; · iexact HsI'
    isplitl [HoE HsB0' Hc5]
    · isplitl [HoE HsB0']
      · iapply (Entails.of_eq (DE_eq d L I Wt Ps 0).symm)
        iexists O3, fb0
        isplitl [HoE]; · iexact HoE
        isplitl [HsB0']; · iexact HsB0'
        ipureintro; exact goodE_zero d L I Wt Ps _
      · iexact Hc5
    isplitl [HoO HsB1' Hc6]
    · isplitl [HoO HsB1']
      · iapply (Entails.of_eq (DO_eq d L I Wt Ps 0).symm)
        iexists O3, fb1
        isplitl [HoO]; · iexact HoO
        isplitl [HsB1']; · iexact HsB1'
        ipureintro; exact goodO_zero d L I Wt Ps _
      · iexact Hc6
    iexists _
    isplitr
    rotate_left
    · iexact HO
    · ipureintro; intro p hp
      simp only [Finset.mem_insert] at hp
      rcases hp with rfl | rfl | rfl | hp
      exacts [.inr rfl, .inr rfl, .inr rfl, .inl hp]
  iintro %accF HI
  ihave HI := (Entails.of_eq (inv_at_pos d L I Wt Ps O W (k := k0_t1_loop.trips) (by decide) _)) $$ HI
  icases HI with ⟨-, HsW, HsP, HsI, HFE, HFO, %W', %hW', HO⟩
  sl_exec
  ihave Hmw5 := (Transfers.MayWaits.elim (SemLoc.dma cc0_scratch5.sem)) $$ Hmw
  iapply (Transfers.wp_waitLocalO countersEmb 𝒱₀ (thr d L) none (none : HIx 1) (rfl : _ = NO)) $$ [HFE HO Hmw5]
  · isplitl [HFE]; · iexact HFE
    isplitl [HO]; · iexact HO
    iexact Hmw5
  iintro ⟨HD, Hc5, HO⟩
  ihave HD := (Entails.of_eq (DE_eq d L I Wt Ps _)) $$ HD
  icases HD with ⟨%gE, %bE, HoE, HsB0, %hgE⟩
  sl_exec
  ihave Hmw6 := (Transfers.MayWaits.elim (SemLoc.dma cc0_scratch6.sem)) $$ Hmw
  iapply (Transfers.wp_waitLocalO countersEmb 𝒱₀ (thr d L) none (none : HIx 1) (rfl : _ = NO)) $$ [HFO HO Hmw6]
  · isplitl [HFO]; · iexact HFO
    isplitl [HO]; · iexact HO
    iexact Hmw6
  iintro ⟨HD, Hc6, HO⟩
  ihave HD := (Entails.of_eq (DO_eq d L I Wt Ps _)) $$ HD
  icases HD with ⟨%gO, %bO, HoO, HsB1, %hgO⟩
  sl_exec
  sl_step
  isplitl [Hi' Hw' Hp' HoE HoO]
  · isplitl [Hi']; · iapply (Entails.of_eq (pts_i (F := F) d L _)); iexact Hi'
    isplitl [Hw']; · iapply (Entails.of_eq (pts_w (F := F) d L _ _)); iexact Hw'
    isplitl [Hp']; · iapply (Entails.of_eq (pts_p (F := F) d L _ _)); iexact Hp'
    isplitl [HoE]
    · iapply (Entails.of_eq (pointsTo_congr (goodE_all d L I Wt Ps gE hgE))); iexact HoE
    · iapply (Entails.of_eq (pointsTo_congr (goodO_all d L I Wt Ps gO hgO))); iexact HoO
  isplitl [HsW HsP HsI HsB0 HsB1 Hbufs]
  · isplitl [HsW]; · iexists _; iapply (Entails.of_eq (pts_sW (F := F) d L _)); iexact HsW
    isplitl [HsP]; · iexists _; iapply (Entails.of_eq (pts_sP (F := F) d L _)); iexact HsP
    isplitl [HsI]; · iexists _; iapply (Entails.of_eq (pts_sI (F := F) d L _)); iexact HsI
    isplitl [HsB0]; · iexists _; iapply (Entails.of_eq (pts_sB0 (F := F) d L _)); iexact HsB0
    isplitl [HsB1]; · iexists _; iapply (Entails.of_eq (pts_sB1 (F := F) d L _)); iexact HsB1
    iexact Hbufs
  isplitl [Hc5 Hc6 Hr0 Hr1 Hr2 Hsems]
  · isplitl [Hc5]; · iexact Hc5
    isplitl [Hc6]; · iexact Hc6
    isplitl [Hr0]; · iexact Hr0
    isplitl [Hr1]; · iexact Hr1
    isplitl [Hr2]; · iexact Hr2
    iexact Hsems
  iexists _
  isplitr
  rotate_left
  · iexact HO
  · ipureintro; intro p hp
    rcases Finset.mem_insert.mp hp with rfl | hp
    · exact .inr rfl
    rcases Finset.mem_insert.mp hp with rfl | hp
    · exact .inr rfl
    exact hW' p hp

end Cert.Proof.KW

end
-- ==== Proof.KWSets.lean ====
/-
  The tasks' shares of the arrays are disjoint, and their shares of the result cover it: worker w = 2 s + c of task
  (c, s) owns columns [128 w, 128 w + 128), the even slabs through one family of slices and the odd slabs through the other.
-/
import proofs.«206631_g81458349736089_cont_9to1c4b_538_8_alg».proof.Proof.KWSetup

noncomputable section

namespace Cert.Proof.KW

open Cert.Kernel Cert.Kernel.Gen
open Idealize.ShloMosaic

/-- A task's elements of the result by the staging buffer they go through: `false` the first (even slabs), `true` the second. -/
def oPart (p : grid0.Coords × Bool) : Finset S200x64x4096.Idx := if p.2 then oO p.1 else oE p.1

/-! ## Tasks and workers -/

theorem wid_val (L : grid0.Coords) : (wid L).val = 2 * (L 1).val + (L 0).val := rfl

theorem coords_lt0 (L : grid0.Coords) : (L 0).val < 2 := (L 0).isLt
theorem coords_lt1 (L : grid0.Coords) : (L 1).val < 16 := (L 1).isLt

/-- Two tasks with the same coordinates are one task. -/
theorem coords_ext {L L' : grid0.Coords} (h0 : (L 0).val = (L' 0).val) (h1 : (L 1).val = (L' 1).val) : L = L' := by
  funext a
  match a with
  | ⟨0, _⟩ => exact Fin.ext h0
  | ⟨1, _⟩ => exact Fin.ext h1

/-- The task of worker `w`: SparseCore `w % 2`, vector subcore `w / 2`. -/
def ofWid (w : Fin 32) : grid0.Coords := fun a =>
  match a with
  | ⟨0, _⟩ => (⟨w.val % 2, Nat.mod_lt _ (by decide)⟩ : Fin 2)
  | ⟨1, _⟩ => (⟨w.val / 2, Nat.div_lt_of_lt_mul w.isLt⟩ : Fin 16)

theorem wid_ofWid (w : Fin 32) : wid (ofWid w) = w := by
  apply Fin.ext
  show 2 * (w.val / 2) + w.val % 2 = w.val
  omega

theorem wid_injective : Function.Injective wid := by
  intro L L' h
  have hv : (wid L).val = (wid L').val := congrArg Fin.val h
  rw [wid_val, wid_val] at hv
  have a0 := coords_lt0 L
  have b0 := coords_lt0 L'
  exact coords_ext (by omega) (by omega)

theorem wid_bijective : Function.Bijective wid :=
  ⟨wid_injective, fun w => ⟨ofWid w, wid_ofWid w⟩⟩

theorem trips_eq : k0_t1_loop.trips = 100 := by decide

/-! ## Which elements a slice holds -/

/-- The task's index columns: every row, columns `[128 w, 128 w + 128)`. -/
theorem mem_iCols (L : grid0.Coords) (j : S200x4096.Idx) :
    j ∈ (iCols L).view.set ↔ 128 * (wid L).val ≤ (j 1).val ∧ (j 1).val < 128 * (wid L).val + 128 := by
  show j ∈ ((View.whole main_v0_scv).slice (Rect.unit (s := S200x4096) (k0_off1 L) S200x128.size (k0_off1_inb L))).set ↔ _
  rw [View.set_slice_whole, Rect.mem_set_unit, k0_off1_eq, wid_val]
  have hj0 : (j 0).val < 200 := (j 0).isLt
  constructor
  · intro h
    have h1 : 256 * (L 1).val + 128 * (L 0).val ≤ (j 1).val ∧ (j 1).val < 256 * (L 1).val + 128 * (L 0).val + 128 := h 1
    omega
  · intro h a
    match a with
    | ⟨0, _⟩ =>
      show 0 ≤ (j 0).val ∧ (j 0).val < 0 + 200
      omega
    | ⟨1, _⟩ =>
      show 256 * (L 1).val + 128 * (L 0).val ≤ (j 1).val ∧ (j 1).val < 256 * (L 1).val + 128 * (L 0).val + 128
      omega

/-- The task's columns of slab `2 k`. -/
theorem mem_oEven (L : grid0.Coords) (k : Fin k0_t1_loop.trips) (j : S200x64x4096.Idx) :
    j ∈ (oEven L k).view.set ↔ (j 0).val = 2 * k.val ∧ 128 * (wid L).val ≤ (j 2).val ∧ (j 2).val < 128 * (wid L).val + 128 := by
  show j ∈ (((View.whole main_v3_scv).slice (Rect.unit (s := S200x64x4096) (k0_off19 L k) S1x64x128.size (k0_off19_inb L k))).reshape
      S64x128 squeezes_S1x64x128_S64x128.numel_eq).set ↔ _
  rw [View.set_reshape, View.set_slice_whole, Rect.mem_set_unit, k0_off19_eq, wid_val]
  have hj1 : (j 1).val < 64 := (j 1).isLt
  constructor
  · intro h
    have h0 : 2 * k.val ≤ (j 0).val ∧ (j 0).val < 2 * k.val + 1 := h 0
    have h2 : 256 * (L 1).val + 128 * (L 0).val ≤ (j 2).val ∧ (j 2).val < 256 * (L 1).val + 128 * (L 0).val + 128 := h 2
    omega
  · intro h a
    match a with
    | ⟨0, _⟩ =>
      show 2 * k.val ≤ (j 0).val ∧ (j 0).val < 2 * k.val + 1
      omega
    | ⟨1, _⟩ =>
      show 0 ≤ (j 1).val ∧ (j 1).val < 0 + 64
      omega
    | ⟨2, _⟩ =>
      show 256 * (L 1).val + 128 * (L 0).val ≤ (j 2).val ∧ (j 2).val < 256 * (L 1).val + 128 * (L 0).val + 128
      omega

/-- The task's columns of slab `2 k + 1`. -/
theorem mem_oOdd (L : grid0.Coords) (k : Fin k0_t1_loop.trips) (j : S200x64x4096.Idx) :
    j ∈ (oOdd L k).view.set ↔ (j 0).val = 2 * k.val + 1 ∧ 128 * (wid L).val ≤ (j 2).val ∧ (j 2).val < 128 * (wid L).val + 128 := by
  show j ∈ (((View.whole main_v3_scv).slice (Rect.unit (s := S200x64x4096) (k0_off37 L k) S1x64x128.size (k0_off37_inb L k))).reshape
      S64x128 squeezes_S1x64x128_S64x128.numel_eq).set ↔ _
  rw [View.set_reshape, View.set_slice_whole, Rect.mem_set_unit, k0_off37_eq, wid_val]
  have hj1 : (j 1).val < 64 := (j 1).isLt
  constructor
  · intro h
    have h0 : 2 * k.val + 1 ≤ (j 0).val ∧ (j 0).val < 2 * k.val + 1 + 1 := h 0
    have h2 : 256 * (L 1).val + 128 * (L 0).val ≤ (j 2).val ∧ (j 2).val < 256 * (L 1).val + 128 * (L 0).val + 128 := h 2
    omega
  · intro h a
    match a with
    | ⟨0, _⟩ =>
      show 2 * k.val + 1 ≤ (j 0).val ∧ (j 0).val < 2 * k.val + 1 + 1
      omega
    | ⟨1, _⟩ =>
      show 0 ≤ (j 1).val ∧ (j 1).val < 0 + 64
      omega
    | ⟨2, _⟩ =>
      show 256 * (L 1).val + 128 * (L 0).val ≤ (j 2).val ∧ (j 2).val < 256 * (L 1).val + 128 * (L 0).val + 128
      omega

/-- The task's elements of the even slabs: columns `[128 w, 128 w + 128)` of every even slab. -/
theorem mem_oE (L : grid0.Coords) (j : S200x64x4096.Idx) :
    j ∈ oE L ↔ (j 0).val % 2 = 0 ∧ 128 * (wid L).val ≤ (j 2).val ∧ (j 2).val < 128 * (wid L).val + 128 := by
  have hj0 : (j 0).val < 200 := (j 0).isLt
  unfold oE
  rw [Finset.mem_biUnion]
  constructor
  · rintro ⟨k, -, hk⟩
    have := (mem_oEven L k j).1 hk
    omega
  · intro h
    refine ⟨⟨(j 0).val / 2, by rw [trips_eq]; omega⟩, Finset.mem_univ _, (mem_oEven L _ j).2 ?_⟩
    show (j 0).val = 2 * ((j 0).val / 2) ∧ _
    omega

/-- The task's elements of the odd slabs. -/
theorem mem_oO (L : grid0.Coords) (j : S200x64x4096.Idx) :
    j ∈ oO L ↔ (j 0).val % 2 = 1 ∧ 128 * (wid L).val ≤ (j 2).val ∧ (j 2).val < 128 * (wid L).val + 128 := by
  have hj0 : (j 0).val < 200 := (j 0).isLt
  unfold oO
  rw [Finset.mem_biUnion]
  constructor
  · rintro ⟨k, -, hk⟩
    have := (mem_oOdd L k j).1 hk
    omega
  · intro h
    refine ⟨⟨(j 0).val / 2, by rw [trips_eq]; omega⟩, Finset.mem_univ _, (mem_oOdd L _ j).2 ?_⟩
    show (j 0).val = 2 * ((j 0).val / 2) + 1 ∧ _
    omega

/-- A task's part of the result, by coordinates: the slab's parity is the buffer's, the column is the worker's. -/
theorem mem_oPart (p : grid0.Coords × Bool) (j : S200x64x4096.Idx) :
    j ∈ oPart p ↔ (j 0).val % 2 = (if p.2 then 1 else 0) ∧ 128 * (wid p.1).val ≤ (j 2).val ∧ (j 2).val < 128 * (wid p.1).val + 128 := by
  obtain ⟨L, b⟩ := p
  cases b
  · show j ∈ oE L ↔ _
    rw [mem_oE]; rfl
  · show j ∈ oO L ↔ _
    rw [mem_oO]; rfl

/-! ## Disjoint, and all of the result -/

theorem iCols_disjoint : ∀ L ∈ (Finset.univ : Finset grid0.Coords), ∀ L' ∈ (Finset.univ : Finset grid0.Coords), L ≠ L' →
    Disjoint (iCols L).view.set (iCols L').view.set := by
  intro L _ L' _ hne
  have hw : (wid L).val ≠ (wid L').val := fun e => hne (wid_injective (Fin.ext e))
  rw [Finset.disjoint_left]
  intro j hj hj'
  have h := (mem_iCols L j).1 hj
  have h' := (mem_iCols L' j).1 hj'
  omega

theorem oPart_disjoint : ∀ p ∈ (Finset.univ : Finset (grid0.Coords × Bool)), ∀ p' ∈ (Finset.univ : Finset (grid0.Coords × Bool)), p ≠ p' →
    Disjoint (oPart p) (oPart p') := by
  intro p _ p' _ hne
  obtain ⟨L, b⟩ := p
  obtain ⟨L', b'⟩ := p'
  rw [Finset.disjoint_left]
  intro j hj hj'
  have h := (mem_oPart (L, b) j).1 hj
  have h' := (mem_oPart (L', b') j).1 hj'
  dsimp only at h h'
  apply hne
  have hw : wid L = wid L' := Fin.ext (by omega)
  have hb : b = b' := by
    cases b <;> cases b' <;> simp only [Bool.false_eq_true, ↓reduceIte] at h h' <;> first | rfl | omega
  rw [wid_injective hw, hb]

theorem oPart_cover : (Finset.univ : Finset (grid0.Coords × Bool)).biUnion oPart = Finset.univ := by
  rw [Finset.eq_univ_iff_forall]
  intro j
  have hj2 : (j 2).val < 4096 := (j 2).isLt
  have hw : (j 2).val / 128 < 32 := by omega
  have hL : (wid (ofWid ⟨(j 2).val / 128, hw⟩)).val = (j 2).val / 128 := by rw [wid_ofWid]
  rw [Finset.mem_biUnion]
  by_cases hp : (j 0).val % 2 = 1
  · refine ⟨(ofWid ⟨(j 2).val / 128, hw⟩, true), Finset.mem_univ _, ?_⟩
    show j ∈ oO (ofWid ⟨(j 2).val / 128, hw⟩)
    rw [mem_oO, hL]
    exact ⟨hp, by omega, by omega⟩
  · refine ⟨(ofWid ⟨(j 2).val / 128, hw⟩, false), Finset.mem_univ _, ?_⟩
    show j ∈ oE (ofWid ⟨(j 2).val / 128, hw⟩)
    rw [mem_oE, hL]
    exact ⟨by omega, by omega, by omega⟩

end Cert.Proof.KW

end
-- ==== Proof.KWLaunchA.lean ====
/-
  The launch of the kernel program, first part: the arrays' contents at the one SparseCore call, what the
  handshakes carry to each task and back, the task's obligation from its body, how a SparseCore's share splits
  among its tasks, and the launch element of the ghost state.

  The call finds the transposed index array, the transposed head of the word table, the positional table and the
  result array at contents that are pure functions of the launch memory; every task is handed its share of them
  and hands it back with its elements of the result at the function `outT` of the three operands.
-/
import proofs.«206631_g81458349736089_cont_9to1c4b_538_8_alg».proof.Proof.KWBody
import proofs.«206631_g81458349736089_cont_9to1c4b_538_8_alg».proof.Proof.KWSets

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays' contents at the call -/

/-- The index array transposed: what the first host operation leaves. -/
def A0 (d : Dev nD) : Buf (Elt F) (v0Loc d) :=
  transpose S200x4096 [1, 0] (m (a0Loc d)) transposes_S4096x200_S200x4096_1_0
/-- The first 200 rows of the word table: what the second leaves. -/
def A1 (d : Dev nD) : Buf (Elt F) (v1Loc d) :=
  extractStridedSlice S200x64 ![0, 0] (m (a1Loc d)) slices_S100000x64_S200x64_0_0
/-- That head transposed: what the third leaves. -/
def A2 (d : Dev nD) : Buf (Elt F) (v2Loc d) :=
  transpose S64x200 [1, 0] (A1 m d) transposes_S200x64_S64x200_1_0

variable [FloatOps F]

/-- What the call leaves in the result array. -/
def outAtCall (d : Dev nD) : Buf (Elt F) (v3Loc d) := Cert.Spec.outT (F := F) (A0 m d) (A2 m d) (m (a2Loc d))

/-! ## The grid -/

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem nCore_bound : (K (F := F)).nCore 0 = grid0.bound 0 := rfl
omit [FloatOps F] in
theorem nSub_bound : (K (F := F)).nSub 0 = grid0.bound 1 := rfl

/-- The grid point of task `i` of SparseCore `c` of the call. -/
abbrev coordsK (c : Fin ((K (F := F)).nCore 0)) (i : Fin ((K (F := F)).nSub 0)) : grid0.Coords :=
  coordsV (Fin.cast (nCore_bound (F := F)) c) (Fin.cast (nSub_bound (F := F)) i)

/-! ## What the handshakes carry -/

/-- A task's share at the call, -/
abbrev tileGo (d : Dev nD) (L : grid0.Coords) : sProp 𝕄 := tileIn d L (A0 m d) (A2 m d) (m (a2Loc d)) (m (v3Loc d))
/-- and when it is done. -/
abbrev tileTd (d : Dev nD) (L : grid0.Coords) : sProp 𝕄 := tileIn d L (A0 m d) (A2 m d) (m (a2Loc d)) (outAtCall m d)

instance tileIn_storable (d : Dev nD) (L : grid0.Coords) (I : Buf (Elt F) (v0Loc d)) (Wt : Buf (Elt F) (v2Loc d)) (Ps : Buf (Elt F) (a2Loc d))
    (O3 : Buf (Elt F) (v3Loc d)) : BI.Storable (upEmb : UEmb _ 𝕄) (tileIn d L I Wt Ps O3) := by
  unfold tileIn; infer_instance

/-- The one call hands each SparseCore its tasks' shares, each task its own, and brings them back with the tasks'
    elements of the result written. -/
def P : (K (F := F)).Pay (nD := nD) (Val := Elt F) (Name := ℕ) (U := UU) where
  st := fun q d c => match q with
    | 0 => bigSep Finset.univ fun i : Fin ((K (F := F)).nSub 0) => tileGo m d (coordsK (F := F) c i)
  dn := fun q d c => match q with
    | 0 => bigSep Finset.univ fun i : Fin ((K (F := F)).nSub 0) => tileTd m d (coordsK (F := F) c i)
  go := fun q d c i => match q with
    | 0 => tileGo m d (coordsK (F := F) c i)
  td := fun q d c i => match q with
    | 0 => tileTd m d (coordsK (F := F) c i)
  x := fun _ _ => iprop(emp)

theorem P_go (d : Dev nD) (c : Fin ((K (F := F)).nCore 0)) (i : Fin ((K (F := F)).nSub 0)) :
    (P m).go 0 d c i = tileGo m d (coordsK (F := F) c i) := rfl
theorem P_td (d : Dev nD) (c : Fin ((K (F := F)).nCore 0)) (i : Fin ((K (F := F)).nSub 0)) :
    (P m).td 0 d c i = tileTd m d (coordsK (F := F) c i) := rfl
theorem P_st (d : Dev nD) (c : Fin ((K (F := F)).nCore 0)) :
    (P m).st 0 d c = bigSep Finset.univ fun i : Fin ((K (F := F)).nSub 0) => tileGo m d (coordsK (F := F) c i) := rfl
theorem P_dn (d : Dev nD) (c : Fin ((K (F := F)).nCore 0)) :
    (P m).dn 0 d c = bigSep Finset.univ fun i : Fin ((K (F := F)).nSub 0) => tileTd m d (coordsK (F := F) c i) := rfl
theorem P_x (q : Fin 1) (thr : Thread nD τ) : (P m).x q thr = iprop(emp) := rfl

instance P_storable : (P (F := F) m).IsStorable where
  st q d c := match q with
    | 0 => (inferInstance : BI.Storable (upEmb : UEmb _ 𝕄)
        (bigSep Finset.univ fun i : Fin ((K (F := F)).nSub 0) => tileGo m d (coordsK (F := F) c i)))
  dn q d c := match q with
    | 0 => (inferInstance : BI.Storable (upEmb : UEmb _ 𝕄)
        (bigSep Finset.univ fun i : Fin ((K (F := F)).nSub 0) => tileTd m d (coordsK (F := F) c i)))
  go q d c i := match q with
    | 0 => (inferInstance : BI.Storable (upEmb : UEmb _ 𝕄) (tileGo m d (coordsK (F := F) c i)))
  td q d c i := match q with
    | 0 => (inferInstance : BI.Storable (upEmb : UEmb _ 𝕄) (tileTd m d (coordsK (F := F) c i)))

/-! ## The launch theorem's obligations -/

theorem defs₀_vector (c : Fin τ.nSC) (s : Fin τ.nSub) :
    defs₀ (F := F) (.scVector c s) 0 ()
      = SparseCore.onTile hcore0 hsub0 (fun c s => cc0__sc_embed (coordsV c s)
          iV (Memref.isWhole_whole _) wV (Memref.isWhole_whole _) pV (Memref.isWhole_whole _) oV (Memref.isWhole_whole _)
          sW (Memref.isWhole_whole _) sP (Memref.isWhole_whole _) sI (Memref.isWhole_whole _) sB0 (Memref.isWhole_whole _) sB1 (Memref.isWhole_whole _)
          cc0_scratch5 cc0_scratch6 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call runs the body at its own grid point: from its share to its share with its elements of the
    result written, provided every word of the transposed index array is below 200. -/
theorem tileObl (hpre : ∀ d j, (A0 m d j).toNat < 200) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body facts d (coordsV ⟨_, hc.1⟩ ⟨_, hc.2⟩) (A0 m d) (A2 m d) (m (a2Loc d)) (m (v3Loc d)) (hpre d) O W hO).trans
    (wp_mono frame _ _ fun _ => obl_post)

/-- A SparseCore's share is its tasks' shares, going and coming back. -/
theorem vecSplit : (K (F := F)).VecSplit' (P m) 0 := by
  intro d c
  rw [P_st, P_dn]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr) = (iprop(emp) : sProp 𝕄) from by
    rw [bigSep_congr fun thr _ => bigSep_congr fun q _ => P_x m q thr, bigSep_congr fun _ _ => bigSep_emp' _, bigSep_emp']]
  iempintro

end Cert.Proof.KW

end
-- ==== Proof.KWLaunchB.lean ====
/-
  The launch of the kernel program, second part: the tasks' shares of the four arrays, taken together, are the
  arrays themselves — the index array's columns the tasks read (the rest of it stays aside), one read token of each
  table per task, and the whole result array, every element of which belongs to exactly one task.
-/
import proofs.«206631_g81458349736089_cont_9to1c4b_538_8_alg».proof.Proof.KWLaunchA

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## Reindexing the grid -/

/-- A grid point is a SparseCore and a vector subcore of it. -/
def coordsE : Fin (grid0.bound 0) × Fin (grid0.bound 1) ≃ grid0.Coords where
  toFun p := coordsV p.1 p.2
  invFun L := (L 0, L 1)
  left_inv _ := rfl
  right_inv L := funext fun a => match a with
    | ⟨0, _⟩ => rfl
    | ⟨1, _⟩ => rfl
    | ⟨_ + 2, h⟩ => absurd h (Nat.not_lt.2 (Nat.le_add_left _ _))

omit [FloatOps F] in
/-- A family over the call's SparseCores and their tasks is one over the grid. -/
theorem bigSep_grid (Φ : grid0.Coords → sProp 𝕄) :
    (bigSep Finset.univ fun c : Fin ((K (F := F)).nCore 0) => bigSep Finset.univ fun i : Fin ((K (F := F)).nSub 0) => Φ (coordsK (F := F) c i))
      = bigSep Finset.univ Φ := by
  rw [bigSep_univ_equiv coordsE Φ, bigSep_univ_prod]
  exact bigSep_congr fun c _ => bigSep_congr fun i _ => rfl

/-- The tasks' worker numbers name the 32 read tokens. -/
def widE : grid0.Coords ≃ Fin 32 := Equiv.ofBijective wid wid_bijective

omit [FloatOps F] in
theorem bigSep_wid (Φ : Fin 32 → sProp 𝕄) : bigSep Finset.univ Φ = bigSep Finset.univ fun L : grid0.Coords => Φ (wid L) :=
  bigSep_univ_equiv widE Φ

/-! ## The arrays as the tasks' shares -/

section Shares

variable (d : Dev nD)

/-- The elements of the index array some task reads. -/
def iAll : Finset S200x4096.Idx := Finset.univ.biUnion fun L : grid0.Coords => (iCols L).view.set

omit [FloatOps F] in
theorem idx_parts (I : Buf (Elt F) (v0Loc d)) :
    (bigSep Finset.univ fun L : grid0.Coords => (v0Loc d ↦[(iCols L).view.set]{fullShare} I : sProp 𝕄)) = (v0Loc d ↦[iAll]{fullShare} I) :=
  (pointsTo_biUnion Finset.univ (ℓ := v0Loc d) (fun L : grid0.Coords => (iCols L).view.set) iCols_disjoint).symm

omit [FloatOps F] in
theorem oPart_false (L : grid0.Coords) : oPart (L, false) = oE L := if_neg Bool.false_ne_true
omit [FloatOps F] in
theorem oPart_true (L : grid0.Coords) : oPart (L, true) = oO L := if_pos rfl

omit [FloatOps F] in
theorem out_parts (O3 : Buf (Elt F) (v3Loc d)) :
    (bigSep Finset.univ fun L : grid0.Coords => iprop((v3Loc d ↦[oE L]{fullShare} O3) ∗ (v3Loc d ↦[oO L]{fullShare} O3)) : sProp 𝕄)
      = (v3Loc d ↦{fullShare} O3) := by
  have h : ∀ L : grid0.Coords, (iprop((v3Loc d ↦[oE L]{fullShare} O3) ∗ (v3Loc d ↦[oO L]{fullShare} O3)) : sProp 𝕄)
      = bigSep Finset.univ fun b : Bool => v3Loc d ↦[oPart (L, b)]{fullShare} O3 := by
    intro L
    rw [show (Finset.univ : Finset Bool) = {false, true} by decide, SparseCore.bigSep_insert' (by decide), bigSep_singleton,
      oPart_false, oPart_true]
  rw [bigSep_congr fun L _ => h L, ← bigSep_univ_prod (fun p : grid0.Coords × Bool => (v3Loc d ↦[oPart p]{fullShare} O3 : sProp 𝕄)),
    ← pointsTo_biUnion Finset.univ (ℓ := v3Loc d) oPart oPart_disjoint, oPart_cover]

/-- All the tasks' shares at once: the columns of the index array the tasks read, the 32 read tokens of each table,
    the result array whole. -/
theorem tasks_eq (I : Buf (Elt F) (v0Loc d)) (Wt : Buf (Elt F) (v2Loc d)) (Ps : Buf (Elt F) (a2Loc d)) (O3 : Buf (Elt F) (v3Loc d)) :
    (bigSep Finset.univ fun c : Fin ((K (F := F)).nCore 0) => bigSep Finset.univ fun i : Fin ((K (F := F)).nSub 0) =>
        tileIn d (coordsK (F := F) c i) I Wt Ps O3)
      = iprop((v0Loc d ↦[iAll]{fullShare} I)
          ∗ (bigSep Finset.univ fun i : Fin 32 => v2Loc d ↦{Transfers.shareTok fullShare 32 i} Wt)
          ∗ (bigSep Finset.univ fun i : Fin 32 => a2Loc d ↦{Transfers.shareTok fullShare 32 i} Ps)
          ∗ (v3Loc d ↦{fullShare} O3)) := by
  rw [bigSep_grid (fun L => tileIn d L I Wt Ps O3)]
  unfold tileIn
  rw [bigSep_sep', bigSep_sep', bigSep_sep', idx_parts, out_parts,
    bigSep_wid (fun i : Fin 32 => (v2Loc d ↦{Transfers.shareTok fullShare 32 i} Wt : sProp 𝕄)),
    bigSep_wid (fun i : Fin 32 => (a2Loc d ↦{Transfers.shareTok fullShare 32 i} Ps : sProp 𝕄))]

end Shares

end Cert.Proof.KW

end
-- ==== Proof.KWLaunch.lean ====
/-
  The launch of the kernel program, third part: the program's run. On every device the TensorCore transposes the
  index array, takes the first 200 rows of the word table and transposes them, starts the two SparseCores on those
  and the positional table, waits for them, and transposes the result; the 32 tasks each write their columns of every
  slab of the result. From a launch memory whose index words are all below 200 every weakly fair execution ends with
  the three arguments unchanged and the last transpose of `outT` — the embedding sum — in the result.
-/
import proofs.«206631_g81458349736089_cont_9to1c4b_538_8_alg».proof.Proof.KWLaunchB
import proofs.«206631_g81458349736089_cont_9to1c4b_538_8_alg».proof.Proof.ValueT

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## @main's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The TensorCore's arrays, all unscoped. -/
abbrev S8 : Finset (DevRef τ sig) := {a0', a1', a2', v0', v1', v2', v3', v4'}

/-- The four host operations. -/
abbrev op1 : HloOp τ sig (Elt F) :=
  StableHlo.unary main_arg0 main_v0 ((transpose S200x4096 [1, 0] · transposes_S4096x200_S200x4096_1_0) : (⟨S4096x200, .i32⟩ : BufTy).Contents (Elt F) → (⟨S200x4096, .i32⟩ : BufTy).Contents (Elt F))
abbrev op2 : HloOp τ sig (Elt F) :=
  StableHlo.unary main_arg1 main_v1 ((extractStridedSlice S200x64 ![0, 0] · slices_S100000x64_S200x64_0_0) : (⟨S100000x64, .f32⟩ : BufTy).Contents (Elt F) → (⟨S200x64, .f32⟩ : BufTy).Contents (Elt F))
abbrev op3 : HloOp τ sig (Elt F) :=
  StableHlo.unary main_v1 main_v2 ((transpose S64x200 [1, 0] · transposes_S200x64_S64x200_1_0) : (⟨S200x64, .f32⟩ : BufTy).Contents (Elt F) → (⟨S64x200, .f32⟩ : BufTy).Contents (Elt F))
abbrev op4 : HloOp τ sig (Elt F) :=
  StableHlo.unary main_v3 main_v4 ((transpose S4096x200x64 [2, 0, 1] · transposes_S200x64x4096_S4096x200x64_2_0_1) : (⟨S200x64x4096, .f32⟩ : BufTy).Contents (Elt F) → (⟨S4096x200x64, .f32⟩ : BufTy).Contents (Elt F))

theorem hop1 : (op1 (F := F)).bufs ⊆ S8 := show ({a0', v0'} : Finset (DevRef τ sig)) ⊆ S8 by decide
theorem hop2 : (op2 (F := F)).bufs ⊆ S8 := show ({a1', v1'} : Finset (DevRef τ sig)) ⊆ S8 by decide
theorem hop3 : (op3 (F := F)).bufs ⊆ S8 := show ({v1', v2'} : Finset (DevRef τ sig)) ⊆ S8 by decide
theorem hop4 : (op4 (F := F)).bufs ⊆ S8 := show ({v3', v4'} : Finset (DevRef τ sig)) ⊆ S8 by decide

theorem held_S8 (d : Dev nD) (W : Valuation τ sig (Elt F)) :
    (held (T d) S8 W : sProp 𝕄) = iprop((a0Loc d ↦{fullShare} W a0') ∗ (a1Loc d ↦{fullShare} W a1') ∗ (a2Loc d ↦{fullShare} W a2')
      ∗ (v0Loc d ↦{fullShare} W v0') ∗ (v1Loc d ↦{fullShare} W v1') ∗ (v2Loc d ↦{fullShare} W v2') ∗ (v3Loc d ↦{fullShare} W v3')
      ∗ (v4Loc d ↦{fullShare} W v4')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (v0Loc d ↦{fullShare} W main_v0) ∗ (v1Loc d ↦{fullShare} W main_v1) ∗ (v2Loc d ↦{fullShare} W main_v2) ∗ (v3Loc d ↦{fullShare} W main_v3)
      ∗ (v4Loc d ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The arrays' contents along @main -/

/-- One step of reading a host operation's result: at another array, what was there; at its own result, its function. -/
local macro "res_ne" : tactic => `(tactic| (rw [StableHlo.unary_result_ne]; rotate_left; decide))
local macro "res_eq" : tactic => `(tactic| rw [StableHlo.unary_result])

/-- At the launch; -/
def V0 (d : Dev nD) : Valuation τ sig (Elt F) := fun b => m (d, b)
/-- at the call, after the three host operations; -/
def Vc (d : Dev nD) : Valuation τ sig (Elt F) := (op3 (F := F)).result ((op2 (F := F)).result ((op1 (F := F)).result (V0 m d)))

theorem unscoped_held (d : Dev nD) : (unscopedBufs d (fun b => m ((SparseCore.T d).loc b)) : sProp 𝕄) = held (T d) S8 (V0 m d) := by
  rw [unscopedBufs_eq, held_S8]; rfl

theorem Vc_a0 (d : Dev nD) : Vc m d a0' = m (a0Loc d) := by
  unfold Vc
  res_ne; res_ne; res_ne; rfl
theorem Vc_a1 (d : Dev nD) : Vc m d a1' = m (a1Loc d) := by
  unfold Vc
  res_ne; res_ne; res_ne; rfl
theorem Vc_a2 (d : Dev nD) : Vc m d a2' = m (a2Loc d) := by
  unfold Vc
  res_ne; res_ne; res_ne; rfl
theorem Vc_v3 (d : Dev nD) : Vc m d v3' = m (v3Loc d) := by
  unfold Vc
  res_ne; res_ne; res_ne; rfl
theorem Vc_v4 (d : Dev nD) : Vc m d v4' = m (v4Loc d) := by
  unfold Vc
  res_ne; res_ne; res_ne; rfl
theorem Vc_v0 (d : Dev nD) : Vc m d v0' = A0 m d := by
  unfold Vc
  res_ne; res_ne; res_eq; rfl
theorem Vc_v1 (d : Dev nD) : Vc m d v1' = A1 m d := by
  unfold Vc
  res_ne; res_eq; res_ne; rfl
theorem Vc_v2 (d : Dev nD) : Vc m d v2' = A2 m d := by
  unfold Vc
  res_eq; res_eq; res_ne; rfl

theorem held_Vc (d : Dev nD) :
    (held (T d) S8 (Vc m d) : sProp 𝕄) = iprop((a0Loc d ↦{fullShare} m (a0Loc d)) ∗ (a1Loc d ↦{fullShare} m (a1Loc d)) ∗ (a2Loc d ↦{fullShare} m (a2Loc d))
      ∗ (v0Loc d ↦{fullShare} A0 m d) ∗ (v1Loc d ↦{fullShare} A1 m d) ∗ (v2Loc d ↦{fullShare} A2 m d) ∗ (v3Loc d ↦{fullShare} m (v3Loc d))
      ∗ (v4Loc d ↦{fullShare} m (v4Loc d))) := by
  rw [held_S8, Vc_a0, Vc_a1, Vc_a2, Vc_v0, Vc_v1, Vc_v2, Vc_v3, Vc_v4]

theorem held_Vc' (d : Dev nD) :
    (held (T d) S8 ((op3 (F := F)).result ((op2 (F := F)).result ((op1 (F := F)).result (V0 m d)))) : sProp 𝕄)
      = iprop((a0Loc d ↦{fullShare} m (a0Loc d)) ∗ (a1Loc d ↦{fullShare} m (a1Loc d)) ∗ (a2Loc d ↦{fullShare} m (a2Loc d))
      ∗ (v0Loc d ↦{fullShare} A0 m d) ∗ (v1Loc d ↦{fullShare} A1 m d) ∗ (v2Loc d ↦{fullShare} A2 m d) ∗ (v3Loc d ↦{fullShare} m (v3Loc d))
      ∗ (v4Loc d ↦{fullShare} m (v4Loc d))) := held_Vc m d

variable [FloatOps F]

/-- after the call, the result array at what the tasks left; -/
def Vd (d : Dev nD) : Valuation τ sig (Elt F) := Function.update (Vc m d) v3' (outAtCall m d)
/-- after the last transpose. -/
def Ve (d : Dev nD) : Valuation τ sig (Elt F) := (op4 (F := F)).result (Vd m d)

/-- The result: the last transpose of what the tasks left. -/
def R4 (d : Dev nD) : Buf (Elt F) (v4Loc d) :=
  transpose S4096x200x64 [2, 0, 1] (outAtCall m d) transposes_S200x64x4096_S4096x200x64_2_0_1

theorem Vd_a0 (d : Dev nD) : Vd m d a0' = m (a0Loc d) := (Function.update_of_ne (show a0' ≠ v3' by decide) _ _).trans (Vc_a0 m d)
theorem Vd_a1 (d : Dev nD) : Vd m d a1' = m (a1Loc d) := (Function.update_of_ne (show a1' ≠ v3' by decide) _ _).trans (Vc_a1 m d)
theorem Vd_a2 (d : Dev nD) : Vd m d a2' = m (a2Loc d) := (Function.update_of_ne (show a2' ≠ v3' by decide) _ _).trans (Vc_a2 m d)
theorem Vd_v0 (d : Dev nD) : Vd m d v0' = A0 m d := (Function.update_of_ne (show v0' ≠ v3' by decide) _ _).trans (Vc_v0 m d)
theorem Vd_v1 (d : Dev nD) : Vd m d v1' = A1 m d := (Function.update_of_ne (show v1' ≠ v3' by decide) _ _).trans (Vc_v1 m d)
theorem Vd_v2 (d : Dev nD) : Vd m d v2' = A2 m d := (Function.update_of_ne (show v2' ≠ v3' by decide) _ _).trans (Vc_v2 m d)
theorem Vd_v3 (d : Dev nD) : Vd m d v3' = outAtCall m d := Function.update_self _ _ _
theorem Vd_v4 (d : Dev nD) : Vd m d v4' = m (v4Loc d) := (Function.update_of_ne (show v4' ≠ v3' by decide) _ _).trans (Vc_v4 m d)

theorem held_Vd (d : Dev nD) :
    (held (T d) S8 (Vd m d) : sProp 𝕄) = iprop((a0Loc d ↦{fullShare} m (a0Loc d)) ∗ (a1Loc d ↦{fullShare} m (a1Loc d)) ∗ (a2Loc d ↦{fullShare} m (a2Loc d))
      ∗ (v0Loc d ↦{fullShare} A0 m d) ∗ (v1Loc d ↦{fullShare} A1 m d) ∗ (v2Loc d ↦{fullShare} A2 m d) ∗ (v3Loc d ↦{fullShare} outAtCall m d)
      ∗ (v4Loc d ↦{fullShare} m (v4Loc d))) := by
  rw [held_S8, Vd_a0, Vd_a1, Vd_a2, Vd_v0, Vd_v1, Vd_v2, Vd_v3, Vd_v4]

theorem Ve_a0 (d : Dev nD) : Ve m d a0' = m (a0Loc d) := by
  unfold Ve; res_ne; exact Vd_a0 m d
theorem Ve_a1 (d : Dev nD) : Ve m d a1' = m (a1Loc d) := by
  unfold Ve; res_ne; exact Vd_a1 m d
theorem Ve_a2 (d : Dev nD) : Ve m d a2' = m (a2Loc d) := by
  unfold Ve; res_ne; exact Vd_a2 m d
theorem Ve_v4 (d : Dev nD) : Ve m d v4' = R4 m d := by
  unfold Ve; res_eq; exact congrArg (transpose S4096x200x64 [2, 0, 1] · transposes_S200x64x4096_S4096x200x64_2_0_1) (Vd_v3 m d)

/-- What @main leaves: the three arguments at their launch contents, the result at `R4`. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ (v4Loc d ↦{fullShare} R4 m d))

theorem held_Ve (d : Dev nD) :
    (held (T d) S8 (Ve m d) : sProp 𝕄) ⊢ FIN m d := by
  rw [held_S8, Ve_a0, Ve_a1, Ve_a2, Ve_v4]
  iintro ⟨Ha0, Ha1, Ha2, -, -, -, -, Hv4⟩
  isplitl [Ha0]; · iexact Ha0
  isplitl [Ha1]; · iexact Ha1
  isplitl [Ha2]; · iexact Ha2
  iexact Hv4

theorem held_Ve' (d : Dev nD) :
    (held (T d) S8 ((op4 (F := F)).result (Vd m d)) : sProp 𝕄) ⊢ FIN m d := held_Ve m d

/-! ## The call's shares, out of the arrays and back -/

/-- What the call takes, -/
theorem st0_eq (d : Dev nD) :
    (bigSep Finset.univ fun c : Fin ((K (F := F)).nCore 0) => (P m).st 0 d c)
      = iprop((v0Loc d ↦[iAll]{fullShare} A0 m d)
          ∗ (bigSep Finset.univ fun i : Fin 32 => v2Loc d ↦{Transfers.shareTok fullShare 32 i} A2 m d)
          ∗ (bigSep Finset.univ fun i : Fin 32 => a2Loc d ↦{Transfers.shareTok fullShare 32 i} m (a2Loc d))
          ∗ (v3Loc d ↦{fullShare} m (v3Loc d))) := by
  rw [bigSep_congr fun c _ => P_st m d c]; exact tasks_eq d _ _ _ _
/-- and what it hands back. -/
theorem dn0_eq (d : Dev nD) :
    (bigSep Finset.univ fun c : Fin ((K (F := F)).nCore 0) => (P m).dn 0 d c)
      = iprop((v0Loc d ↦[iAll]{fullShare} A0 m d)
          ∗ (bigSep Finset.univ fun i : Fin 32 => v2Loc d ↦{Transfers.shareTok fullShare 32 i} A2 m d)
          ∗ (bigSep Finset.univ fun i : Fin 32 => a2Loc d ↦{Transfers.shareTok fullShare 32 i} m (a2Loc d))
          ∗ (v3Loc d ↦{fullShare} outAtCall m d)) := by
  rw [bigSep_congr fun c _ => P_dn m d c]; exact tasks_eq d _ _ _ _

omit [FloatOps F] in
/-- The index array is the columns the tasks read and the rest. -/
theorem idx_split (d : Dev nD) (I : Buf (Elt F) (v0Loc d)) :
    (v0Loc d ↦{fullShare} I : sProp 𝕄) ⊣⊢ iprop((v0Loc d ↦[iAll]{fullShare} I) ∗ (v0Loc d ↦[Finset.univ \ iAll]{fullShare} I)) :=
  pointsTo_split_subset (Finset.subset_univ _)

/-! ## @main on the TensorCore -/

/-- @main on device `d`'s TensorCore: the three host operations over the arrays held whole; the call, from the tasks'
    shares of the arrays and back, the rest of the index array and of the tables' shares kept meanwhile; the last
    transpose. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op1) (S := S8) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S8) hop2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S8) hop3 (V := (op2 (F := F)).result ((op1 (F := F)).result (V0 m d)))) $$ [Hb Hheld]
  · isplitl [Hb]; · iexact Hb
    iexact Hheld
  iintro ⟨Hb, Hheld⟩
  rw [wp_ret]; imodintro
  ihave Hh := (Entails.of_eq (held_Vc' m d)) $$ Hheld
  icases Hh with ⟨Ha0, Ha1, Ha2, Hv0, Hv1, Hv2, Hv3, Hv4⟩
  -- the tasks' columns of the index array, and the rest of it
  ihave Hv0' := (idx_split d (A0 m d)).1 $$ Hv0
  icases Hv0' with ⟨Hv0i, Hv0r⟩
  -- the tables' 32 read tokens, and the rest of the share
  ihave Hv2' := (Transfers.pointsTo_toks_split (ℓ := v2Loc d) (S := Finset.univ) (f := A2 m d) fullShare 32) $$ Hv2
  icases Hv2' with ⟨Hv2r, Hv2t⟩
  ihave Ha2' := (Transfers.pointsTo_toks_split (ℓ := a2Loc d) (S := Finset.univ) (f := m (a2Loc d)) fullShare 32) $$ Ha2
  icases Ha2' with ⟨Ha2r, Ha2t⟩
  iapply ((K (F := F)).wp_run (D (F := F)) 𝒱 (EH := EH) (P := P m) κ d 0) $$ [Hst Hb Ha0 Ha1 Hv0i Hv0r Hv1 Hv2r Hv2t Ha2r Ha2t Hv3 Hv4]
  isplitr; · iexact Hctx
  isplitl [Hst]; · iexact Hst
  isplitl [Hv0i Hv2t Ha2t Hv3]
  · rw [st0_eq]
    isplitl [Hv0i]; · iexact Hv0i
    isplitl [Hv2t]; · iexact Hv2t
    isplitl [Ha2t]; · iexact Ha2t
    iexact Hv3
  iintro ⟨Hst, Hdn⟩
  ihave Hdn' := (Entails.of_eq (dn0_eq m d)) $$ Hdn
  icases Hdn' with ⟨Hv0i, Hv2t, Ha2t, Hv3⟩
  ihave Hv0 := (idx_split d (A0 m d)).2 $$ [Hv0i Hv0r]
  · isplitl [Hv0i]; · iexact Hv0i
    iexact Hv0r
  ihave Hv2 := (Transfers.pointsTo_toks_join (ℓ := v2Loc d) (S := Finset.univ) (f := A2 m d) fullShare 32) $$ [Hv2r Hv2t]
  · isplitl [Hv2r]; · iexact Hv2r
    iexact Hv2t
  ihave Ha2 := (Transfers.pointsTo_toks_join (ℓ := a2Loc d) (S := Finset.univ) (f := m (a2Loc d)) fullShare 32) $$ [Ha2r Ha2t]
  · isplitl [Ha2r]; · iexact Ha2r
    iexact Ha2t
  -- the last transpose
  iapply (wp_hlo_within 𝒱 (SparseCore.T d) none Set.univ (op := op4) (S := S8) hop4 (V := Vd m d)) $$ [Hb Ha0 Ha1 Ha2 Hv0 Hv1 Hv2 Hv3 Hv4]
  · isplitl [Hb]; · iexact Hb
    rw [held_Vd]
    isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    iexact Hv4
  iintro ⟨Hb, Hheld⟩
  ihave Hfin := (held_Ve' m d) $$ Hheld
  rw [wp_ret]; imodintro; imodintro
  isplitl [Hst]; · iexact Hst
  iexact Hfin

/-! ## Reading the final memory -/

def fq (d : Dev nD) (s' : Phys nD τ sig (Elt F)) : Prop :=
  s'.mem.mem (v4Loc d) = R4 m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Ha0, Ha1, Ha2, Hv4⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%e0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%e1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%e2, HSI, -⟩
  ihave H := (SI_pointsTo_agree (st := s') (ℓ := v4Loc d) (I := Finset.univ) (q := fullShare) (f := R4 m d)) $$ [HSI Hv4]
  · isplitl [HSI] <;> iassumption
  icases H with %e4
  ipureintro
  exact ⟨funext fun i => e4 i (Finset.mem_univ i), funext fun i => e0 i (Finset.mem_univ i), funext fun i => e1 i (Finset.mem_univ i),
    funext fun i => e2 i (Finset.mem_univ i)⟩

/-! ## The program's run -/

/-- The last transpose of what the tasks left is the embedding sum of the launch operands. -/
theorem R4_eq (d : Dev nD) (h : Cert.Spec.InRange (m (a0Loc d))) :
    R4 m d = Cert.Spec.emb (F := F) (m (a0Loc d)) (m (a1Loc d)) (m (a2Loc d)) :=
  Cert.Spec.final_eq transposes_S4096x200_S200x4096_1_0 slices_S100000x64_S200x64_0_0 transposes_S200x64_S64x200_1_0
    transposes_S200x64x4096_S4096x200x64_2_0_1 (m (a0Loc d)) (m (a1Loc d)) (m (a2Loc d)) h

/-- Every weakly fair execution of the device's threads from a launch memory whose index words are below 200
    terminates with the embedding sum in the result array and the three arguments unchanged. -/
theorem run_main [∀ e, Nonempty (Elt F e)] (hpre : ∀ d, Cert.Spec.InRange (m (a0Loc d))) :
    θ_run (Cert.Kernel.defs (F := F)) (Cert.Kernel.threads (F := F)) ⟨m, fun _ => 0, ρ⟩
      (fun r => ∀ c : Dev nD, r.2.mem (v4Loc c) = Cert.Spec.emb (F := F) (m (a0Loc c)) (m (a1Loc c)) (m (a2Loc c))
        ∧ r.2.mem (a0Loc c) = m (a0Loc c) ∧ r.2.mem (a1Loc c) = m (a1Loc c) ∧ r.2.mem (a2Loc c) = m (a2Loc c)) :=
  SparseCore.Cfg.θ_run_sc (K := K (F := F)) (D := D (F := F)) (𝒱 := 𝒱) (EH := EH) (P := P m) facts v₀
    (fun q hq => match q with | 0 => nomatch hq)
    (fun q _ => match q with | 0 => tileObl m fun d => Cert.Spec.inRange_transpose transposes_S4096x200_S200x4096_1_0 (m (a0Loc d)) (hpre d))
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => ⟨(h c).1.trans (R4_eq m c (hpre c)), (h c).2⟩)

end Cert.Proof.KW

end
-- ==== Proof.RefRun.lean ====
/-
  The reference as a straight line. Its @main calls two outlined functions (the row lookup of the word table and of
  the positional table, each of which calls an outlined select); unfolding the calls at their call sites gives one
  list of fifty tensor operations. Running the list leaves every buffer at the operations' composed value of the
  three arguments; the value left in the result buffer is named here piece by piece (`wrapW` … `out`), for any
  float instance.
-/
import proofs.«206631_g81458349736089_cont_9to1c4b_538_8_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Facts]

/-! ## The value, piece by piece -/

/-- A word-table index with a negative word wrapped around: `idx < 0 ? idx + 100000 : idx`. -/
def wrapW (idx : IVec S4096x200 32) : IVec S4096x200 32 :=
  select (cmpi .slt idx (broadcastInDim S4096x200 ![] bcast_S_S4096x200 (constantI S_ 32 0#32)))
    (addi idx (broadcastInDim S4096x200 ![] bcast_S_S4096x200 (constantI S_ 32 100000#32))) idx

/-- The wrapped indices as a column of one-word start indices. -/
def colW (idx : IVec S4096x200 32) : IVec S4096x200x1 32 :=
  broadcastInDim S4096x200x1 ![0, 1] bcast_S4096x200_S4096x200x1_0_1 (wrapW idx)

/-- Per position, whether the wrapped index is a row of the word table: `0 ≤ idx' ≤ 99999`, all over the unit axis. -/
def maskW (idx : IVec S4096x200 32) : IVec S4096x200 1 :=
  Host.reduce IntOp.andi
    (andi (cmpi .sge (colW idx) (broadcastInDim S4096x200x1 ![] bcast_S_S4096x200x1 (constantI S_ 32 0#32)))
      (cmpi .sle (colW idx) (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

/-- The word-table lookup: the gathered rows where the index is a row, the NaN word's value elsewhere. -/
def takeW (W : FVec F S100000x64 .f32) (idx : IVec S4096x200 32) : FVec F S4096x200x64 .f32 :=
  select (broadcastInDim S4096x200x64 ![0, 1] bcast_S4096x200_S4096x200x64_0_1 (maskW idx))
    (Host.gather gather_S100000x64_S4096x200x1_S4096x200x64_2_0_n_n_0_2_164 W (colW idx))
    (broadcastInDim S4096x200x64 ![] bcast_S_S4096x200x64 (constant S_ .f32 0x7FC00000#32))

/-- A positional-table index with a negative word wrapped around: `idx < 0 ? idx + 200 : idx`. -/
def wrapP (idx : IVec S200 32) : IVec S200 32 :=
  select (cmpi .slt idx (broadcastInDim S200 ![] bcast_S_S200 (constantI S_ 32 0#32)))
    (addi idx (broadcastInDim S200 ![] bcast_S_S200 (constantI S_ 32 200#32))) idx

/-- The wrapped indices as a column of one-word start indices. -/
def colP (idx : IVec S200 32) : IVec S200x1 32 :=
  broadcastInDim S200x1 ![0] bcast_S200_S200x1_0 (wrapP idx)

/-- Per position, whether the wrapped index is a row of the positional table: `0 ≤ idx' ≤ 199`. -/
def maskP (idx : IVec S200 32) : IVec S200 1 :=
  Host.reduce IntOp.andi
    (andi (cmpi .sge (colP idx) (broadcastInDim S200x1 ![] bcast_S_S200x1 (constantI S_ 32 0#32)))
      (cmpi .sle (colP idx) (broadcastInDim S200x1 ![0, 1] bcast_S1x1_S200x1_0_1
        (broadcastInDim S1x1 ![1] bcast_S1_S1x1_1 (constantI S1 32 199#32)))))
    (constantI S_ 1 1#1) reducesTo_S200x1_S200_d1 h_S_

/-- The positional-table lookup. -/
def takeP (P : FVec F S200x64 .f32) (idx : IVec S200 32) : FVec F S200x64 .f32 :=
  select (broadcastInDim S200x64 ![0] bcast_S200_S200x64_0 (maskP idx))
    (Host.gather gather_S200x64_S200x1_S200x64_1_0_n_n_0_1_164 P (colP idx))
    (broadcastInDim S200x64 ![] bcast_S_S200x64 (constant S_ .f32 0x7FC00000#32))

/-- What the reference leaves in its result: the word rows plus the positional rows `0 … 199` copied over the batch. -/
def out (idx : IVec S4096x200 32) (W : FVec F S100000x64 .f32) (P : FVec F S200x64 .f32) : FVec F S4096x200x64 .f32 :=
  addf (takeW W idx)
    (broadcastInDim S4096x200x64 ![0, 1, 2] bcast_S1x200x64_S4096x200x64_0_1_2
      (broadcastInDim S1x200x64 ![1, 2] bcast_S200x64_S1x200x64_1_2 (takeP P (iotaInDim S200 32 0))))

/-! ## The operations, in order -/

/-- @main's fifty operations with the calls unfolded: the word lookup's twenty-three (its select's one among them)
    into the first call's buffers, the iota, the positional lookup's twenty-three into the second call's, the two
    broadcasts and the sum. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0 : TRef sig ⟨S4096x200, .i32⟩) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0 : TRef sig ⟨S4096x200, .i32⟩) main_call0.v2 main_call0.v3 addi,
    TRef.ternary main_call0.v1 main_call0.v3 (.of main_arg0 : TRef sig ⟨S4096x200, .i32⟩) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1 : TRef sig ⟨S100000x64, .f32⟩) main_call0.v5 main_call0.v13 (fun x i => Host.gather gather_S100000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select,
    nullary main_v1 (iotaInDim S200 32 0),
    TRef.nullary main_call1.c (constantI S_ 32 0#32),
    TRef.unary main_call1.c main_call1.v0 (broadcastInDim S200 ![] bcast_S_S200),
    TRef.binary (.of main_v1 : TRef sig ⟨S200, .i32⟩) main_call1.v0 main_call1.v1 (cmpi .slt),
    TRef.nullary main_call1.c_0 (constantI S_ 32 200#32),
    TRef.unary main_call1.c_0 main_call1.v2 (broadcastInDim S200 ![] bcast_S_S200),
    TRef.binary (.of main_v1 : TRef sig ⟨S200, .i32⟩) main_call1.v2 main_call1.v3 addi,
    TRef.ternary main_call1.v1 main_call1.v3 (.of main_v1 : TRef sig ⟨S200, .i32⟩) main_call1.call0.v0 select,
    TRef.unary main_call1.call0.v0 main_call1.v5 (broadcastInDim S200x1 ![0] bcast_S200_S200x1_0),
    TRef.nullary main_call1.c_1 (constantI S1 32 199#32),
    TRef.nullary main_call1.c_2 (constantI S_ 32 0#32),
    TRef.unary main_call1.c_2 main_call1.v6 (broadcastInDim S200x1 ![] bcast_S_S200x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S200x1 ![0, 1] bcast_S1x1_S200x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S200x1_S200_d1 h_S_),
    TRef.binary (.of main_arg2 : TRef sig ⟨S200x64, .f32⟩) main_call1.v5 main_call1.v13 (fun x i => Host.gather gather_S200x64_S200x1_S200x64_1_0_n_n_0_1_164 x i),
    TRef.unary main_call1.v12 main_call1.v14 (broadcastInDim S200x64 ![0] bcast_S200_S200x64_0),
    TRef.nullary main_call1.cst (constant S_ .f32 0x7FC00000#32),
    TRef.unary main_call1.cst main_call1.v15 (broadcastInDim S200x64 ![] bcast_S_S200x64),
    TRef.ternary main_call1.v14 main_call1.v13 main_call1.v15 main_call1.v16 select,
    unary main_v2 main_v3 (broadcastInDim S1x200x64 ![1, 2] bcast_S200x64_S1x200x64_1_2 : (⟨S200x64, .f32⟩ : BufTy).Contents (Elt F) → (⟨S1x200x64, .f32⟩ : BufTy).Contents (Elt F)),
    unary main_v3 main_v4 (broadcastInDim S4096x200x64 ![0, 1, 2] bcast_S1x200x64_S4096x200x64_0_1_2 : (⟨S1x200x64, .f32⟩ : BufTy).Contents (Elt F) → (⟨S4096x200x64, .f32⟩ : BufTy).Contents (Elt F)),
    binary main_v0 main_v4 main_v5 (addf : (⟨S4096x200x64, .f32⟩ : BufTy).Contents (Elt F) → (⟨S4096x200x64, .f32⟩ : BufTy).Contents (Elt F) → (⟨S4096x200x64, .f32⟩ : BufTy).Contents (Elt F)) ]

-- fifty binds re-associated: the rewrite under the chain recurses once per statement
set_option maxRecDepth 2048 in
/-- @main is that straight line: the functions' definitions unfolded at their calls, both sides are one chain of
    steps once sequencing is reassociated. -/
theorem main_eq (c : Dev nD) : main (F := F) c = seq ops := by
  simp only [main, fn_take.body, fn_take_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub ..⟩

/-! ## What the line leaves -/

attribute [local irreducible] Host.reduce Host.gather in
set_option maxRecDepth 8192 in
/-- The fold of the fifty operations at the result buffer is `out` of the three arguments: each operation's result
    read at its own buffer is its function's value, at any other buffer what was there. The reduction and the gather
    stay folded meanwhile: the equation never looks inside them. -/
theorem out_eq (V : Valuation τ sig (Elt F)) :
    after ops V (main_v5 : DevRef τ sig)
      = out (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = out (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v5).trans (out_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.LibRowOps.lean ====
/-
  Rows moved by index. Two StableHLO operations read at one element:

  * the gather that takes whole rows of a two-dimensional array, `x[idx]` for `x : [N, W]` and `idx : [E]` (carried as
    `[E, 1]`): element `(e, c)` of the result is `x` at row `idx[e]`, read as a signed integer and clamped into
    `[0, N − 1]`, column `c`;
  * the scatter with an `add` body that accumulates whole rows, `segment_sum(upd, idx, N)` for `upd : [E, W]`: element
    `(r, c)` of the result is the operand's plus the sum of `upd[e, c]` over the `e` whose index `idx[e]`, read as a
    signed integer and NOT clamped, is exactly `r` (an index outside `[0, N − 1]` lands nowhere); and the same for a
    flat operand `[N]` and updates `[E]`.

  Every statement is over abstract extents `N`, `E`, `W`; nothing here enumerates an index set.
-/
import Idealize.ShloMosaic.PureOps.Ideal
import Idealize.ShloMosaic.Lib.ValueIdx

noncomputable section

open scoped BigOperators

namespace Cert.RowOps

open Idealize.ShloMosaic Idealize.ShloMosaic.ValueIdx

/-! ## The row an index word names -/

/-- The row a gather reads for the start index `w`: `w` as a signed integer, clamped into `[0, N − 1]`. -/
def gatherRow (N : Nat) (hN : 0 < N) (w : BitVec 32) : Fin N := ⟨min w.toInt.toNat (N - 1), by omega⟩

/-- The row a scatter writes for the scatter index `w`: `w` as a signed integer when that is a row of the operand,
    none otherwise (the update is dropped; no clamping). -/
def scatterRow (N : Nat) (w : BitVec 32) : Option (Fin N) :=
  if h : 0 ≤ w.toInt ∧ w.toInt < (N : Int) then some ⟨w.toInt.toNat, by omega⟩ else none

/-- `scatterRow` names row `r` exactly when the index, read signed, is `r`. -/
theorem scatterRow_eq_some_iff {N : Nat} (w : BitVec 32) (r : Fin N) :
    scatterRow N w = some r ↔ w.toInt = (r.val : Int) := by
  unfold scatterRow
  constructor
  · intro h
    split at h
    · rename_i hw
      have := congrArg Fin.val (Option.some.inj h)
      simp only at this
      omega
    · exact absurd h (by simp)
  · intro h
    have hr := r.isLt
    rw [dif_pos (by omega)]
    exact congrArg some (Fin.ext (by simp only; omega))

/-! ## The gather of rows -/

section Gather
variable {α : Type}

/-- The dimension numbers of a gather of rows: operand `[N, W]`, start indices `[E, 1]`, result `[E, W]`; the result's
    axis 1 is the offset axis, operand axis 0 is collapsed and is the one the start index names, slices are `1 × W`. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row coordinate of the operand index that result index `(e, c)` reads: the clamped start index. -/
theorem rowGather_operandIdx_zero {N E W : Nat} (hN : 0 < N)
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 0 = gatherRow N hN (idx (ix2 e 0)) := by
  refine Fin.ext ?_
  show (rowGatherDims N E W wf).start (ix2 e c) idx 0 + (rowGatherDims N E W wf).batchCoord (ix2 e c) 0
    + (rowGatherDims N E W wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E W wf).startIndexMap from List.mem_singleton.mpr rfl)]
  have hsi : (rowGatherDims N E W wf).siIdx (ix2 e c) ⟨List.idxOf (0 : Fin 2) (rowGatherDims N E W wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column coordinate of the operand index that result index `(e, c)` reads: `c` itself. -/
theorem rowGather_operandIdx_one {N E W : Nat}
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 1 = c := by
  refine Fin.ext ?_
  show (rowGatherDims N E W wf).start (ix2 e c) idx 1 + (rowGatherDims N E W wf).batchCoord (ix2 e c) 1
    + (rowGatherDims N E W wf).offCoord (ix2 e c) 1 = _
  rw [GatherDims.batchCoord_eq_zero _ _ _ List.not_mem_nil]
  have hst : (rowGatherDims N E W wf).start (ix2 e c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows at `(e, c)`, for the literal dimension numbers `rowGatherDims`. -/
theorem gather_rowDims_apply {N E W : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ 32) (e : Fin E) (c : Fin W) :
    Host.gather (rowGatherDims N E W wf) x idx (ix2 e c) = x (ix2 (gatherRow N hN (idx (ix2 e 0))) c) := by
  unfold Host.gather
  refine congrArg x ((eq_ix2 _).trans ?_)
  rw [rowGather_operandIdx_zero hN wf idx e c, rowGather_operandIdx_one wf idx e c]
  rfl

/-- THE GATHER OF ROWS READ AT `(e, c)`: for any dimension numbers `d` whose fields are those of a gather of rows
    (each hypothesis is `rfl` at a program's record), the result at `(e, c)` is the operand at row
    `gatherRow N _ (idx[e])` — the start index read signed and clamped into `[0, N − 1]` — and column `c`. -/
theorem gather_rows_apply {N E W : Nat} (hN : 0 < N)
    (d : GatherDims ⟨2, ![N, W]⟩ ⟨2, ![E, 1]⟩ ⟨2, ![E, W]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, W])
    (x : (⟨2, ![N, W]⟩ : Shape).Idx → α) (idx : IVec ⟨2, ![E, 1]⟩ 32) (e : Fin E) (c : Fin W) :
    Host.gather d x idx (ix2 e c) = x (ix2 (gatherRow N hN (idx (ix2 e 0))) c) := by
  obtain ⟨od, cd, ob, sb, sm, iv, ss, wf⟩ := d
  simp only at hod hcd hob hsb hsm hiv hss
  subst hod hcd hob hsb hsm hiv hss
  exact gather_rowDims_apply hN wf x idx e c

end Gather

/-! ## The scatter-add of rows -/

section Scatter

/-- An axis of the operand is kept by a scatter exactly when it is not an inserted window axis. -/
theorem mem_scatter_sKept {s si u : Shape} (d : ScatterDims s si u) (a : Fin s.rank) :
    a ∈ d.sKept ↔ a ∉ d.insertedWindowDims := by
  simp [ScatterDims.sKept, Shape.kept, List.mem_filter, List.mem_finRange]

/-- The dimension numbers of a scatter of rows: operand `[N, W]`, scatter indices `[E, 1]`, updates `[E, W]`; the
    updates' axis 1 is the window axis, operand axis 0 is inserted and is the one the scatter index names. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W : Nat} (wf : ScatterDims.WF ⟨2, ![N, W]⟩ ⟨2, ![E, 1]⟩ ⟨2, ![E, W]⟩ [1] [0] [0] 1)
  (idx : IVec ⟨2, ![E, 1]⟩ 32) (j : (⟨2, ![E, W]⟩ : Shape).Idx)

/-- On the row axis the window of update `j` starts at its scatter index `idx[j₀]` read signed, and has no extent. -/
theorem rowScatter_pos_zero :
    (rowScatterDims N E W wf).start j idx 0 + ((rowScatterDims N E W wf).window j 0 : Int)
      = (idx (ix2 (j 0) 0)).toInt := by
  have hw : (rowScatterDims N E W wf).window j 0 = 0 := by
    unfold ScatterDims.window
    rw [dif_neg (fun h => ((mem_scatter_sKept _ _).mp h) (List.mem_singleton.mpr rfl))]
  have hs : (rowScatterDims N E W wf).start j idx 0 = (idx (ix2 (j 0) 0)).toInt := by
    unfold ScatterDims.start
    rw [dif_pos (show (0 : Fin 2) ∈ (rowScatterDims N E W wf).scatterDimsToOperandDims from List.mem_singleton.mpr rfl)]
    have hsi : (rowScatterDims N E W wf).siIdx j ⟨List.idxOf (0 : Fin 2) (rowScatterDims N E W wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- On the column axis the window of update `j` starts at `0` and the update sits at its own column `j₁`. -/
theorem rowScatter_pos_one :
    (rowScatterDims N E W wf).start j idx 1 + ((rowScatterDims N E W wf).window j 1 : Int) = ((j 1).val : Int) := by
  have hs : (rowScatterDims N E W wf).start j idx 1 = 0 := by
    unfold ScatterDims.start
    rw [dif_neg (show (1 : Fin 2) ∉ ([0] : List (Fin 2)) by decide)]
  have hw : (rowScatterDims N E W wf).window j 1 = (j 1).val := by
    unfold ScatterDims.window
    rw [dif_pos ((mem_scatter_sKept _ _).mpr (show (1 : Fin 2) ∉ ([0] : List (Fin 2)) by decide))]
    rfl
  rw [hw, hs]; simp

/-- WHERE AN UPDATE LANDS: update `j = (e, c')` lands on element `(r, c)` exactly when its scatter index names row `r`
    and `c' = c`. -/
theorem rowScatter_resultIdx?_eq_some_iff (r : Fin N) (c : Fin W) :
    (rowScatterDims N E W wf).resultIdx? j idx = some (ix2 r c)
      ↔ scatterRow N (idx (ix2 (j 0) 0)) = some r ∧ j 1 = c := by
  rw [scatterRow_eq_some_iff]
  have h0 := rowScatter_pos_zero wf idx j
  have h1 := rowScatter_pos_one wf idx j
  have hr := r.isLt
  have hj1 : (j 1).val < W := (j 1).isLt
  unfold ScatterDims.resultIdx?
  constructor
  · intro h
    split at h
    · rename_i hall
      have h' := Option.some.inj h
      have e0 := congrArg (fun f : (⟨2, ![N, W]⟩ : Shape).Idx => (f 0).val) h'
      have e1 := congrArg (fun f : (⟨2, ![N, W]⟩ : Shape).Idx => (f 1).val) h'
      have a0 := (hall 0).1
      simp only at e0 e1
      rw [h0] at e0 a0
      rw [h1] at e1
      refine ⟨?_, Fin.ext ?_⟩
      · have : ((ix2 r c : (⟨2, ![N, W]⟩ : Shape).Idx) 0).val = r.val := rfl
        omega
      · have : ((ix2 r c : (⟨2, ![N, W]⟩ : Shape).Idx) 1).val = c.val := rfl
        omega
    · exact absurd h (by simp)
  · rintro ⟨hz, hc⟩
    have hall : ∀ a : Fin (⟨2, ![N, W]⟩ : Shape).rank,
        0 ≤ (rowScatterDims N E W wf).start j idx a + ((rowScatterDims N E W wf).window j a : Int) ∧
        (rowScatterDims N E W wf).start j idx a + ((rowScatterDims N E W wf).window j a : Int)
          < ((⟨2, ![N, W]⟩ : Shape).size a : Int) := by
      refine Fin.forall_fin_two.mpr ⟨?_, ?_⟩
      · rw [h0, hz]
        exact ⟨by omega, by show (r.val : Int) < (N : Int); omega⟩
      · rw [h1]
        exact ⟨by omega, by show ((j 1).val : Int) < (W : Int); omega⟩
    rw [dif_pos hall]
    refine congrArg some ((eq_ix2 _).trans ?_)
    have c0 : (⟨((rowScatterDims N E W wf).start j idx 0 + ((rowScatterDims N E W wf).window j 0 : Int)).toNat,
        by have := hall 0; omega⟩ : Fin N) = r := Fin.ext (by simp only; omega)
    have c1 : (⟨((rowScatterDims N E W wf).start j idx 1 + ((rowScatterDims N E W wf).window j 1 : Int)).toNat,
        by have := hall 1; omega⟩ : Fin W) = c := Fin.ext (by simp only; rw [← hc]; omega)
    exact congrArg₂ ix2 c0 c1

end Scatter

section ScatterSum

/-- The scatter-add of rows at `(r, c)`, for the literal dimension numbers `rowScatterDims`: the updates that land on
    `(r, c)` are the `(e, c)` whose scatter index names row `r`, one for each such `e`. -/
theorem scatterAdd_rowDims_apply {N E W : Nat}
    (wf : ScatterDims.WF ⟨2, ![N, W]⟩ ⟨2, ![E, 1]⟩ ⟨2, ![E, W]⟩ [1] [0] [0] 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) (rowScatterDims N E W wf) x idx upd (ix2 r c)
      = x (ix2 r c) + ∑ e ∈ Finset.univ.filter (fun e : Fin E => scatterRow N (idx (ix2 e 0)) = some r),
          upd (ix2 e c) := by
  show Ideal.hostScatterAdd (rowScatterDims N E W wf) x idx upd (ix2 r c) = _
  unfold Ideal.hostScatterAdd
  congr 1
  refine Finset.sum_nbij' (fun j : (⟨2, ![E, W]⟩ : Shape).Idx => (j 0 : Fin E)) (fun e : Fin E => ix2 e c) ?_ ?_ ?_ ?_ ?_
  · intro j hj
    exact Finset.mem_filter.mpr ⟨Finset.mem_univ _,
      ((rowScatter_resultIdx?_eq_some_iff wf idx j r c).mp (Finset.mem_filter.mp hj).2).1⟩
  · intro e he
    exact Finset.mem_filter.mpr ⟨Finset.mem_univ _,
      (rowScatter_resultIdx?_eq_some_iff wf idx (ix2 e c) r c).mpr ⟨(Finset.mem_filter.mp he).2, rfl⟩⟩
  · intro j hj
    have hc := ((rowScatter_resultIdx?_eq_some_iff wf idx j r c).mp (Finset.mem_filter.mp hj).2).2
    show ix2 (j 0) c = j
    rw [← hc]
    exact (eq_ix2 j).symm
  · intro e _
    rfl
  · intro j hj
    have hc := ((rowScatter_resultIdx?_eq_some_iff wf idx j r c).mp (Finset.mem_filter.mp hj).2).2
    show upd j = upd (ix2 (j 0) c)
    rw [← hc]
    exact congrArg upd (eq_ix2 j)

/-- THE SCATTER-ADD OF ROWS READ AT `(r, c)`: for any dimension numbers `d` whose fields are those of a scatter of rows
    (each hypothesis is `rfl` at a program's record), the result at `(r, c)` is the operand's element plus the sum, over
    the `e` whose scatter index `idx[e]` read signed is exactly `r`, of the update's element `(e, c)`. -/
theorem scatterAdd_rows_apply {N E W : Nat} (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hiv : d.indexVectorDim = 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) d x idx upd (ix2 r c)
      = x (ix2 r c) + ∑ e ∈ Finset.univ.filter (fun e : Fin E => scatterRow N (idx (ix2 e 0)) = some r),
          upd (ix2 e c) := by
  obtain ⟨uw, iw, sd, iv, wf⟩ := d
  simp only at huw hiw hsd hiv
  subst huw hiw hsd hiv
  exact scatterAdd_rowDims_apply wf x idx upd r c

end ScatterSum

/-! ## The scatter-add into a flat array -/

section ScatterVec

/-- The dimension numbers of a scatter into a flat array: operand `[N]`, scatter indices `[E, 1]`, updates `[E]`; no
    window axis, the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (j : (⟨1, ![E]⟩ : Shape).Idx)

/-- On the operand's one axis the window of update `j` starts at its scatter index `idx[j₀]` read signed, and has no
    extent. -/
theorem vecScatter_pos_zero :
    (vecScatterDims N E wf).start j idx 0 + ((vecScatterDims N E wf).window j 0 : Int)
      = (idx (ix2 (j 0) 0)).toInt := by
  have hw : (vecScatterDims N E wf).window j 0 = 0 := by
    unfold ScatterDims.window
    rw [dif_neg (fun h => ((mem_scatter_sKept _ _).mp h) (List.mem_singleton.mpr rfl))]
  have hs : (vecScatterDims N E wf).start j idx 0 = (idx (ix2 (j 0) 0)).toInt := by
    unfold ScatterDims.start
    rw [dif_pos (show (0 : Fin 1) ∈ (vecScatterDims N E wf).scatterDimsToOperandDims from List.mem_singleton.mpr rfl)]
    have hsi : (vecScatterDims N E wf).siIdx j ⟨List.idxOf (0 : Fin 1) (vecScatterDims N E wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- WHERE AN UPDATE LANDS: update `j = (e)` lands on element `(r)` exactly when its scatter index names `r`. -/
theorem vecScatter_resultIdx?_eq_some_iff (r : Fin N) :
    (vecScatterDims N E wf).resultIdx? j idx = some (ix1 r) ↔ scatterRow N (idx (ix2 (j 0) 0)) = some r := by
  rw [scatterRow_eq_some_iff]
  have h0 := vecScatter_pos_zero wf idx j
  have hr := r.isLt
  unfold ScatterDims.resultIdx?
  constructor
  · intro h
    split at h
    · rename_i hall
      have h' := Option.some.inj h
      have e0 := congrArg (fun f : (⟨1, ![N]⟩ : Shape).Idx => (f 0).val) h'
      have a0 := (hall 0).1
      simp only at e0
      rw [h0] at e0 a0
      have : ((ix1 r : (⟨1, ![N]⟩ : Shape).Idx) 0).val = r.val := rfl
      omega
    · exact absurd h (by simp)
  · intro hz
    have hall : ∀ a : Fin (⟨1, ![N]⟩ : Shape).rank,
        0 ≤ (vecScatterDims N E wf).start j idx a + ((vecScatterDims N E wf).window j a : Int) ∧
        (vecScatterDims N E wf).start j idx a + ((vecScatterDims N E wf).window j a : Int)
          < ((⟨1, ![N]⟩ : Shape).size a : Int) := by
      intro a
      obtain rfl : a = 0 := Subsingleton.elim _ _
      rw [h0, hz]
      exact ⟨by omega, by show (r.val : Int) < (N : Int); omega⟩
    rw [dif_pos hall]
    refine congrArg some ((eq_ix1 _).trans ?_)
    have c0 : (⟨((vecScatterDims N E wf).start j idx 0 + ((vecScatterDims N E wf).window j 0 : Int)).toNat,
        by have := hall 0; omega⟩ : Fin N) = r := Fin.ext (by simp only; omega)
    exact congrArg ix1 c0

/-- The scatter-add into a flat array at `(r)`, for the literal dimension numbers `vecScatterDims`. -/
theorem scatterAdd_vecDims_apply
    (x : FVec Ideal ⟨1, ![N]⟩ .f32) (upd : FVec Ideal ⟨1, ![E]⟩ .f32)
    (r : Fin N) [DecidablePred fun e : Fin E => scatterRow N (idx (ix2 e 0)) = some r] :
    Host.scatterAdd (F := Ideal) (vecScatterDims N E wf) x idx upd (ix1 r)
      = x (ix1 r) + ∑ e ∈ Finset.univ.filter (fun e : Fin E => scatterRow N (idx (ix2 e 0)) = some r),
          upd (ix1 e) := by
  show Ideal.hostScatterAdd (vecScatterDims N E wf) x idx upd (ix1 r) = _
  unfold Ideal.hostScatterAdd
  congr 1
  refine Finset.sum_nbij' (fun j : (⟨1, ![E]⟩ : Shape).Idx => (j 0 : Fin E)) (fun e : Fin E => ix1 e) ?_ ?_ ?_ ?_ ?_
  · intro j hj
    exact Finset.mem_filter.mpr ⟨Finset.mem_univ _,
      (vecScatter_resultIdx?_eq_some_iff wf idx j r).mp (Finset.mem_filter.mp hj).2⟩
  · intro e he
    exact Finset.mem_filter.mpr ⟨Finset.mem_univ _,
      (vecScatter_resultIdx?_eq_some_iff wf idx (ix1 e) r).mpr (Finset.mem_filter.mp he).2⟩
  · intro j _
    exact (eq_ix1 j).symm
  · intro e _
    rfl
  · intro j _
    exact congrArg upd (eq_ix1 j)

/-- THE SCATTER-ADD INTO A FLAT ARRAY READ AT `(r)`: for any dimension numbers `d` whose fields are those of such a
    scatter (each hypothesis is `rfl` at a program's record), the result at `(r)` is the operand's element plus the sum,
    over the `e` whose scatter index `idx[e]` read signed is exactly `r`, of the update's element `(e)`. -/
theorem scatterAdd_vec_apply (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ 32) (upd : FVec Ideal ⟨1, ![E]⟩ .f32)
    (r : Fin N) [DecidablePred fun e : Fin E => scatterRow N (idx (ix2 e 0)) = some r] :
    Host.scatterAdd (F := Ideal) d x idx upd (ix1 r)
      = x (ix1 r) + ∑ e ∈ Finset.univ.filter (fun e : Fin E => scatterRow N (idx (ix2 e 0)) = some r),
          upd (ix1 e) := by
  obtain ⟨uw, iw, sd, iv, wf⟩ := d
  simp only at huw hiw hsd hiv
  subst huw hiw hsd hiv
  exact scatterAdd_vecDims_apply wf idx x upd r

end ScatterVec

end Cert.RowOps

end
-- ==== Proof.LibRowOps3.lean ====
/-
  Rows taken by index through a two-axis batch of start indices, an all-true reduction, and the word facts of an
  index known to be small.

  * the gather that takes whole rows of a two-dimensional array by a batch of indices, `x[idx]` for `x : [N, W]` and
    `idx : [B, L]` (carried as `[B, L, 1]`): element `(b, l, c)` of the result is `x` at row `idx[b, l]`, read as a
    signed integer and clamped into `[0, N − 1]`, column `c`;
  * a reduction by `and` of one-bit words that are all `1`, from the initial value `1`, is `1` at every result index;
  * for a 32-bit word below `2³¹`: it is not negative as a signed number, so the wrap-around select `w < 0 ? w + N : w`
    leaves it, the range test `0 ≤ w ≤ c` holds when `w ≤ c`, and the row a gather reads for it is itself when it is a
    row.

  Every statement is over abstract extents; nothing here enumerates an index set.
-/
import Idealize.ShloMosaic.PureOps.Ideal
import Idealize.ShloMosaic.Lib.ValueIdx
import Idealize.ShloMosaic.Lib.Affine
import proofs.«206631_g81458349736089_cont_9to1c4b_538_8_alg».proof.Proof.LibRowOps

noncomputable section

namespace Cert.RowOps3

open Idealize.ShloMosaic Idealize.ShloMosaic.ValueIdx Cert.RowOps

/-! ## The gather of rows by a two-axis batch of indices -/

section Gather
variable {α : Type}

/-- The dimension numbers of a gather of rows by a batch: operand `[N, W]`, start indices `[B, L, 1]`, result
    `[B, L, W]`; the result's axis 2 is the offset axis, operand axis 0 is collapsed and is the one the start index
    names, slices are `1 × W`. -/
abbrev rowGatherDims3 (N B L W : Nat)
    (wf : GatherDims.WF ⟨2, ![N, W]⟩ ⟨3, ![B, L, 1]⟩ ⟨3, ![B, L, W]⟩ [2] [0] [] [0] [] 2 ![1, W]) :
    GatherDims ⟨2, ![N, W]⟩ ⟨3, ![B, L, 1]⟩ ⟨3, ![B, L, W]⟩ where
  offsetDims := [2]
  collapsedSliceDims := [0]
  operandBatchingDims := []
  startIndicesBatchingDims := []
  startIndexMap := [0]
  indexVectorDim := 2
  sliceSizes := ![1, W]
  wf := wf

/-- The row coordinate of the operand index that result index `(b, l, c)` reads: the clamped start index. -/
theorem rowGather3_operandIdx_zero {N B L W : Nat} (hN : 0 < N)
    (wf : GatherDims.WF ⟨2, ![N, W]⟩ ⟨3, ![B, L, 1]⟩ ⟨3, ![B, L, W]⟩ [2] [0] [] [0] [] 2 ![1, W])
    (idx : IVec ⟨3, ![B, L, 1]⟩ 32) (b : Fin B) (l : Fin L) (c : Fin W) :
    (rowGatherDims3 N B L W wf).operandIdx (ix3 b l c) idx 0 = gatherRow N hN (idx (ix3 b l 0)) := by
  refine Fin.ext ?_
  show (rowGatherDims3 N B L W wf).start (ix3 b l c) idx 0 + (rowGatherDims3 N B L W wf).batchCoord (ix3 b l c) 0
    + (rowGatherDims3 N B L W wf).offCoord (ix3 b l c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims3 N B L W wf).startIndexMap from List.mem_singleton.mpr rfl)]
  have hsi : (rowGatherDims3 N B L W wf).siIdx (ix3 b l c) ⟨List.idxOf (0 : Fin 2) (rowGatherDims3 N B L W wf).startIndexMap,
      List.idxOf_lt_length_iff.2 (List.mem_singleton.mpr rfl)⟩ = ix3 b l 0 := by
    funext a; refine Fin.ext ?_
    match a with
    | ⟨0, _⟩ => rfl
    | ⟨1, _⟩ => rfl
    | ⟨2, _⟩ => rfl
  rw [hsi]
  rfl

/-- The column coordinate of the operand index that result index `(b, l, c)` reads: `c` itself. -/
theorem rowGather3_operandIdx_one {N B L W : Nat}
    (wf : GatherDims.WF ⟨2, ![N, W]⟩ ⟨3, ![B, L, 1]⟩ ⟨3, ![B, L, W]⟩ [2] [0] [] [0] [] 2 ![1, W])
    (idx : IVec ⟨3, ![B, L, 1]⟩ 32) (b : Fin B) (l : Fin L) (c : Fin W) :
    (rowGatherDims3 N B L W wf).operandIdx (ix3 b l c) idx 1 = c := by
  refine Fin.ext ?_
  show (rowGatherDims3 N B L W wf).start (ix3 b l c) idx 1 + (rowGatherDims3 N B L W wf).batchCoord (ix3 b l c) 1
    + (rowGatherDims3 N B L W wf).offCoord (ix3 b l c) 1 = _
  rw [GatherDims.batchCoord_eq_zero _ _ _ List.not_mem_nil]
  have hst : (rowGatherDims3 N B L W wf).start (ix3 b l c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows by a batch at `(b, l, c)`, for the literal dimension numbers `rowGatherDims3`. -/
theorem gather_rowDims3_apply {N B L W : Nat} (hN : 0 < N)
    (wf : GatherDims.WF ⟨2, ![N, W]⟩ ⟨3, ![B, L, 1]⟩ ⟨3, ![B, L, W]⟩ [2] [0] [] [0] [] 2 ![1, W])
    (x : (⟨2, ![N, W]⟩ : Shape).Idx → α) (idx : IVec ⟨3, ![B, L, 1]⟩ 32) (b : Fin B) (l : Fin L) (c : Fin W) :
    Host.gather (rowGatherDims3 N B L W wf) x idx (ix3 b l c) = x (ix2 (gatherRow N hN (idx (ix3 b l 0))) c) := by
  unfold Host.gather
  refine congrArg x ((eq_ix2 _).trans ?_)
  rw [rowGather3_operandIdx_zero hN wf idx b l c, rowGather3_operandIdx_one wf idx b l c]
  rfl

/-- THE GATHER OF ROWS BY A BATCH READ AT `(b, l, c)`: for any dimension numbers `d` whose fields are those of such a
    gather (each hypothesis is `rfl` at a program's record), the result at `(b, l, c)` is the operand at row
    `gatherRow N _ (idx[b, l])` — the start index read signed and clamped into `[0, N − 1]` — and column `c`. -/
theorem gather_rows3_apply {N B L W : Nat} (hN : 0 < N)
    (d : GatherDims ⟨2, ![N, W]⟩ ⟨3, ![B, L, 1]⟩ ⟨3, ![B, L, W]⟩)
    (hod : d.offsetDims = [2]) (hcd : d.collapsedSliceDims = [0]) (hob : d.operandBatchingDims = [])
    (hsb : d.startIndicesBatchingDims = []) (hsm : d.startIndexMap = [0]) (hiv : d.indexVectorDim = 2)
    (hss : d.sliceSizes = ![1, W])
    (x : (⟨2, ![N, W]⟩ : Shape).Idx → α) (idx : IVec ⟨3, ![B, L, 1]⟩ 32) (b : Fin B) (l : Fin L) (c : Fin W) :
    Host.gather d x idx (ix3 b l c) = x (ix2 (gatherRow N hN (idx (ix3 b l 0))) c) := by
  obtain ⟨od, cd, ob, sb, sm, iv, ss, wf⟩ := d
  simp only at hod hcd hob hsb hsm hiv hss
  subst hod hcd hob hsb hsm hiv hss
  exact gather_rowDims3_apply hN wf x idx b l c

end Gather

/-! ## A reduction by `and` of words that are all one -/

/-- A left fold by `and` from `1` over one-bit words that are all `1` is `1`. -/
theorem foldl_andi_of_all {ι : Type} (f : ι → BitVec 1) (hf : ∀ n, f n = 1#1) (l : List ι) :
    l.foldl (fun r n => IntOp.andi r (f n)) 1#1 = 1#1 := by
  induction l with
  | nil => rfl
  | cons n l ih =>
    rw [List.foldl_cons, hf n, show IntOp.andi 1#1 1#1 = 1#1 from by decide]
    exact ih

/-- The host's reduction by `and` of an array of one-bit words that are all `1`, from an initial value `1`, is `1`
    at every result index, whatever the axes. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_of_all (fun n => x (s.rowMajor.symm n)) (fun n => hx _) _

/-! ## A small index word -/

/-- A 32-bit word below `2³¹` read as a signed integer is its natural number. -/
theorem toInt_of_small (w : BitVec 32) (hw : w.toNat < 2 ^ 31) : w.toInt = (w.toNat : Int) := by
  have e := BitVec.toInt_eq_toNat_cond w
  omega

/-- The wrap-around of a negative index leaves a word below `2³¹`: it is not negative. -/
theorem select_wrap_of_small (w n : BitVec 32) (hw : w.toNat < 2 ^ 31) :
    Scalar.select (IntOp.cmpi .slt w 0#32) (IntOp.addi w n) w = w := by
  have hc : IntOp.cmpi .slt w 0#32 = 0#1 := by
    refine eq_zero_of_ne_one fun h1 => ?_
    have h2 := IntOp.cmpi_slt.mp h1
    rw [toInt_of_small w hw, show (0#32 : BitVec 32).toInt = 0 from by decide] at h2
    omega
  rw [hc, select_zero]

/-- The range test `0 ≤ w ≤ c` on signed words holds for a word below `2³¹` that is at most `c`. -/
theorem andi_sge_sle_of_small (w c : BitVec 32) (hw : w.toNat < 2 ^ 31) (hc : (w.toNat : Int) ≤ c.toInt) :
    IntOp.andi (IntOp.cmpi .sge w 0#32) (IntOp.cmpi .sle w c) = 1#1 := by
  have h1 : IntOp.cmpi .sge w 0#32 = 1#1 := by
    refine IntOp.cmpi_sge.mpr ?_
    rw [toInt_of_small w hw, show (0#32 : BitVec 32).toInt = 0 from by decide]
    omega
  have h2 : IntOp.cmpi .sle w c = 1#1 := by
    refine IntOp.cmpi_sle.mpr ?_
    rw [toInt_of_small w hw]
    exact hc
  rw [h1, h2]
  decide

/-- The row a gather reads for a start index that is a row of the operand is that row. -/
theorem gatherRow_val_of_lt {N : Nat} (hN : 0 < N) (w : BitVec 32) (hw : w.toNat < 2 ^ 31) (h : w.toNat < N) :
    (gatherRow N hN w).val = w.toNat := by
  unfold gatherRow
  simp only
  rw [toInt_of_small w hw]
  omega

end Cert.RowOps3

end
-- ==== Proof.RefValue.lean ====
/-
  The reference's value, entry by entry. With every index word below 200 the reference's guards do nothing: a word
  below 2³¹ is not negative, so the wrap-around select leaves it; it lies in `[0, N − 1]` for both tables (N = 100000
  with words below 200, N = 200 with the positions 0 … 199), so the in-range mask is all ones and the select after the
  gather takes the gathered row; and the gather's clamp of a start index that is a row is that row. What is left at
  `[b, l, e]` is row `idx[b, l]` of the word table plus row `l` of the positional table, at column `e`.
-/
import proofs.«206631_g81458349736089_cont_9to1c4b_538_8_alg».proof.Proof.RefRun
import proofs.«206631_g81458349736089_cont_9to1c4b_538_8_alg».proof.Proof.LibRowOps3
import proofs.«206631_g81458349736089_cont_9to1c4b_538_8_alg».proof.Proof.Spec
import Idealize.ShloMosaic.Lib.Pipeline.Value

noncomputable section

namespace Cert.ReferenceIdeal.RefValue

open Cert.ReferenceIdeal Cert.ReferenceIdeal.Facts₀ Cert.ReferenceIdeal.RefRun Idealize.ShloMosaic
  Idealize.ShloMosaic.ValueIdx Idealize.SL.Sem Cert.RowOps Cert.RowOps3

variable {F : FTy → Type} [FloatOps F] [Facts]

/-! ## The word table's lookup -/

/-- A word below 200 is not negative: the wrap-around leaves it. -/
theorem wrapW_apply (idx : IVec S4096x200 32) (hin : Cert.Spec.InRange idx) (k : S4096x200.Idx) : wrapW idx k = idx k := by
  show Scalar.select (IntOp.cmpi .slt (idx k) 0#32) (IntOp.addi (idx k) 100000#32) (idx k) = idx k
  exact select_wrap_of_small _ _ (Nat.lt_trans (hin k) (by decide))

/-- The column of start indices at `[b, l, 0]` is the index word `idx[b, l]`. -/
theorem colW_apply (idx : IVec S4096x200 32) (hin : Cert.Spec.InRange idx) (b : Fin 4096) (l : Fin 200) (u : Fin 1) :
    colW idx (ix3 b l u) = idx (ix2 b l) := by
  unfold colW
  refine (broadcastInDim_apply _ _ _ (ix3 b l u) (ix2 b l) (fun a => match a with | ⟨0, _⟩ => rfl | ⟨1, _⟩ => rfl)).trans ?_
  exact wrapW_apply idx hin _

/-- Every index word is a row of the word table: the mask is one everywhere. -/
theorem maskW_apply (idx : IVec S4096x200 32) (hin : Cert.Spec.InRange idx) (k : S4096x200.Idx) : maskW idx k = 1#1 := by
  unfold maskW
  refine reduce_andi_of_all _ _ _ _ (fun i => ?_) (fun _ => rfl) k
  obtain ⟨b, l, u, rfl⟩ : ∃ (b : Fin 4096) (l : Fin 200) (u : Fin 1), i = ix3 b l u := ⟨i 0, i 1, i 2, eq_ix3 i⟩
  show IntOp.andi (IntOp.cmpi .sge (colW idx (ix3 b l u)) 0#32) (IntOp.cmpi .sle (colW idx (ix3 b l u)) 99999#32) = 1#1
  rw [colW_apply idx hin b l u]
  refine andi_sge_sle_of_small _ _ (Nat.lt_trans (hin _) (by decide)) ?_
  have h := hin (ix2 b l)
  rw [show (99999#32 : BitVec 32).toInt = 99999 from by decide]
  omega

/-- The word lookup at `[b, l, e]`: the word table at row `idx[b, l]`, column `e`. -/
theorem takeW_apply (W : FVec F S100000x64 .f32) (idx : IVec S4096x200 32) (hin : Cert.Spec.InRange idx)
    (b : Fin 4096) (l : Fin 200) (e : Fin 64) :
    takeW W idx (ix3 b l e) = W (ix2 (Cert.Spec.rowOf (idx (ix2 b l))) e) := by
  have hm : broadcastInDim S4096x200x64 ![0, 1] bcast_S4096x200_S4096x200x64_0_1 (maskW idx) (ix3 b l e) = 1#1 :=
    (broadcastInDim_apply _ _ _ (ix3 b l e) (ix2 b l) (fun a => match a with | ⟨0, _⟩ => rfl | ⟨1, _⟩ => rfl)).trans
      (maskW_apply idx hin _)
  have hg : Host.gather gather_S100000x64_S4096x200x1_S4096x200x64_2_0_n_n_0_2_164 W (colW idx) (ix3 b l e)
      = W (ix2 (Cert.Spec.rowOf (idx (ix2 b l))) e) := by
    refine (gather_rows3_apply (by decide : 0 < 100000) _ rfl rfl rfl rfl rfl rfl rfl W (colW idx) b l e).trans ?_
    rw [colW_apply idx hin b l 0]
    refine congrArg W (congrArg (fun r => ix2 r e) (Fin.ext ?_))
    have hk : (idx (ix2 b l)).toNat < 200 := hin (ix2 b l)
    have h31 : (idx (ix2 b l)).toNat < 2 ^ 31 := Nat.lt_trans hk (by decide)
    have hN : (idx (ix2 b l)).toNat < 100000 := Nat.lt_trans hk (by decide)
    have h1 : (gatherRow 100000 (by decide) (idx (ix2 b l))).val = (idx (ix2 b l)).toNat :=
      gatherRow_val_of_lt _ _ h31 hN
    have h2 : (Cert.Spec.rowOf (idx (ix2 b l))).val = (idx (ix2 b l)).toNat := Cert.Spec.rowOf_val hk
    exact h1.trans h2.symm
  unfold takeW
  rw [select_apply, hm, hg, select_one]

/-! ## The positional table's lookup -/

/-- A word below 200 is not negative: the wrap-around leaves it. -/
theorem wrapP_apply (idx : IVec S200 32) (hin : ∀ k, (idx k).toNat < 200) (k : S200.Idx) : wrapP idx k = idx k := by
  show Scalar.select (IntOp.cmpi .slt (idx k) 0#32) (IntOp.addi (idx k) 200#32) (idx k) = idx k
  exact select_wrap_of_small _ _ (Nat.lt_trans (hin k) (by decide))

/-- The column of start indices at `[l, 0]` is the index word `idx[l]`. -/
theorem colP_apply (idx : IVec S200 32) (hin : ∀ k, (idx k).toNat < 200) (l : Fin 200) (u : Fin 1) :
    colP idx (ix2 l u) = idx (ix1 l) := by
  unfold colP
  refine (broadcastInDim_apply _ _ _ (ix2 l u) (ix1 l) (fun a => match a with | ⟨0, _⟩ => rfl)).trans ?_
  exact wrapP_apply idx hin _

/-- Every index word is a row of the positional table: the mask is one everywhere. -/
theorem maskP_apply (idx : IVec S200 32) (hin : ∀ k, (idx k).toNat < 200) (k : S200.Idx) : maskP idx k = 1#1 := by
  unfold maskP
  refine reduce_andi_of_all _ _ _ _ (fun i => ?_) (fun _ => rfl) k
  obtain ⟨l, u, rfl⟩ : ∃ (l : Fin 200) (u : Fin 1), i = ix2 l u := ⟨i 0, i 1, eq_ix2 i⟩
  show IntOp.andi (IntOp.cmpi .sge (colP idx (ix2 l u)) 0#32) (IntOp.cmpi .sle (colP idx (ix2 l u)) 199#32) = 1#1
  rw [colP_apply idx hin l u]
  refine andi_sge_sle_of_small _ _ (Nat.lt_trans (hin _) (by decide)) ?_
  have h := hin (ix1 l)
  rw [show (199#32 : BitVec 32).toInt = 199 from by decide]
  omega

/-- The positional lookup at `[l, e]`: the positional table at row `idx[l]`, column `e`. -/
theorem takeP_apply (P : FVec F S200x64 .f32) (idx : IVec S200 32) (hin : ∀ k, (idx k).toNat < 200)
    (l : Fin 200) (e : Fin 64) :
    takeP P idx (ix2 l e) = P (ix2 (⟨(idx (ix1 l)).toNat, hin _⟩ : Fin 200) e) := by
  have hm : broadcastInDim S200x64 ![0] bcast_S200_S200x64_0 (maskP idx) (ix2 l e) = 1#1 :=
    (broadcastInDim_apply _ _ _ (ix2 l e) (ix1 l) (fun a => match a with | ⟨0, _⟩ => rfl)).trans (maskP_apply idx hin _)
  have hg : Host.gather gather_S200x64_S200x1_S200x64_1_0_n_n_0_1_164 P (colP idx) (ix2 l e)
      = P (ix2 (⟨(idx (ix1 l)).toNat, hin _⟩ : Fin 200) e) := by
    refine (gather_rows_apply (by decide : 0 < 200) _ rfl rfl rfl rfl rfl rfl rfl P (colP idx) l e).trans ?_
    rw [colP_apply idx hin l 0]
    refine congrArg P (congrArg (fun r => ix2 r e) (Fin.ext ?_))
    exact gatherRow_val_of_lt _ _ (Nat.lt_trans (hin _) (by decide)) (hin _)
  show Scalar.select (broadcastInDim S200x64 ![0] bcast_S200_S200x64_0 (maskP idx) (ix2 l e))
      (Host.gather gather_S200x64_S200x1_S200x64_1_0_n_n_0_1_164 P (colP idx) (ix2 l e)) _ = _
  rw [hm, hg, select_one]

/-- The positions `0 … 199` as words are below 200. -/
theorem iota_lt (k : S200.Idx) : (iotaInDim S200 32 0 k).toNat < 200 := by
  show (BitVec.ofNat 32 (k 0).val).toNat < 200
  have h : (k 0).val < 200 := (k 0).isLt
  rw [BitVec.toNat_ofNat, Nat.mod_eq_of_lt (by omega)]
  exact h

/-! ## The sum -/

/-- Under `InRange` the reference's result is the specification's `emb`: at `[b, l, e]` the word table's row
    `idx[b, l]` plus the positional table's row `l`, column `e`. -/
theorem out_eq_emb (idx : IVec S4096x200 32) (W : FVec F S100000x64 .f32) (P : FVec F S200x64 .f32)
    (hin : Cert.Spec.InRange idx) : out idx W P = Cert.Spec.emb idx W P := by
  funext j
  obtain ⟨b, l, e, rfl⟩ : ∃ (b : Fin 4096) (l : Fin 200) (e : Fin 64), j = ix3 b l e := ⟨j 0, j 1, j 2, eq_ix3 j⟩
  have hp : broadcastInDim S4096x200x64 ![0, 1, 2] bcast_S1x200x64_S4096x200x64_0_1_2
      (broadcastInDim S1x200x64 ![1, 2] bcast_S200x64_S1x200x64_1_2 (takeP P (iotaInDim S200 32 0))) (ix3 b l e)
      = P (ix2 l e) := by
    refine (broadcastInDim_apply _ _ _ (ix3 b l e) (ix3 (0 : Fin 1) l e)
      (fun a => match a with | ⟨0, _⟩ => rfl | ⟨1, _⟩ => rfl | ⟨2, _⟩ => rfl)).trans ?_
    refine (broadcastInDim_apply _ _ _ (ix3 (0 : Fin 1) l e) (ix2 l e)
      (fun a => match a with | ⟨0, _⟩ => rfl | ⟨1, _⟩ => rfl)).trans ?_
    refine (takeP_apply P _ iota_lt l e).trans ?_
    refine congrArg P (congrArg (fun r => ix2 r e) (Fin.ext ?_))
    show (BitVec.ofNat 32 l.val).toNat = l.val
    have h : l.val < 200 := l.isLt
    rw [BitVec.toNat_ofNat]
    exact Nat.mod_eq_of_lt (by omega)
  show FloatOps.addf (takeW W idx (ix3 b l e)) _ = FloatOps.addf (W (ix2 (Cert.Spec.rowOf (idx (ix2 b l))) e)) (P (ix2 l e))
  rw [takeW_apply W idx hin b l e, hp]

/-! ## The run -/

/-- On every device, at the ideal values, from any memory with zero counters whose index words are below 200: every
    weakly fair execution of the reference terminates with its result at `emb` of the arguments' launch contents and
    the arguments unchanged. -/
theorem run
    (m' : (ℓ : Loc nD τ sig) → Buf (Elt Ideal) ℓ) (g' : Dev nD → PrngReg)
    (hin : ∀ c : Dev nD, Cert.Spec.InRange (m' ((c.tc : Thread nD τ).loc main_arg0))) :
    θ_run (defs (F := Ideal)) (onTc (τ := τ) (main (F := Ideal))) ⟨m', fun _ => 0, g'⟩
      (fun r => ∀ c : Dev nD,
        r.2.mem ((c.tc : Thread nD τ).loc main_v5)
            = Cert.Spec.emb (F := Ideal) (m' ((c.tc : Thread _ _).loc main_arg0)) (m' ((c.tc : Thread _ _).loc main_arg1))
                (m' ((c.tc : Thread _ _).loc main_arg2))
        ∧ r.2.mem ((c.tc : Thread _ _).loc main_arg0) = m' ((c.tc : Thread _ _).loc main_arg0)
        ∧ r.2.mem ((c.tc : Thread _ _).loc main_arg1) = m' ((c.tc : Thread _ _).loc main_arg1)
        ∧ r.2.mem ((c.tc : Thread _ _).loc main_arg2) = m' ((c.tc : Thread _ _).loc main_arg2)) :=
  (θ_run defs _ _).mono (fun _ h c => ⟨(h c).1.trans (out_eq_emb _ _ _ (hin c)), (h c).2⟩)
    (RefRun.run (F := Ideal) m' g')

end Cert.ReferenceIdeal.RefValue

end
-- ==== Proof.PreDecode.lean ====
/-
  The precondition read back: the printed predicate ends in the conjunction, over every index word, of
  `0 ≤ w` and `w ≤ 199` as signed comparisons; where it is all ones every index word is below 200.
-/
import proofs.«206631_g81458349736089_cont_9to1c4b_538_8_alg».proof.Pre_input_domain
import proofs.«206631_g81458349736089_cont_9to1c4b_538_8_alg».proof.Proof.Gen.Pre_input_domain
import proofs.«206631_g81458349736089_cont_9to1c4b_538_8_alg».proof.Proof.Spec
import Idealize.ShloMosaic.Lib.ReduceAll

noncomputable section

namespace Cert.Spec

open Idealize.ShloMosaic

/-- A 32-bit word that is at least 0 and at most 199 as a signed number is below 200 as an unsigned one. -/
theorem toNat_lt_of_signed {w : BitVec 32} (h0 : IntOp.cmpi .sge w 0#32 = 1#1) (h1 : IntOp.cmpi .sle w 199#32 = 1#1) :
    w.toNat < 200 := by
  rw [IntOp.cmpi_sge] at h0
  rw [IntOp.cmpi_sle] at h1
  have e0 : (0#32 : BitVec 32).toInt = 0 := by decide
  have e1 : (199#32 : BitVec 32).toInt = 199 := by decide
  rw [e0] at h0
  rw [e1] at h1
  have hw : w.toNat < 2 ^ 32 := w.isLt
  rw [BitVec.toInt_eq_toNat_cond] at h0 h1
  omega

/-- Where the printed precondition is all ones, every index word names one of the first 200 rows. -/
theorem inRange_of_pre {F : FTy → Type} [FloatOps F] [Cert.Pre_input_domain.Facts]
    (idx : IVec ⟨2, ![4096, 200]⟩ 32) (W : FVec F ⟨2, ![100000, 64]⟩ .f32) (P : FVec F ⟨2, ![200, 64]⟩ .f32)
    (h : Cert.Pre_input_domain.fn (F := F) idx W P = fun _ => 1#1) : InRange idx := by
  intro j
  -- the rank-0 shape has one index
  haveI : Subsingleton Cert.Pre_input_domain.S_.Idx := ⟨fun a b => funext fun d => d.elim0⟩
  have e := congrFun h ValueIdx.ix0
  dsimp only [Cert.Pre_input_domain.fn] at e
  -- the last conjunct: the all-reduce of the two comparisons
  have e3 := (IntOp.andi_eq_one.1 e).2
  have ej := Host.reduce_andi_all _ _ _ _ _ e3 j
  obtain ⟨h0, h1⟩ := IntOp.andi_eq_one.1 ej
  exact toNat_lt_of_signed h0 h1

end Cert.Spec

end
-- ==== Proof.lean ====
/-
  The certificate's claim. Both programs compute, entry by entry, row `idx[b, l]` of the word table plus row `l` of the
  positional table (`Cert.Spec.emb`). The kernel program transposes the index array and the head of the word table,
  has thirty-two SparseCore vector subcores each fill its own 128 columns of every [64, 4096] slab of a transposed
  result — a slab is computed into one of two staging buffers by sixteen-lane gathers and copied out while the next is
  computed — and transposes that result back; its run, at either float instance, ends with the result at `emb` of the
  arguments and the arguments unchanged, provided every index word is below 200, which the precondition states. The
  reference's two lookups read the same rows when every index word is in range, so its run ends at `emb` as well. The
  three frames are those runs with the values dropped; the idealization rewrote nothing.
-/
import proofs.«206631_g81458349736089_cont_9to1c4b_538_8_alg».proof.Defs
import proofs.«206631_g81458349736089_cont_9to1c4b_538_8_alg».proof.Proof.KILaunch
import proofs.«206631_g81458349736089_cont_9to1c4b_538_8_alg».proof.Proof.KWLaunch
import proofs.«206631_g81458349736089_cont_9to1c4b_538_8_alg».proof.Proof.RefValue
import proofs.«206631_g81458349736089_cont_9to1c4b_538_8_alg».proof.Proof.PreDecode
import proofs.«206631_g81458349736089_cont_9to1c4b_538_8_alg».proof.Proof.Gen.Kernel
import proofs.«206631_g81458349736089_cont_9to1c4b_538_8_alg».proof.Proof.Gen.KernelIdeal
import proofs.«206631_g81458349736089_cont_9to1c4b_538_8_alg».proof.Proof.Gen.ReferenceIdeal
import proofs.«206631_g81458349736089_cont_9to1c4b_538_8_alg».proof.Proof.Gen.Pre_input_domain
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel (hKernel := Cert.Kernel.Gen.facts) (hPre_input_domain := Cert.Pre_input_domain.Gen.facts) :=
  fun m g hpre =>
    (θ_run Cert.Kernel.defs _ _).mono (fun _ h c => ⟨(h c).2.1, (h c).2.2.1, (h c).2.2.2⟩)
      (Cert.Proof.KW.run_main (F := Bits) m g fun d => Cert.Spec.inRange_of_pre (F := Bits) _ _ _ (hpre d))

/-- The idealized kernel program runs and leaves its arguments unchanged. -/
theorem frame_ki : Cert.frame_KernelIdeal (hKernelIdeal := Cert.KernelIdeal.Gen.facts) (hPre_input_domain := Cert.Pre_input_domain.Gen.facts) :=
  fun m g hpre =>
    (θ_run Cert.KernelIdeal.defs _ _).mono (fun _ h c => ⟨(h c).2.1, (h c).2.2.1, (h c).2.2.2⟩)
      (Cert.Proof.KI.run_main (F := Ideal) m g fun d => Cert.Spec.inRange_of_pre (F := Ideal) _ _ _ (hpre d))

/-- The reference runs and leaves its arguments unchanged. -/
theorem frame_ri : Cert.frame_ReferenceIdeal (hReferenceIdeal := Cert.ReferenceIdeal.Gen.facts) (hPre_input_domain := Cert.Pre_input_domain.Gen.facts) :=
  fun m g _ =>
    (θ_run Cert.ReferenceIdeal.defs _ _).mono (fun _ h c => (h c).2) (Cert.ReferenceIdeal.RefRun.run (F := Ideal) m g)

/-- From memories agreeing on the arguments both idealized programs end with the result at `emb` of the arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hin : ∀ d, Cert.Spec.InRange (m (Cert.Proof.KI.a0Loc d)) := fun d => Cert.Spec.inRange_of_pre (F := Ideal) _ _ _ (hpre d)
  refine ⟨_, Cert.Proof.KI.run_main (F := Ideal) m g hin, ?_⟩
  refine (θ_run Cert.ReferenceIdeal.defs _ _).mono (fun _ h c => ⟨(h c).1.trans ?_, (h c).2⟩)
    (Cert.ReferenceIdeal.RefValue.run m' g' fun c => by rw [(hagree c).1]; exact hin c)
  rw [(hagree c).1, (hagree c).2.1, (hagree c).2.2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
